-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v154)) (v1 : (c : Dev Cert.KernelIdeal.nD) → Buf (Elt Ideal) ((c.tc : Thread Cert.KernelIdeal.nD Cert.KernelIdeal.τ).loc Cert.KernelIdeal.main_v161)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v154) = v0 c
          ∧ r.2.mem ((c.tc : Thread Cert.KernelIdeal.nD Cert.KernelIdeal.τ).loc Cert.KernelIdeal.main_v161) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v232) = v0 c
          ∧ r.2.mem ((c.tc : Thread Cert.ReferenceIdeal.nD Cert.ReferenceIdeal.τ).loc Cert.ReferenceIdeal.main_v239) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x120 : Shape := ⟨2, ![16384, 120]⟩
abbrev S16384x240 : Shape := ⟨2, ![16384, 240]⟩
abbrev S262144x20 : Shape := ⟨2, ![262144, 20]⟩
abbrev S262144x1 : Shape := ⟨2, ![262144, 1]⟩
abbrev S262144x240 : Shape := ⟨2, ![262144, 240]⟩
abbrev S120 : Shape := ⟨1, ![120]⟩
abbrev S112 : Shape := ⟨1, ![112]⟩
abbrev S120x120 : Shape := ⟨2, ![120, 120]⟩
abbrev S120x112 : Shape := ⟨2, ![120, 112]⟩
abbrev S20x120 : Shape := ⟨2, ![20, 120]⟩
abbrev S112x120 : Shape := ⟨2, ![112, 120]⟩
abbrev S2x262144 : Shape := ⟨2, ![2, 262144]⟩
abbrev S_ : Shape := ⟨0, ![]⟩

class Facts : Prop where
  bcast_S_S16384x120 : S_.BroadcastsInDim S16384x120 (![] : Fin 0 → Fin S16384x120.rank)
  reducesTo_S16384x120_S_d0_1 : S16384x120.ReducesTo [0, 1] S_
  h_S_ : 0 < S_.numel
  bcast_S_S16384x240 : S_.BroadcastsInDim S16384x240 (![] : Fin 0 → Fin S16384x240.rank)
  reducesTo_S16384x240_S_d0_1 : S16384x240.ReducesTo [0, 1] S_
  bcast_S_S262144x20 : S_.BroadcastsInDim S262144x20 (![] : Fin 0 → Fin S262144x20.rank)
  reducesTo_S262144x20_S_d0_1 : S262144x20.ReducesTo [0, 1] S_
  bcast_S_S262144x1 : S_.BroadcastsInDim S262144x1 (![] : Fin 0 → Fin S262144x1.rank)
  reducesTo_S262144x1_S_d0_1 : S262144x1.ReducesTo [0, 1] S_
  bcast_S_S262144x240 : S_.BroadcastsInDim S262144x240 (![] : Fin 0 → Fin S262144x240.rank)
  reducesTo_S262144x240_S_d0_1 : S262144x240.ReducesTo [0, 1] S_
  bcast_S_S120 : S_.BroadcastsInDim S120 (![] : Fin 0 → Fin S120.rank)
  reducesTo_S120_S_d0 : S120.ReducesTo [0] S_
  bcast_S_S112 : S_.BroadcastsInDim S112 (![] : Fin 0 → Fin S112.rank)
  reducesTo_S112_S_d0 : S112.ReducesTo [0] S_
  bcast_S_S120x120 : S_.BroadcastsInDim S120x120 (![] : Fin 0 → Fin S120x120.rank)
  reducesTo_S120x120_S_d0_1 : S120x120.ReducesTo [0, 1] S_
  bcast_S_S120x112 : S_.BroadcastsInDim S120x112 (![] : Fin 0 → Fin S120x112.rank)
  reducesTo_S120x112_S_d0_1 : S120x112.ReducesTo [0, 1] S_
  bcast_S_S20x120 : S_.BroadcastsInDim S20x120 (![] : Fin 0 → Fin S20x120.rank)
  reducesTo_S20x120_S_d0_1 : S20x120.ReducesTo [0, 1] S_
  bcast_S_S112x120 : S_.BroadcastsInDim S112x120 (![] : Fin 0 → Fin S112x120.rank)
  reducesTo_S112x120_S_d0_1 : S112x120.ReducesTo [0, 1] S_

variable [Facts]

def fn_part6 {F : FTy → Type} [FloatOps F] (main_arg21 : FVec F S120 .f32) (main_v98 : IVec S_ 1) (main_v101 : IVec S120x120 1) (main_c_39 : IVec S_ 1) : IVec S_ 1 :=
  let main_v102 : IVec S_ 1 := (fun x v => Host.reduce IntOp.andi x v reducesTo_S120x120_S_d0_1 h_S_) main_v101 main_c_39
  let main_v103 : IVec S_ 1 := andi main_v98 main_v102
  let main_v104 : FVec F S120 .f32 := Host.absf main_arg21
  let main_cst_40 : FVec F S_ .f32 := constant S_ .f32 0x7F800000#32
  let main_v105 : FVec F S120 .f32 := broadcastInDim S120 ![] bcast_S_S120 main_cst_40
  let main_v106 : IVec S120 1 := cmpf .olt main_v104 main_v105
  let main_c_41 : IVec S_ 1 := constantI S_ 1 1#1
  let main_v107 : IVec S_ 1 := (fun x v => Host.reduce IntOp.andi x v reducesTo_S120_S_d0 h_S_) main_v106 main_c_41
  let main_v108 : IVec S_ 1 := andi main_v103 main_v107
  main_v108

def fn_part5 {F : FTy → Type} [FloatOps F] (main_arg18 : FVec F S112x120 .f32) (main_arg19 : FVec F S120 .f32) (main_arg20 : FVec F S120x120 .f32) (main_arg21 : FVec F S120 .f32) (main_v83 : IVec S_ 1) (main_v84 : FVec F S120 .f32) (main_cst_32 : FVec F S_ .f32) : IVec S_ 1 :=
  let main_v85 : FVec F S120 .f32 := broadcastInDim S120 ![] bcast_S_S120 main_cst_32
  let main_v86 : IVec S120 1 := cmpf .olt main_v84 main_v85
  let main_c_33 : IVec S_ 1 := constantI S_ 1 1#1
  let main_v87 : IVec S_ 1 := (fun x v => Host.reduce IntOp.andi x v reducesTo_S120_S_d0 h_S_) main_v86 main_c_33
  let main_v88 : IVec S_ 1 := andi main_v83 main_v87
  let main_v89 : FVec F S112x120 .f32 := Host.absf main_arg18
  let main_cst_34 : FVec F S_ .f32 := constant S_ .f32 0x7F800000#32
  let main_v90 : FVec F S112x120 .f32 := broadcastInDim S112x120 ![] bcast_S_S112x120 main_cst_34
  let main_v91 : IVec S112x120 1 := cmpf .olt main_v89 main_v90
  let main_c_35 : IVec S_ 1 := constantI S_ 1 1#1
  let main_v92 : IVec S_ 1 := (fun x v => Host.reduce IntOp.andi x v reducesTo_S112x120_S_d0_1 h_S_) main_v91 main_c_35
  let main_v93 : IVec S_ 1 := andi main_v88 main_v92
  let main_v94 : FVec F S120 .f32 := Host.absf main_arg19
  let main_cst_36 : FVec F S_ .f32 := constant S_ .f32 0x7F800000#32
  let main_v95 : FVec F S120 .f32 := broadcastInDim S120 ![] bcast_S_S120 main_cst_36
  let main_v96 : IVec S120 1 := cmpf .olt main_v94 main_v95
  let main_c_37 : IVec S_ 1 := constantI S_ 1 1#1
  let main_v97 : IVec S_ 1 := (fun x v => Host.reduce IntOp.andi x v reducesTo_S120_S_d0 h_S_) main_v96 main_c_37
  let main_v98 : IVec S_ 1 := andi main_v93 main_v97
  let main_v99 : FVec F S120x120 .f32 := Host.absf main_arg20
  let main_cst_38 : FVec F S_ .f32 := constant S_ .f32 0x7F800000#32
  let main_v100 : FVec F S120x120 .f32 := broadcastInDim S120x120 ![] bcast_S_S120x120 main_cst_38
  let main_v101 : IVec S120x120 1 := cmpf .olt main_v99 main_v100
  let main_c_39 : IVec S_ 1 := constantI S_ 1 1#1
  fn_part6 (F := F) main_arg21 main_v98 main_v101 main_c_39

def fn_part4 {F : FTy → Type} [FloatOps F] (main_arg14 : FVec F S20x120 .f32) (main_arg15 : FVec F S120 .f32) (main_arg16 : FVec F S120x120 .f32) (main_arg17 : FVec F S120 .f32) (main_arg18 : FVec F S112x120 .f32) (main_arg19 : FVec F S120 .f32) (main_arg20 : FVec F S120x120 .f32) (main_arg21 : FVec F S120 .f32) (main_v63 : IVec S_ 1) (main_v67 : IVec S_ 1) : IVec S_ 1 :=
  let main_v68 : IVec S_ 1 := andi main_v63 main_v67
  let main_v69 : FVec F S20x120 .f32 := Host.absf main_arg14
  let main_cst_26 : FVec F S_ .f32 := constant S_ .f32 0x7F800000#32
  let main_v70 : FVec F S20x120 .f32 := broadcastInDim S20x120 ![] bcast_S_S20x120 main_cst_26
  let main_v71 : IVec S20x120 1 := cmpf .olt main_v69 main_v70
  let main_c_27 : IVec S_ 1 := constantI S_ 1 1#1
  let main_v72 : IVec S_ 1 := (fun x v => Host.reduce IntOp.andi x v reducesTo_S20x120_S_d0_1 h_S_) main_v71 main_c_27
  let main_v73 : IVec S_ 1 := andi main_v68 main_v72
  let main_v74 : FVec F S120 .f32 := Host.absf main_arg15
  let main_cst_28 : FVec F S_ .f32 := constant S_ .f32 0x7F800000#32
  let main_v75 : FVec F S120 .f32 := broadcastInDim S120 ![] bcast_S_S120 main_cst_28
  let main_v76 : IVec S120 1 := cmpf .olt main_v74 main_v75
  let main_c_29 : IVec S_ 1 := constantI S_ 1 1#1
  let main_v77 : IVec S_ 1 := (fun x v => Host.reduce IntOp.andi x v reducesTo_S120_S_d0 h_S_) main_v76 main_c_29
  let main_v78 : IVec S_ 1 := andi main_v73 main_v77
  let main_v79 : FVec F S120x120 .f32 := Host.absf main_arg16
  let main_cst_30 : FVec F S_ .f32 := constant S_ .f32 0x7F800000#32
  let main_v80 : FVec F S120x120 .f32 := broadcastInDim S120x120 ![] bcast_S_S120x120 main_cst_30
  let main_v81 : IVec S120x120 1 := cmpf .olt main_v79 main_v80
  let main_c_31 : IVec S_ 1 := constantI S_ 1 1#1
  let main_v82 : IVec S_ 1 := (fun x v => Host.reduce IntOp.andi x v reducesTo_S120x120_S_d0_1 h_S_) main_v81 main_c_31
  let main_v83 : IVec S_ 1 := andi main_v78 main_v82
  let main_v84 : FVec F S120 .f32 := Host.absf main_arg17
  let main_cst_32 : FVec F S_ .f32 := constant S_ .f32 0x7F800000#32
  fn_part5 (F := F) main_arg18 main_arg19 main_arg20 main_arg21 main_v83 main_v84 main_cst_32

def fn_part3 {F : FTy → Type} [FloatOps F] (main_arg11 : FVec F S120x120 .f32) (main_arg12 : FVec F S120x120 .f32) (main_arg13 : FVec F S120x112 .f32) (main_arg14 : FVec F S20x120 .f32) (main_arg15 : FVec F S120 .f32) (main_arg16 : FVec F S120x120 .f32) (main_arg17 : FVec F S120 .f32) (main_arg18 : FVec F S112x120 .f32) (main_arg19 : FVec F S120 .f32) (main_arg20 : FVec F S120x120 .f32) (main_arg21 : FVec F S120 .f32) (main_v48 : IVec S_ 1) (main_v49 : FVec F S120x120 .f32) (main_v50 : FVec F S120x120 .f32) : IVec S_ 1 :=
  let main_v51 : IVec S120x120 1 := cmpf .olt main_v49 main_v50
  let main_c_19 : IVec S_ 1 := constantI S_ 1 1#1
  let main_v52 : IVec S_ 1 := (fun x v => Host.reduce IntOp.andi x v reducesTo_S120x120_S_d0_1 h_S_) main_v51 main_c_19
  let main_v53 : IVec S_ 1 := andi main_v48 main_v52
  let main_v54 : FVec F S120x120 .f32 := Host.absf main_arg11
  let main_cst_20 : FVec F S_ .f32 := constant S_ .f32 0x7F800000#32
  let main_v55 : FVec F S120x120 .f32 := broadcastInDim S120x120 ![] bcast_S_S120x120 main_cst_20
  let main_v56 : IVec S120x120 1 := cmpf .olt main_v54 main_v55
  let main_c_21 : IVec S_ 1 := constantI S_ 1 1#1
  let main_v57 : IVec S_ 1 := (fun x v => Host.reduce IntOp.andi x v reducesTo_S120x120_S_d0_1 h_S_) main_v56 main_c_21
  let main_v58 : IVec S_ 1 := andi main_v53 main_v57
  let main_v59 : FVec F S120x120 .f32 := Host.absf main_arg12
  let main_cst_22 : FVec F S_ .f32 := constant S_ .f32 0x7F800000#32
  let main_v60 : FVec F S120x120 .f32 := broadcastInDim S120x120 ![] bcast_S_S120x120 main_cst_22
  let main_v61 : IVec S120x120 1 := cmpf .olt main_v59 main_v60
  let main_c_23 : IVec S_ 1 := constantI S_ 1 1#1
  let main_v62 : IVec S_ 1 := (fun x v => Host.reduce IntOp.andi x v reducesTo_S120x120_S_d0_1 h_S_) main_v61 main_c_23
  let main_v63 : IVec S_ 1 := andi main_v58 main_v62
  let main_v64 : FVec F S120x112 .f32 := Host.absf main_arg13
  let main_cst_24 : FVec F S_ .f32 := constant S_ .f32 0x7F800000#32
  let main_v65 : FVec F S120x112 .f32 := broadcastInDim S120x112 ![] bcast_S_S120x112 main_cst_24
  let main_v66 : IVec S120x112 1 := cmpf .olt main_v64 main_v65
  let main_c_25 : IVec S_ 1 := constantI S_ 1 1#1
  let main_v67 : IVec S_ 1 := (fun x v => Host.reduce IntOp.andi x v reducesTo_S120x112_S_d0_1 h_S_) main_v66 main_c_25
  fn_part4 (F := F) main_arg14 main_arg15 main_arg16 main_arg17 main_arg18 main_arg19 main_arg20 main_arg21 main_v63 main_v67

def fn_part2 {F : FTy → Type} [FloatOps F] (main_arg7 : FVec F S112 .f32) (main_arg8 : FVec F S120x120 .f32) (main_arg9 : FVec F S120x120 .f32) (main_arg10 : FVec F S120x120 .f32) (main_arg11 : FVec F S120x120 .f32) (main_arg12 : FVec F S120x120 .f32) (main_arg13 : FVec F S120x112 .f32) (main_arg14 : FVec F S20x120 .f32) (main_arg15 : FVec F S120 .f32) (main_arg16 : FVec F S120x120 .f32) (main_arg17 : FVec F S120 .f32) (main_arg18 : FVec F S112x120 .f32) (main_arg19 : FVec F S120 .f32) (main_arg20 : FVec F S120x120 .f32) (main_arg21 : FVec F S120 .f32) (main_v33 : IVec S_ 1) : IVec S_ 1 :=
  let main_v34 : FVec F S112 .f32 := Host.absf main_arg7
  let main_cst_12 : FVec F S_ .f32 := constant S_ .f32 0x7F800000#32
  let main_v35 : FVec F S112 .f32 := broadcastInDim S112 ![] bcast_S_S112 main_cst_12
  let main_v36 : IVec S112 1 := cmpf .olt main_v34 main_v35
  let main_c_13 : IVec S_ 1 := constantI S_ 1 1#1
  let main_v37 : IVec S_ 1 := (fun x v => Host.reduce IntOp.andi x v reducesTo_S112_S_d0 h_S_) main_v36 main_c_13
  let main_v38 : IVec S_ 1 := andi main_v33 main_v37
  let main_v39 : FVec F S120x120 .f32 := Host.absf main_arg8
  let main_cst_14 : FVec F S_ .f32 := constant S_ .f32 0x7F800000#32
  let main_v40 : FVec F S120x120 .f32 := broadcastInDim S120x120 ![] bcast_S_S120x120 main_cst_14
  let main_v41 : IVec S120x120 1 := cmpf .olt main_v39 main_v40
  let main_c_15 : IVec S_ 1 := constantI S_ 1 1#1
  let main_v42 : IVec S_ 1 := (fun x v => Host.reduce IntOp.andi x v reducesTo_S120x120_S_d0_1 h_S_) main_v41 main_c_15
  let main_v43 : IVec S_ 1 := andi main_v38 main_v42
  let main_v44 : FVec F S120x120 .f32 := Host.absf main_arg9
  let main_cst_16 : FVec F S_ .f32 := constant S_ .f32 0x7F800000#32
  let main_v45 : FVec F S120x120 .f32 := broadcastInDim S120x120 ![] bcast_S_S120x120 main_cst_16
  let main_v46 : IVec S120x120 1 := cmpf .olt main_v44 main_v45
  let main_c_17 : IVec S_ 1 := constantI S_ 1 1#1
  let main_v47 : IVec S_ 1 := (fun x v => Host.reduce IntOp.andi x v reducesTo_S120x120_S_d0_1 h_S_) main_v46 main_c_17
  let main_v48 : IVec S_ 1 := andi main_v43 main_v47
  let main_v49 : FVec F S120x120 .f32 := Host.absf main_arg10
  let main_cst_18 : FVec F S_ .f32 := constant S_ .f32 0x7F800000#32
  let main_v50 : FVec F S120x120 .f32 := broadcastInDim S120x120 ![] bcast_S_S120x120 main_cst_18
  fn_part3 (F := F) main_arg11 main_arg12 main_arg13 main_arg14 main_arg15 main_arg16 main_arg17 main_arg18 main_arg19 main_arg20 main_arg21 main_v48 main_v49 main_v50

def fn_part1 {F : FTy → Type} [FloatOps F] (main_arg4 : FVec F S262144x240 .f32) (main_arg5 : FVec F S120 .f32) (main_arg6 : FVec F S120 .f32) (main_arg7 : FVec F S112 .f32) (main_arg8 : FVec F S120x120 .f32) (main_arg9 : FVec F S120x120 .f32) (main_arg10 : FVec F S120x120 .f32) (main_arg11 : FVec F S120x120 .f32) (main_arg12 : FVec F S120x120 .f32) (main_arg13 : FVec F S120x112 .f32) (main_arg14 : FVec F S20x120 .f32) (main_arg15 : FVec F S120 .f32) (main_arg16 : FVec F S120x120 .f32) (main_arg17 : FVec F S120 .f32) (main_arg18 : FVec F S112x120 .f32) (main_arg19 : FVec F S120 .f32) (main_arg20 : FVec F S120x120 .f32) (main_arg21 : FVec F S120 .f32) (main_v13 : IVec S_ 1) (main_v16 : IVec S262144x1 1) : IVec S_ 1 :=
  let main_c_5 : IVec S_ 1 := constantI S_ 1 1#1
  let main_v17 : IVec S_ 1 := (fun x v => Host.reduce IntOp.andi x v reducesTo_S262144x1_S_d0_1 h_S_) main_v16 main_c_5
  let main_v18 : IVec S_ 1 := andi main_v13 main_v17
  let main_v19 : FVec F S262144x240 .f32 := Host.absf main_arg4
  let main_cst_6 : FVec F S_ .f32 := constant S_ .f32 0x7F800000#32
  let main_v20 : FVec F S262144x240 .f32 := broadcastInDim S262144x240 ![] bcast_S_S262144x240 main_cst_6
  let main_v21 : IVec S262144x240 1 := cmpf .olt main_v19 main_v20
  let main_c_7 : IVec S_ 1 := constantI S_ 1 1#1
  let main_v22 : IVec S_ 1 := (fun x v => Host.reduce IntOp.andi x v reducesTo_S262144x240_S_d0_1 h_S_) main_v21 main_c_7
  let main_v23 : IVec S_ 1 := andi main_v18 main_v22
  let main_v24 : FVec F S120 .f32 := Host.absf main_arg5
  let main_cst_8 : FVec F S_ .f32 := constant S_ .f32 0x7F800000#32
  let main_v25 : FVec F S120 .f32 := broadcastInDim S120 ![] bcast_S_S120 main_cst_8
  let main_v26 : IVec S120 1 := cmpf .olt main_v24 main_v25
  let main_c_9 : IVec S_ 1 := constantI S_ 1 1#1
  let main_v27 : IVec S_ 1 := (fun x v => Host.reduce IntOp.andi x v reducesTo_S120_S_d0 h_S_) main_v26 main_c_9
  let main_v28 : IVec S_ 1 := andi main_v23 main_v27
  let main_v29 : FVec F S120 .f32 := Host.absf main_arg6
  let main_cst_10 : FVec F S_ .f32 := constant S_ .f32 0x7F800000#32
  let main_v30 : FVec F S120 .f32 := broadcastInDim S120 ![] bcast_S_S120 main_cst_10
  let main_v31 : IVec S120 1 := cmpf .olt main_v29 main_v30
  let main_c_11 : IVec S_ 1 := constantI S_ 1 1#1
  let main_v32 : IVec S_ 1 := (fun x v => Host.reduce IntOp.andi x v reducesTo_S120_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_v33

def fn {F : FTy → Type} [FloatOps F] (main_arg0 : FVec F S16384x120 .f32) (main_arg1 : FVec F S16384x240 .f32) (main_arg2 : FVec F S262144x20 .f32) (main_arg3 : FVec F S262144x1 .f32) (main_arg4 : FVec F S262144x240 .f32) (main_arg5 : FVec F S120 .f32) (main_arg6 : FVec F S120 .f32) (main_arg7 : FVec F S112 .f32) (main_arg8 : FVec F S120x120 .f32) (main_arg9 : FVec F S120x120 .f32) (main_arg10 : FVec F S120x120 .f32) (main_arg11 : FVec F S120x120 .f32) (main_arg12 : FVec F S120x120 .f32) (main_arg13 : FVec F S120x112 .f32) (main_arg14 : FVec F S20x120 .f32) (main_arg15 : FVec F S120 .f32) (main_arg16 : FVec F S120x120 .f32) (main_arg17 : FVec F S120 .f32) (main_arg18 : FVec F S112x120 .f32) (main_arg19 : FVec F S120 .f32) (main_arg20 : FVec F S120x120 .f32) (main_arg21 : FVec F S120 .f32) (main_arg22 : IVec S2x262144 32) : IVec S_ 1 :=
  let main_v0 : FVec F S16384x120 .f32 := Host.absf main_arg0
  let main_cst : FVec F S_ .f32 := constant S_ .f32 0x7F800000#32
  let main_v1 : FVec F S16384x120 .f32 := broadcastInDim S16384x120 ![] bcast_S_S16384x120 main_cst
  let main_v2 : IVec S16384x120 1 := cmpf .olt main_v0 main_v1
  let main_c : IVec S_ 1 := constantI S_ 1 1#1
  let main_v3 : IVec S_ 1 := (fun x v => Host.reduce IntOp.andi x v reducesTo_S16384x120_S_d0_1 h_S_) main_v2 main_c
  let main_v4 : FVec F S16384x240 .f32 := Host.absf main_arg1
  let main_cst_0 : FVec F S_ .f32 := constant S_ .f32 0x7F800000#32
  let main_v5 : FVec F S16384x240 .f32 := broadcastInDim S16384x240 ![] bcast_S_S16384x240 main_cst_0
  let main_v6 : IVec S16384x240 1 := cmpf .olt main_v4 main_v5
  let main_c_1 : IVec S_ 1 := constantI S_ 1 1#1
  let main_v7 : IVec S_ 1 := (fun x v => Host.reduce IntOp.andi x v reducesTo_S16384x240_S_d0_1 h_S_) main_v6 main_c_1
  let main_v8 : IVec S_ 1 := andi main_v3 main_v7
  let main_v9 : FVec F S262144x20 .f32 := Host.absf main_arg2
  let main_cst_2 : FVec F S_ .f32 := constant S_ .f32 0x7F800000#32
  let main_v10 : FVec F S262144x20 .f32 := broadcastInDim S262144x20 ![] bcast_S_S262144x20 main_cst_2
  let main_v11 : IVec S262144x20 1 := cmpf .olt main_v9 main_v10
  let main_c_3 : IVec S_ 1 := constantI S_ 1 1#1
  let main_v12 : IVec S_ 1 := (fun x v => Host.reduce IntOp.andi x v reducesTo_S262144x20_S_d0_1 h_S_) main_v11 main_c_3
  let main_v13 : IVec S_ 1 := andi main_v8 main_v12
  let main_v14 : FVec F S262144x1 .f32 := Host.absf main_arg3
  let main_cst_4 : FVec F S_ .f32 := constant S_ .f32 0x7F800000#32
  let main_v15 : FVec F S262144x1 .f32 := broadcastInDim S262144x1 ![] bcast_S_S262144x1 main_cst_4
  let main_v16 : IVec S262144x1 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S16384x120 : Shape := ⟨2, ![16384, 120]⟩
abbrev S16384x240 : Shape := ⟨2, ![16384, 240]⟩
abbrev S262144x20 : Shape := ⟨2, ![262144, 20]⟩
abbrev S262144x1 : Shape := ⟨2, ![262144, 1]⟩
abbrev S262144x240 : Shape := ⟨2, ![262144, 240]⟩
abbrev S120 : Shape := ⟨1, ![120]⟩
abbrev S112 : Shape := ⟨1, ![112]⟩
abbrev S120x120 : Shape := ⟨2, ![120, 120]⟩
abbrev S120x112 : Shape := ⟨2, ![120, 112]⟩
abbrev S20x120 : Shape := ⟨2, ![20, 120]⟩
abbrev S112x120 : Shape := ⟨2, ![112, 120]⟩
abbrev S2x262144 : Shape := ⟨2, ![2, 262144]⟩
abbrev S1x262144 : Shape := ⟨2, ![1, 262144]⟩
abbrev S262144 : Shape := ⟨1, ![262144]⟩
abbrev S_ : Shape := ⟨0, ![]⟩
abbrev S16384 : Shape := ⟨1, ![16384]⟩
abbrev S16384x1 : Shape := ⟨2, ![16384, 1]⟩
abbrev S1x120 : Shape := ⟨2, ![1, 120]⟩
abbrev S16384x64 : Shape := ⟨2, ![16384, 64]⟩
abbrev S16384x64x1 : Shape := ⟨3, ![16384, 64, 1]⟩
abbrev S16384x1x1 : Shape := ⟨3, ![16384, 1, 1]⟩
abbrev S64 : Shape := ⟨1, ![64]⟩
abbrev S1x64x1 : Shape := ⟨3, ![1, 64, 1]⟩
abbrev S16384x96 : Shape := ⟨2, ![16384, 96]⟩
abbrev S16384x32x3 : Shape := ⟨3, ![16384, 32, 3]⟩
abbrev S32 : Shape := ⟨1, ![32]⟩
abbrev S1x32x1 : Shape := ⟨3, ![1, 32, 1]⟩
abbrev S16384x80 : Shape := ⟨2, ![16384, 80]⟩
abbrev S16384x16x5 : Shape := ⟨3, ![16384, 16, 5]⟩
abbrev S16 : Shape := ⟨1, ![16]⟩
abbrev S1x16x1 : Shape := ⟨3, ![1, 16, 1]⟩
abbrev S16384x112 : Shape := ⟨2, ![16384, 112]⟩
abbrev S262144x120 : Shape := ⟨2, ![262144, 120]⟩
abbrev S262144x112 : Shape := ⟨2, ![262144, 112]⟩
abbrev S512x20 : Shape := ⟨2, ![512, 20]⟩
abbrev S512x1 : Shape := ⟨2, ![512, 1]⟩
abbrev S512x240 : Shape := ⟨2, ![512, 240]⟩
abbrev S512x120 : Shape := ⟨2, ![512, 120]⟩
abbrev S512x112 : Shape := ⟨2, ![512, 112]⟩
abbrev S512x64 : Shape := ⟨2, ![512, 64]⟩
abbrev S512x64x1 : Shape := ⟨3, ![512, 64, 1]⟩
abbrev S512x96 : Shape := ⟨2, ![512, 96]⟩
abbrev S512x32x3 : Shape := ⟨3, ![512, 32, 3]⟩
abbrev S512x32 : Shape := ⟨2, ![512, 32]⟩
abbrev S512x80 : Shape := ⟨2, ![512, 80]⟩
abbrev S512x16x5 : Shape := ⟨3, ![512, 16, 5]⟩
abbrev S512x16 : Shape := ⟨2, ![512, 16]⟩
abbrev S512x4x30 : Shape := ⟨3, ![512, 4, 30]⟩
abbrev S512x4 : Shape := ⟨2, ![512, 4]⟩
abbrev S512x4x1 : Shape := ⟨3, ![512, 4, 1]⟩
abbrev S512x3x40 : Shape := ⟨3, ![512, 3, 40]⟩
abbrev S512x3 : Shape := ⟨2, ![512, 3]⟩
abbrev S512x32x1 : Shape := ⟨3, ![512, 32, 1]⟩
abbrev S512x16x1 : Shape := ⟨3, ![512, 16, 1]⟩

abbrev nBuf : Space → Nat
  | .hbm => 243
  | .vmem => 32
  | .smem => 0
  | _ => 0

abbrev hbmTy0_0 (i : Nat) : BufTy := match i % 128 with
  | 0 => ⟨S16384x120, .f32⟩
  | 1 => ⟨S16384x240, .f32⟩
  | 2 => ⟨S262144x20, .f32⟩
  | 3 => ⟨S262144x1, .f32⟩
  | 4 => ⟨S262144x240, .f32⟩
  | 5 => ⟨S120, .f32⟩
  | 6 => ⟨S120, .f32⟩
  | 7 => ⟨S112, .f32⟩
  | 8 => ⟨S120x120, .f32⟩
  | 9 => ⟨S120x120, .f32⟩
  | 10 => ⟨S120x120, .f32⟩
  | 11 => ⟨S120x120, .f32⟩
  | 12 => ⟨S120x120, .f32⟩
  | 13 => ⟨S120x112, .f32⟩
  | 14 => ⟨S20x120, .f32⟩
  | 15 => ⟨S120, .f32⟩
  | 16 => ⟨S120x120, .f32⟩
  | 17 => ⟨S120, .f32⟩
  | 18 => ⟨S112x120, .f32⟩
  | 19 => ⟨S120, .f32⟩
  | 20 => ⟨S120x120, .f32⟩
  | 21 => ⟨S120, .f32⟩
  | 22 => ⟨S2x262144, .i32⟩
  | 23 => ⟨S1x262144, .i32⟩
  | 24 => ⟨S262144, .i32⟩
  | 25 => ⟨S1x262144, .i32⟩
  | 26 => ⟨S262144, .i32⟩
  | 27 => ⟨S_, .f32⟩
  | 28 => ⟨S16384, .f32⟩
  | 29 => ⟨S16384x1, .f32⟩
  | 30 => ⟨S_, .f32⟩
  | 31 => ⟨S16384x1, .f32⟩
  | 32 => ⟨S16384x1, .f32⟩
  | 33 => ⟨S_, .i32⟩
  | 34 => ⟨S_, .f32⟩
  | 35 => ⟨S16384, .f32⟩
  | 36 => ⟨S16384x1, .f32⟩
  | 37 => ⟨S_, .f32⟩
  | 38 => ⟨S16384x1, .f32⟩
  | 39 => ⟨S16384x1, .f32⟩
  | 40 => ⟨S16384x120, .f32⟩
  | 41 => ⟨S16384x120, .f32⟩
  | 42 => ⟨S16384x120, .f32⟩
  | 43 => ⟨S_, .f32⟩
  | 44 => ⟨S_, .f32⟩
  | 45 => ⟨S_, .f32⟩
  | 46 => ⟨S_, .f32⟩
  | 47 => ⟨S16384, .f32⟩
  | 48 => ⟨S16384x1, .f32⟩
  | 49 => ⟨S16384x1, .f32⟩
  | 50 => ⟨S16384x1, .f32⟩
  | 51 => ⟨S_, .f32⟩
  | 52 => ⟨S_, .i1⟩
  | 53 => ⟨S_, .f32⟩
  | 54 => ⟨S_, .f32⟩
  | 55 => ⟨S16384x1, .f32⟩
  | 56 => ⟨S16384x1, .f32⟩
  | 57 => ⟨S16384x120, .f32⟩
  | 58 => ⟨S16384x120, .f32⟩
  | 59 => ⟨S_, .f32⟩
  | 60 => ⟨S16384x1, .f32⟩
  | 61 => ⟨S16384x1, .f32⟩
  | 62 => ⟨S16384x1, .f32⟩
  | 63 => ⟨S16384x120, .f32⟩
  | 64 => ⟨S16384x120, .f32⟩
  | 65 => ⟨S1x120, .f32⟩
  | 66 => ⟨S16384x120, .f32⟩
  | 67 => ⟨S16384x120, .f32⟩
  | 68 => ⟨S1x120, .f32⟩
  | 69 => ⟨S16384x120, .f32⟩
  | 70 => ⟨S16384x120, .f32⟩
  | 71 => ⟨S16384x64, .f32⟩
  | 72 => ⟨S16384x64x1, .f32⟩
  | 73 => ⟨S_, .f32⟩
  | 74 => ⟨S16384x1, .f32⟩
  | 75 => ⟨S16384x1x1, .f32⟩
  | 76 => ⟨S_, .f32⟩
  | 77 => ⟨S16384x1x1, .f32⟩
  | 78 => ⟨S16384x1x1, .f32⟩
  | 79 => ⟨S16384x64x1, .f32⟩
  | 80 => ⟨S16384x64x1, .f32⟩
  | 81 => ⟨S16384x64x1, .f32⟩
  | 82 => ⟨S_, .f32⟩
  | 83 => ⟨S16384, .f32⟩
  | 84 => ⟨S16384x1x1, .f32⟩
  | 85 => ⟨S_, .f32⟩
  | 86 => ⟨S16384x1x1, .f32⟩
  | 87 => ⟨S16384x1x1, .f32⟩
  | 88 => ⟨S_, .f32⟩
  | 89 => ⟨S16384x1x1, .f32⟩
  | 90 => ⟨S16384x1x1, .f32⟩
  | 91 => ⟨S16384x1x1, .f32⟩
  | 92 => ⟨S16384x64x1, .f32⟩
  | 93 => ⟨S16384x64x1, .f32⟩
  | 94 => ⟨S64, .f32⟩
  | 95 => ⟨S1x64x1, .f32⟩
  | 96 => ⟨S16384x64x1, .f32⟩
  | 97 => ⟨S16384x64x1, .f32⟩
  | 98 => ⟨S16384x64, .f32⟩
  | 99 => ⟨S16384x96, .f32⟩
  | 100 => ⟨S16384x32x3, .f32⟩
  | 101 => ⟨S16384x32x3, .f32⟩
  | 102 => ⟨S_, .f32⟩
  | 103 => ⟨S16384, .f32⟩
  | 104 => ⟨S16384x1x1, .f32⟩
  | 105 => ⟨S_, .f32⟩
  | 106 => ⟨S16384x1x1, .f32⟩
  | 107 => ⟨S16384x1x1, .f32⟩
  | 108 => ⟨S_, .f32⟩
  | 109 => ⟨S16384x1x1, .f32⟩
  | 110 => ⟨S16384x1x1, .f32⟩
  | 111 => ⟨S16384x1x1, .f32⟩
  | 112 => ⟨S16384x32x3, .f32⟩
  | 113 => ⟨S16384x32x3, .f32⟩
  | 114 => ⟨S32, .f32⟩
  | 115 => ⟨S1x32x1, .f32⟩
  | 116 => ⟨S16384x32x3, .f32⟩
  | 117 => ⟨S16384x32x3, .f32⟩
  | 118 => ⟨S16384x96, .f32⟩
  | 119 => ⟨S16384x80, .f32⟩
  | 120 => ⟨S16384x16x5, .f32⟩
  | 121 => ⟨S16384x16x5, .f32⟩
  | 122 => ⟨S_, .f32⟩
  | 123 => ⟨S16384, .f32⟩
  | 124 => ⟨S16384x1x1, .f32⟩
  | 125 => ⟨S_, .f32⟩
  | 126 => ⟨S16384x1x1, .f32⟩
  | 127 => ⟨S16384x1x1, .f32⟩
  | _ => ⟨S16384x120, .f32⟩

abbrev hbmTy0_1 (i : Nat) : BufTy := match i % 128 with
  | 0 => ⟨S_, .f32⟩
  | 1 => ⟨S16384x1x1, .f32⟩
  | 2 => ⟨S16384x1x1, .f32⟩
  | 3 => ⟨S16384x1x1, .f32⟩
  | 4 => ⟨S16384x16x5, .f32⟩
  | 5 => ⟨S16384x16x5, .f32⟩
  | 6 => ⟨S16, .f32⟩
  | 7 => ⟨S1x16x1, .f32⟩
  | 8 => ⟨S16384x16x5, .f32⟩
  | 9 => ⟨S16384x16x5, .f32⟩
  | 10 => ⟨S16384x80, .f32⟩
  | 11 => ⟨S16384x240, .f32⟩
  | 12 => ⟨S16384x120, .f32⟩
  | 13 => ⟨S16384x120, .f32⟩
  | 14 => ⟨S16384x120, .f32⟩
  | 15 => ⟨S16384x120, .f32⟩
  | 16 => ⟨S16384x120, .f32⟩
  | 17 => ⟨S16384x112, .f32⟩
  | 18 => ⟨S_, .i32⟩
  | 19 => ⟨S262144, .i32⟩
  | 20 => ⟨S262144, .i1⟩
  | 21 => ⟨S_, .i32⟩
  | 22 => ⟨S262144, .i32⟩
  | 23 => ⟨S262144, .i32⟩
  | 24 => ⟨S262144, .i32⟩
  | 25 => ⟨S262144x1, .i32⟩
  | 26 => ⟨S262144x240, .f32⟩
  | 27 => ⟨S_, .i32⟩
  | 28 => ⟨S262144, .i32⟩
  | 29 => ⟨S262144, .i1⟩
  | 30 => ⟨S_, .i32⟩
  | 31 => ⟨S262144, .i32⟩
  | 32 => ⟨S262144, .i32⟩
  | 33 => ⟨S262144, .i32⟩
  | 34 => ⟨S262144x1, .i32⟩
  | 35 => ⟨S262144x240, .f32⟩
  | 36 => ⟨S262144x240, .f32⟩
  | 37 => ⟨S_, .i32⟩
  | 38 => ⟨S262144, .i32⟩
  | 39 => ⟨S262144, .i1⟩
  | 40 => ⟨S_, .i32⟩
  | 41 => ⟨S262144, .i32⟩
  | 42 => ⟨S262144, .i32⟩
  | 43 => ⟨S262144, .i32⟩
  | 44 => ⟨S262144x1, .i32⟩
  | 45 => ⟨S262144x120, .f32⟩
  | 46 => ⟨S_, .i32⟩
  | 47 => ⟨S262144, .i32⟩
  | 48 => ⟨S262144, .i1⟩
  | 49 => ⟨S_, .i32⟩
  | 50 => ⟨S262144, .i32⟩
  | 51 => ⟨S262144, .i32⟩
  | 52 => ⟨S262144, .i32⟩
  | 53 => ⟨S262144x1, .i32⟩
  | 54 => ⟨S262144x120, .f32⟩
  | 55 => ⟨S_, .i32⟩
  | 56 => ⟨S262144, .i32⟩
  | 57 => ⟨S262144, .i1⟩
  | 58 => ⟨S_, .i32⟩
  | 59 => ⟨S262144, .i32⟩
  | 60 => ⟨S262144, .i32⟩
  | 61 => ⟨S262144, .i32⟩
  | 62 => ⟨S262144x1, .i32⟩
  | 63 => ⟨S262144x120, .f32⟩
  | 64 => ⟨S_, .i32⟩
  | 65 => ⟨S262144, .i32⟩
  | 66 => ⟨S262144, .i1⟩
  | 67 => ⟨S_, .i32⟩
  | 68 => ⟨S262144, .i32⟩
  | 69 => ⟨S262144, .i32⟩
  | 70 => ⟨S262144, .i32⟩
  | 71 => ⟨S262144x1, .i32⟩
  | 72 => ⟨S262144x120, .f32⟩
  | 73 => ⟨S_, .i32⟩
  | 74 => ⟨S262144, .i32⟩
  | 75 => ⟨S262144, .i1⟩
  | 76 => ⟨S_, .i32⟩
  | 77 => ⟨S262144, .i32⟩
  | 78 => ⟨S262144, .i32⟩
  | 79 => ⟨S262144, .i32⟩
  | 80 => ⟨S262144x1, .i32⟩
  | 81 => ⟨S262144x120, .f32⟩
  | 82 => ⟨S_, .i32⟩
  | 83 => ⟨S262144, .i32⟩
  | 84 => ⟨S262144, .i1⟩
  | 85 => ⟨S_, .i32⟩
  | 86 => ⟨S262144, .i32⟩
  | 87 => ⟨S262144, .i32⟩
  | 88 => ⟨S262144, .i32⟩
  | 89 => ⟨S262144x1, .i32⟩
  | 90 => ⟨S262144x112, .f32⟩
  | 91 => ⟨S112x120, .bf16⟩
  | 92 => ⟨S120x120, .bf16⟩
  | 93 => ⟨S20x120, .bf16⟩
  | 94 => ⟨S120x120, .bf16⟩
  | 95 => ⟨S262144x120, .f32⟩
  | 96 => ⟨S262144x240, .f32⟩
  | 97 => ⟨S_, .i32⟩
  | 98 => ⟨S262144, .i32⟩
  | 99 => ⟨S262144, .i1⟩
  | 100 => ⟨S_, .i32⟩
  | 101 => ⟨S262144, .i32⟩
  | 102 => ⟨S262144, .i32⟩
  | 103 => ⟨S262144, .i32⟩
  | 104 => ⟨S262144x1, .i32⟩
  | 105 => ⟨S16384x120, .f32⟩
  | 106 => ⟨S_, .i32⟩
  | 107 => ⟨S262144, .i32⟩
  | 108 => ⟨S262144, .i1⟩
  | 109 => ⟨S_, .i32⟩
  | 110 => ⟨S262144, .i32⟩
  | 111 => ⟨S262144, .i32⟩
  | 112 => ⟨S262144, .i32⟩
  | 113 => ⟨S262144x1, .i32⟩
  | 114 => ⟨S16384x240, .f32⟩
  | _ => ⟨S16384x120, .f32⟩

abbrev hbmTy (i : Nat) : BufTy := match i / 128 with
  | 0 => hbmTy0_0 i
  | 1 => hbmTy0_1 i
  | _ => ⟨S16384x120, .f32⟩

abbrev bufTy : (tb : Table) → Fin (tcTables nBuf tb) → BufTy
  | .hbm, ⟨i, _⟩ => hbmTy i
  | .local _ .vmem, ⟨0, _⟩ => ⟨S512x20, .f32⟩
  | .local _ .vmem, ⟨1, _⟩ => ⟨S512x20, .f32⟩
  | .local _ .vmem, ⟨2, _⟩ => ⟨S512x1, .f32⟩
  | .local _ .vmem, ⟨3, _⟩ => ⟨S512x1, .f32⟩
  | .local _ .vmem, ⟨4, _⟩ => ⟨S512x240, .f32⟩
  | .local _ .vmem, ⟨5, _⟩ => ⟨S512x240, .f32⟩
  | .local _ .vmem, ⟨6, _⟩ => ⟨S512x240, .f32⟩
  | .local _ .vmem, ⟨7, _⟩ => ⟨S512x240, .f32⟩
  | .local _ .vmem, ⟨8, _⟩ => ⟨S512x120, .f32⟩
  | .local _ .vmem, ⟨9, _⟩ => ⟨S512x120, .f32⟩
  | .local _ .vmem, ⟨10, _⟩ => ⟨S512x120, .f32⟩
  | .local _ .vmem, ⟨11, _⟩ => ⟨S512x120, .f32⟩
  | .local _ .vmem, ⟨12, _⟩ => ⟨S512x120, .f32⟩
  | .local _ .vmem, ⟨13, _⟩ => ⟨S512x120, .f32⟩
  | .local _ .vmem, ⟨14, _⟩ => ⟨S512x120, .f32⟩
  | .local _ .vmem, ⟨15, _⟩ => ⟨S512x120, .f32⟩
  | .local _ .vmem, ⟨16, _⟩ => ⟨S512x120, .f32⟩
  | .local _ .vmem, ⟨17, _⟩ => ⟨S512x120, .f32⟩
  | .local _ .vmem, ⟨18, _⟩ => ⟨S512x112, .f32⟩
  | .local _ .vmem, ⟨19, _⟩ => ⟨S512x112, .f32⟩
  | .local _ .vmem, ⟨20, _⟩ => ⟨S112x120, .bf16⟩
  | .local _ .vmem, ⟨21, _⟩ => ⟨S120, .f32⟩
  | .local _ .vmem, ⟨22, _⟩ => ⟨S120x120, .bf16⟩
  | .local _ .vmem, ⟨23, _⟩ => ⟨S120, .f32⟩
  | .local _ .vmem, ⟨24, _⟩ => ⟨S20x120, .bf16⟩
  | .local _ .vmem, ⟨25, _⟩ => ⟨S120, .f32⟩
  | .local _ .vmem, ⟨26, _⟩ => ⟨S120x120, .bf16⟩
  | .local _ .vmem, ⟨27, _⟩ => ⟨S120, .f32⟩
  | .local _ .vmem, ⟨28, _⟩ => ⟨S512x120, .f32⟩
  | .local _ .vmem, ⟨29, _⟩ => ⟨S512x120, .f32⟩
  | .local _ .vmem, ⟨30, _⟩ => ⟨S512x240, .f32⟩
  | .local _ .vmem, ⟨31, _⟩ => ⟨S512x240, .f32⟩
  | _, _ => ⟨S16384x120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_cst : Ref sig .tc := ⟨.hbm, 27, rfl⟩
abbrev main_v4 : Ref sig .tc := ⟨.hbm, 28, rfl⟩
abbrev main_v5 : Ref sig .tc := ⟨.hbm, 29, rfl⟩
abbrev main_cst_0 : Ref sig .tc := ⟨.hbm, 30, rfl⟩
abbrev main_v6 : Ref sig .tc := ⟨.hbm, 31, rfl⟩
abbrev main_v7 : Ref sig .tc := ⟨.hbm, 32, rfl⟩
abbrev main_c : Ref sig .tc := ⟨.hbm, 33, rfl⟩
abbrev main_call0_cst : Ref sig .tc := ⟨.hbm, 34, rfl⟩
abbrev main_call0_v0 : Ref sig .tc := ⟨.hbm, 35, rfl⟩
abbrev main_call0_v1 : Ref sig .tc := ⟨.hbm, 36, rfl⟩
abbrev main_call0_cst_0 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_call0_v5 : Ref sig .tc := ⟨.hbm, 41, rfl⟩
abbrev main_call0_v6 : Ref sig .tc := ⟨.hbm, 42, rfl⟩
abbrev main_call0_v7 : Ref sig .tc := ⟨.hbm, 43, rfl⟩
abbrev main_call0_cst_1 : Ref sig .tc := ⟨.hbm, 44, rfl⟩
abbrev main_call0_v8 : Ref sig .tc := ⟨.hbm, 45, rfl⟩
abbrev main_call0_cst_2 : Ref sig .tc := ⟨.hbm, 46, rfl⟩
abbrev main_call0_v9 : Ref sig .tc := ⟨.hbm, 47, rfl⟩
abbrev main_call0_v10 : Ref sig .tc := ⟨.hbm, 48, rfl⟩
abbrev main_call0_v11 : Ref sig .tc := ⟨.hbm, 49, rfl⟩
abbrev main_call0_v12 : Ref sig .tc := ⟨.hbm, 50, rfl⟩
abbrev main_call0_cst_3 : Ref sig .tc := ⟨.hbm, 51, rfl⟩
abbrev main_call0_v13 : Ref sig .tc := ⟨.hbm, 52, rfl⟩
abbrev main_call0_cst_4 : Ref sig .tc := ⟨.hbm, 53, rfl⟩
abbrev main_call0_call0_v0 : Ref sig .tc := ⟨.hbm, 54, rfl⟩
abbrev main_call0_call0_v1 : Ref sig .tc := ⟨.hbm, 55, rfl⟩
abbrev main_v8 : Ref sig .tc := ⟨.hbm, 56, rfl⟩
abbrev main_v9 : Ref sig .tc := ⟨.hbm, 57, rfl⟩
abbrev main_v10 : Ref sig .tc := ⟨.hbm, 58, rfl⟩
abbrev main_cst_1 : Ref sig .tc := ⟨.hbm, 59, rfl⟩
abbrev main_v11 : Ref sig .tc := ⟨.hbm, 60, rfl⟩
abbrev main_v12 : Ref sig .tc := ⟨.hbm, 61, rfl⟩
abbrev main_v13 : Ref sig .tc := ⟨.hbm, 62, rfl⟩
abbrev main_v14 : Ref sig .tc := ⟨.hbm, 63, rfl⟩
abbrev main_v15 : Ref sig .tc := ⟨.hbm, 64, rfl⟩
abbrev main_v16 : Ref sig .tc := ⟨.hbm, 65, rfl⟩
abbrev main_v17 : Ref sig .tc := ⟨.hbm, 66, rfl⟩
abbrev main_v18 : Ref sig .tc := ⟨.hbm, 67, rfl⟩
abbrev main_v19 : Ref sig .tc := ⟨.hbm, 68, rfl⟩
abbrev main_v20 : Ref sig .tc := ⟨.hbm, 69, rfl⟩
abbrev main_v21 : Ref sig .tc := ⟨.hbm, 70, rfl⟩
abbrev main_v22 : Ref sig .tc := ⟨.hbm, 71, rfl⟩
abbrev main_v23 : Ref sig .tc := ⟨.hbm, 72, rfl⟩
abbrev main_cst_2 : Ref sig .tc := ⟨.hbm, 73, rfl⟩
abbrev main_v24 : Ref sig .tc := ⟨.hbm, 74, rfl⟩
abbrev main_v25 : Ref sig .tc := ⟨.hbm, 75, rfl⟩
abbrev main_cst_3 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_cst_4 : Ref sig .tc := ⟨.hbm, 82, rfl⟩
abbrev main_v31 : Ref sig .tc := ⟨.hbm, 83, rfl⟩
abbrev main_v32 : Ref sig .tc := ⟨.hbm, 84, rfl⟩
abbrev main_cst_5 : Ref sig .tc := ⟨.hbm, 85, rfl⟩
abbrev main_v33 : Ref sig .tc := ⟨.hbm, 86, rfl⟩
abbrev main_v34 : Ref sig .tc := ⟨.hbm, 87, rfl⟩
abbrev main_cst_6 : Ref sig .tc := ⟨.hbm, 88, rfl⟩
abbrev main_v35 : Ref sig .tc := ⟨.hbm, 89, rfl⟩
abbrev main_v36 : Ref sig .tc := ⟨.hbm, 90, rfl⟩
abbrev main_v37 : Ref sig .tc := ⟨.hbm, 91, rfl⟩
abbrev main_v38 : Ref sig .tc := ⟨.hbm, 92, rfl⟩
abbrev main_v39 : Ref sig .tc := ⟨.hbm, 93, rfl⟩
abbrev main_v40 : Ref sig .tc := ⟨.hbm, 94, rfl⟩
abbrev main_v41 : Ref sig .tc := ⟨.hbm, 95, rfl⟩
abbrev main_v42 : Ref sig .tc := ⟨.hbm, 96, rfl⟩
abbrev main_v43 : Ref sig .tc := ⟨.hbm, 97, rfl⟩
abbrev main_v44 : Ref sig .tc := ⟨.hbm, 98, rfl⟩
abbrev main_v45 : Ref sig .tc := ⟨.hbm, 99, rfl⟩
abbrev main_v46 : Ref sig .tc := ⟨.hbm, 100, rfl⟩
abbrev main_v47 : Ref sig .tc := ⟨.hbm, 101, rfl⟩
abbrev main_cst_7 : Ref sig .tc := ⟨.hbm, 102, rfl⟩
abbrev main_v48 : Ref sig .tc := ⟨.hbm, 103, rfl⟩
abbrev main_v49 : Ref sig .tc := ⟨.hbm, 104, rfl⟩
abbrev main_cst_8 : Ref sig .tc := ⟨.hbm, 105, rfl⟩
abbrev main_v50 : Ref sig .tc := ⟨.hbm, 106, rfl⟩
abbrev main_v51 : Ref sig .tc := ⟨.hbm, 107, rfl⟩
abbrev main_cst_9 : Ref sig .tc := ⟨.hbm, 108, rfl⟩
abbrev main_v52 : Ref sig .tc := ⟨.hbm, 109, rfl⟩
abbrev main_v53 : Ref sig .tc := ⟨.hbm, 110, rfl⟩
abbrev main_v54 : Ref sig .tc := ⟨.hbm, 111, rfl⟩
abbrev main_v55 : Ref sig .tc := ⟨.hbm, 112, rfl⟩
abbrev main_v56 : Ref sig .tc := ⟨.hbm, 113, rfl⟩
abbrev main_v57 : Ref sig .tc := ⟨.hbm, 114, rfl⟩
abbrev main_v58 : Ref sig .tc := ⟨.hbm, 115, rfl⟩
abbrev main_v59 : Ref sig .tc := ⟨.hbm, 116, rfl⟩
abbrev main_v60 : Ref sig .tc := ⟨.hbm, 117, rfl⟩
abbrev main_v61 : Ref sig .tc := ⟨.hbm, 118, rfl⟩
abbrev main_v62 : Ref sig .tc := ⟨.hbm, 119, rfl⟩
abbrev main_v63 : Ref sig .tc := ⟨.hbm, 120, rfl⟩
abbrev main_v64 : Ref sig .tc := ⟨.hbm, 121, rfl⟩
abbrev main_cst_10 : Ref sig .tc := ⟨.hbm, 122, rfl⟩
abbrev main_v65 : Ref sig .tc := ⟨.hbm, 123, rfl⟩
abbrev main_v66 : Ref sig .tc := ⟨.hbm, 124, rfl⟩
abbrev main_cst_11 : Ref sig .tc := ⟨.hbm, 125, rfl⟩
abbrev main_v67 : Ref sig .tc := ⟨.hbm, 126, rfl⟩
abbrev main_v68 : Ref sig .tc := ⟨.hbm, 127, rfl⟩
abbrev main_cst_12 : Ref sig .tc := ⟨.hbm, 128, rfl⟩
abbrev main_v69 : Ref sig .tc := ⟨.hbm, 129, rfl⟩
abbrev main_v70 : Ref sig .tc := ⟨.hbm, 130, rfl⟩
abbrev main_v71 : Ref sig .tc := ⟨.hbm, 131, rfl⟩
abbrev main_v72 : Ref sig .tc := ⟨.hbm, 132, rfl⟩
abbrev main_v73 : Ref sig .tc := ⟨.hbm, 133, rfl⟩
abbrev main_v74 : Ref sig .tc := ⟨.hbm, 134, rfl⟩
abbrev main_v75 : Ref sig .tc := ⟨.hbm, 135, rfl⟩
abbrev main_v76 : Ref sig .tc := ⟨.hbm, 136, rfl⟩
abbrev main_v77 : Ref sig .tc := ⟨.hbm, 137, rfl⟩
abbrev main_v78 : Ref sig .tc := ⟨.hbm, 138, rfl⟩
abbrev main_v79 : Ref sig .tc := ⟨.hbm, 139, rfl⟩
abbrev main_v80 : Ref sig .tc := ⟨.hbm, 140, rfl⟩
abbrev main_v81 : Ref sig .tc := ⟨.hbm, 141, rfl⟩
abbrev main_v82 : Ref sig .tc := ⟨.hbm, 142, rfl⟩
abbrev main_v83 : Ref sig .tc := ⟨.hbm, 143, rfl⟩
abbrev main_v84 : Ref sig .tc := ⟨.hbm, 144, rfl⟩
abbrev main_v85 : Ref sig .tc := ⟨.hbm, 145, rfl⟩
abbrev main_c_13 : Ref sig .tc := ⟨.hbm, 146, rfl⟩
abbrev main_v86 : Ref sig .tc := ⟨.hbm, 147, rfl⟩
abbrev main_v87 : Ref sig .tc := ⟨.hbm, 148, rfl⟩
abbrev main_c_14 : Ref sig .tc := ⟨.hbm, 149, rfl⟩
abbrev main_v88 : Ref sig .tc := ⟨.hbm, 150, rfl⟩
abbrev main_v89 : Ref sig .tc := ⟨.hbm, 151, rfl⟩
abbrev main_v90 : Ref sig .tc := ⟨.hbm, 152, rfl⟩
abbrev main_v91 : Ref sig .tc := ⟨.hbm, 153, rfl⟩
abbrev main_v92 : Ref sig .tc := ⟨.hbm, 154, rfl⟩
abbrev main_c_15 : Ref sig .tc := ⟨.hbm, 155, rfl⟩
abbrev main_v93 : Ref sig .tc := ⟨.hbm, 156, rfl⟩
abbrev main_v94 : Ref sig .tc := ⟨.hbm, 157, rfl⟩
abbrev main_c_16 : Ref sig .tc := ⟨.hbm, 158, rfl⟩
abbrev main_v95 : Ref sig .tc := ⟨.hbm, 159, rfl⟩
abbrev main_v96 : Ref sig .tc := ⟨.hbm, 160, rfl⟩
abbrev main_v97 : Ref sig .tc := ⟨.hbm, 161, rfl⟩
abbrev main_v98 : Ref sig .tc := ⟨.hbm, 162, rfl⟩
abbrev main_v99 : Ref sig .tc := ⟨.hbm, 163, rfl⟩
abbrev main_v100 : Ref sig .tc := ⟨.hbm, 164, rfl⟩
abbrev main_c_17 : Ref sig .tc := ⟨.hbm, 165, rfl⟩
abbrev main_v101 : Ref sig .tc := ⟨.hbm, 166, rfl⟩
abbrev main_v102 : Ref sig .tc := ⟨.hbm, 167, rfl⟩
abbrev main_c_18 : Ref sig .tc := ⟨.hbm, 168, rfl⟩
abbrev main_v103 : Ref sig .tc := ⟨.hbm, 169, rfl⟩
abbrev main_v104 : Ref sig .tc := ⟨.hbm, 170, rfl⟩
abbrev main_v105 : Ref sig .tc := ⟨.hbm, 171, rfl⟩
abbrev main_v106 : Ref sig .tc := ⟨.hbm, 172, rfl⟩
abbrev main_v107 : Ref sig .tc := ⟨.hbm, 173, rfl⟩
abbrev main_c_19 : Ref sig .tc := ⟨.hbm, 174, rfl⟩
abbrev main_v108 : Ref sig .tc := ⟨.hbm, 175, rfl⟩
abbrev main_v109 : Ref sig .tc := ⟨.hbm, 176, rfl⟩
abbrev main_c_20 : Ref sig .tc := ⟨.hbm, 177, rfl⟩
abbrev main_v110 : Ref sig .tc := ⟨.hbm, 178, rfl⟩
abbrev main_v111 : Ref sig .tc := ⟨.hbm, 179, rfl⟩
abbrev main_v112 : Ref sig .tc := ⟨.hbm, 180, rfl⟩
abbrev main_v113 : Ref sig .tc := ⟨.hbm, 181, rfl⟩
abbrev main_v114 : Ref sig .tc := ⟨.hbm, 182, rfl⟩
abbrev main_c_21 : Ref sig .tc := ⟨.hbm, 183, rfl⟩
abbrev main_v115 : Ref sig .tc := ⟨.hbm, 184, rfl⟩
abbrev main_v116 : Ref sig .tc := ⟨.hbm, 185, rfl⟩
abbrev main_c_22 : Ref sig .tc := ⟨.hbm, 186, rfl⟩
abbrev main_v117 : Ref sig .tc := ⟨.hbm, 187, rfl⟩
abbrev main_v118 : Ref sig .tc := ⟨.hbm, 188, rfl⟩
abbrev main_v119 : Ref sig .tc := ⟨.hbm, 189, rfl⟩
abbrev main_v120 : Ref sig .tc := ⟨.hbm, 190, rfl⟩
abbrev main_v121 : Ref sig .tc := ⟨.hbm, 191, rfl⟩
abbrev main_c_23 : Ref sig .tc := ⟨.hbm, 192, rfl⟩
abbrev main_v122 : Ref sig .tc := ⟨.hbm, 193, rfl⟩
abbrev main_v123 : Ref sig .tc := ⟨.hbm, 194, rfl⟩
abbrev main_c_24 : Ref sig .tc := ⟨.hbm, 195, rfl⟩
abbrev main_v124 : Ref sig .tc := ⟨.hbm, 196, rfl⟩
abbrev main_v125 : Ref sig .tc := ⟨.hbm, 197, rfl⟩
abbrev main_v126 : Ref sig .tc := ⟨.hbm, 198, rfl⟩
abbrev main_v127 : Ref sig .tc := ⟨.hbm, 199, rfl⟩
abbrev main_v128 : Ref sig .tc := ⟨.hbm, 200, rfl⟩
abbrev main_c_25 : Ref sig .tc := ⟨.hbm, 201, rfl⟩
abbrev main_v129 : Ref sig .tc := ⟨.hbm, 202, rfl⟩
abbrev main_v130 : Ref sig .tc := ⟨.hbm, 203, rfl⟩
abbrev main_c_26 : Ref sig .tc := ⟨.hbm, 204, rfl⟩
abbrev main_v131 : Ref sig .tc := ⟨.hbm, 205, rfl⟩
abbrev main_v132 : Ref sig .tc := ⟨.hbm, 206, rfl⟩
abbrev main_v133 : Ref sig .tc := ⟨.hbm, 207, rfl⟩
abbrev main_v134 : Ref sig .tc := ⟨.hbm, 208, rfl⟩
abbrev main_v135 : Ref sig .tc := ⟨.hbm, 209, rfl⟩
abbrev main_c_27 : Ref sig .tc := ⟨.hbm, 210, rfl⟩
abbrev main_v136 : Ref sig .tc := ⟨.hbm, 211, rfl⟩
abbrev main_v137 : Ref sig .tc := ⟨.hbm, 212, rfl⟩
abbrev main_c_28 : Ref sig .tc := ⟨.hbm, 213, rfl⟩
abbrev main_v138 : Ref sig .tc := ⟨.hbm, 214, rfl⟩
abbrev main_v139 : Ref sig .tc := ⟨.hbm, 215, rfl⟩
abbrev main_v140 : Ref sig .tc := ⟨.hbm, 216, rfl⟩
abbrev main_v141 : Ref sig .tc := ⟨.hbm, 217, rfl⟩
abbrev main_v142 : Ref sig .tc := ⟨.hbm, 218, rfl⟩
abbrev main_v143 : Ref sig .tc := ⟨.hbm, 219, rfl⟩
abbrev main_v144 : Ref sig .tc := ⟨.hbm, 220, rfl⟩
abbrev main_v145 : Ref sig .tc := ⟨.hbm, 221, rfl⟩
abbrev main_v146 : Ref sig .tc := ⟨.hbm, 222, rfl⟩
abbrev main_v147_0 : Ref sig .tc := ⟨.hbm, 223, rfl⟩
abbrev main_v147_1 : Ref sig .tc := ⟨.hbm, 224, rfl⟩
abbrev main_c_29 : Ref sig .tc := ⟨.hbm, 225, rfl⟩
abbrev main_v148 : Ref sig .tc := ⟨.hbm, 226, rfl⟩
abbrev main_v149 : Ref sig .tc := ⟨.hbm, 227, rfl⟩
abbrev main_c_30 : Ref sig .tc := ⟨.hbm, 228, rfl⟩
abbrev main_v150 : Ref sig .tc := ⟨.hbm, 229, rfl⟩
abbrev main_v151 : Ref sig .tc := ⟨.hbm, 230, rfl⟩
abbrev main_v152 : Ref sig .tc := ⟨.hbm, 231, rfl⟩
abbrev main_v153 : Ref sig .tc := ⟨.hbm, 232, rfl⟩
abbrev main_v154 : Ref sig .tc := ⟨.hbm, 233, rfl⟩
abbrev main_c_31 : Ref sig .tc := ⟨.hbm, 234, rfl⟩
abbrev main_v155 : Ref sig .tc := ⟨.hbm, 235, rfl⟩
abbrev main_v156 : Ref sig .tc := ⟨.hbm, 236, rfl⟩
abbrev main_c_32 : Ref sig .tc := ⟨.hbm, 237, rfl⟩
abbrev main_v157 : Ref sig .tc := ⟨.hbm, 238, rfl⟩
abbrev main_v158 : Ref sig .tc := ⟨.hbm, 239, rfl⟩
abbrev main_v159 : Ref sig .tc := ⟨.hbm, 240, rfl⟩
abbrev main_v160 : Ref sig .tc := ⟨.hbm, 241, rfl⟩
abbrev main_v161 : Ref sig .tc := ⟨.hbm, 242, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg17_0 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem16_0 : DmaSem sig := 26
abbrev cc0_sem17_0 : DmaSem sig := 27
abbrev cc0_sem18_0 : DmaSem sig := 28
abbrev cc0_sem18_1 : DmaSem sig := 29
abbrev cc0_sem19_0 : DmaSem sig := 30
abbrev cc0_sem19_1 : DmaSem sig := 31

abbrev nD : Nat := 1
abbrev τ : Topo := Topo.v7x

variable {F : FTy → Type} [FloatOps F]

abbrev grid0 : Pipeline.Grid := ⟨1, ![512], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x20 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x240 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x240 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x120 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x120 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x120 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x120 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x120 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x112 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S112x120 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S120 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S120x120 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S120 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S20x120 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S120 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S120x120 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S120 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S512x120 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x240 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

class Facts₀ : Prop where
  slices_S2x262144_S1x262144_0_0 : S2x262144.Slices ![0, 0] S1x262144
  shapeCasts_S1x262144_S262144 : S1x262144.ShapeCasts S262144
  slices_S2x262144_S1x262144_1_0 : S2x262144.Slices ![1, 0] S1x262144
  reducesTo_S16384x120_S16384_d1 : S16384x120.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x120_0_1 : S16384x1.BroadcastsInDim S16384x120 (![0, 1] : Fin 2 → Fin S16384x120.rank)
  bcast_S120_S1x120_1 : S120.BroadcastsInDim S1x120 (![1] : Fin 1 → Fin S1x120.rank)
  bcast_S1x120_S16384x120_0_1 : S1x120.BroadcastsInDim S16384x120 (![0, 1] : Fin 2 → Fin S16384x120.rank)
  slices_S16384x240_S16384x64_0_0 : S16384x240.Slices ![0, 0] S16384x64
  shapeCasts_S16384x64_S16384x64x1 : S16384x64.ShapeCasts S16384x64x1
  reducesTo_S16384x64x1_S16384x1_d1 : S16384x64x1.ReducesTo [1] S16384x1
  bcast_S16384x1_S16384x1x1_0_2 : S16384x1.BroadcastsInDim S16384x1x1 (![0, 2] : Fin 2 → Fin S16384x1x1.rank)
  bcast_S_S16384x1x1 : S_.BroadcastsInDim S16384x1x1 (![] : Fin 0 → Fin S16384x1x1.rank)
  bcast_S16384x1x1_S16384x64x1_0_1_2 : S16384x1x1.BroadcastsInDim S16384x64x1 (![0, 1, 2] : Fin 3 → Fin S16384x64x1.rank)
  reducesTo_S16384x64x1_S16384_d1_2 : S16384x64x1.ReducesTo [1, 2] S16384
  bcast_S16384_S16384x1x1_0 : S16384.BroadcastsInDim S16384x1x1 (![0] : Fin 1 → Fin S16384x1x1.rank)
  slices_S112_S64_0 : S112.Slices ![0] S64
  bcast_S64_S1x64x1_1 : S64.BroadcastsInDim S1x64x1 (![1] : Fin 1 → Fin S1x64x1.rank)
  bcast_S1x64x1_S16384x64x1_0_1_2 : S1x64x1.BroadcastsInDim S16384x64x1 (![0, 1, 2] : Fin 3 → Fin S16384x64x1.rank)
  shapeCasts_S16384x64x1_S16384x64 : S16384x64x1.ShapeCasts S16384x64
  slices_S16384x240_S16384x96_0_64 : S16384x240.Slices ![0, 64] S16384x96
  shapeCasts_S16384x96_S16384x32x3 : S16384x96.ShapeCasts S16384x32x3
  reducesTo_S16384x32x3_S16384_d1_2 : S16384x32x3.ReducesTo [1, 2] S16384
  bcast_S16384x1x1_S16384x32x3_0_1_2 : S16384x1x1.BroadcastsInDim S16384x32x3 (![0, 1, 2] : Fin 3 → Fin S16384x32x3.rank)
  slices_S112_S32_64 : S112.Slices ![64] S32
  bcast_S32_S1x32x1_1 : S32.BroadcastsInDim S1x32x1 (![1] : Fin 1 → Fin S1x32x1.rank)
  bcast_S1x32x1_S16384x32x3_0_1_2 : S1x32x1.BroadcastsInDim S16384x32x3 (![0, 1, 2] : Fin 3 → Fin S16384x32x3.rank)
  shapeCasts_S16384x32x3_S16384x96 : S16384x32x3.ShapeCasts S16384x96
  slices_S16384x240_S16384x80_0_160 : S16384x240.Slices ![0, 160] S16384x80
  shapeCasts_S16384x80_S16384x16x5 : S16384x80.ShapeCasts S16384x16x5
  reducesTo_S16384x16x5_S16384_d1_2 : S16384x16x5.ReducesTo [1, 2] S16384
  bcast_S16384x1x1_S16384x16x5_0_1_2 : S16384x1x1.BroadcastsInDim S16384x16x5 (![0, 1, 2] : Fin 3 → Fin S16384x16x5.rank)
  slices_S112_S16_96 : S112.Slices ![96] S16
  bcast_S16_S1x16x1_1 : S16.BroadcastsInDim S1x16x1 (![1] : Fin 1 → Fin S1x16x1.rank)
  bcast_S1x16x1_S16384x16x5_0_1_2 : S1x16x1.BroadcastsInDim S16384x16x5 (![0, 1, 2] : Fin 3 → Fin S16384x16x5.rank)
  shapeCasts_S16384x16x5_S16384x80 : S16384x16x5.ShapeCasts S16384x80
  concatenates_S16384x64_S16384x96_S16384x80_S16384x240_d1 : Shape.Concatenates [S16384x64, S16384x96, S16384x80] S16384x240 1
  bcast_S_S262144 : S_.BroadcastsInDim S262144 (![] : Fin 0 → Fin S262144.rank)
  bcast_S262144_S262144x1_0 : S262144.BroadcastsInDim S262144x1 (![0] : Fin 1 → Fin S262144x1.rank)
  bitsLt_bf16_f32 : FTy.bits .bf16 < FTy.bits .f32
  inb_S512x20_S512x20_0_0 : ∀ a, (![0, 0] : Fin 2 → Nat) a + S512x20.size a ≤ S512x20.size a
  h_S512x20 : 0 < S512x20.numel
  inb_S512x1_S512x1_0_0 : ∀ a, (![0, 0] : Fin 2 → Nat) a + S512x1.size a ≤ S512x1.size a
  h_S512x1 : 0 < S512x1.numel
  inb_S512x240_S512x240_0_0 : ∀ a, (![0, 0] : Fin 2 → Nat) a + S512x240.size a ≤ S512x240.size a
  h_S512x240 : 0 < S512x240.numel
  shapeCasts_S512x240_S512x240 : S512x240.ShapeCasts S512x240
  inb_S512x120_S512x120_0_0 : ∀ a, (![0, 0] : Fin 2 → Nat) a + S512x120.size a ≤ S512x120.size a
  h_S512x120 : 0 < S512x120.numel
  shapeCasts_S512x120_S512x120 : S512x120.ShapeCasts S512x120
  inb_S512x112_S512x112_0_0 : ∀ a, (![0, 0] : Fin 2 → Nat) a + S512x112.size a ≤ S512x112.size a
  h_S512x112 : 0 < S512x112.numel
  shapeCasts_S512x112_S512x112 : S512x112.ShapeCasts S512x112
  slices_S512x240_o0_0_S512x64 : S512x240.Slices ![0, 0] S512x64
  shapeCasts_S512x64_S512x64x1 : S512x64.ShapeCasts S512x64x1
  reduces_S512x64x1_S512x64 : S512x64x1.Reduces [2] S512x64
  slices_S512x240_o0_64_S512x96 : S512x240.Slices ![0, 64] S512x96
  shapeCasts_S512x96_S512x32x3 : S512x96.ShapeCasts S512x32x3
  reduces_S512x32x3_S512x32 : S512x32x3.Reduces [2] S512x32
  slices_S512x240_o0_160_S512x80 : S512x240.Slices ![0, 160] S512x80
  shapeCasts_S512x80_S512x16x5 : S512x80.ShapeCasts S512x16x5
  reduces_S512x16x5_S512x16 : S512x16x5.Reduces [2] S512x16
  concatenates_S512x64_S512x32_S512x16_S512x112_d1 : Shape.Concatenates [S512x64, S512x32, S512x16] S512x112 1
  inb_S112x120_S112x120_0_0 : ∀ a, (![0, 0] : Fin 2 → Nat) a + S112x120.size a ≤ S112x120.size a
  h_S112x120 : 0 < S112x120.numel
  shapeCasts_S112x120_S112x120 : S112x120.ShapeCasts S112x120
  inb_S120_S120_0 : ∀ a, (![0] : Fin 1 → Nat) a + S120.size a ≤ S120.size a
  h_S120 : 0 < S120.numel
  inb_S120x120_S120x120_0_0 : ∀ a, (![0, 0] : Fin 2 → Nat) a + S120x120.size a ≤ S120x120.size a
  h_S120x120 : 0 < S120x120.numel
  shapeCasts_S120x120_S120x120 : S120x120.ShapeCasts S120x120
  shapeCasts_S120_S1x120 : S120.ShapeCasts S1x120
  broadcasts_S1x120_S512x120 : S1x120.Broadcasts S512x120
  inb_S20x120_S20x120_0_0 : ∀ a, (![0, 0] : Fin 2 → Nat) a + S20x120.size a ≤ S20x120.size a
  h_S20x120 : 0 < S20x120.numel
  shapeCasts_S20x120_S20x120 : S20x120.ShapeCasts S20x120
  broadcasts_S512x1_S512x120 : S512x1.Broadcasts S512x120
  shapeCasts_S512x120_S512x4x30 : S512x120.ShapeCasts S512x4x30
  reduces_S512x4x30_S512x4 : S512x4x30.Reduces [2] S512x4
  shapeCasts_S512x4_S512x4x1 : S512x4.ShapeCasts S512x4x1
  broadcasts_S512x4x1_S512x4x30 : S512x4x1.Broadcasts S512x4x30
  shapeCasts_S512x4x30_S512x120 : S512x4x30.ShapeCasts S512x120
  shapeCasts_S512x120_S512x3x40 : S512x120.ShapeCasts S512x3x40
  reduces_S512x3x40_S512x3 : S512x3x40.Reduces [2] S512x3
  slices_S512x3_o0_0_S512x1 : S512x3.Slices ![0, 0] S512x1
  shapeCasts_S512x1_S512x1 : S512x1.ShapeCasts S512x1
  broadcasts_S512x1_S512x64 : S512x1.Broadcasts S512x64
  slices_S512x3_o0_1_S512x1 : S512x3.Slices ![0, 1] S512x1
  broadcasts_S512x1_S512x32 : S512x1.Broadcasts S512x32
  slices_S512x3_o0_2_S512x1 : S512x3.Slices ![0, 2] S512x1
  broadcasts_S512x1_S512x16 : S512x1.Broadcasts S512x16
  slices_S512x112_o0_0_S512x64 : S512x112.Slices ![0, 0] S512x64
  shapeCasts_S512x64x1_S512x64 : S512x64x1.ShapeCasts S512x64
  slices_S512x112_o0_64_S512x32 : S512x112.Slices ![0, 64] S512x32
  shapeCasts_S512x32_S512x32x1 : S512x32.ShapeCasts S512x32x1
  shapeCasts_S512x32x1_S512x32x1 : S512x32x1.ShapeCasts S512x32x1
  broadcasts_S512x32x1_S512x32x3 : S512x32x1.Broadcasts S512x32x3
  shapeCasts_S512x32x3_S512x96 : S512x32x3.ShapeCasts S512x96
  slices_S512x112_o0_96_S512x16 : S512x112.Slices ![0, 96] S512x16
  shapeCasts_S512x16_S512x16x1 : S512x16.ShapeCasts S512x16x1
  shapeCasts_S512x16x1_S512x16x1 : S512x16x1.ShapeCasts S512x16x1
  broadcasts_S512x16x1_S512x16x5 : S512x16x1.Broadcasts S512x16x5
  shapeCasts_S512x16x5_S512x80 : S512x16x5.ShapeCasts S512x80
  concatenates_S512x64_S512x96_S512x80_S512x240_d1 : Shape.Concatenates [S512x64, S512x96, S512x80] S512x240 1
  broadcasts_S512x1_S512x240 : S512x1.Broadcasts S512x240
  dot_S16384x120_S120x120_S16384x120_1_0_0_1_n_n_wf : DotDims.WF S16384x120 S120x120 S16384x120 [1] [0] [0] [1] [] []
  dot_S16384x120_S120x112_S16384x112_1_0_0_1_n_n_wf : DotDims.WF S16384x120 S120x112 S16384x112 [1] [0] [0] [1] [] []
  gather_S16384x240_S262144x1_S262144x240_1_0_n_n_0_1_1240_wf : GatherDims.WF S16384x240 S262144x1 S262144x240 [1] [0] [] [0] [] 1 ![1, 240]
  gather_S16384x120_S262144x1_S262144x120_1_0_n_n_0_1_1120_wf : GatherDims.WF S16384x120 S262144x1 S262144x120 [1] [0] [] [0] [] 1 ![1, 120]
  gather_S16384x112_S262144x1_S262144x112_1_0_n_n_0_1_1112_wf : GatherDims.WF S16384x112 S262144x1 S262144x112 [1] [0] [] [0] [] 1 ![1, 112]
  dot_S512x112_S112x120_S512x120_1_0_0_1_n_n_wf : DotDims.WF S512x112 S112x120 S512x120 [1] [0] [0] [1] [] []
  dot_S512x120_S120x120_S512x120_1_0_0_1_n_n_wf : DotDims.WF S512x120 S120x120 S512x120 [1] [0] [0] [1] [] []
  dot_S512x20_S20x120_S512x120_1_0_0_1_n_n_wf : DotDims.WF S512x20 S20x120 S512x120 [1] [0] [0] [1] [] []
  scatter_S16384x120_S262144x1_S262144x120_1_0_0_1_wf : ScatterDims.WF S16384x120 S262144x1 S262144x120 [1] [0] [0] 1
  scatter_S16384x240_S262144x1_S262144x240_1_0_0_1_wf : ScatterDims.WF S16384x240 S262144x1 S262144x240 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x20.size a ≤ S262144x20.size a
  hwx0_0 : ∀ i : grid0.Coords, EltTy.bits .f32 = 32 ∨ (Rect.block (s := S262144x20) S512x20.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S262144x1.size a
  hwx0_1 : ∀ i : grid0.Coords, EltTy.bits .f32 = 32 ∨ (Rect.block (s := S262144x1) S512x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x240.size a ≤ S262144x240.size a
  hwx0_2 : ∀ i : grid0.Coords, EltTy.bits .f32 = 32 ∨ (Rect.block (s := S262144x240) S512x240.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x240.size a ≤ S262144x240.size a
  hwx0_3 : ∀ i : grid0.Coords, EltTy.bits .f32 = 32 ∨ (Rect.block (s := S262144x240) S512x240.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x120.size a ≤ S262144x120.size a
  hwx0_4 : ∀ i : grid0.Coords, EltTy.bits .f32 = 32 ∨ (Rect.block (s := S262144x120) S512x120.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x120.size a ≤ S262144x120.size a
  hwx0_5 : ∀ i : grid0.Coords, EltTy.bits .f32 = 32 ∨ (Rect.block (s := S262144x120) S512x120.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x120.size a ≤ S262144x120.size a
  hwx0_6 : ∀ i : grid0.Coords, EltTy.bits .f32 = 32 ∨ (Rect.block (s := S262144x120) S512x120.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x120.size a ≤ S262144x120.size a
  hwx0_7 : ∀ i : grid0.Coords, EltTy.bits .f32 = 32 ∨ (Rect.block (s := S262144x120) S512x120.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x120.size a ≤ S262144x120.size a
  hwx0_8 : ∀ i : grid0.Coords, EltTy.bits .f32 = 32 ∨ (Rect.block (s := S262144x120) S512x120.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x112.size a ≤ S262144x112.size a
  hwx0_9 : ∀ i : grid0.Coords, EltTy.bits .f32 = 32 ∨ (Rect.block (s := S262144x112) S512x112.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S112x120.size a ≤ S112x120.size a
  hwx0_10 : ∀ i : grid0.Coords, EltTy.bits .bf16 = 32 ∨ (Rect.block (s := S112x120) S112x120.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S120.size a ≤ S120.size a
  hwx0_11 : ∀ i : grid0.Coords, EltTy.bits .f32 = 32 ∨ (Rect.block (s := S120) S120.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S120x120.size a ≤ S120x120.size a
  hwx0_12 : ∀ i : grid0.Coords, EltTy.bits .bf16 = 32 ∨ (Rect.block (s := S120x120) S120x120.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S120.size a ≤ S120.size a
  hwx0_13 : ∀ i : grid0.Coords, EltTy.bits .f32 = 32 ∨ (Rect.block (s := S120) S120.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S20x120.size a ≤ S20x120.size a
  hwx0_14 : ∀ i : grid0.Coords, EltTy.bits .bf16 = 32 ∨ (Rect.block (s := S20x120) S20x120.size (cc0_transform_14 i) (hinb0_14 i)).WholeWords (EltTy.packing .bf16)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S120.size a ≤ S120.size a
  hwx0_15 : ∀ i : grid0.Coords, EltTy.bits .f32 = 32 ∨ (Rect.block (s := S120) S120.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S120x120.size a ≤ S120x120.size a
  hwx0_16 : ∀ i : grid0.Coords, EltTy.bits .bf16 = 32 ∨ (Rect.block (s := S120x120) S120x120.size (cc0_transform_16 i) (hinb0_16 i)).WholeWords (EltTy.packing .bf16)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S120.size a ≤ S120.size a
  hwx0_17 : ∀ i : grid0.Coords, EltTy.bits .f32 = 32 ∨ (Rect.block (s := S120) S120.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S512x120.size a ≤ S262144x120.size a
  hwx0_18 : ∀ i : grid0.Coords, EltTy.bits .f32 = 32 ∨ (Rect.block (s := S262144x120) S512x120.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S512x240.size a ≤ S262144x240.size a
  hwx0_19 : ∀ i : grid0.Coords, EltTy.bits .f32 = 32 ∨ (Rect.block (s := S262144x240) S512x240.size (cc0_transform_19 i) (hinb0_19 i)).WholeWords (EltTy.packing .f32)

variable [Facts₀]

def dot_S16384x120_S120x120_S16384x120_1_0_0_1_n_n : DotDims S16384x120 S120x120 S16384x120 where
  lhsContracting := [1]
  rhsContracting := [0]
  lhsNonContracting := [0]
  rhsNonContracting := [1]
  lhsBatch := []
  rhsBatch := []
  wf := dot_S16384x120_S120x120_S16384x120_1_0_0_1_n_n_wf
def dot_S16384x120_S120x112_S16384x112_1_0_0_1_n_n : DotDims S16384x120 S120x112 S16384x112 where
  lhsContracting := [1]
  rhsContracting := [0]
  lhsNonContracting := [0]
  rhsNonContracting := [1]
  lhsBatch := []
  rhsBatch := []
  wf := dot_S16384x120_S120x112_S16384x112_1_0_0_1_n_n_wf
def gather_S16384x240_S262144x1_S262144x240_1_0_n_n_0_1_1240 : GatherDims S16384x240 S262144x1 S262144x240 where
  offsetDims := [1]
  collapsedSliceDims := [0]
  operandBatchingDims := []
  startIndicesBatchingDims := []
  startIndexMap := [0]
  indexVectorDim := 1
  sliceSizes := ![1, 240]
  wf := gather_S16384x240_S262144x1_S262144x240_1_0_n_n_0_1_1240_wf
def gather_S16384x120_S262144x1_S262144x120_1_0_n_n_0_1_1120 : GatherDims S16384x120 S262144x1 S262144x120 where
  offsetDims := [1]
  collapsedSliceDims := [0]
  operandBatchingDims := []
  startIndicesBatchingDims := []
  startIndexMap := [0]
  indexVectorDim := 1
  sliceSizes := ![1, 120]
  wf := gather_S16384x120_S262144x1_S262144x120_1_0_n_n_0_1_1120_wf
def gather_S16384x112_S262144x1_S262144x112_1_0_n_n_0_1_1112 : GatherDims S16384x112 S262144x1 S262144x112 where
  offsetDims := [1]
  collapsedSliceDims := [0]
  operandBatchingDims := []
  startIndicesBatchingDims := []
  startIndexMap := [0]
  indexVectorDim := 1
  sliceSizes := ![1, 112]
  wf := gather_S16384x112_S262144x1_S262144x112_1_0_n_n_0_1_1112_wf
def dot_S512x112_S112x120_S512x120_1_0_0_1_n_n : DotDims S512x112 S112x120 S512x120 where
  lhsContracting := [1]
  rhsContracting := [0]
  lhsNonContracting := [0]
  rhsNonContracting := [1]
  lhsBatch := []
  rhsBatch := []
  wf := dot_S512x112_S112x120_S512x120_1_0_0_1_n_n_wf
def dot_S512x120_S120x120_S512x120_1_0_0_1_n_n : DotDims S512x120 S120x120 S512x120 where
  lhsContracting := [1]
  rhsContracting := [0]
  lhsNonContracting := [0]
  rhsNonContracting := [1]
  lhsBatch := []
  rhsBatch := []
  wf := dot_S512x120_S120x120_S512x120_1_0_0_1_n_n_wf
def dot_S512x20_S20x120_S512x120_1_0_0_1_n_n : DotDims S512x20 S20x120 S512x120 where
  lhsContracting := [1]
  rhsContracting := [0]
  lhsNonContracting := [0]
  rhsNonContracting := [1]
  lhsBatch := []
  rhsBatch := []
  wf := dot_S512x20_S20x120_S512x120_1_0_0_1_n_n_wf
def scatter_S16384x120_S262144x1_S262144x120_1_0_0_1 : ScatterDims S16384x120 S262144x1 S262144x120 where
  updateWindowDims := [1]
  insertedWindowDims := [0]
  scatterDimsToOperandDims := [0]
  indexVectorDim := 1
  wf := scatter_S16384x120_S262144x1_S262144x120_1_0_0_1_wf
def scatter_S16384x240_S262144x1_S262144x240_1_0_0_1 : ScatterDims S16384x240 S262144x1 S262144x240 where
  updateWindowDims := [1]
  insertedWindowDims := [0]
  scatterDimsToOperandDims := [0]
  indexVectorDim := 1
  wf := scatter_S16384x240_S262144x1_S262144x240_1_0_0_1_wf

abbrev win0_0 : Pipeline.Window sig grid0 :=
  Pipeline.Window.ofSpec (Memref.whole main_arg2) S512x20.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S512x240.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v100) S512x240.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v107) S512x120.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v114) S512x120.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v121) S512x120.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v128) S512x120.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v135) S512x120.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v142) S512x112.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v143) S112x120.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg19) S120.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v144) S120x120.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg21) S120.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v145) S20x120.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg15) S120.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v146) S120x120.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg17) S120.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v147_0) S512x120.size cc0_transform_18 reads0_18 true false 2 stage0_18 sem0_18
    hrank0 hreads0_18 hinb0_18 nbuf0_18 (Memref.isWhole_whole _) hwx0_18 hstage0_18

abbrev win0_19 : Pipeline.Window sig grid0 :=
  Pipeline.Window.ofSpec (Memref.whole main_v147_1) S512x240.size cc0_transform_19 reads0_19 true false 2 stage0_19 sem0_19
    hrank0 hreads0_19 hinb0_19 nbuf0_19 (Memref.isWhole_whole _) hwx0_19 hstage0_19

abbrev win0 : Fin 20 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | ⟨_ + 20, h⟩ => absurd h (Nat.not_lt.2 (Nat.le_add_left _ _))
abbrev spec0 : Fin 20 → Pipeline.WinSpec sig grid0.rank := fun w => (win0 w).toWinSpec

class Facts : Prop extends Facts₀ where

variable [Facts]
-- ==== ReferenceIdeal.lean ====
abbrev S16384x120 : Shape := ⟨2, ![16384, 120]⟩
abbrev S16384x240 : Shape := ⟨2, ![16384, 240]⟩
abbrev S262144x20 : Shape := ⟨2, ![262144, 20]⟩
abbrev S262144x1 : Shape := ⟨2, ![262144, 1]⟩
abbrev S262144x240 : Shape := ⟨2, ![262144, 240]⟩
abbrev S120 : Shape := ⟨1, ![120]⟩
abbrev S112 : Shape := ⟨1, ![112]⟩
abbrev S120x120 : Shape := ⟨2, ![120, 120]⟩
abbrev S120x112 : Shape := ⟨2, ![120, 112]⟩
abbrev S20x120 : Shape := ⟨2, ![20, 120]⟩
abbrev S112x120 : Shape := ⟨2, ![112, 120]⟩
abbrev S2x262144 : Shape := ⟨2, ![2, 262144]⟩
abbrev S1x262144 : Shape := ⟨2, ![1, 262144]⟩
abbrev S262144 : Shape := ⟨1, ![262144]⟩
abbrev S_ : Shape := ⟨0, ![]⟩
abbrev S16384 : Shape := ⟨1, ![16384]⟩
abbrev S16384x1 : Shape := ⟨2, ![16384, 1]⟩
abbrev S1x120 : Shape := ⟨2, ![1, 120]⟩
abbrev S16384x64 : Shape := ⟨2, ![16384, 64]⟩
abbrev S16384x64x1 : Shape := ⟨3, ![16384, 64, 1]⟩
abbrev S16384x1x1 : Shape := ⟨3, ![16384, 1, 1]⟩
abbrev S64 : Shape := ⟨1, ![64]⟩
abbrev S1x64x1 : Shape := ⟨3, ![1, 64, 1]⟩
abbrev S16384x96 : Shape := ⟨2, ![16384, 96]⟩
abbrev S16384x32x3 : Shape := ⟨3, ![16384, 32, 3]⟩
abbrev S32 : Shape := ⟨1, ![32]⟩
abbrev S1x32x1 : Shape := ⟨3, ![1, 32, 1]⟩
abbrev S16384x80 : Shape := ⟨2, ![16384, 80]⟩
abbrev S16384x16x5 : Shape := ⟨3, ![16384, 16, 5]⟩
abbrev S16 : Shape := ⟨1, ![16]⟩
abbrev S1x16x1 : Shape := ⟨3, ![1, 16, 1]⟩
abbrev S16384x112 : Shape := ⟨2, ![16384, 112]⟩
abbrev S262144x64 : Shape := ⟨2, ![262144, 64]⟩
abbrev S262144x64x1 : Shape := ⟨3, ![262144, 64, 1]⟩
abbrev S262144x96 : Shape := ⟨2, ![262144, 96]⟩
abbrev S262144x32x3 : Shape := ⟨3, ![262144, 32, 3]⟩
abbrev S262144x32 : Shape := ⟨2, ![262144, 32]⟩
abbrev S262144x80 : Shape := ⟨2, ![262144, 80]⟩
abbrev S262144x16x5 : Shape := ⟨3, ![262144, 16, 5]⟩
abbrev S262144x16 : Shape := ⟨2, ![262144, 16]⟩
abbrev S262144x112 : Shape := ⟨2, ![262144, 112]⟩
abbrev S262144x120 : Shape := ⟨2, ![262144, 120]⟩
abbrev S262144x4x30 : Shape := ⟨3, ![262144, 4, 30]⟩
abbrev S262144x4 : Shape := ⟨2, ![262144, 4]⟩
abbrev S262144x4x1 : Shape := ⟨3, ![262144, 4, 1]⟩
abbrev S262144x3x40 : Shape := ⟨3, ![262144, 3, 40]⟩
abbrev S262144x3 : Shape := ⟨2, ![262144, 3]⟩
abbrev S262144x1x64 : Shape := ⟨3, ![262144, 1, 64]⟩
abbrev S262144x1x32 : Shape := ⟨3, ![262144, 1, 32]⟩
abbrev S262144x1x16 : Shape := ⟨3, ![262144, 1, 16]⟩
abbrev S262144x64x1x1 : Shape := ⟨4, ![262144, 64, 1, 1]⟩
abbrev S262144x32x1 : Shape := ⟨3, ![262144, 32, 1]⟩
abbrev S262144x32x1x3 : Shape := ⟨4, ![262144, 32, 1, 3]⟩
abbrev S262144x16x1 : Shape := ⟨3, ![262144, 16, 1]⟩
abbrev S262144x16x1x5 : Shape := ⟨4, ![262144, 16, 1, 5]⟩

abbrev nBuf : Space → Nat
  | .hbm => 343
  | .vmem => 0
  | .smem => 0
  | _ => 0

abbrev hbmTy0_0 (i : Nat) : BufTy := match i % 128 with
  | 0 => ⟨S16384x120, .f32⟩
  | 1 => ⟨S16384x240, .f32⟩
  | 2 => ⟨S262144x20, .f32⟩
  | 3 => ⟨S262144x1, .f32⟩
  | 4 => ⟨S262144x240, .f32⟩
  | 5 => ⟨S120, .f32⟩
  | 6 => ⟨S120, .f32⟩
  | 7 => ⟨S112, .f32⟩
  | 8 => ⟨S120x120, .f32⟩
  | 9 => ⟨S120x120, .f32⟩
  | 10 => ⟨S120x120, .f32⟩
  | 11 => ⟨S120x120, .f32⟩
  | 12 => ⟨S120x120, .f32⟩
  | 13 => ⟨S120x112, .f32⟩
  | 14 => ⟨S20x120, .f32⟩
  | 15 => ⟨S120, .f32⟩
  | 16 => ⟨S120x120, .f32⟩
  | 17 => ⟨S120, .f32⟩
  | 18 => ⟨S112x120, .f32⟩
  | 19 => ⟨S120, .f32⟩
  | 20 => ⟨S120x120, .f32⟩
  | 21 => ⟨S120, .f32⟩
  | 22 => ⟨S2x262144, .i32⟩
  | 23 => ⟨S1x262144, .i32⟩
  | 24 => ⟨S262144, .i32⟩
  | 25 => ⟨S1x262144, .i32⟩
  | 26 => ⟨S262144, .i32⟩
  | 27 => ⟨S_, .f32⟩
  | 28 => ⟨S16384, .f32⟩
  | 29 => ⟨S16384x1, .f32⟩
  | 30 => ⟨S_, .f32⟩
  | 31 => ⟨S16384x1, .f32⟩
  | 32 => ⟨S16384x1, .f32⟩
  | 33 => ⟨S_, .i32⟩
  | 34 => ⟨S_, .f32⟩
  | 35 => ⟨S16384, .f32⟩
  | 36 => ⟨S16384x1, .f32⟩
  | 37 => ⟨S_, .f32⟩
  | 38 => ⟨S16384x1, .f32⟩
  | 39 => ⟨S16384x1, .f32⟩
  | 40 => ⟨S16384x120, .f32⟩
  | 41 => ⟨S16384x120, .f32⟩
  | 42 => ⟨S16384x120, .f32⟩
  | 43 => ⟨S_, .f32⟩
  | 44 => ⟨S_, .f32⟩
  | 45 => ⟨S_, .f32⟩
  | 46 => ⟨S_, .f32⟩
  | 47 => ⟨S16384, .f32⟩
  | 48 => ⟨S16384x1, .f32⟩
  | 49 => ⟨S16384x1, .f32⟩
  | 50 => ⟨S16384x1, .f32⟩
  | 51 => ⟨S_, .f32⟩
  | 52 => ⟨S_, .i1⟩
  | 53 => ⟨S_, .f32⟩
  | 54 => ⟨S_, .f32⟩
  | 55 => ⟨S16384x1, .f32⟩
  | 56 => ⟨S16384x1, .f32⟩
  | 57 => ⟨S16384x120, .f32⟩
  | 58 => ⟨S16384x120, .f32⟩
  | 59 => ⟨S_, .f32⟩
  | 60 => ⟨S16384x1, .f32⟩
  | 61 => ⟨S16384x1, .f32⟩
  | 62 => ⟨S16384x1, .f32⟩
  | 63 => ⟨S16384x120, .f32⟩
  | 64 => ⟨S16384x120, .f32⟩
  | 65 => ⟨S1x120, .f32⟩
  | 66 => ⟨S16384x120, .f32⟩
  | 67 => ⟨S16384x120, .f32⟩
  | 68 => ⟨S1x120, .f32⟩
  | 69 => ⟨S16384x120, .f32⟩
  | 70 => ⟨S16384x120, .f32⟩
  | 71 => ⟨S16384x64, .f32⟩
  | 72 => ⟨S16384x64x1, .f32⟩
  | 73 => ⟨S_, .f32⟩
  | 74 => ⟨S16384x1, .f32⟩
  | 75 => ⟨S16384x1x1, .f32⟩
  | 76 => ⟨S_, .f32⟩
  | 77 => ⟨S16384x1x1, .f32⟩
  | 78 => ⟨S16384x1x1, .f32⟩
  | 79 => ⟨S16384x64x1, .f32⟩
  | 80 => ⟨S16384x64x1, .f32⟩
  | 81 => ⟨S16384x64x1, .f32⟩
  | 82 => ⟨S_, .f32⟩
  | 83 => ⟨S16384, .f32⟩
  | 84 => ⟨S16384x1x1, .f32⟩
  | 85 => ⟨S_, .f32⟩
  | 86 => ⟨S16384x1x1, .f32⟩
  | 87 => ⟨S16384x1x1, .f32⟩
  | 88 => ⟨S_, .f32⟩
  | 89 => ⟨S16384x1x1, .f32⟩
  | 90 => ⟨S16384x1x1, .f32⟩
  | 91 => ⟨S16384x1x1, .f32⟩
  | 92 => ⟨S16384x64x1, .f32⟩
  | 93 => ⟨S16384x64x1, .f32⟩
  | 94 => ⟨S64, .f32⟩
  | 95 => ⟨S1x64x1, .f32⟩
  | 96 => ⟨S16384x64x1, .f32⟩
  | 97 => ⟨S16384x64x1, .f32⟩
  | 98 => ⟨S16384x64, .f32⟩
  | 99 => ⟨S16384x96, .f32⟩
  | 100 => ⟨S16384x32x3, .f32⟩
  | 101 => ⟨S16384x32x3, .f32⟩
  | 102 => ⟨S_, .f32⟩
  | 103 => ⟨S16384, .f32⟩
  | 104 => ⟨S16384x1x1, .f32⟩
  | 105 => ⟨S_, .f32⟩
  | 106 => ⟨S16384x1x1, .f32⟩
  | 107 => ⟨S16384x1x1, .f32⟩
  | 108 => ⟨S_, .f32⟩
  | 109 => ⟨S16384x1x1, .f32⟩
  | 110 => ⟨S16384x1x1, .f32⟩
  | 111 => ⟨S16384x1x1, .f32⟩
  | 112 => ⟨S16384x32x3, .f32⟩
  | 113 => ⟨S16384x32x3, .f32⟩
  | 114 => ⟨S32, .f32⟩
  | 115 => ⟨S1x32x1, .f32⟩
  | 116 => ⟨S16384x32x3, .f32⟩
  | 117 => ⟨S16384x32x3, .f32⟩
  | 118 => ⟨S16384x96, .f32⟩
  | 119 => ⟨S16384x80, .f32⟩
  | 120 => ⟨S16384x16x5, .f32⟩
  | 121 => ⟨S16384x16x5, .f32⟩
  | 122 => ⟨S_, .f32⟩
  | 123 => ⟨S16384, .f32⟩
  | 124 => ⟨S16384x1x1, .f32⟩
  | 125 => ⟨S_, .f32⟩
  | 126 => ⟨S16384x1x1, .f32⟩
  | 127 => ⟨S16384x1x1, .f32⟩
  | _ => ⟨S16384x120, .f32⟩

abbrev hbmTy0_1 (i : Nat) : BufTy := match i % 128 with
  | 0 => ⟨S_, .f32⟩
  | 1 => ⟨S16384x1x1, .f32⟩
  | 2 => ⟨S16384x1x1, .f32⟩
  | 3 => ⟨S16384x1x1, .f32⟩
  | 4 => ⟨S16384x16x5, .f32⟩
  | 5 => ⟨S16384x16x5, .f32⟩
  | 6 => ⟨S16, .f32⟩
  | 7 => ⟨S1x16x1, .f32⟩
  | 8 => ⟨S16384x16x5, .f32⟩
  | 9 => ⟨S16384x16x5, .f32⟩
  | 10 => ⟨S16384x80, .f32⟩
  | 11 => ⟨S16384x240, .f32⟩
  | 12 => ⟨S16384x120, .f32⟩
  | 13 => ⟨S16384x120, .f32⟩
  | 14 => ⟨S16384x120, .f32⟩
  | 15 => ⟨S16384x120, .f32⟩
  | 16 => ⟨S16384x120, .f32⟩
  | 17 => ⟨S16384x112, .f32⟩
  | 18 => ⟨S_, .i32⟩
  | 19 => ⟨S262144, .i32⟩
  | 20 => ⟨S262144, .i1⟩
  | 21 => ⟨S_, .i32⟩
  | 22 => ⟨S262144, .i32⟩
  | 23 => ⟨S262144, .i32⟩
  | 24 => ⟨S262144, .i32⟩
  | 25 => ⟨S262144x1, .i32⟩
  | 26 => ⟨S262144x240, .f32⟩
  | 27 => ⟨S_, .i32⟩
  | 28 => ⟨S262144, .i32⟩
  | 29 => ⟨S262144, .i1⟩
  | 30 => ⟨S_, .i32⟩
  | 31 => ⟨S262144, .i32⟩
  | 32 => ⟨S262144, .i32⟩
  | 33 => ⟨S262144, .i32⟩
  | 34 => ⟨S262144x1, .i32⟩
  | 35 => ⟨S262144x240, .f32⟩
  | 36 => ⟨S262144x240, .f32⟩
  | 37 => ⟨S262144x64, .f32⟩
  | 38 => ⟨S262144x64x1, .f32⟩
  | 39 => ⟨S262144x64x1, .f32⟩
  | 40 => ⟨S_, .f32⟩
  | 41 => ⟨S262144x64, .f32⟩
  | 42 => ⟨S262144x96, .f32⟩
  | 43 => ⟨S262144x32x3, .f32⟩
  | 44 => ⟨S262144x32x3, .f32⟩
  | 45 => ⟨S_, .f32⟩
  | 46 => ⟨S262144x32, .f32⟩
  | 47 => ⟨S262144x80, .f32⟩
  | 48 => ⟨S262144x16x5, .f32⟩
  | 49 => ⟨S262144x16x5, .f32⟩
  | 50 => ⟨S_, .f32⟩
  | 51 => ⟨S262144x16, .f32⟩
  | 52 => ⟨S262144x112, .f32⟩
  | 53 => ⟨S262144x120, .f32⟩
  | 54 => ⟨S1x120, .f32⟩
  | 55 => ⟨S262144x120, .f32⟩
  | 56 => ⟨S262144x120, .f32⟩
  | 57 => ⟨S262144x120, .f32⟩
  | 58 => ⟨S262144x120, .f32⟩
  | 59 => ⟨S_, .f32⟩
  | 60 => ⟨S262144x120, .f32⟩
  | 61 => ⟨S262144x120, .f32⟩
  | 62 => ⟨S_, .f32⟩
  | 63 => ⟨S262144x120, .f32⟩
  | 64 => ⟨S262144x120, .f32⟩
  | 65 => ⟨S262144x120, .f32⟩
  | 66 => ⟨S262144x120, .f32⟩
  | 67 => ⟨S1x120, .f32⟩
  | 68 => ⟨S262144x120, .f32⟩
  | 69 => ⟨S262144x120, .f32⟩
  | 70 => ⟨S262144x120, .f32⟩
  | 71 => ⟨S1x120, .f32⟩
  | 72 => ⟨S262144x120, .f32⟩
  | 73 => ⟨S262144x120, .f32⟩
  | 74 => ⟨S262144x120, .f32⟩
  | 75 => ⟨S262144x120, .f32⟩
  | 76 => ⟨S_, .f32⟩
  | 77 => ⟨S262144x120, .f32⟩
  | 78 => ⟨S262144x120, .f32⟩
  | 79 => ⟨S_, .f32⟩
  | 80 => ⟨S262144x120, .f32⟩
  | 81 => ⟨S262144x120, .f32⟩
  | 82 => ⟨S262144x120, .f32⟩
  | 83 => ⟨S262144x120, .f32⟩
  | 84 => ⟨S1x120, .f32⟩
  | 85 => ⟨S262144x120, .f32⟩
  | 86 => ⟨S262144x120, .f32⟩
  | 87 => ⟨S262144x120, .f32⟩
  | 88 => ⟨S262144x120, .f32⟩
  | 89 => ⟨S262144x120, .f32⟩
  | 90 => ⟨S_, .i32⟩
  | 91 => ⟨S262144, .i32⟩
  | 92 => ⟨S262144, .i1⟩
  | 93 => ⟨S_, .i32⟩
  | 94 => ⟨S262144, .i32⟩
  | 95 => ⟨S262144, .i32⟩
  | 96 => ⟨S262144, .i32⟩
  | 97 => ⟨S262144x1, .i32⟩
  | 98 => ⟨S262144x120, .f32⟩
  | 99 => ⟨S262144x120, .f32⟩
  | 100 => ⟨S262144x4x30, .f32⟩
  | 101 => ⟨S_, .i32⟩
  | 102 => ⟨S262144, .i32⟩
  | 103 => ⟨S262144, .i1⟩
  | 104 => ⟨S_, .i32⟩
  | 105 => ⟨S262144, .i32⟩
  | 106 => ⟨S262144, .i32⟩
  | 107 => ⟨S262144, .i32⟩
  | 108 => ⟨S262144x1, .i32⟩
  | 109 => ⟨S262144x120, .f32⟩
  | 110 => ⟨S262144x4x30, .f32⟩
  | 111 => ⟨S_, .i32⟩
  | 112 => ⟨S262144, .i32⟩
  | 113 => ⟨S262144, .i1⟩
  | 114 => ⟨S_, .i32⟩
  | 115 => ⟨S262144, .i32⟩
  | 116 => ⟨S262144, .i32⟩
  | 117 => ⟨S262144, .i32⟩
  | 118 => ⟨S262144x1, .i32⟩
  | 119 => ⟨S262144x120, .f32⟩
  | 120 => ⟨S262144x4x30, .f32⟩
  | 121 => ⟨S262144x4x30, .f32⟩
  | 122 => ⟨S_, .f32⟩
  | 123 => ⟨S262144x4, .f32⟩
  | 124 => ⟨S262144x4x1, .f32⟩
  | 125 => ⟨S_, .f32⟩
  | 126 => ⟨S262144x4x1, .f32⟩
  | 127 => ⟨S262144x4x1, .f32⟩
  | _ => ⟨S16384x120, .f32⟩

abbrev hbmTy0_2 (i : Nat) : BufTy := match i % 128 with
  | 0 => ⟨S262144x4x30, .f32⟩
  | 1 => ⟨S262144x4x30, .f32⟩
  | 2 => ⟨S262144x120, .f32⟩
  | 3 => ⟨S_, .i32⟩
  | 4 => ⟨S262144, .i32⟩
  | 5 => ⟨S262144, .i1⟩
  | 6 => ⟨S_, .i32⟩
  | 7 => ⟨S262144, .i32⟩
  | 8 => ⟨S262144, .i32⟩
  | 9 => ⟨S262144, .i32⟩
  | 10 => ⟨S262144x1, .i32⟩
  | 11 => ⟨S262144x120, .f32⟩
  | 12 => ⟨S262144x120, .f32⟩
  | 13 => ⟨S262144x3x40, .f32⟩
  | 14 => ⟨S_, .i32⟩
  | 15 => ⟨S262144, .i32⟩
  | 16 => ⟨S262144, .i1⟩
  | 17 => ⟨S_, .i32⟩
  | 18 => ⟨S262144, .i32⟩
  | 19 => ⟨S262144, .i32⟩
  | 20 => ⟨S262144, .i32⟩
  | 21 => ⟨S262144x1, .i32⟩
  | 22 => ⟨S262144x120, .f32⟩
  | 23 => ⟨S262144x3x40, .f32⟩
  | 24 => ⟨S_, .i32⟩
  | 25 => ⟨S262144, .i32⟩
  | 26 => ⟨S262144, .i1⟩
  | 27 => ⟨S_, .i32⟩
  | 28 => ⟨S262144, .i32⟩
  | 29 => ⟨S262144, .i32⟩
  | 30 => ⟨S262144, .i32⟩
  | 31 => ⟨S262144x1, .i32⟩
  | 32 => ⟨S262144x112, .f32⟩
  | 33 => ⟨S262144x3x40, .f32⟩
  | 34 => ⟨S_, .f32⟩
  | 35 => ⟨S262144x3, .f32⟩
  | 36 => ⟨S_, .f32⟩
  | 37 => ⟨S262144x3, .f32⟩
  | 38 => ⟨S262144x3, .f32⟩
  | 39 => ⟨S262144x1, .f32⟩
  | 40 => ⟨S262144x1x64, .f32⟩
  | 41 => ⟨S262144x64, .f32⟩
  | 42 => ⟨S262144x1, .f32⟩
  | 43 => ⟨S262144x1x32, .f32⟩
  | 44 => ⟨S262144x32, .f32⟩
  | 45 => ⟨S262144x1, .f32⟩
  | 46 => ⟨S262144x1x16, .f32⟩
  | 47 => ⟨S262144x16, .f32⟩
  | 48 => ⟨S262144x112, .f32⟩
  | 49 => ⟨S262144x112, .f32⟩
  | 50 => ⟨S262144x64, .f32⟩
  | 51 => ⟨S262144x64x1, .f32⟩
  | 52 => ⟨S262144x64x1x1, .f32⟩
  | 53 => ⟨S262144x64x1, .f32⟩
  | 54 => ⟨S262144x64, .f32⟩
  | 55 => ⟨S262144x32, .f32⟩
  | 56 => ⟨S262144x32x1, .f32⟩
  | 57 => ⟨S262144x32x1x3, .f32⟩
  | 58 => ⟨S262144x32x3, .f32⟩
  | 59 => ⟨S262144x96, .f32⟩
  | 60 => ⟨S262144x16, .f32⟩
  | 61 => ⟨S262144x16x1, .f32⟩
  | 62 => ⟨S262144x16x1x5, .f32⟩
  | 63 => ⟨S262144x16x5, .f32⟩
  | 64 => ⟨S262144x80, .f32⟩
  | 65 => ⟨S262144x240, .f32⟩
  | 66 => ⟨S262144x240, .f32⟩
  | 67 => ⟨S262144x240, .f32⟩
  | 68 => ⟨S262144x240, .f32⟩
  | 69 => ⟨S_, .i32⟩
  | 70 => ⟨S262144, .i32⟩
  | 71 => ⟨S262144, .i1⟩
  | 72 => ⟨S_, .i32⟩
  | 73 => ⟨S262144, .i32⟩
  | 74 => ⟨S262144, .i32⟩
  | 75 => ⟨S262144, .i32⟩
  | 76 => ⟨S262144x1, .i32⟩
  | 77 => ⟨S16384x120, .f32⟩
  | 78 => ⟨S_, .i32⟩
  | 79 => ⟨S262144, .i32⟩
  | 80 => ⟨S262144, .i1⟩
  | 81 => ⟨S_, .i32⟩
  | 82 => ⟨S262144, .i32⟩
  | 83 => ⟨S262144, .i32⟩
  | 84 => ⟨S262144, .i32⟩
  | 85 => ⟨S262144x1, .i32⟩
  | 86 => ⟨S16384x240, .f32⟩
  | _ => ⟨S16384x120, .f32⟩

abbrev hbmTy (i : Nat) : BufTy := match i / 128 with
  | 0 => hbmTy0_0 i
  | 1 => hbmTy0_1 i
  | 2 => hbmTy0_2 i
  | _ => ⟨S16384x120, .f32⟩

abbrev bufTy : (tb : Table) → Fin (tcTables nBuf tb) → BufTy
  | .hbm, ⟨i, _⟩ => hbmTy i
  | _, _ => ⟨S16384x120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_cst : Ref sig .tc := ⟨.hbm, 27, rfl⟩
abbrev main_v4 : Ref sig .tc := ⟨.hbm, 28, rfl⟩
abbrev main_v5 : Ref sig .tc := ⟨.hbm, 29, rfl⟩
abbrev main_cst_0 : Ref sig .tc := ⟨.hbm, 30, rfl⟩
abbrev main_v6 : Ref sig .tc := ⟨.hbm, 31, rfl⟩
abbrev main_v7 : Ref sig .tc := ⟨.hbm, 32, rfl⟩
abbrev main_c : Ref sig .tc := ⟨.hbm, 33, rfl⟩
abbrev main_call0_cst : Ref sig .tc := ⟨.hbm, 34, rfl⟩
abbrev main_call0_v0 : Ref sig .tc := ⟨.hbm, 35, rfl⟩
abbrev main_call0_v1 : Ref sig .tc := ⟨.hbm, 36, rfl⟩
abbrev main_call0_cst_0 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_call0_v5 : Ref sig .tc := ⟨.hbm, 41, rfl⟩
abbrev main_call0_v6 : Ref sig .tc := ⟨.hbm, 42, rfl⟩
abbrev main_call0_v7 : Ref sig .tc := ⟨.hbm, 43, rfl⟩
abbrev main_call0_cst_1 : Ref sig .tc := ⟨.hbm, 44, rfl⟩
abbrev main_call0_v8 : Ref sig .tc := ⟨.hbm, 45, rfl⟩
abbrev main_call0_cst_2 : Ref sig .tc := ⟨.hbm, 46, rfl⟩
abbrev main_call0_v9 : Ref sig .tc := ⟨.hbm, 47, rfl⟩
abbrev main_call0_v10 : Ref sig .tc := ⟨.hbm, 48, rfl⟩
abbrev main_call0_v11 : Ref sig .tc := ⟨.hbm, 49, rfl⟩
abbrev main_call0_v12 : Ref sig .tc := ⟨.hbm, 50, rfl⟩
abbrev main_call0_cst_3 : Ref sig .tc := ⟨.hbm, 51, rfl⟩
abbrev main_call0_v13 : Ref sig .tc := ⟨.hbm, 52, rfl⟩
abbrev main_call0_cst_4 : Ref sig .tc := ⟨.hbm, 53, rfl⟩
abbrev main_call0_call0_v0 : Ref sig .tc := ⟨.hbm, 54, rfl⟩
abbrev main_call0_call0_v1 : Ref sig .tc := ⟨.hbm, 55, rfl⟩
abbrev main_v8 : Ref sig .tc := ⟨.hbm, 56, rfl⟩
abbrev main_v9 : Ref sig .tc := ⟨.hbm, 57, rfl⟩
abbrev main_v10 : Ref sig .tc := ⟨.hbm, 58, rfl⟩
abbrev main_cst_1 : Ref sig .tc := ⟨.hbm, 59, rfl⟩
abbrev main_v11 : Ref sig .tc := ⟨.hbm, 60, rfl⟩
abbrev main_v12 : Ref sig .tc := ⟨.hbm, 61, rfl⟩
abbrev main_v13 : Ref sig .tc := ⟨.hbm, 62, rfl⟩
abbrev main_v14 : Ref sig .tc := ⟨.hbm, 63, rfl⟩
abbrev main_v15 : Ref sig .tc := ⟨.hbm, 64, rfl⟩
abbrev main_v16 : Ref sig .tc := ⟨.hbm, 65, rfl⟩
abbrev main_v17 : Ref sig .tc := ⟨.hbm, 66, rfl⟩
abbrev main_v18 : Ref sig .tc := ⟨.hbm, 67, rfl⟩
abbrev main_v19 : Ref sig .tc := ⟨.hbm, 68, rfl⟩
abbrev main_v20 : Ref sig .tc := ⟨.hbm, 69, rfl⟩
abbrev main_v21 : Ref sig .tc := ⟨.hbm, 70, rfl⟩
abbrev main_v22 : Ref sig .tc := ⟨.hbm, 71, rfl⟩
abbrev main_v23 : Ref sig .tc := ⟨.hbm, 72, rfl⟩
abbrev main_cst_2 : Ref sig .tc := ⟨.hbm, 73, rfl⟩
abbrev main_v24 : Ref sig .tc := ⟨.hbm, 74, rfl⟩
abbrev main_v25 : Ref sig .tc := ⟨.hbm, 75, rfl⟩
abbrev main_cst_3 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_cst_4 : Ref sig .tc := ⟨.hbm, 82, rfl⟩
abbrev main_v31 : Ref sig .tc := ⟨.hbm, 83, rfl⟩
abbrev main_v32 : Ref sig .tc := ⟨.hbm, 84, rfl⟩
abbrev main_cst_5 : Ref sig .tc := ⟨.hbm, 85, rfl⟩
abbrev main_v33 : Ref sig .tc := ⟨.hbm, 86, rfl⟩
abbrev main_v34 : Ref sig .tc := ⟨.hbm, 87, rfl⟩
abbrev main_cst_6 : Ref sig .tc := ⟨.hbm, 88, rfl⟩
abbrev main_v35 : Ref sig .tc := ⟨.hbm, 89, rfl⟩
abbrev main_v36 : Ref sig .tc := ⟨.hbm, 90, rfl⟩
abbrev main_v37 : Ref sig .tc := ⟨.hbm, 91, rfl⟩
abbrev main_v38 : Ref sig .tc := ⟨.hbm, 92, rfl⟩
abbrev main_v39 : Ref sig .tc := ⟨.hbm, 93, rfl⟩
abbrev main_v40 : Ref sig .tc := ⟨.hbm, 94, rfl⟩
abbrev main_v41 : Ref sig .tc := ⟨.hbm, 95, rfl⟩
abbrev main_v42 : Ref sig .tc := ⟨.hbm, 96, rfl⟩
abbrev main_v43 : Ref sig .tc := ⟨.hbm, 97, rfl⟩
abbrev main_v44 : Ref sig .tc := ⟨.hbm, 98, rfl⟩
abbrev main_v45 : Ref sig .tc := ⟨.hbm, 99, rfl⟩
abbrev main_v46 : Ref sig .tc := ⟨.hbm, 100, rfl⟩
abbrev main_v47 : Ref sig .tc := ⟨.hbm, 101, rfl⟩
abbrev main_cst_7 : Ref sig .tc := ⟨.hbm, 102, rfl⟩
abbrev main_v48 : Ref sig .tc := ⟨.hbm, 103, rfl⟩
abbrev main_v49 : Ref sig .tc := ⟨.hbm, 104, rfl⟩
abbrev main_cst_8 : Ref sig .tc := ⟨.hbm, 105, rfl⟩
abbrev main_v50 : Ref sig .tc := ⟨.hbm, 106, rfl⟩
abbrev main_v51 : Ref sig .tc := ⟨.hbm, 107, rfl⟩
abbrev main_cst_9 : Ref sig .tc := ⟨.hbm, 108, rfl⟩
abbrev main_v52 : Ref sig .tc := ⟨.hbm, 109, rfl⟩
abbrev main_v53 : Ref sig .tc := ⟨.hbm, 110, rfl⟩
abbrev main_v54 : Ref sig .tc := ⟨.hbm, 111, rfl⟩
abbrev main_v55 : Ref sig .tc := ⟨.hbm, 112, rfl⟩
abbrev main_v56 : Ref sig .tc := ⟨.hbm, 113, rfl⟩
abbrev main_v57 : Ref sig .tc := ⟨.hbm, 114, rfl⟩
abbrev main_v58 : Ref sig .tc := ⟨.hbm, 115, rfl⟩
abbrev main_v59 : Ref sig .tc := ⟨.hbm, 116, rfl⟩
abbrev main_v60 : Ref sig .tc := ⟨.hbm, 117, rfl⟩
abbrev main_v61 : Ref sig .tc := ⟨.hbm, 118, rfl⟩
abbrev main_v62 : Ref sig .tc := ⟨.hbm, 119, rfl⟩
abbrev main_v63 : Ref sig .tc := ⟨.hbm, 120, rfl⟩
abbrev main_v64 : Ref sig .tc := ⟨.hbm, 121, rfl⟩
abbrev main_cst_10 : Ref sig .tc := ⟨.hbm, 122, rfl⟩
abbrev main_v65 : Ref sig .tc := ⟨.hbm, 123, rfl⟩
abbrev main_v66 : Ref sig .tc := ⟨.hbm, 124, rfl⟩
abbrev main_cst_11 : Ref sig .tc := ⟨.hbm, 125, rfl⟩
abbrev main_v67 : Ref sig .tc := ⟨.hbm, 126, rfl⟩
abbrev main_v68 : Ref sig .tc := ⟨.hbm, 127, rfl⟩
abbrev main_cst_12 : Ref sig .tc := ⟨.hbm, 128, rfl⟩
abbrev main_v69 : Ref sig .tc := ⟨.hbm, 129, rfl⟩
abbrev main_v70 : Ref sig .tc := ⟨.hbm, 130, rfl⟩
abbrev main_v71 : Ref sig .tc := ⟨.hbm, 131, rfl⟩
abbrev main_v72 : Ref sig .tc := ⟨.hbm, 132, rfl⟩
abbrev main_v73 : Ref sig .tc := ⟨.hbm, 133, rfl⟩
abbrev main_v74 : Ref sig .tc := ⟨.hbm, 134, rfl⟩
abbrev main_v75 : Ref sig .tc := ⟨.hbm, 135, rfl⟩
abbrev main_v76 : Ref sig .tc := ⟨.hbm, 136, rfl⟩
abbrev main_v77 : Ref sig .tc := ⟨.hbm, 137, rfl⟩
abbrev main_v78 : Ref sig .tc := ⟨.hbm, 138, rfl⟩
abbrev main_v79 : Ref sig .tc := ⟨.hbm, 139, rfl⟩
abbrev main_v80 : Ref sig .tc := ⟨.hbm, 140, rfl⟩
abbrev main_v81 : Ref sig .tc := ⟨.hbm, 141, rfl⟩
abbrev main_v82 : Ref sig .tc := ⟨.hbm, 142, rfl⟩
abbrev main_v83 : Ref sig .tc := ⟨.hbm, 143, rfl⟩
abbrev main_v84 : Ref sig .tc := ⟨.hbm, 144, rfl⟩
abbrev main_v85 : Ref sig .tc := ⟨.hbm, 145, rfl⟩
abbrev main_c_13 : Ref sig .tc := ⟨.hbm, 146, rfl⟩
abbrev main_v86 : Ref sig .tc := ⟨.hbm, 147, rfl⟩
abbrev main_v87 : Ref sig .tc := ⟨.hbm, 148, rfl⟩
abbrev main_c_14 : Ref sig .tc := ⟨.hbm, 149, rfl⟩
abbrev main_v88 : Ref sig .tc := ⟨.hbm, 150, rfl⟩
abbrev main_v89 : Ref sig .tc := ⟨.hbm, 151, rfl⟩
abbrev main_v90 : Ref sig .tc := ⟨.hbm, 152, rfl⟩
abbrev main_v91 : Ref sig .tc := ⟨.hbm, 153, rfl⟩
abbrev main_v92 : Ref sig .tc := ⟨.hbm, 154, rfl⟩
abbrev main_c_15 : Ref sig .tc := ⟨.hbm, 155, rfl⟩
abbrev main_v93 : Ref sig .tc := ⟨.hbm, 156, rfl⟩
abbrev main_v94 : Ref sig .tc := ⟨.hbm, 157, rfl⟩
abbrev main_c_16 : Ref sig .tc := ⟨.hbm, 158, rfl⟩
abbrev main_v95 : Ref sig .tc := ⟨.hbm, 159, rfl⟩
abbrev main_v96 : Ref sig .tc := ⟨.hbm, 160, rfl⟩
abbrev main_v97 : Ref sig .tc := ⟨.hbm, 161, rfl⟩
abbrev main_v98 : Ref sig .tc := ⟨.hbm, 162, rfl⟩
abbrev main_v99 : Ref sig .tc := ⟨.hbm, 163, rfl⟩
abbrev main_v100 : Ref sig .tc := ⟨.hbm, 164, rfl⟩
abbrev main_v101 : Ref sig .tc := ⟨.hbm, 165, rfl⟩
abbrev main_v102 : Ref sig .tc := ⟨.hbm, 166, rfl⟩
abbrev main_v103 : Ref sig .tc := ⟨.hbm, 167, rfl⟩
abbrev main_cst_17 : Ref sig .tc := ⟨.hbm, 168, rfl⟩
abbrev main_v104 : Ref sig .tc := ⟨.hbm, 169, rfl⟩
abbrev main_v105 : Ref sig .tc := ⟨.hbm, 170, rfl⟩
abbrev main_v106 : Ref sig .tc := ⟨.hbm, 171, rfl⟩
abbrev main_v107 : Ref sig .tc := ⟨.hbm, 172, rfl⟩
abbrev main_cst_18 : Ref sig .tc := ⟨.hbm, 173, rfl⟩
abbrev main_v108 : Ref sig .tc := ⟨.hbm, 174, rfl⟩
abbrev main_v109 : Ref sig .tc := ⟨.hbm, 175, rfl⟩
abbrev main_v110 : Ref sig .tc := ⟨.hbm, 176, rfl⟩
abbrev main_v111 : Ref sig .tc := ⟨.hbm, 177, rfl⟩
abbrev main_cst_19 : Ref sig .tc := ⟨.hbm, 178, rfl⟩
abbrev main_v112 : Ref sig .tc := ⟨.hbm, 179, rfl⟩
abbrev main_v113 : Ref sig .tc := ⟨.hbm, 180, rfl⟩
abbrev main_v114 : Ref sig .tc := ⟨.hbm, 181, rfl⟩
abbrev main_v115 : Ref sig .tc := ⟨.hbm, 182, rfl⟩
abbrev main_v116 : Ref sig .tc := ⟨.hbm, 183, rfl⟩
abbrev main_v117 : Ref sig .tc := ⟨.hbm, 184, rfl⟩
abbrev main_call1_v0 : Ref sig .tc := ⟨.hbm, 185, rfl⟩
abbrev main_call1_v1 : Ref sig .tc := ⟨.hbm, 186, rfl⟩
abbrev main_call1_cst : Ref sig .tc := ⟨.hbm, 187, rfl⟩
abbrev main_call1_v2 : Ref sig .tc := ⟨.hbm, 188, rfl⟩
abbrev main_call1_v3 : Ref sig .tc := ⟨.hbm, 189, rfl⟩
abbrev main_call1_cst_0 : Ref sig .tc := ⟨.hbm, 190, rfl⟩
abbrev main_call1_v4 : Ref sig .tc := ⟨.hbm, 191, rfl⟩
abbrev main_call1_v5 : Ref sig .tc := ⟨.hbm, 192, rfl⟩
abbrev main_v118 : Ref sig .tc := ⟨.hbm, 193, rfl⟩
abbrev main_v119 : Ref sig .tc := ⟨.hbm, 194, rfl⟩
abbrev main_v120 : Ref sig .tc := ⟨.hbm, 195, rfl⟩
abbrev main_v121 : Ref sig .tc := ⟨.hbm, 196, rfl⟩
abbrev main_v122 : Ref sig .tc := ⟨.hbm, 197, rfl⟩
abbrev main_v123 : Ref sig .tc := ⟨.hbm, 198, rfl⟩
abbrev main_v124 : Ref sig .tc := ⟨.hbm, 199, rfl⟩
abbrev main_v125 : Ref sig .tc := ⟨.hbm, 200, rfl⟩
abbrev main_v126 : Ref sig .tc := ⟨.hbm, 201, rfl⟩
abbrev main_call2_v0 : Ref sig .tc := ⟨.hbm, 202, rfl⟩
abbrev main_call2_v1 : Ref sig .tc := ⟨.hbm, 203, rfl⟩
abbrev main_call2_cst : Ref sig .tc := ⟨.hbm, 204, rfl⟩
abbrev main_call2_v2 : Ref sig .tc := ⟨.hbm, 205, rfl⟩
abbrev main_call2_v3 : Ref sig .tc := ⟨.hbm, 206, rfl⟩
abbrev main_call2_cst_0 : Ref sig .tc := ⟨.hbm, 207, rfl⟩
abbrev main_call2_v4 : Ref sig .tc := ⟨.hbm, 208, rfl⟩
abbrev main_call2_v5 : Ref sig .tc := ⟨.hbm, 209, rfl⟩
abbrev main_v127 : Ref sig .tc := ⟨.hbm, 210, rfl⟩
abbrev main_v128 : Ref sig .tc := ⟨.hbm, 211, rfl⟩
abbrev main_v129 : Ref sig .tc := ⟨.hbm, 212, rfl⟩
abbrev main_v130 : Ref sig .tc := ⟨.hbm, 213, rfl⟩
abbrev main_v131 : Ref sig .tc := ⟨.hbm, 214, rfl⟩
abbrev main_v132 : Ref sig .tc := ⟨.hbm, 215, rfl⟩
abbrev main_v133 : Ref sig .tc := ⟨.hbm, 216, rfl⟩
abbrev main_v134 : Ref sig .tc := ⟨.hbm, 217, rfl⟩
abbrev main_c_20 : Ref sig .tc := ⟨.hbm, 218, rfl⟩
abbrev main_v135 : Ref sig .tc := ⟨.hbm, 219, rfl⟩
abbrev main_v136 : Ref sig .tc := ⟨.hbm, 220, rfl⟩
abbrev main_c_21 : Ref sig .tc := ⟨.hbm, 221, rfl⟩
abbrev main_v137 : Ref sig .tc := ⟨.hbm, 222, rfl⟩
abbrev main_v138 : Ref sig .tc := ⟨.hbm, 223, rfl⟩
abbrev main_v139 : Ref sig .tc := ⟨.hbm, 224, rfl⟩
abbrev main_v140 : Ref sig .tc := ⟨.hbm, 225, rfl⟩
abbrev main_v141 : Ref sig .tc := ⟨.hbm, 226, rfl⟩
abbrev main_v142 : Ref sig .tc := ⟨.hbm, 227, rfl⟩
abbrev main_v143 : Ref sig .tc := ⟨.hbm, 228, rfl⟩
abbrev main_c_22 : Ref sig .tc := ⟨.hbm, 229, rfl⟩
abbrev main_v144 : Ref sig .tc := ⟨.hbm, 230, rfl⟩
abbrev main_v145 : Ref sig .tc := ⟨.hbm, 231, rfl⟩
abbrev main_c_23 : Ref sig .tc := ⟨.hbm, 232, rfl⟩
abbrev main_v146 : Ref sig .tc := ⟨.hbm, 233, rfl⟩
abbrev main_v147 : Ref sig .tc := ⟨.hbm, 234, rfl⟩
abbrev main_v148 : Ref sig .tc := ⟨.hbm, 235, rfl⟩
abbrev main_v149 : Ref sig .tc := ⟨.hbm, 236, rfl⟩
abbrev main_v150 : Ref sig .tc := ⟨.hbm, 237, rfl⟩
abbrev main_v151 : Ref sig .tc := ⟨.hbm, 238, rfl⟩
abbrev main_c_24 : Ref sig .tc := ⟨.hbm, 239, rfl⟩
abbrev main_v152 : Ref sig .tc := ⟨.hbm, 240, rfl⟩
abbrev main_v153 : Ref sig .tc := ⟨.hbm, 241, rfl⟩
abbrev main_c_25 : Ref sig .tc := ⟨.hbm, 242, rfl⟩
abbrev main_v154 : Ref sig .tc := ⟨.hbm, 243, rfl⟩
abbrev main_v155 : Ref sig .tc := ⟨.hbm, 244, rfl⟩
abbrev main_v156 : Ref sig .tc := ⟨.hbm, 245, rfl⟩
abbrev main_v157 : Ref sig .tc := ⟨.hbm, 246, rfl⟩
abbrev main_v158 : Ref sig .tc := ⟨.hbm, 247, rfl⟩
abbrev main_v159 : Ref sig .tc := ⟨.hbm, 248, rfl⟩
abbrev main_v160 : Ref sig .tc := ⟨.hbm, 249, rfl⟩
abbrev main_cst_26 : Ref sig .tc := ⟨.hbm, 250, rfl⟩
abbrev main_v161 : Ref sig .tc := ⟨.hbm, 251, rfl⟩
abbrev main_v162 : Ref sig .tc := ⟨.hbm, 252, rfl⟩
abbrev main_cst_27 : Ref sig .tc := ⟨.hbm, 253, rfl⟩
abbrev main_v163 : Ref sig .tc := ⟨.hbm, 254, rfl⟩
abbrev main_v164 : Ref sig .tc := ⟨.hbm, 255, rfl⟩
abbrev main_v165 : Ref sig .tc := ⟨.hbm, 256, rfl⟩
abbrev main_v166 : Ref sig .tc := ⟨.hbm, 257, rfl⟩
abbrev main_v167 : Ref sig .tc := ⟨.hbm, 258, rfl⟩
abbrev main_c_28 : Ref sig .tc := ⟨.hbm, 259, rfl⟩
abbrev main_v168 : Ref sig .tc := ⟨.hbm, 260, rfl⟩
abbrev main_v169 : Ref sig .tc := ⟨.hbm, 261, rfl⟩
abbrev main_c_29 : Ref sig .tc := ⟨.hbm, 262, rfl⟩
abbrev main_v170 : Ref sig .tc := ⟨.hbm, 263, rfl⟩
abbrev main_v171 : Ref sig .tc := ⟨.hbm, 264, rfl⟩
abbrev main_v172 : Ref sig .tc := ⟨.hbm, 265, rfl⟩
abbrev main_v173 : Ref sig .tc := ⟨.hbm, 266, rfl⟩
abbrev main_v174 : Ref sig .tc := ⟨.hbm, 267, rfl⟩
abbrev main_v175 : Ref sig .tc := ⟨.hbm, 268, rfl⟩
abbrev main_v176 : Ref sig .tc := ⟨.hbm, 269, rfl⟩
abbrev main_c_30 : Ref sig .tc := ⟨.hbm, 270, rfl⟩
abbrev main_v177 : Ref sig .tc := ⟨.hbm, 271, rfl⟩
abbrev main_v178 : Ref sig .tc := ⟨.hbm, 272, rfl⟩
abbrev main_c_31 : Ref sig .tc := ⟨.hbm, 273, rfl⟩
abbrev main_v179 : Ref sig .tc := ⟨.hbm, 274, rfl⟩
abbrev main_v180 : Ref sig .tc := ⟨.hbm, 275, rfl⟩
abbrev main_v181 : Ref sig .tc := ⟨.hbm, 276, rfl⟩
abbrev main_v182 : Ref sig .tc := ⟨.hbm, 277, rfl⟩
abbrev main_v183 : Ref sig .tc := ⟨.hbm, 278, rfl⟩
abbrev main_v184 : Ref sig .tc := ⟨.hbm, 279, rfl⟩
abbrev main_c_32 : Ref sig .tc := ⟨.hbm, 280, rfl⟩
abbrev main_v185 : Ref sig .tc := ⟨.hbm, 281, rfl⟩
abbrev main_v186 : Ref sig .tc := ⟨.hbm, 282, rfl⟩
abbrev main_c_33 : Ref sig .tc := ⟨.hbm, 283, rfl⟩
abbrev main_v187 : Ref sig .tc := ⟨.hbm, 284, rfl⟩
abbrev main_v188 : Ref sig .tc := ⟨.hbm, 285, rfl⟩
abbrev main_v189 : Ref sig .tc := ⟨.hbm, 286, rfl⟩
abbrev main_v190 : Ref sig .tc := ⟨.hbm, 287, rfl⟩
abbrev main_v191 : Ref sig .tc := ⟨.hbm, 288, rfl⟩
abbrev main_v192 : Ref sig .tc := ⟨.hbm, 289, rfl⟩
abbrev main_cst_34 : Ref sig .tc := ⟨.hbm, 290, rfl⟩
abbrev main_v193 : Ref sig .tc := ⟨.hbm, 291, rfl⟩
abbrev main_cst_35 : Ref sig .tc := ⟨.hbm, 292, rfl⟩
abbrev main_v194 : Ref sig .tc := ⟨.hbm, 293, rfl⟩
abbrev main_v195 : Ref sig .tc := ⟨.hbm, 294, rfl⟩
abbrev main_v196 : Ref sig .tc := ⟨.hbm, 295, rfl⟩
abbrev main_v197 : Ref sig .tc := ⟨.hbm, 296, rfl⟩
abbrev main_v198 : Ref sig .tc := ⟨.hbm, 297, rfl⟩
abbrev main_v199 : Ref sig .tc := ⟨.hbm, 298, rfl⟩
abbrev main_v200 : Ref sig .tc := ⟨.hbm, 299, rfl⟩
abbrev main_v201 : Ref sig .tc := ⟨.hbm, 300, rfl⟩
abbrev main_v202 : Ref sig .tc := ⟨.hbm, 301, rfl⟩
abbrev main_v203 : Ref sig .tc := ⟨.hbm, 302, rfl⟩
abbrev main_v204 : Ref sig .tc := ⟨.hbm, 303, rfl⟩
abbrev main_v205 : Ref sig .tc := ⟨.hbm, 304, rfl⟩
abbrev main_v206 : Ref sig .tc := ⟨.hbm, 305, rfl⟩
abbrev main_v207 : Ref sig .tc := ⟨.hbm, 306, rfl⟩
abbrev main_v208 : Ref sig .tc := ⟨.hbm, 307, rfl⟩
abbrev main_v209 : Ref sig .tc := ⟨.hbm, 308, rfl⟩
abbrev main_v210 : Ref sig .tc := ⟨.hbm, 309, rfl⟩
abbrev main_v211 : Ref sig .tc := ⟨.hbm, 310, rfl⟩
abbrev main_v212 : Ref sig .tc := ⟨.hbm, 311, rfl⟩
abbrev main_v213 : Ref sig .tc := ⟨.hbm, 312, rfl⟩
abbrev main_v214 : Ref sig .tc := ⟨.hbm, 313, rfl⟩
abbrev main_v215 : Ref sig .tc := ⟨.hbm, 314, rfl⟩
abbrev main_v216 : Ref sig .tc := ⟨.hbm, 315, rfl⟩
abbrev main_v217 : Ref sig .tc := ⟨.hbm, 316, rfl⟩
abbrev main_v218 : Ref sig .tc := ⟨.hbm, 317, rfl⟩
abbrev main_v219 : Ref sig .tc := ⟨.hbm, 318, rfl⟩
abbrev main_v220 : Ref sig .tc := ⟨.hbm, 319, rfl⟩
abbrev main_v221 : Ref sig .tc := ⟨.hbm, 320, rfl⟩
abbrev main_v222 : Ref sig .tc := ⟨.hbm, 321, rfl⟩
abbrev main_v223 : Ref sig .tc := ⟨.hbm, 322, rfl⟩
abbrev main_v224 : Ref sig .tc := ⟨.hbm, 323, rfl⟩
abbrev main_v225 : Ref sig .tc := ⟨.hbm, 324, rfl⟩
abbrev main_c_36 : Ref sig .tc := ⟨.hbm, 325, rfl⟩
abbrev main_v226 : Ref sig .tc := ⟨.hbm, 326, rfl⟩
abbrev main_v227 : Ref sig .tc := ⟨.hbm, 327, rfl⟩
abbrev main_c_37 : Ref sig .tc := ⟨.hbm, 328, rfl⟩
abbrev main_v228 : Ref sig .tc := ⟨.hbm, 329, rfl⟩
abbrev main_v229 : Ref sig .tc := ⟨.hbm, 330, rfl⟩
abbrev main_v230 : Ref sig .tc := ⟨.hbm, 331, rfl⟩
abbrev main_v231 : Ref sig .tc := ⟨.hbm, 332, rfl⟩
abbrev main_v232 : Ref sig .tc := ⟨.hbm, 333, rfl⟩
abbrev main_c_38 : Ref sig .tc := ⟨.hbm, 334, rfl⟩
abbrev main_v233 : Ref sig .tc := ⟨.hbm, 335, rfl⟩
abbrev main_v234 : Ref sig .tc := ⟨.hbm, 336, rfl⟩
abbrev main_c_39 : Ref sig .tc := ⟨.hbm, 337, rfl⟩
abbrev main_v235 : Ref sig .tc := ⟨.hbm, 338, rfl⟩
abbrev main_v236 : Ref sig .tc := ⟨.hbm, 339, rfl⟩
abbrev main_v237 : Ref sig .tc := ⟨.hbm, 340, rfl⟩
abbrev main_v238 : Ref sig .tc := ⟨.hbm, 341, rfl⟩
abbrev main_v239 : Ref sig .tc := ⟨.hbm, 342, rfl⟩

abbrev nD : Nat := 1
abbrev τ : Topo := Topo.v7x

variable {F : FTy → Type} [FloatOps F]

class Facts₀ : Prop where
  slices_S2x262144_S1x262144_0_0 : S2x262144.Slices ![0, 0] S1x262144
  shapeCasts_S1x262144_S262144 : S1x262144.ShapeCasts S262144
  slices_S2x262144_S1x262144_1_0 : S2x262144.Slices ![1, 0] S1x262144
  reducesTo_S16384x120_S16384_d1 : S16384x120.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x120_0_1 : S16384x1.BroadcastsInDim S16384x120 (![0, 1] : Fin 2 → Fin S16384x120.rank)
  bcast_S120_S1x120_1 : S120.BroadcastsInDim S1x120 (![1] : Fin 1 → Fin S1x120.rank)
  bcast_S1x120_S16384x120_0_1 : S1x120.BroadcastsInDim S16384x120 (![0, 1] : Fin 2 → Fin S16384x120.rank)
  slices_S16384x240_S16384x64_0_0 : S16384x240.Slices ![0, 0] S16384x64
  shapeCasts_S16384x64_S16384x64x1 : S16384x64.ShapeCasts S16384x64x1
  reducesTo_S16384x64x1_S16384x1_d1 : S16384x64x1.ReducesTo [1] S16384x1
  bcast_S16384x1_S16384x1x1_0_2 : S16384x1.BroadcastsInDim S16384x1x1 (![0, 2] : Fin 2 → Fin S16384x1x1.rank)
  bcast_S_S16384x1x1 : S_.BroadcastsInDim S16384x1x1 (![] : Fin 0 → Fin S16384x1x1.rank)
  bcast_S16384x1x1_S16384x64x1_0_1_2 : S16384x1x1.BroadcastsInDim S16384x64x1 (![0, 1, 2] : Fin 3 → Fin S16384x64x1.rank)
  reducesTo_S16384x64x1_S16384_d1_2 : S16384x64x1.ReducesTo [1, 2] S16384
  bcast_S16384_S16384x1x1_0 : S16384.BroadcastsInDim S16384x1x1 (![0] : Fin 1 → Fin S16384x1x1.rank)
  slices_S112_S64_0 : S112.Slices ![0] S64
  bcast_S64_S1x64x1_1 : S64.BroadcastsInDim S1x64x1 (![1] : Fin 1 → Fin S1x64x1.rank)
  bcast_S1x64x1_S16384x64x1_0_1_2 : S1x64x1.BroadcastsInDim S16384x64x1 (![0, 1, 2] : Fin 3 → Fin S16384x64x1.rank)
  shapeCasts_S16384x64x1_S16384x64 : S16384x64x1.ShapeCasts S16384x64
  slices_S16384x240_S16384x96_0_64 : S16384x240.Slices ![0, 64] S16384x96
  shapeCasts_S16384x96_S16384x32x3 : S16384x96.ShapeCasts S16384x32x3
  reducesTo_S16384x32x3_S16384_d1_2 : S16384x32x3.ReducesTo [1, 2] S16384
  bcast_S16384x1x1_S16384x32x3_0_1_2 : S16384x1x1.BroadcastsInDim S16384x32x3 (![0, 1, 2] : Fin 3 → Fin S16384x32x3.rank)
  slices_S112_S32_64 : S112.Slices ![64] S32
  bcast_S32_S1x32x1_1 : S32.BroadcastsInDim S1x32x1 (![1] : Fin 1 → Fin S1x32x1.rank)
  bcast_S1x32x1_S16384x32x3_0_1_2 : S1x32x1.BroadcastsInDim S16384x32x3 (![0, 1, 2] : Fin 3 → Fin S16384x32x3.rank)
  shapeCasts_S16384x32x3_S16384x96 : S16384x32x3.ShapeCasts S16384x96
  slices_S16384x240_S16384x80_0_160 : S16384x240.Slices ![0, 160] S16384x80
  shapeCasts_S16384x80_S16384x16x5 : S16384x80.ShapeCasts S16384x16x5
  reducesTo_S16384x16x5_S16384_d1_2 : S16384x16x5.ReducesTo [1, 2] S16384
  bcast_S16384x1x1_S16384x16x5_0_1_2 : S16384x1x1.BroadcastsInDim S16384x16x5 (![0, 1, 2] : Fin 3 → Fin S16384x16x5.rank)
  slices_S112_S16_96 : S112.Slices ![96] S16
  bcast_S16_S1x16x1_1 : S16.BroadcastsInDim S1x16x1 (![1] : Fin 1 → Fin S1x16x1.rank)
  bcast_S1x16x1_S16384x16x5_0_1_2 : S1x16x1.BroadcastsInDim S16384x16x5 (![0, 1, 2] : Fin 3 → Fin S16384x16x5.rank)
  shapeCasts_S16384x16x5_S16384x80 : S16384x16x5.ShapeCasts S16384x80
  concatenates_S16384x64_S16384x96_S16384x80_S16384x240_d1 : Shape.Concatenates [S16384x64, S16384x96, S16384x80] S16384x240 1
  bcast_S_S262144 : S_.BroadcastsInDim S262144 (![] : Fin 0 → Fin S262144.rank)
  bcast_S262144_S262144x1_0 : S262144.BroadcastsInDim S262144x1 (![0] : Fin 1 → Fin S262144x1.rank)
  slices_S262144x240_S262144x64_0_0 : S262144x240.Slices ![0, 0] S262144x64
  shapeCasts_S262144x64_S262144x64x1 : S262144x64.ShapeCasts S262144x64x1
  reducesTo_S262144x64x1_S262144x64_d2 : S262144x64x1.ReducesTo [2] S262144x64
  slices_S262144x240_S262144x96_0_64 : S262144x240.Slices ![0, 64] S262144x96
  shapeCasts_S262144x96_S262144x32x3 : S262144x96.ShapeCasts S262144x32x3
  reducesTo_S262144x32x3_S262144x32_d2 : S262144x32x3.ReducesTo [2] S262144x32
  slices_S262144x240_S262144x80_0_160 : S262144x240.Slices ![0, 160] S262144x80
  shapeCasts_S262144x80_S262144x16x5 : S262144x80.ShapeCasts S262144x16x5
  reducesTo_S262144x16x5_S262144x16_d2 : S262144x16x5.ReducesTo [2] S262144x16
  concatenates_S262144x64_S262144x32_S262144x16_S262144x112_d1 : Shape.Concatenates [S262144x64, S262144x32, S262144x16] S262144x112 1
  bcast_S1x120_S262144x120_0_1 : S1x120.BroadcastsInDim S262144x120 (![0, 1] : Fin 2 → Fin S262144x120.rank)
  bcast_S_S262144x120 : S_.BroadcastsInDim S262144x120 (![] : Fin 0 → Fin S262144x120.rank)
  bcast_S262144x1_S262144x120_0_1 : S262144x1.BroadcastsInDim S262144x120 (![0, 1] : Fin 2 → Fin S262144x120.rank)
  shapeCasts_S262144x120_S262144x4x30 : S262144x120.ShapeCasts S262144x4x30
  reducesTo_S262144x4x30_S262144x4_d2 : S262144x4x30.ReducesTo [2] S262144x4
  bcast_S262144x4_S262144x4x1_0_1 : S262144x4.BroadcastsInDim S262144x4x1 (![0, 1] : Fin 2 → Fin S262144x4x1.rank)
  bcast_S_S262144x4x1 : S_.BroadcastsInDim S262144x4x1 (![] : Fin 0 → Fin S262144x4x1.rank)
  bcast_S262144x4x1_S262144x4x30_0_1_2 : S262144x4x1.BroadcastsInDim S262144x4x30 (![0, 1, 2] : Fin 3 → Fin S262144x4x30.rank)
  shapeCasts_S262144x4x30_S262144x120 : S262144x4x30.ShapeCasts S262144x120
  shapeCasts_S262144x120_S262144x3x40 : S262144x120.ShapeCasts S262144x3x40
  reducesTo_S262144x3x40_S262144x3_d2 : S262144x3x40.ReducesTo [2] S262144x3
  bcast_S_S262144x3 : S_.BroadcastsInDim S262144x3 (![] : Fin 0 → Fin S262144x3.rank)
  slices_S262144x3_S262144x1_0_0 : S262144x3.Slices ![0, 0] S262144x1
  bcast_S262144x1_S262144x1x64_0_1 : S262144x1.BroadcastsInDim S262144x1x64 (![0, 1] : Fin 2 → Fin S262144x1x64.rank)
  shapeCasts_S262144x1x64_S262144x64 : S262144x1x64.ShapeCasts S262144x64
  slices_S262144x3_S262144x1_0_1 : S262144x3.Slices ![0, 1] S262144x1
  bcast_S262144x1_S262144x1x32_0_1 : S262144x1.BroadcastsInDim S262144x1x32 (![0, 1] : Fin 2 → Fin S262144x1x32.rank)
  shapeCasts_S262144x1x32_S262144x32 : S262144x1x32.ShapeCasts S262144x32
  slices_S262144x3_S262144x1_0_2 : S262144x3.Slices ![0, 2] S262144x1
  bcast_S262144x1_S262144x1x16_0_1 : S262144x1.BroadcastsInDim S262144x1x16 (![0, 1] : Fin 2 → Fin S262144x1x16.rank)
  shapeCasts_S262144x1x16_S262144x16 : S262144x1x16.ShapeCasts S262144x16
  slices_S262144x112_S262144x64_0_0 : S262144x112.Slices ![0, 0] S262144x64
  bcast_S262144x64_S262144x64x1_0_1 : S262144x64.BroadcastsInDim S262144x64x1 (![0, 1] : Fin 2 → Fin S262144x64x1.rank)
  bcast_S262144x64x1_S262144x64x1x1_0_1_2 : S262144x64x1.BroadcastsInDim S262144x64x1x1 (![0, 1, 2] : Fin 3 → Fin S262144x64x1x1.rank)
  shapeCasts_S262144x64x1x1_S262144x64x1 : S262144x64x1x1.ShapeCasts S262144x64x1
  shapeCasts_S262144x64x1_S262144x64 : S262144x64x1.ShapeCasts S262144x64
  slices_S262144x112_S262144x32_0_64 : S262144x112.Slices ![0, 64] S262144x32
  bcast_S262144x32_S262144x32x1_0_1 : S262144x32.BroadcastsInDim S262144x32x1 (![0, 1] : Fin 2 → Fin S262144x32x1.rank)
  bcast_S262144x32x1_S262144x32x1x3_0_1_2 : S262144x32x1.BroadcastsInDim S262144x32x1x3 (![0, 1, 2] : Fin 3 → Fin S262144x32x1x3.rank)
  shapeCasts_S262144x32x1x3_S262144x32x3 : S262144x32x1x3.ShapeCasts S262144x32x3
  shapeCasts_S262144x32x3_S262144x96 : S262144x32x3.ShapeCasts S262144x96
  slices_S262144x112_S262144x16_0_96 : S262144x112.Slices ![0, 96] S262144x16
  bcast_S262144x16_S262144x16x1_0_1 : S262144x16.BroadcastsInDim S262144x16x1 (![0, 1] : Fin 2 → Fin S262144x16x1.rank)
  bcast_S262144x16x1_S262144x16x1x5_0_1_2 : S262144x16x1.BroadcastsInDim S262144x16x1x5 (![0, 1, 2] : Fin 3 → Fin S262144x16x1x5.rank)
  shapeCasts_S262144x16x1x5_S262144x16x5 : S262144x16x1x5.ShapeCasts S262144x16x5
  shapeCasts_S262144x16x5_S262144x80 : S262144x16x5.ShapeCasts S262144x80
  concatenates_S262144x64_S262144x96_S262144x80_S262144x240_d1 : Shape.Concatenates [S262144x64, S262144x96, S262144x80] S262144x240 1
  bcast_S262144x1_S262144x240_0_1 : S262144x1.BroadcastsInDim S262144x240 (![0, 1] : Fin 2 → Fin S262144x240.rank)
  dot_S16384x120_S120x120_S16384x120_1_0_0_1_n_n_wf : DotDims.WF S16384x120 S120x120 S16384x120 [1] [0] [0] [1] [] []
  dot_S16384x120_S120x112_S16384x112_1_0_0_1_n_n_wf : DotDims.WF S16384x120 S120x112 S16384x112 [1] [0] [0] [1] [] []
  gather_S16384x240_S262144x1_S262144x240_1_0_n_n_0_1_1240_wf : GatherDims.WF S16384x240 S262144x1 S262144x240 [1] [0] [] [0] [] 1 ![1, 240]
  dot_S262144x112_S112x120_S262144x120_1_0_0_1_n_n_wf : DotDims.WF S262144x112 S112x120 S262144x120 [1] [0] [0] [1] [] []
  dot_S262144x120_S120x120_S262144x120_1_0_0_1_n_n_wf : DotDims.WF S262144x120 S120x120 S262144x120 [1] [0] [0] [1] [] []
  dot_S262144x20_S20x120_S262144x120_1_0_0_1_n_n_wf : DotDims.WF S262144x20 S20x120 S262144x120 [1] [0] [0] [1] [] []
  gather_S16384x120_S262144x1_S262144x120_1_0_n_n_0_1_1120_wf : GatherDims.WF S16384x120 S262144x1 S262144x120 [1] [0] [] [0] [] 1 ![1, 120]
  gather_S16384x112_S262144x1_S262144x112_1_0_n_n_0_1_1112_wf : GatherDims.WF S16384x112 S262144x1 S262144x112 [1] [0] [] [0] [] 1 ![1, 112]
  scatter_S16384x120_S262144x1_S262144x120_1_0_0_1_wf : ScatterDims.WF S16384x120 S262144x1 S262144x120 [1] [0] [0] 1
  scatter_S16384x240_S262144x1_S262144x240_1_0_0_1_wf : ScatterDims.WF S16384x240 S262144x1 S262144x240 [1] [0] [0] 1

variable [Facts₀]

def dot_S16384x120_S120x120_S16384x120_1_0_0_1_n_n : DotDims S16384x120 S120x120 S16384x120 where
  lhsContracting := [1]
  rhsContracting := [0]
  lhsNonContracting := [0]
  rhsNonContracting := [1]
  lhsBatch := []
  rhsBatch := []
  wf := dot_S16384x120_S120x120_S16384x120_1_0_0_1_n_n_wf
def dot_S16384x120_S120x112_S16384x112_1_0_0_1_n_n : DotDims S16384x120 S120x112 S16384x112 where
  lhsContracting := [1]
  rhsContracting := [0]
  lhsNonContracting := [0]
  rhsNonContracting := [1]
  lhsBatch := []
  rhsBatch := []
  wf := dot_S16384x120_S120x112_S16384x112_1_0_0_1_n_n_wf
def gather_S16384x240_S262144x1_S262144x240_1_0_n_n_0_1_1240 : GatherDims S16384x240 S262144x1 S262144x240 where
  offsetDims := [1]
  collapsedSliceDims := [0]
  operandBatchingDims := []
  startIndicesBatchingDims := []
  startIndexMap := [0]
  indexVectorDim := 1
  sliceSizes := ![1, 240]
  wf := gather_S16384x240_S262144x1_S262144x240_1_0_n_n_0_1_1240_wf
def dot_S262144x112_S112x120_S262144x120_1_0_0_1_n_n : DotDims S262144x112 S112x120 S262144x120 where
  lhsContracting := [1]
  rhsContracting := [0]
  lhsNonContracting := [0]
  rhsNonContracting := [1]
  lhsBatch := []
  rhsBatch := []
  wf := dot_S262144x112_S112x120_S262144x120_1_0_0_1_n_n_wf
def dot_S262144x120_S120x120_S262144x120_1_0_0_1_n_n : DotDims S262144x120 S120x120 S262144x120 where
  lhsContracting := [1]
  rhsContracting := [0]
  lhsNonContracting := [0]
  rhsNonContracting := [1]
  lhsBatch := []
  rhsBatch := []
  wf := dot_S262144x120_S120x120_S262144x120_1_0_0_1_n_n_wf
def dot_S262144x20_S20x120_S262144x120_1_0_0_1_n_n : DotDims S262144x20 S20x120 S262144x120 where
  lhsContracting := [1]
  rhsContracting := [0]
  lhsNonContracting := [0]
  rhsNonContracting := [1]
  lhsBatch := []
  rhsBatch := []
  wf := dot_S262144x20_S20x120_S262144x120_1_0_0_1_n_n_wf
def gather_S16384x120_S262144x1_S262144x120_1_0_n_n_0_1_1120 : GatherDims S16384x120 S262144x1 S262144x120 where
  offsetDims := [1]
  collapsedSliceDims := [0]
  operandBatchingDims := []
  startIndicesBatchingDims := []
  startIndexMap := [0]
  indexVectorDim := 1
  sliceSizes := ![1, 120]
  wf := gather_S16384x120_S262144x1_S262144x120_1_0_n_n_0_1_1120_wf
def gather_S16384x112_S262144x1_S262144x112_1_0_n_n_0_1_1112 : GatherDims S16384x112 S262144x1 S262144x112 where
  offsetDims := [1]
  collapsedSliceDims := [0]
  operandBatchingDims := []
  startIndicesBatchingDims := []
  startIndexMap := [0]
  indexVectorDim := 1
  sliceSizes := ![1, 112]
  wf := gather_S16384x112_S262144x1_S262144x112_1_0_n_n_0_1_1112_wf
def scatter_S16384x120_S262144x1_S262144x120_1_0_0_1 : ScatterDims S16384x120 S262144x1 S262144x120 where
  updateWindowDims := [1]
  insertedWindowDims := [0]
  scatterDimsToOperandDims := [0]
  indexVectorDim := 1
  wf := scatter_S16384x120_S262144x1_S262144x120_1_0_0_1_wf
def scatter_S16384x240_S262144x1_S262144x240_1_0_0_1 : ScatterDims S16384x240 S262144x1 S262144x240 where
  updateWindowDims := [1]
  insertedWindowDims := [0]
  scatterDimsToOperandDims := [0]
  indexVectorDim := 1
  wf := scatter_S16384x240_S262144x1_S262144x240_1_0_0_1_wf

class Facts : Prop extends Facts₀ where

variable [Facts]
-- ==== Proof.KMain.lean ====
/-
  The program around its one launch.

  Before the launch the host computes, from the 23 argument arrays, the node-level layer norms and projections and
  gathers their rows per edge (three stretches of host operations: 11, then the 23 of the outlined variance, then 166);
  after it, two scatter-adds put the per-edge messages back on the nodes (17 operations).  Here: what every buffer holds
  when the launch is entered (the fold of the earlier operations over the launch memory), that no host operation ever
  writes an argument array, each window's block at a grid point, and how the frame statement follows from a run whose
  post names every array of the launch.
-/
import proofs.«145672_j73899207295099_1_alg».proof.Proof.Gen.Kernel.Launch
import proofs.«145672_j73899207295099_1_alg».proof.Proof.Gen.Kernel.Skeleton
import proofs.«145672_j73899207295099_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the launch is entered -/

/-- Core `c`'s buffer contents when the launch is entered: the host operations before it, folded over the launch memory. -/
abbrev V0 (c : Dev nD) : Valuation τ sig (Elt F) := StableHlo.after (List.flatten [hostOps0, hostOps0_1, hostOps0_2]) (fun b => m (c, b))
/-- The same, read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is: the earlier host lines, the launch, the later host lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-- The later lines touch the launch's arrays and the bypassing buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop

/-! ## No host operation writes an argument array -/

/-- The argument arrays are the first 23 buffers of HBM; every host operation's result buffer comes after them. -/
def isArg (b : Ref sig .tc) : Bool := decide (b.space = .hbm) && decide (b.idx.val < 23)

theorem ne_of_isArg {y b : Ref sig .tc} (hy : isArg y = false) (hb : isArg b = true) :
    Proc.devRef (τ := τ) .tc b ≠ Proc.devRef .tc y :=
  StableHlo.devRef_ne_of_ne (fun e => by rw [e, hy] at hb; exact Bool.false_ne_true hb)

set_option maxHeartbeats 4000000 in
theorem prologue_keeps : (List.flatten [hostOps0, hostOps0_1, hostOps0_2] : List (HloOp τ sig (Elt F))).Forall
    fun op => ∀ b : Ref sig .tc, isArg b = true → Proc.devRef .tc b ∉ op.writes := by
  simp only [hostOps0, hostOps0_1, hostOps0_2, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, StableHlo.unaryIndexed_writes,
    StableHlo.nary_writes, Finset.mem_singleton]
  repeat' apply And.intro
  all_goals exact fun b hb => ne_of_isArg (by decide) hb

theorem tail_keeps : (hostOps1 : List (HloOp τ sig (Elt F))).Forall
    fun op => ∀ b : Ref sig .tc, isArg b = true → Proc.devRef .tc b ∉ op.writes := by
  simp only [hostOps1, List.Forall, StableHlo.nullary_writes, StableHlo.unary_writes, StableHlo.binary_writes, StableHlo.ternary_writes,
    StableHlo.quaternary_writes, StableHlo.reshape_writes, StableHlo.binaryIndexed_writes, StableHlo.unaryIndexed_writes,
    StableHlo.nary_writes, Finset.mem_singleton]
  repeat' apply And.intro
  all_goals exact fun b hb => ne_of_isArg (by decide) hb

/-- An argument array is, when the launch is entered, as launched. -/
theorem V_arg (c : Dev nD) (b : Ref sig .tc) (hb : isArg b = true) : V m c b = m ((c : Thread nD τ).loc b) :=
  StableHlo.after_of_forall_not_mem (b := Proc.devRef .tc b) _ _
    (fun op hop => (List.forall_iff_forall_mem.mp prologue_keeps) op hop b hb)

/-- The later lines write no array of the launch (each writes only its own result buffer). -/
theorem tail_keeps_arrays : (hostOps1 : List (HloOp τ sig (Elt F))).Forall
    fun op => ∀ w, Proc.devRef .tc (Pipeline.arrRef spec0 w) ∉ op.writes := by
  simp only [hostOps1, List.Forall, StableHlo.nullary_writes, StableHlo.unary_writes, StableHlo.binary_writes, StableHlo.ternary_writes,
    StableHlo.quaternary_writes, StableHlo.reshape_writes, StableHlo.binaryIndexed_writes, StableHlo.unaryIndexed_writes,
    StableHlo.nary_writes, Finset.mem_singleton]
  repeat' apply And.intro
  all_goals intro w; fin_cases w <;> exact StableHlo.devRef_ne_of_ne (by decide)

theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · exact (List.forall_iff_forall_mem.mp tail_keeps_arrays) op hop

/-- An argument array that no window stages ends, after the later lines, as launched. -/
theorem W_arg (dats : (p : Fin _) → (c : Dev nD) → Dat τ (Elt F) Unit ℕ (UR sig nD τ) ℕ (cfgs p) c) (c : Dev nD)
    (b : Ref sig .tc) (hb : isArg b = true) (hnw : ∀ w, Pipeline.arrRef spec0 w ≠ b) :
    Pipeline.afterTail₀ cfgs dats 0 (V0 m) [hostOps1] c b = m ((c : Thread nD τ).loc b) := by
  unfold Pipeline.afterTail₀
  rw [StableHlo.after_of_forall_not_mem (b := Proc.devRef .tc b) _ _
      (fun op hop => (List.forall_iff_forall_mem.mp tail_keeps) op (by simpa only [List.flatten_cons, List.flatten_nil, List.append_nil] using hop) b hb),
    Pipeline.withArrays_of_ne _ c (V0 m c) _ b hnw]
  exact V_arg m c b hb

/-! ## The windows' blocks -/

/-- Window `w`'s block at grid point `t` (512 consecutive edges, or the whole of a weight), read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, whether the point fetched it or not (an
    unfetched window's block index has not moved), for any proof data whose array is the launch-entry one and whose
    body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
theorem before0_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)

/-! ## The frame statement from a run that names the launch's arrays -/

/-- A staged argument array ends as launched: an input window's array is never written back. -/
theorem kept_staged (dats : (p : Fin 1) → (c : Dev nD) → Dat τ (Elt F) Unit ℕ (UR sig nD τ) ℕ (cfgs p) c)
    (hA : ∀ c w, (dats 0 c).A w = V m c (Pipeline.arrRef spec0 w))
    {r : PUnit × MemSt nD τ sig (Elt F)}
    (h : Pipeline.FramePost cfgs dats 0 (Pipeline.afterTail₀ cfgs dats 0 (V0 m) [hostOps1]) r) (c : Dev nD)
    (w : Fin cfg0.W) (hin : (cfg0.win w).isOut = false) (b : Ref sig .tc) (hwb : Pipeline.arrRef spec0 w = b) (hb : isArg b = true) :
    r.2.mem ((c.tc : Thread nD τ).loc b) = m ((c.tc : Thread nD τ).loc b) := by
  subst hwb
  exact ((h c).1 w).trans (((dats 0 c).arrAt_in w hin _).trans ((hA c w).trans (V_arg m c _ hb)))

/-- An argument array no window stages ends as launched. -/
theorem kept_rest (dats : (p : Fin 1) → (c : Dev nD) → Dat τ (Elt F) Unit ℕ (UR sig nD τ) ℕ (cfgs p) c)
    {r : PUnit × MemSt nD τ sig (Elt F)}
    (h : Pipeline.FramePost cfgs dats 0 (Pipeline.afterTail₀ cfgs dats 0 (V0 m) [hostOps1]) r) (c : Dev nD)
    (b : Ref sig .tc) (hb : isArg b = true) (hs : b.isScoped = false) (hnw : ∀ w, Pipeline.arrRef spec0 w ≠ b) :
    r.2.mem ((c.tc : Thread nD τ).loc b) = m ((c.tc : Thread nD τ).loc b) :=
  ((h c).2 b (Pipeline.mem_restRefs_of b hs (fun w => hnw w))).trans (W_arg m dats c b hb hnw)

/-- The frame statement: from a run to the library's post over any proof data whose arrays are the launch-entry contents. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run defs _ _).mono (fun _ h c => ⟨
    (kept_rest m dats h c main_arg0 (by decide) (by decide) (by decide)),
    (kept_rest m dats h c main_arg1 (by decide) (by decide) (by decide)),
    (kept_staged m dats hA h c 0 rfl main_arg2 rfl (by decide)),
    (kept_staged m dats hA h c 1 rfl main_arg3 rfl (by decide)),
    (kept_staged m dats hA h c 2 rfl main_arg4 rfl (by decide)),
    (kept_rest m dats h c main_arg5 (by decide) (by decide) (by decide)),
    (kept_rest m dats h c main_arg6 (by decide) (by decide) (by decide)),
    (kept_rest m dats h c main_arg7 (by decide) (by decide) (by decide)),
    (kept_rest m dats h c main_arg8 (by decide) (by decide) (by decide)),
    (kept_rest m dats h c main_arg9 (by decide) (by decide) (by decide)),
    (kept_rest m dats h c main_arg10 (by decide) (by decide) (by decide)),
    (kept_rest m dats h c main_arg11 (by decide) (by decide) (by decide)),
    (kept_rest m dats h c main_arg12 (by decide) (by decide) (by decide)),
    (kept_rest m dats h c main_arg13 (by decide) (by decide) (by decide)),
    (kept_rest m dats h c main_arg14 (by decide) (by decide) (by decide)),
    (kept_staged m dats hA h c 15 rfl main_arg15 rfl (by decide)),
    (kept_rest m dats h c main_arg16 (by decide) (by decide) (by decide)),
    (kept_staged m dats hA h c 17 rfl main_arg17 rfl (by decide)),
    (kept_rest m dats h c main_arg18 (by decide) (by decide) (by decide)),
    (kept_staged m dats hA h c 11 rfl main_arg19 rfl (by decide)),
    (kept_rest m dats h c main_arg20 (by decide) (by decide) (by decide)),
    (kept_staged m dats hA h c 13 rfl main_arg21 rfl (by decide)),
    (kept_rest m dats h c main_arg22 (by decide) (by decide) (by decide))⟩) h

end Cert.Kernel.Hand

end
-- ==== Proof.KBodyOut.lean ====
/-
  What the edge kernel's body leaves in its two output buffers, as functions of the eighteen input blocks.

  One grid point handles 512 consecutive edges.  The body loads every input block whole (radial basis, cutoff,
  spherical harmonics, the equivariant difference, the six gathered projections, and the eight filter weights and
  biases), computes the scalar message (512 × 120) and the equivariant message (512 × 240), and stores each whole.
  So each output buffer ends as the one whole-rectangle store of the corresponding payload of the loaded blocks.
-/
import proofs.«145672_j73899207295099_1_alg».proof.Proof.Gen.Kernel.Skeleton
import Idealize.ShloMosaic.Lib.Pipeline.FrameBody

set_option maxRecDepth 16384

noncomputable section

namespace Cert.Kernel.Hand

open Idealize.ShloMosaic Idealize.ShloMosaic.TcCoe Idealize.SL.Sem
open Cert.Kernel Cert.Kernel.Gen

variable {F : FTy → Type} [FloatOps F]

/-- The whole rectangle of each block shape the body touches. -/
abbrev rE20 : Rect S512x20 := Rect.unit (s := S512x20) ![0, 0] S512x20.size inb_S512x20_S512x20_0_0
abbrev rE1 : Rect S512x1 := Rect.unit (s := S512x1) ![0, 0] S512x1.size inb_S512x1_S512x1_0_0
abbrev rE240 : Rect S512x240 := Rect.unit (s := S512x240) ![0, 0] S512x240.size inb_S512x240_S512x240_0_0
abbrev rE120 : Rect S512x120 := Rect.unit (s := S512x120) ![0, 0] S512x120.size inb_S512x120_S512x120_0_0
abbrev rE112 : Rect S512x112 := Rect.unit (s := S512x112) ![0, 0] S512x112.size inb_S512x112_S512x112_0_0
abbrev rW112 : Rect S112x120 := Rect.unit (s := S112x120) ![0, 0] S112x120.size inb_S112x120_S112x120_0_0
abbrev rW120 : Rect S120x120 := Rect.unit (s := S120x120) ![0, 0] S120x120.size inb_S120x120_S120x120_0_0
abbrev rW20 : Rect S20x120 := Rect.unit (s := S20x120) ![0, 0] S20x120.size inb_S20x120_S20x120_0_0
abbrev rB : Rect S120 := Rect.unit (s := S120) ![0] S120.size inb_S120_S120_0

/-- The filter weight per edge and channel, (MLP(invariants of the difference) + MLP(radial basis)) · cutoff, from the
    loaded blocks: the payload the body names for it. -/
def wij (x0 : Vec F S512x20 .f32) (x1 : Vec F S512x1 .f32) (x3 : Vec F S512x240 .f32)
    (x10 : Vec F S112x120 .bf16) (x11 : Vec F S120 .f32) (x12 : Vec F S120x120 .bf16) (x13 : Vec F S120 .f32)
    (x14 : Vec F S20x120 .bf16) (x15 : Vec F S120 .f32) (x16 : Vec F S120x120 .bf16) (x17 : Vec F S120 .f32) : FVec F S512x120 .f32 :=
  k0_pay11 (View.ld x0 rE20) (View.ld x1 rE1) (k0_pay9 (View.ld x3 rE240)) (k0_pay10 (View.ld x10 rW112)) (View.ld x11 rB)
    (View.ld x12 rW120) (View.ld x13 rB) (View.ld x14 rW20) (View.ld x15 rB) (View.ld x16 rW120) (View.ld x17 rB)

/-- The scalar-message buffer (output window 18) after the body: its one whole store, of the per-head attention weight
    times the gathered value rows. -/
def out0_18 (x0 : Vec F S512x20 .f32) (x1 : Vec F S512x1 .f32) (x3 : Vec F S512x240 .f32)
    (x4 x5 x6 : Vec F S512x120 .f32)
    (x10 : Vec F S112x120 .bf16) (x11 : Vec F S120 .f32) (x12 : Vec F S120x120 .bf16) (x13 : Vec F S120 .f32)
    (x14 : Vec F S20x120 .bf16) (x15 : Vec F S120 .f32) (x16 : Vec F S120x120 .bf16) (x17 : Vec F S120 .f32) : Vec F S512x120 .f32 :=
  View.canon [⟨rE120, k0_pay1 (k0_pay12 (k0_pay5 (View.ld x6 rE120)))
    (k0_pay13 (View.ld x0 rE20) (View.ld x1 rE1) (k0_pay3 (View.ld x4 rE120)) (k0_pay4 (View.ld x5 rE120)) (k0_pay9 (View.ld x3 rE240))
      (k0_pay10 (View.ld x10 rW112)) (View.ld x11 rB) (View.ld x12 rW120) (View.ld x13 rB) (View.ld x14 rW20) (View.ld x15 rB)
      (View.ld x16 rW120) (View.ld x17 rB))⟩]

/-- The equivariant-message buffer (output window 19) after the body: its one whole store, of the spherical harmonics
    times the per-irrep gate times the cutoff. -/
def out0_19 (x0 : Vec F S512x20 .f32) (x1 : Vec F S512x1 .f32) (x2 x3 : Vec F S512x240 .f32)
    (x7 x8 : Vec F S512x120 .f32) (x9 : Vec F S512x112 .f32)
    (x10 : Vec F S112x120 .bf16) (x11 : Vec F S120 .f32) (x12 : Vec F S120x120 .bf16) (x13 : Vec F S120 .f32)
    (x14 : Vec F S20x120 .bf16) (x15 : Vec F S120 .f32) (x16 : Vec F S120x120 .bf16) (x17 : Vec F S120 .f32) : Vec F S512x240 .f32 :=
  View.canon [⟨rE240, k0_pay2 (View.ld x1 rE1) (View.ld x2 rE240) (k0_pay6 (View.ld x7 rE120)) (k0_pay7 (View.ld x8 rE120))
    (k0_pay8 (View.ld x9 rE112)) (wij x0 x1 x3 x10 x11 x12 x13 x14 x15 x16 x17)⟩]

/-- One whole-rectangle store covers the buffer. -/
theorem cover0_18 (p0 : Vec F S512x120 .f32) (y : S512x120.Idx) :
    ∃ pc ∈ ([⟨rE120, p0⟩] : List (View.Piece (Elt F) S512x120 .f32)), y ∈ pc.1.set :=
  View.cover_of_tiled [⟨rE120, p0⟩] S512x120.size (by rfl) y

theorem cover0_19 (p0 : Vec F S512x240 .f32) (y : S512x240.Idx) :
    ∃ pc ∈ ([⟨rE240, p0⟩] : List (View.Piece (Elt F) S512x240 .f32)), y ∈ pc.1.set :=
  View.cover_of_tiled [⟨rE240, p0⟩] S512x240.size (by rfl) y

end Cert.Kernel.Hand

end
-- ==== Proof.KBodyRun.lean ====
/-
  The edge kernel's body, run on whole staging memrefs.

  With the eighteen input buffers held at the blocks x0 … x17 and the two output buffers held at anything, the body
  reads every input whole, reads each output buffer (a value it never uses) and overwrites it whole, once.  So it
  returns every input buffer as it was, and each output buffer at the canonical form of its one whole store
  (out0_18, out0_19): a whole store covers the buffer, whatever it held before.
-/
import proofs.«145672_j73899207295099_1_alg».proof.Proof.KBodyOut
import proofs.«145672_j73899207295099_1_alg».proof.Proof.Gen.Kernel.Launch
import proofs.«145672_j73899207295099_1_alg».proof.Proof.Gen.Kernel.Skeleton
import proofs.«145672_j73899207295099_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body's triple: from the inputs' buffers at their blocks and the outputs' at anything, to the continuation
    holding the inputs' unchanged and each output's at the canon of its whole store. -/
theorem sound_kernel (c : Dev nD) (E : Set ℕ) (i : grid0.Coords)
    (arg1 : Memref sig .tc .vmem S512x20 .f32) (harg1 : arg1.IsWhole)
    (arg2 : Memref sig .tc .vmem S512x1 .f32) (harg2 : arg2.IsWhole)
    (arg3 : Memref sig .tc .vmem S512x240 .f32) (harg3 : arg3.IsWhole)
    (arg4 : Memref sig .tc .vmem S512x240 .f32) (harg4 : arg4.IsWhole)
    (arg5 : Memref sig .tc .vmem S512x120 .f32) (harg5 : arg5.IsWhole)
    (arg6 : Memref sig .tc .vmem S512x120 .f32) (harg6 : arg6.IsWhole)
    (arg7 : Memref sig .tc .vmem S512x120 .f32) (harg7 : arg7.IsWhole)
    (arg8 : Memref sig .tc .vmem S512x120 .f32) (harg8 : arg8.IsWhole)
    (arg9 : Memref sig .tc .vmem S512x120 .f32) (harg9 : arg9.IsWhole)
    (arg10 : Memref sig .tc .vmem S512x112 .f32) (harg10 : arg10.IsWhole)
    (arg11 : Memref sig .tc .vmem S112x120 .bf16) (harg11 : arg11.IsWhole)
    (arg12 : Memref sig .tc .vmem S120 .f32) (harg12 : arg12.IsWhole)
    (arg13 : Memref sig .tc .vmem S120x120 .bf16) (harg13 : arg13.IsWhole)
    (arg14 : Memref sig .tc .vmem S120 .f32) (harg14 : arg14.IsWhole)
    (arg15 : Memref sig .tc .vmem S20x120 .bf16) (harg15 : arg15.IsWhole)
    (arg16 : Memref sig .tc .vmem S120 .f32) (harg16 : arg16.IsWhole)
    (arg17 : Memref sig .tc .vmem S120x120 .bf16) (harg17 : arg17.IsWhole)
    (arg18 : Memref sig .tc .vmem S120 .f32) (harg18 : arg18.IsWhole)
    (arg19 : Memref sig .tc .vmem S512x120 .f32) (harg19 : arg19.IsWhole)
    (arg20 : Memref sig .tc .vmem S512x240 .f32) (harg20 : arg20.IsWhole)
    (x0 : Vec F S512x20 .f32) (x1 : Vec F S512x1 .f32) (x2 : Vec F S512x240 .f32) (x3 : Vec F S512x240 .f32) (x4 : Vec F S512x120 .f32) (x5 : Vec F S512x120 .f32) (x6 : Vec F S512x120 .f32) (x7 : Vec F S512x120 .f32) (x8 : Vec F S512x120 .f32) (x9 : Vec F S512x112 .f32) (x10 : Vec F S112x120 .bf16) (x11 : Vec F S120 .f32) (x12 : Vec F S120x120 .bf16) (x13 : Vec F S120 .f32) (x14 : Vec F S20x120 .bf16) (x15 : Vec F S120 .f32) (x16 : Vec F S120x120 .bf16) (x17 : Vec F S120 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17
        ∗ (∃ d, owns (c : Thread nD τ) arg19 fullShare d) ∗ (∃ d, owns (c : Thread nD τ) arg20 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17
            ∗ owns (c : Thread nD τ) arg19 fullShare (out0_18 x0 x1 x3 x4 x5 x6 x10 x11 x12 x13 x14 x15 x16 x17)
            ∗ owns (c : Thread nD τ) arg20 fullShare (out0_19 x0 x1 x2 x3 x7 x8 x9 x10 x11 x12 x13 x14 x15 x16 x17)) -∗ K ⟨⟩))
      ⊢ wp frame (wpE (defs₀ (F := F)) Variants.none c none) E
          (cc0__edge_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0__edge_kernel_eq_skeleton]; unfold cc0__edge_kernel_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%d19, %f19, -, H19⟩, Hk⟩
  subst hf0 hf1 hf2 hf3 hf4 hf5 hf6 hf7 hf8 hf9 hf10 hf11 hf12 hf13 hf14 hf15 hf16 hf17
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists _; isplitr
    swap; · iexact H18
    ipureintro
    try dsimp only
    exact View.read_writes_eq_canon _ _ _ (cover0_18 _)
  iexists _; isplitr
  swap; · iexact H19
  ipureintro
  try dsimp only
  exact View.read_writes_eq_canon _ _ _ (cover0_19 _)

end Cert.Kernel.Hand

end
-- ==== Proof.KFrame.lean ====
/-
  The frame of the program: it runs to the end, faults nowhere, and leaves its 23 argument arrays unchanged.

  The proof data of the one launch on a core: each window's array as the launch finds it; after the body at grid
  point t (edges 512·t … 512·t + 511) each input buffer still at its block and the two output buffers at the scalar
  and the equivariant message of the blocks; nothing owed, full shares, the untouched rest as the invariant.  The body's
  triple at symbolic blocks then gives the body obligation at every point, and the launch theorem for a program that
  continues with host lines gives the run; the frame statement is read off its post.
-/
import proofs.«145672_j73899207295099_1_alg».proof.Proof.KMain
import proofs.«145672_j73899207295099_1_alg».proof.Proof.KBodyOut
import proofs.«145672_j73899207295099_1_alg».proof.Proof.KBodyRun

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => out0_18 (iblk m c 0 t) (iblk m c 1 t) (iblk m c 3 t) (iblk m c 4 t) (iblk m c 5 t) (iblk m c 6 t) (iblk m c 10 t) (iblk m c 11 t) (iblk m c 12 t) (iblk m c 13 t) (iblk m c 14 t) (iblk m c 15 t) (iblk m c 16 t) (iblk m c 17 t)
    | ⟨19, _⟩ => out0_19 (iblk m c 0 t) (iblk m c 1 t) (iblk m c 2 t) (iblk m c 3 t) (iblk m c 7 t) (iblk m c 8 t) (iblk m c 9 t) (iblk m c 10 t) (iblk m c 11 t) (iblk m c 12 t) (iblk m c 13 t) (iblk m c 14 t) (iblk m c 15 t) (iblk m c 16 t) (iblk m c 17 t)
    | ⟨n + 20, h⟩ => absurd h (Nat.not_lt.2 (Nat.le_add_left 20 n))
  Φ _ := Pipeline.ΦA spec0 c
  q _ := fullShare
  owed _ := 0

/-- The proof data's arrays are the launch-entry contents (the definition projected, the fold never opened). -/
theorem A_eq (c : Dev nD) (w : Fin cfg0.W) : (dats m 0 c).A w = V m c (Pipeline.arrRef spec0 w) := by
  dsimp only [dats]

/-! What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = out0_18 (iblk m c 0 t) (iblk m c 1 t) (iblk m c 3 t) (iblk m c 4 t) (iblk m c 5 t) (iblk m c 6 t) (iblk m c 10 t) (iblk m c 11 t) (iblk m c 12 t) (iblk m c 13 t) (iblk m c 14 t) (iblk m c 15 t) (iblk m c 16 t) (iblk m c 17 t) := by dsimp only [dats]
theorem after0_19 (c : Dev nD) (t : Fin cfg0.N) : (dats m 0 c).after 19 t = out0_19 (iblk m c 0 t) (iblk m c 1 t) (iblk m c 2 t) (iblk m c 3 t) (iblk m c 7 t) (iblk m c 8 t) (iblk m c 9 t) (iblk m c 10 t) (iblk m c 11 t) (iblk m c 12 t) (iblk m c 13 t) (iblk m c 14 t) (iblk m c 15 t) (iblk m c 16 t) (iblk m c 17 t) := by dsimp only [dats]

/-! Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d

/-! ## The body obligation at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t))

set_option maxHeartbeats 4000000 in
/-- The body at any point: the inputs' buffers hold their blocks, so the body's triple applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply (sound_kernel c Set.univ (grid0.coords t) _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexists _; iexact H18
  isplitl [H19]; · iexists _; iexact H19
  iintro ⟨H0, H1, H2, H3, H4, H5, H6, H7, H8, H9, H10, H11, H12, H13, H14, H15, H16, H17, H18, H19⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, and in every final state each array of the launch holds what
    the proof data's write-backs leave and every other unscoped buffer what the later host lines leave. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame statement at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  frame_of m ρ (dats m) (A_eq m) (run_main m ρ)

end Cert.Kernel.Hand

end
-- ==== Proof.KIMain.lean ====
/-
  The program around its one launch.

  Before the launch the host computes, from the 23 argument arrays, the node-level layer norms and projections and
  gathers their rows per edge (three stretches of host operations: 11, then the 23 of the outlined variance, then 166);
  after it, two scatter-adds put the per-edge messages back on the nodes (17 operations).  Here: what every buffer holds
  when the launch is entered (the fold of the earlier operations over the launch memory), that no host operation ever
  writes an argument array, each window's block at a grid point, and how the frame statement follows from a run whose
  post names every array of the launch.
-/
import proofs.«145672_j73899207295099_1_alg».proof.Proof.Gen.KernelIdeal.Launch
import proofs.«145672_j73899207295099_1_alg».proof.Proof.Gen.KernelIdeal.Skeleton
import proofs.«145672_j73899207295099_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the launch is entered -/

/-- Core `c`'s buffer contents when the launch is entered: the host operations before it, folded over the launch memory. -/
abbrev V0 (c : Dev nD) : Valuation τ sig (Elt F) := StableHlo.after (List.flatten [hostOps0, hostOps0_1, hostOps0_2]) (fun b => m (c, b))
/-- The same, read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is: the earlier host lines, the launch, the later host lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-- The later lines touch the launch's arrays and the bypassing buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop

/-! ## No host operation writes an argument array -/

/-- The argument arrays are the first 23 buffers of HBM; every host operation's result buffer comes after them. -/
def isArg (b : Ref sig .tc) : Bool := decide (b.space = .hbm) && decide (b.idx.val < 23)

theorem ne_of_isArg {y b : Ref sig .tc} (hy : isArg y = false) (hb : isArg b = true) :
    Proc.devRef (τ := τ) .tc b ≠ Proc.devRef .tc y :=
  StableHlo.devRef_ne_of_ne (fun e => by rw [e, hy] at hb; exact Bool.false_ne_true hb)

set_option maxHeartbeats 4000000 in
theorem prologue_keeps : (List.flatten [hostOps0, hostOps0_1, hostOps0_2] : List (HloOp τ sig (Elt F))).Forall
    fun op => ∀ b : Ref sig .tc, isArg b = true → Proc.devRef .tc b ∉ op.writes := by
  simp only [hostOps0, hostOps0_1, hostOps0_2, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, StableHlo.unaryIndexed_writes,
    StableHlo.nary_writes, Finset.mem_singleton]
  repeat' apply And.intro
  all_goals exact fun b hb => ne_of_isArg (by decide) hb

theorem tail_keeps : (hostOps1 : List (HloOp τ sig (Elt F))).Forall
    fun op => ∀ b : Ref sig .tc, isArg b = true → Proc.devRef .tc b ∉ op.writes := by
  simp only [hostOps1, List.Forall, StableHlo.nullary_writes, StableHlo.unary_writes, StableHlo.binary_writes, StableHlo.ternary_writes,
    StableHlo.quaternary_writes, StableHlo.reshape_writes, StableHlo.binaryIndexed_writes, StableHlo.unaryIndexed_writes,
    StableHlo.nary_writes, Finset.mem_singleton]
  repeat' apply And.intro
  all_goals exact fun b hb => ne_of_isArg (by decide) hb

/-- An argument array is, when the launch is entered, as launched. -/
theorem V_arg (c : Dev nD) (b : Ref sig .tc) (hb : isArg b = true) : V m c b = m ((c : Thread nD τ).loc b) :=
  StableHlo.after_of_forall_not_mem (b := Proc.devRef .tc b) _ _
    (fun op hop => (List.forall_iff_forall_mem.mp prologue_keeps) op hop b hb)

/-- The later lines write no array of the launch (each writes only its own result buffer). -/
theorem tail_keeps_arrays : (hostOps1 : List (HloOp τ sig (Elt F))).Forall
    fun op => ∀ w, Proc.devRef .tc (Pipeline.arrRef spec0 w) ∉ op.writes := by
  simp only [hostOps1, List.Forall, StableHlo.nullary_writes, StableHlo.unary_writes, StableHlo.binary_writes, StableHlo.ternary_writes,
    StableHlo.quaternary_writes, StableHlo.reshape_writes, StableHlo.binaryIndexed_writes, StableHlo.unaryIndexed_writes,
    StableHlo.nary_writes, Finset.mem_singleton]
  repeat' apply And.intro
  all_goals intro w; fin_cases w <;> exact StableHlo.devRef_ne_of_ne (by decide)

theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · exact (List.forall_iff_forall_mem.mp tail_keeps_arrays) op hop

/-- An argument array that no window stages ends, after the later lines, as launched. -/
theorem W_arg (dats : (p : Fin _) → (c : Dev nD) → Dat τ (Elt F) Unit ℕ (UR sig nD τ) ℕ (cfgs p) c) (c : Dev nD)
    (b : Ref sig .tc) (hb : isArg b = true) (hnw : ∀ w, Pipeline.arrRef spec0 w ≠ b) :
    Pipeline.afterTail₀ cfgs dats 0 (V0 m) [hostOps1] c b = m ((c : Thread nD τ).loc b) := by
  unfold Pipeline.afterTail₀
  rw [StableHlo.after_of_forall_not_mem (b := Proc.devRef .tc b) _ _
      (fun op hop => (List.forall_iff_forall_mem.mp tail_keeps) op (by simpa only [List.flatten_cons, List.flatten_nil, List.append_nil] using hop) b hb),
    Pipeline.withArrays_of_ne _ c (V0 m c) _ b hnw]
  exact V_arg m c b hb

/-! ## The windows' blocks -/

/-- Window `w`'s block at grid point `t` (512 consecutive edges, or the whole of a weight), read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, whether the point fetched it or not (an
    unfetched window's block index has not moved), for any proof data whose array is the launch-entry one and whose
    body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
theorem before0_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)

/-! ## The frame statement from a run that names the launch's arrays -/

/-- A staged argument array ends as launched: an input window's array is never written back. -/
theorem kept_staged (dats : (p : Fin 1) → (c : Dev nD) → Dat τ (Elt F) Unit ℕ (UR sig nD τ) ℕ (cfgs p) c)
    (hA : ∀ c w, (dats 0 c).A w = V m c (Pipeline.arrRef spec0 w))
    {r : PUnit × MemSt nD τ sig (Elt F)}
    (h : Pipeline.FramePost cfgs dats 0 (Pipeline.afterTail₀ cfgs dats 0 (V0 m) [hostOps1]) r) (c : Dev nD)
    (w : Fin cfg0.W) (hin : (cfg0.win w).isOut = false) (b : Ref sig .tc) (hwb : Pipeline.arrRef spec0 w = b) (hb : isArg b = true) :
    r.2.mem ((c.tc : Thread nD τ).loc b) = m ((c.tc : Thread nD τ).loc b) := by
  subst hwb
  exact ((h c).1 w).trans (((dats 0 c).arrAt_in w hin _).trans ((hA c w).trans (V_arg m c _ hb)))

/-- An argument array no window stages ends as launched. -/
theorem kept_rest (dats : (p : Fin 1) → (c : Dev nD) → Dat τ (Elt F) Unit ℕ (UR sig nD τ) ℕ (cfgs p) c)
    {r : PUnit × MemSt nD τ sig (Elt F)}
    (h : Pipeline.FramePost cfgs dats 0 (Pipeline.afterTail₀ cfgs dats 0 (V0 m) [hostOps1]) r) (c : Dev nD)
    (b : Ref sig .tc) (hb : isArg b = true) (hs : b.isScoped = false) (hnw : ∀ w, Pipeline.arrRef spec0 w ≠ b) :
    r.2.mem ((c.tc : Thread nD τ).loc b) = m ((c.tc : Thread nD τ).loc b) :=
  ((h c).2 b (Pipeline.mem_restRefs_of b hs (fun w => hnw w))).trans (W_arg m dats c b hb hnw)

/-- The frame statement: from a run to the library's post over any proof data whose arrays are the launch-entry contents. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run defs _ _).mono (fun _ h c => ⟨
    (kept_rest m dats h c main_arg0 (by decide) (by decide) (by decide)),
    (kept_rest m dats h c main_arg1 (by decide) (by decide) (by decide)),
    (kept_staged m dats hA h c 0 rfl main_arg2 rfl (by decide)),
    (kept_staged m dats hA h c 1 rfl main_arg3 rfl (by decide)),
    (kept_staged m dats hA h c 2 rfl main_arg4 rfl (by decide)),
    (kept_rest m dats h c main_arg5 (by decide) (by decide) (by decide)),
    (kept_rest m dats h c main_arg6 (by decide) (by decide) (by decide)),
    (kept_rest m dats h c main_arg7 (by decide) (by decide) (by decide)),
    (kept_rest m dats h c main_arg8 (by decide) (by decide) (by decide)),
    (kept_rest m dats h c main_arg9 (by decide) (by decide) (by decide)),
    (kept_rest m dats h c main_arg10 (by decide) (by decide) (by decide)),
    (kept_rest m dats h c main_arg11 (by decide) (by decide) (by decide)),
    (kept_rest m dats h c main_arg12 (by decide) (by decide) (by decide)),
    (kept_rest m dats h c main_arg13 (by decide) (by decide) (by decide)),
    (kept_rest m dats h c main_arg14 (by decide) (by decide) (by decide)),
    (kept_staged m dats hA h c 15 rfl main_arg15 rfl (by decide)),
    (kept_rest m dats h c main_arg16 (by decide) (by decide) (by decide)),
    (kept_staged m dats hA h c 17 rfl main_arg17 rfl (by decide)),
    (kept_rest m dats h c main_arg18 (by decide) (by decide) (by decide)),
    (kept_staged m dats hA h c 11 rfl main_arg19 rfl (by decide)),
    (kept_rest m dats h c main_arg20 (by decide) (by decide) (by decide)),
    (kept_staged m dats hA h c 13 rfl main_arg21 rfl (by decide)),
    (kept_rest m dats h c main_arg22 (by decide) (by decide) (by decide))⟩) h

end Cert.KernelIdeal.Hand

end
-- ==== Proof.KIBodyOut.lean ====
/-
  What the edge kernel's body leaves in its two output buffers, as functions of the eighteen input blocks.

  One grid point handles 512 consecutive edges.  The body loads every input block whole (radial basis, cutoff,
  spherical harmonics, the equivariant difference, the six gathered projections, and the eight filter weights and
  biases), computes the scalar message (512 × 120) and the equivariant message (512 × 240), and stores each whole.
  So each output buffer ends as the one whole-rectangle store of the corresponding payload of the loaded blocks.
-/
import proofs.«145672_j73899207295099_1_alg».proof.Proof.Gen.KernelIdeal.Skeleton
import Idealize.ShloMosaic.Lib.Pipeline.FrameBody

set_option maxRecDepth 16384

noncomputable section

namespace Cert.KernelIdeal.Hand

open Idealize.ShloMosaic Idealize.ShloMosaic.TcCoe Idealize.SL.Sem
open Cert.KernelIdeal Cert.KernelIdeal.Gen

variable {F : FTy → Type} [FloatOps F]

/-- The whole rectangle of each block shape the body touches. -/
abbrev rE20 : Rect S512x20 := Rect.unit (s := S512x20) ![0, 0] S512x20.size inb_S512x20_S512x20_0_0
abbrev rE1 : Rect S512x1 := Rect.unit (s := S512x1) ![0, 0] S512x1.size inb_S512x1_S512x1_0_0
abbrev rE240 : Rect S512x240 := Rect.unit (s := S512x240) ![0, 0] S512x240.size inb_S512x240_S512x240_0_0
abbrev rE120 : Rect S512x120 := Rect.unit (s := S512x120) ![0, 0] S512x120.size inb_S512x120_S512x120_0_0
abbrev rE112 : Rect S512x112 := Rect.unit (s := S512x112) ![0, 0] S512x112.size inb_S512x112_S512x112_0_0
abbrev rW112 : Rect S112x120 := Rect.unit (s := S112x120) ![0, 0] S112x120.size inb_S112x120_S112x120_0_0
abbrev rW120 : Rect S120x120 := Rect.unit (s := S120x120) ![0, 0] S120x120.size inb_S120x120_S120x120_0_0
abbrev rW20 : Rect S20x120 := Rect.unit (s := S20x120) ![0, 0] S20x120.size inb_S20x120_S20x120_0_0
abbrev rB : Rect S120 := Rect.unit (s := S120) ![0] S120.size inb_S120_S120_0

/-- The filter weight per edge and channel, (MLP(invariants of the difference) + MLP(radial basis)) · cutoff, from the
    loaded blocks: the payload the body names for it. -/
def wij (x0 : Vec F S512x20 .f32) (x1 : Vec F S512x1 .f32) (x3 : Vec F S512x240 .f32)
    (x10 : Vec F S112x120 .bf16) (x11 : Vec F S120 .f32) (x12 : Vec F S120x120 .bf16) (x13 : Vec F S120 .f32)
    (x14 : Vec F S20x120 .bf16) (x15 : Vec F S120 .f32) (x16 : Vec F S120x120 .bf16) (x17 : Vec F S120 .f32) : FVec F S512x120 .f32 :=
  k0_pay11 (View.ld x0 rE20) (View.ld x1 rE1) (k0_pay9 (View.ld x3 rE240)) (k0_pay10 (View.ld x10 rW112)) (View.ld x11 rB)
    (View.ld x12 rW120) (View.ld x13 rB) (View.ld x14 rW20) (View.ld x15 rB) (View.ld x16 rW120) (View.ld x17 rB)

/-- The scalar-message buffer (output window 18) after the body: its one whole store, of the per-head attention weight
    times the gathered value rows. -/
def out0_18 (x0 : Vec F S512x20 .f32) (x1 : Vec F S512x1 .f32) (x3 : Vec F S512x240 .f32)
    (x4 x5 x6 : Vec F S512x120 .f32)
    (x10 : Vec F S112x120 .bf16) (x11 : Vec F S120 .f32) (x12 : Vec F S120x120 .bf16) (x13 : Vec F S120 .f32)
    (x14 : Vec F S20x120 .bf16) (x15 : Vec F S120 .f32) (x16 : Vec F S120x120 .bf16) (x17 : Vec F S120 .f32) : Vec F S512x120 .f32 :=
  View.canon [⟨rE120, k0_pay1 (k0_pay12 (k0_pay5 (View.ld x6 rE120)))
    (k0_pay13 (View.ld x0 rE20) (View.ld x1 rE1) (k0_pay3 (View.ld x4 rE120)) (k0_pay4 (View.ld x5 rE120)) (k0_pay9 (View.ld x3 rE240))
      (k0_pay10 (View.ld x10 rW112)) (View.ld x11 rB) (View.ld x12 rW120) (View.ld x13 rB) (View.ld x14 rW20) (View.ld x15 rB)
      (View.ld x16 rW120) (View.ld x17 rB))⟩]

/-- The equivariant-message buffer (output window 19) after the body: its one whole store, of the spherical harmonics
    times the per-irrep gate times the cutoff. -/
def out0_19 (x0 : Vec F S512x20 .f32) (x1 : Vec F S512x1 .f32) (x2 x3 : Vec F S512x240 .f32)
    (x7 x8 : Vec F S512x120 .f32) (x9 : Vec F S512x112 .f32)
    (x10 : Vec F S112x120 .bf16) (x11 : Vec F S120 .f32) (x12 : Vec F S120x120 .bf16) (x13 : Vec F S120 .f32)
    (x14 : Vec F S20x120 .bf16) (x15 : Vec F S120 .f32) (x16 : Vec F S120x120 .bf16) (x17 : Vec F S120 .f32) : Vec F S512x240 .f32 :=
  View.canon [⟨rE240, k0_pay2 (View.ld x1 rE1) (View.ld x2 rE240) (k0_pay6 (View.ld x7 rE120)) (k0_pay7 (View.ld x8 rE120))
    (k0_pay8 (View.ld x9 rE112)) (wij x0 x1 x3 x10 x11 x12 x13 x14 x15 x16 x17)⟩]

/-- One whole-rectangle store covers the buffer. -/
theorem cover0_18 (p0 : Vec F S512x120 .f32) (y : S512x120.Idx) :
    ∃ pc ∈ ([⟨rE120, p0⟩] : List (View.Piece (Elt F) S512x120 .f32)), y ∈ pc.1.set :=
  View.cover_of_tiled [⟨rE120, p0⟩] S512x120.size (by rfl) y

theorem cover0_19 (p0 : Vec F S512x240 .f32) (y : S512x240.Idx) :
    ∃ pc ∈ ([⟨rE240, p0⟩] : List (View.Piece (Elt F) S512x240 .f32)), y ∈ pc.1.set :=
  View.cover_of_tiled [⟨rE240, p0⟩] S512x240.size (by rfl) y

end Cert.KernelIdeal.Hand

end
-- ==== Proof.KIBodyRun.lean ====
/-
  The edge kernel's body, run on whole staging memrefs.

  With the eighteen input buffers held at the blocks x0 … x17 and the two output buffers held at anything, the body
  reads every input whole, reads each output buffer (a value it never uses) and overwrites it whole, once.  So it
  returns every input buffer as it was, and each output buffer at the canonical form of its one whole store
  (out0_18, out0_19): a whole store covers the buffer, whatever it held before.
-/
import proofs.«145672_j73899207295099_1_alg».proof.Proof.KIBodyOut
import proofs.«145672_j73899207295099_1_alg».proof.Proof.Gen.KernelIdeal.Launch
import proofs.«145672_j73899207295099_1_alg».proof.Proof.Gen.KernelIdeal.Skeleton
import proofs.«145672_j73899207295099_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body's triple: from the inputs' buffers at their blocks and the outputs' at anything, to the continuation
    holding the inputs' unchanged and each output's at the canon of its whole store. -/
theorem sound_kernel (c : Dev nD) (E : Set ℕ) (i : grid0.Coords)
    (arg1 : Memref sig .tc .vmem S512x20 .f32) (harg1 : arg1.IsWhole)
    (arg2 : Memref sig .tc .vmem S512x1 .f32) (harg2 : arg2.IsWhole)
    (arg3 : Memref sig .tc .vmem S512x240 .f32) (harg3 : arg3.IsWhole)
    (arg4 : Memref sig .tc .vmem S512x240 .f32) (harg4 : arg4.IsWhole)
    (arg5 : Memref sig .tc .vmem S512x120 .f32) (harg5 : arg5.IsWhole)
    (arg6 : Memref sig .tc .vmem S512x120 .f32) (harg6 : arg6.IsWhole)
    (arg7 : Memref sig .tc .vmem S512x120 .f32) (harg7 : arg7.IsWhole)
    (arg8 : Memref sig .tc .vmem S512x120 .f32) (harg8 : arg8.IsWhole)
    (arg9 : Memref sig .tc .vmem S512x120 .f32) (harg9 : arg9.IsWhole)
    (arg10 : Memref sig .tc .vmem S512x112 .f32) (harg10 : arg10.IsWhole)
    (arg11 : Memref sig .tc .vmem S112x120 .bf16) (harg11 : arg11.IsWhole)
    (arg12 : Memref sig .tc .vmem S120 .f32) (harg12 : arg12.IsWhole)
    (arg13 : Memref sig .tc .vmem S120x120 .bf16) (harg13 : arg13.IsWhole)
    (arg14 : Memref sig .tc .vmem S120 .f32) (harg14 : arg14.IsWhole)
    (arg15 : Memref sig .tc .vmem S20x120 .bf16) (harg15 : arg15.IsWhole)
    (arg16 : Memref sig .tc .vmem S120 .f32) (harg16 : arg16.IsWhole)
    (arg17 : Memref sig .tc .vmem S120x120 .bf16) (harg17 : arg17.IsWhole)
    (arg18 : Memref sig .tc .vmem S120 .f32) (harg18 : arg18.IsWhole)
    (arg19 : Memref sig .tc .vmem S512x120 .f32) (harg19 : arg19.IsWhole)
    (arg20 : Memref sig .tc .vmem S512x240 .f32) (harg20 : arg20.IsWhole)
    (x0 : Vec F S512x20 .f32) (x1 : Vec F S512x1 .f32) (x2 : Vec F S512x240 .f32) (x3 : Vec F S512x240 .f32) (x4 : Vec F S512x120 .f32) (x5 : Vec F S512x120 .f32) (x6 : Vec F S512x120 .f32) (x7 : Vec F S512x120 .f32) (x8 : Vec F S512x120 .f32) (x9 : Vec F S512x112 .f32) (x10 : Vec F S112x120 .bf16) (x11 : Vec F S120 .f32) (x12 : Vec F S120x120 .bf16) (x13 : Vec F S120 .f32) (x14 : Vec F S20x120 .bf16) (x15 : Vec F S120 .f32) (x16 : Vec F S120x120 .bf16) (x17 : Vec F S120 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17
        ∗ (∃ d, owns (c : Thread nD τ) arg19 fullShare d) ∗ (∃ d, owns (c : Thread nD τ) arg20 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17
            ∗ owns (c : Thread nD τ) arg19 fullShare (out0_18 x0 x1 x3 x4 x5 x6 x10 x11 x12 x13 x14 x15 x16 x17)
            ∗ owns (c : Thread nD τ) arg20 fullShare (out0_19 x0 x1 x2 x3 x7 x8 x9 x10 x11 x12 x13 x14 x15 x16 x17)) -∗ K ⟨⟩))
      ⊢ wp frame (wpE (defs₀ (F := F)) Variants.none c none) E
          (cc0__edge_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0__edge_kernel_eq_skeleton]; unfold cc0__edge_kernel_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%d19, %f19, -, H19⟩, Hk⟩
  subst hf0 hf1 hf2 hf3 hf4 hf5 hf6 hf7 hf8 hf9 hf10 hf11 hf12 hf13 hf14 hf15 hf16 hf17
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists _; isplitr
    swap; · iexact H18
    ipureintro
    try dsimp only
    exact View.read_writes_eq_canon _ _ _ (cover0_18 _)
  iexists _; isplitr
  swap; · iexact H19
  ipureintro
  try dsimp only
  exact View.read_writes_eq_canon _ _ _ (cover0_19 _)

end Cert.KernelIdeal.Hand

end
-- ==== Proof.KIFrame.lean ====
/-
  The frame of the program: it runs to the end, faults nowhere, and leaves its 23 argument arrays unchanged.

  The proof data of the one launch on a core: each window's array as the launch finds it; after the body at grid
  point t (edges 512·t … 512·t + 511) each input buffer still at its block and the two output buffers at the scalar
  and the equivariant message of the blocks; nothing owed, full shares, the untouched rest as the invariant.  The body's
  triple at symbolic blocks then gives the body obligation at every point, and the launch theorem for a program that
  continues with host lines gives the run; the frame statement is read off its post.
-/
import proofs.«145672_j73899207295099_1_alg».proof.Proof.KIMain
import proofs.«145672_j73899207295099_1_alg».proof.Proof.KIBodyOut
import proofs.«145672_j73899207295099_1_alg».proof.Proof.KIBodyRun

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => out0_18 (iblk m c 0 t) (iblk m c 1 t) (iblk m c 3 t) (iblk m c 4 t) (iblk m c 5 t) (iblk m c 6 t) (iblk m c 10 t) (iblk m c 11 t) (iblk m c 12 t) (iblk m c 13 t) (iblk m c 14 t) (iblk m c 15 t) (iblk m c 16 t) (iblk m c 17 t)
    | ⟨19, _⟩ => out0_19 (iblk m c 0 t) (iblk m c 1 t) (iblk m c 2 t) (iblk m c 3 t) (iblk m c 7 t) (iblk m c 8 t) (iblk m c 9 t) (iblk m c 10 t) (iblk m c 11 t) (iblk m c 12 t) (iblk m c 13 t) (iblk m c 14 t) (iblk m c 15 t) (iblk m c 16 t) (iblk m c 17 t)
    | ⟨n + 20, h⟩ => absurd h (Nat.not_lt.2 (Nat.le_add_left 20 n))
  Φ _ := Pipeline.ΦA spec0 c
  q _ := fullShare
  owed _ := 0

/-- The proof data's arrays are the launch-entry contents (the definition projected, the fold never opened). -/
theorem A_eq (c : Dev nD) (w : Fin cfg0.W) : (dats m 0 c).A w = V m c (Pipeline.arrRef spec0 w) := by
  dsimp only [dats]

/-! What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = out0_18 (iblk m c 0 t) (iblk m c 1 t) (iblk m c 3 t) (iblk m c 4 t) (iblk m c 5 t) (iblk m c 6 t) (iblk m c 10 t) (iblk m c 11 t) (iblk m c 12 t) (iblk m c 13 t) (iblk m c 14 t) (iblk m c 15 t) (iblk m c 16 t) (iblk m c 17 t) := by dsimp only [dats]
theorem after0_19 (c : Dev nD) (t : Fin cfg0.N) : (dats m 0 c).after 19 t = out0_19 (iblk m c 0 t) (iblk m c 1 t) (iblk m c 2 t) (iblk m c 3 t) (iblk m c 7 t) (iblk m c 8 t) (iblk m c 9 t) (iblk m c 10 t) (iblk m c 11 t) (iblk m c 12 t) (iblk m c 13 t) (iblk m c 14 t) (iblk m c 15 t) (iblk m c 16 t) (iblk m c 17 t) := by dsimp only [dats]

/-! Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d

/-! ## The body obligation at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t))

set_option maxHeartbeats 4000000 in
/-- The body at any point: the inputs' buffers hold their blocks, so the body's triple applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply (sound_kernel c Set.univ (grid0.coords t) _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexists _; iexact H18
  isplitl [H19]; · iexists _; iexact H19
  iintro ⟨H0, H1, H2, H3, H4, H5, H6, H7, H8, H9, H10, H11, H12, H13, H14, H15, H16, H17, H18, H19⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, and in every final state each array of the launch holds what
    the proof data's write-backs leave and every other unscoped buffer what the later host lines leave. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame statement at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  frame_of m ρ (dats m) (A_eq m) (run_main m ρ)

end Cert.KernelIdeal.Hand

end
-- ==== Proof.RefOps.lean ====
/-
  The reference program's @main as ONE list of its StableHLO operations, in program order.

  @main is printed in five windows (`main_part0` … `main_part4`) and makes three calls of module-local
  functions: @_var (which itself calls @_where) and @silu twice. A call executes the callee's body on the
  operands, each value of the body in a buffer of the call's record, so the callee's operations stand in the
  list at the call site, over that record. The list is cut where the program is: at the window boundaries
  and before and after each call; `ops` is the pieces appended, 320 operations (279 of @main's own, 23 of
  the @_var call, 9 of each @silu call).

  `main_eq`: @main is `seq ops`. Each window is the pieces' lines run one after another — both sides
  unfold to the same chain of `hlo` steps, the functions' bodies opened at their calls —, and lines run one
  after another are their concatenation run as one (`seq_append`).
  `ops_sub`: every operation touches TensorCore references only, each by its builder's lemma.
-/
import proofs.«145672_j73899207295099_1_alg».proof.Proof.Gen.ReferenceIdeal
import Idealize.ShloMosaic.Lib.StableHlo.Run
import Idealize.ShloMosaic.Lib.Pipeline.Regions

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The pieces -/

set_option maxHeartbeats 40000000 in
/-- statements 1 … 11 of @main. -/
abbrev ops0a : List (HloOp τ sig (Elt F)) :=
  [ StableHlo.unary main_arg22 main_v0 ((extractStridedSlice S1x262144 ![0, 0] · slices_S2x262144_S1x262144_0_0) : (⟨S2x262144, .i32⟩ : BufTy).Contents (Elt F) → (⟨S1x262144, .i32⟩ : BufTy).Contents (Elt F)),
    StableHlo.reshape main_v0 main_v1 rfl shapeCasts_S1x262144_S262144,
    StableHlo.unary main_arg22 main_v2 ((extractStridedSlice S1x262144 ![1, 0] · slices_S2x262144_S1x262144_1_0) : (⟨S2x262144, .i32⟩ : BufTy).Contents (Elt F) → (⟨S1x262144, .i32⟩ : BufTy).Contents (Elt F)),
    StableHlo.reshape main_v2 main_v3 rfl shapeCasts_S1x262144_S262144,
    StableHlo.nullary main_cst (constant S_ .f32 0x00000000#32),
    StableHlo.binary main_arg0 main_cst main_v4 ((fun x v => Host.reduceAdd x v reducesTo_S16384x120_S16384_d1 h_S_) : (⟨S16384x120, .f32⟩ : BufTy).Contents (Elt F) → (⟨S_, .f32⟩ : BufTy).Contents (Elt F) → (⟨S16384, .f32⟩ : BufTy).Contents (Elt F)),
    StableHlo.unary main_v4 main_v5 (broadcastInDim S16384x1 ![0] bcast_S16384_S16384x1_0 : (⟨S16384, .f32⟩ : BufTy).Contents (Elt F) → (⟨S16384x1, .f32⟩ : BufTy).Contents (Elt F)),
    StableHlo.nullary main_cst_0 (constant S_ .f32 0x42F00000#32),
    StableHlo.unary main_cst_0 main_v6 (broadcastInDim S16384x1 ![] bcast_S_S16384x1 : (⟨S_, .f32⟩ : BufTy).Contents (Elt F) → (⟨S16384x1, .f32⟩ : BufTy).Contents (Elt F)),
    StableHlo.binary main_v5 main_v6 main_v7 (Host.divf : (⟨S16384x1, .f32⟩ : BufTy).Contents (Elt F) → (⟨S16384x1, .f32⟩ : BufTy).Contents (Elt F) → (⟨S16384x1, .f32⟩ : BufTy).Contents (Elt F)),
    StableHlo.nullary main_c (constantI S_ 32 0#32) ]

set_option maxHeartbeats 40000000 in
/-- statement 12, the call of @_var on (%arg0, %c): its twenty operations, then @_where's three at its own call, over the record main_call0. -/
abbrev ops0b : List (HloOp τ sig (Elt F)) :=
  [ StableHlo.TRef.nullary main_call0.cst (constant S_ .f32 0x00000000#32),
    StableHlo.TRef.binary (.of main_arg0 : StableHlo.TRef sig ⟨S16384x120, .f32⟩) main_call0.cst main_call0.v0 (fun x v => Host.reduceAdd x v reducesTo_S16384x120_S16384_d1 h_S_),
    StableHlo.TRef.unary main_call0.v0 main_call0.v1 (broadcastInDim S16384x1 ![0] bcast_S16384_S16384x1_0),
    StableHlo.TRef.nullary main_call0.cst_0 (constant S_ .f32 0x42F00000#32),
    StableHlo.TRef.unary main_call0.cst_0 main_call0.v2 (broadcastInDim S16384x1 ![] bcast_S_S16384x1),
    StableHlo.TRef.binary main_call0.v1 main_call0.v2 main_call0.v3 Host.divf,
    StableHlo.TRef.unary main_call0.v3 main_call0.v4 (broadcastInDim S16384x120 ![0, 1] bcast_S16384x1_S16384x120_0_1),
    StableHlo.TRef.binary (.of main_arg0 : StableHlo.TRef sig ⟨S16384x120, .f32⟩) main_call0.v4 main_call0.v5 subf,
    StableHlo.TRef.binary main_call0.v5 main_call0.v5 main_call0.v6 mulf,
    StableHlo.TRef.unary (.of main_c : StableHlo.TRef sig ⟨S_, .i32⟩) main_call0.v7 (sitofp .f32),
    StableHlo.TRef.nullary main_call0.cst_1 (constant S_ .f32 0x42F00000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S16384x120_S16384_d1 h_S_),
    StableHlo.TRef.unary main_call0.v9 main_call0.v10 (broadcastInDim S16384x1 ![0] bcast_S16384_S16384x1_0),
    StableHlo.TRef.unary main_call0.v8 main_call0.v11 (broadcastInDim S16384x1 ![] bcast_S_S16384x1),
    StableHlo.TRef.binary main_call0.v10 main_call0.v11 main_call0.v12 Host.divf,
    StableHlo.TRef.nullary main_call0.cst_3 (constant S_ .f32 0x00000000#32),
    StableHlo.TRef.binary main_call0.v8 main_call0.cst_3 main_call0.v13 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S16384x1 ![] bcast_S_S16384x1),
    StableHlo.TRef.ternary main_call0.v13 main_call0.v12 main_call0.call0.v1 main_call0.call0.v2 (fun p a b => select (broadcastInDim S16384x1 ![] bcast_S_S16384x1 p) a b) ]

set_option maxHeartbeats 40000000 in
/-- statements 13 … 60 of @main. -/
abbrev ops0c : List (HloOp τ sig (Elt F)) :=
  [ StableHlo.unary main_v7 main_v9 (broadcastInDim S16384x120 ![0, 1] bcast_S16384x1_S16384x120_0_1 : (⟨S16384x1, .f32⟩ : BufTy).Contents (Elt F) → (⟨S16384x120, .f32⟩ : BufTy).Contents (Elt F)),
    StableHlo.binary main_arg0 main_v9 main_v10 (subf : (⟨S16384x120, .f32⟩ : BufTy).Contents (Elt F) → (⟨S16384x120, .f32⟩ : BufTy).Contents (Elt F) → (⟨S16384x120, .f32⟩ : BufTy).Contents (Elt F)),
    StableHlo.nullary main_cst_1 (constant S_ .f32 0x3727C5AC#32),
    StableHlo.unary main_cst_1 main_v11 (broadcastInDim S16384x1 ![] bcast_S_S16384x1 : (⟨S_, .f32⟩ : BufTy).Contents (Elt F) → (⟨S16384x1, .f32⟩ : BufTy).Contents (Elt F)),
    StableHlo.binary main_v8 main_v11 main_v12 (addf : (⟨S16384x1, .f32⟩ : BufTy).Contents (Elt F) → (⟨S16384x1, .f32⟩ : BufTy).Contents (Elt F) → (⟨S16384x1, .f32⟩ : BufTy).Contents (Elt F)),
    StableHlo.unary main_v12 main_v13 (Host.rsqrt : (⟨S16384x1, .f32⟩ : BufTy).Contents (Elt F) → (⟨S16384x1, .f32⟩ : BufTy).Contents (Elt F)),
    StableHlo.unary main_v13 main_v14 (broadcastInDim S16384x120 ![0, 1] bcast_S16384x1_S16384x120_0_1 : (⟨S16384x1, .f32⟩ : BufTy).Contents (Elt F) → (⟨S16384x120, .f32⟩ : BufTy).Contents (Elt F)),
    StableHlo.binary main_v10 main_v14 main_v15 (mulf : (⟨S16384x120, .f32⟩ : BufTy).Contents (Elt F) → (⟨S16384x120, .f32⟩ : BufTy).Contents (Elt F) → (⟨S16384x120, .f32⟩ : BufTy).Contents (Elt F)),
    StableHlo.unary main_arg5 main_v16 (broadcastInDim S1x120 ![1] bcast_S120_S1x120_1 : (⟨S120, .f32⟩ : BufTy).Contents (Elt F) → (⟨S1x120, .f32⟩ : BufTy).Contents (Elt F)),
    StableHlo.unary main_v16 main_v17 (broadcastInDim S16384x120 ![0, 1] bcast_S1x120_S16384x120_0_1 : (⟨S1x120, .f32⟩ : BufTy).Contents (Elt F) → (⟨S16384x120, .f32⟩ : BufTy).Contents (Elt F)),
    StableHlo.binary main_v15 main_v17 main_v18 (mulf : (⟨S16384x120, .f32⟩ : BufTy).Contents (Elt F) → (⟨S16384x120, .f32⟩ : BufTy).Contents (Elt F) → (⟨S16384x120, .f32⟩ : BufTy).Contents (Elt F)),
    StableHlo.unary main_arg6 main_v19 (broadcastInDim S1x120 ![1] bcast_S120_S1x120_1 : (⟨S120, .f32⟩ : BufTy).Contents (Elt F) → (⟨S1x120, .f32⟩ : BufTy).Contents (Elt F)),
    StableHlo.unary main_v19 main_v20 (broadcastInDim S16384x120 ![0, 1] bcast_S1x120_S16384x120_0_1 : (⟨S1x120, .f32⟩ : BufTy).Contents (Elt F) → (⟨S16384x120, .f32⟩ : BufTy).Contents (Elt F)),
    StableHlo.binary main_v18 main_v20 main_v21 (addf : (⟨S16384x120, .f32⟩ : BufTy).Contents (Elt F) → (⟨S16384x120, .f32⟩ : BufTy).Contents (Elt F) → (⟨S16384x120, .f32⟩ : BufTy).Contents (Elt F)),
    StableHlo.unary main_arg1 main_v22 ((extractStridedSlice S16384x64 ![0, 0] · slices_S16384x240_S16384x64_0_0) : (⟨S16384x240, .f32⟩ : BufTy).Contents (Elt F) → (⟨S16384x64, .f32⟩ : BufTy).Contents (Elt F)),
    StableHlo.reshape main_v22 main_v23 rfl shapeCasts_S16384x64_S16384x64x1,
    StableHlo.nullary main_cst_2 (constant S_ .f32 0x00000000#32),
    StableHlo.binary main_v23 main_cst_2 main_v24 ((fun x v => Host.reduceAdd x v reducesTo_S16384x64x1_S16384x1_d1 h_S_) : (⟨S16384x64x1, .f32⟩ : BufTy).Contents (Elt F) → (⟨S_, .f32⟩ : BufTy).Contents (Elt F) → (⟨S16384x1, .f32⟩ : BufTy).Contents (Elt F)),
    StableHlo.unary main_v24 main_v25 (broadcastInDim S16384x1x1 ![0, 2] bcast_S16384x1_S16384x1x1_0_2 : (⟨S16384x1, .f32⟩ : BufTy).Contents (Elt F) → (⟨S16384x1x1, .f32⟩ : BufTy).Contents (Elt F)),
    StableHlo.nullary main_cst_3 (constant S_ .f32 0x42800000#32),
    StableHlo.unary main_cst_3 main_v26 (broadcastInDim S16384x1x1 ![] bcast_S_S16384x1x1 : (⟨S_, .f32⟩ : BufTy).Contents (Elt F) → (⟨S16384x1x1, .f32⟩ : BufTy).Contents (Elt F)),
    StableHlo.binary main_v25 main_v26 main_v27 (Host.divf : (⟨S16384x1x1, .f32⟩ : BufTy).Contents (Elt F) → (⟨S16384x1x1, .f32⟩ : BufTy).Contents (Elt F) → (⟨S16384x1x1, .f32⟩ : BufTy).Contents (Elt F)),
    StableHlo.unary main_v27 main_v28 (broadcastInDim S16384x64x1 ![0, 1, 2] bcast_S16384x1x1_S16384x64x1_0_1_2 : (⟨S16384x1x1, .f32⟩ : BufTy).Contents (Elt F) → (⟨S16384x64x1, .f32⟩ : BufTy).Contents (Elt F)),
    StableHlo.binary main_v23 main_v28 main_v29 (subf : (⟨S16384x64x1, .f32⟩ : BufTy).Contents (Elt F) → (⟨S16384x64x1, .f32⟩ : BufTy).Contents (Elt F) → (⟨S16384x64x1, .f32⟩ : BufTy).Contents (Elt F)),
    StableHlo.binary main_v29 main_v29 main_v30 (mulf : (⟨S16384x64x1, .f32⟩ : BufTy).Contents (Elt F) → (⟨S16384x64x1, .f32⟩ : BufTy).Contents (Elt F) → (⟨S16384x64x1, .f32⟩ : BufTy).Contents (Elt F)),
    StableHlo.nullary main_cst_4 (constant S_ .f32 0x00000000#32),
    StableHlo.binary main_v30 main_cst_4 main_v31 ((fun x v => Host.reduceAdd x v reducesTo_S16384x64x1_S16384_d1_2 h_S_) : (⟨S16384x64x1, .f32⟩ : BufTy).Contents (Elt F) → (⟨S_, .f32⟩ : BufTy).Contents (Elt F) → (⟨S16384, .f32⟩ : BufTy).Contents (Elt F)),
    StableHlo.unary main_v31 main_v32 (broadcastInDim S16384x1x1 ![0] bcast_S16384_S16384x1x1_0 : (⟨S16384, .f32⟩ : BufTy).Contents (Elt F) → (⟨S16384x1x1, .f32⟩ : BufTy).Contents (Elt F)),
    StableHlo.nullary main_cst_5 (constant S_ .f32 0x42800000#32),
    StableHlo.unary main_cst_5 main_v33 (broadcastInDim S16384x1x1 ![] bcast_S_S16384x1x1 : (⟨S_, .f32⟩ : BufTy).Contents (Elt F) → (⟨S16384x1x1, .f32⟩ : BufTy).Contents (Elt F)),
    StableHlo.binary main_v32 main_v33 main_v34 (Host.divf : (⟨S16384x1x1, .f32⟩ : BufTy).Contents (Elt F) → (⟨S16384x1x1, .f32⟩ : BufTy).Contents (Elt F) → (⟨S16384x1x1, .f32⟩ : BufTy).Contents (Elt F)),
    StableHlo.nullary main_cst_6 (constant S_ .f32 0x3727C5AC#32),
    StableHlo.unary main_cst_6 main_v35 (broadcastInDim S16384x1x1 ![] bcast_S_S16384x1x1 : (⟨S_, .f32⟩ : BufTy).Contents (Elt F) → (⟨S16384x1x1, .f32⟩ : BufTy).Contents (Elt F)),
    StableHlo.binary main_v34 main_v35 main_v36 (addf : (⟨S16384x1x1, .f32⟩ : BufTy).Contents (Elt F) → (⟨S16384x1x1, .f32⟩ : BufTy).Contents (Elt F) → (⟨S16384x1x1, .f32⟩ : BufTy).Contents (Elt F)),
    StableHlo.unary main_v36 main_v37 (Host.rsqrt : (⟨S16384x1x1, .f32⟩ : BufTy).Contents (Elt F) → (⟨S16384x1x1, .f32⟩ : BufTy).Contents (Elt F)),
    StableHlo.unary main_v37 main_v38 (broadcastInDim S16384x64x1 ![0, 1, 2] bcast_S16384x1x1_S16384x64x1_0_1_2 : (⟨S16384x1x1, .f32⟩ : BufTy).Contents (Elt F) → (⟨S16384x64x1, .f32⟩ : BufTy).Contents (Elt F)),
    StableHlo.binary main_v29 main_v38 main_v39 (mulf : (⟨S16384x64x1, .f32⟩ : BufTy).Contents (Elt F) → (⟨S16384x64x1, .f32⟩ : BufTy).Contents (Elt F) → (⟨S16384x64x1, .f32⟩ : BufTy).Contents (Elt F)),
    StableHlo.unary main_arg7 main_v40 ((extractStridedSlice S64 ![0] · slices_S112_S64_0) : (⟨S112, .f32⟩ : BufTy).Contents (Elt F) → (⟨S64, .f32⟩ : BufTy).Contents (Elt F)),
    StableHlo.unary main_v40 main_v41 (broadcastInDim S1x64x1 ![1] bcast_S64_S1x64x1_1 : (⟨S64, .f32⟩ : BufTy).Contents (Elt F) → (⟨S1x64x1, .f32⟩ : BufTy).Contents (Elt F)),
    StableHlo.unary main_v41 main_v42 (broadcastInDim S16384x64x1 ![0, 1, 2] bcast_S1x64x1_S16384x64x1_0_1_2 : (⟨S1x64x1, .f32⟩ : BufTy).Contents (Elt F) → (⟨S16384x64x1, .f32⟩ : BufTy).Contents (Elt F)),
    StableHlo.binary main_v39 main_v42 main_v43 (mulf : (⟨S16384x64x1, .f32⟩ : BufTy).Contents (Elt F) → (⟨S16384x64x1, .f32⟩ : BufTy).Contents (Elt F) → (⟨S16384x64x1, .f32⟩ : BufTy).Contents (Elt F)),
    StableHlo.reshape main_v43 main_v44 rfl shapeCasts_S16384x64x1_S16384x64,
    StableHlo.unary main_arg1 main_v45 ((extractStridedSlice S16384x96 ![0, 64] · slices_S16384x240_S16384x96_0_64) : (⟨S16384x240, .f32⟩ : BufTy).Contents (Elt F) → (⟨S16384x96, .f32⟩ : BufTy).Contents (Elt F)),
    StableHlo.reshape main_v45 main_v46 rfl shapeCasts_S16384x96_S16384x32x3,
    StableHlo.binary main_v46 main_v46 main_v47 (mulf : (⟨S16384x32x3, .f32⟩ : BufTy).Contents (Elt F) → (⟨S16384x32x3, .f32⟩ : BufTy).Contents (Elt F) → (⟨S16384x32x3, .f32⟩ : BufTy).Contents (Elt F)),
    StableHlo.nullary main_cst_7 (constant S_ .f32 0x00000000#32),
    StableHlo.binary main_v47 main_cst_7 main_v48 ((fun x v => Host.reduceAdd x v reducesTo_S16384x32x3_S16384_d1_2 h_S_) : (⟨S16384x32x3, .f32⟩ : BufTy).Contents (Elt F) → (⟨S_, .f32⟩ : BufTy).Contents (Elt F) → (⟨S16384, .f32⟩ : BufTy).Contents (Elt F)),
    StableHlo.unary main_v48 main_v49 (broadcastInDim S16384x1x1 ![0] bcast_S16384_S16384x1x1_0 : (⟨S16384, .f32⟩ : BufTy).Contents (Elt F) → (⟨S16384x1x1, .f32⟩ : BufTy).Contents (Elt F)) ]

set_option maxHeartbeats 40000000 in
/-- statements 61 … 120 of @main. -/
abbrev ops1 : List (HloOp τ sig (Elt F)) :=
  [ StableHlo.nullary main_cst_8 (constant S_ .f32 0x42C00000#32),
    StableHlo.unary main_cst_8 main_v50 (broadcastInDim S16384x1x1 ![] bcast_S_S16384x1x1 : (⟨S_, .f32⟩ : BufTy).Contents (Elt F) → (⟨S16384x1x1, .f32⟩ : BufTy).Contents (Elt F)),
    StableHlo.binary main_v49 main_v50 main_v51 (Host.divf : (⟨S16384x1x1, .f32⟩ : BufTy).Contents (Elt F) → (⟨S16384x1x1, .f32⟩ : BufTy).Contents (Elt F) → (⟨S16384x1x1, .f32⟩ : BufTy).Contents (Elt F)),
    StableHlo.nullary main_cst_9 (constant S_ .f32 0x3727C5AC#32),
    StableHlo.unary main_cst_9 main_v52 (broadcastInDim S16384x1x1 ![] bcast_S_S16384x1x1 : (⟨S_, .f32⟩ : BufTy).Contents (Elt F) → (⟨S16384x1x1, .f32⟩ : BufTy).Contents (Elt F)),
    StableHlo.binary main_v51 main_v52 main_v53 (addf : (⟨S16384x1x1, .f32⟩ : BufTy).Contents (Elt F) → (⟨S16384x1x1, .f32⟩ : BufTy).Contents (Elt F) → (⟨S16384x1x1, .f32⟩ : BufTy).Contents (Elt F)),
    StableHlo.unary main_v53 main_v54 (Host.rsqrt : (⟨S16384x1x1, .f32⟩ : BufTy).Contents (Elt F) → (⟨S16384x1x1, .f32⟩ : BufTy).Contents (Elt F)),
    StableHlo.unary main_v54 main_v55 (broadcastInDim S16384x32x3 ![0, 1, 2] bcast_S16384x1x1_S16384x32x3_0_1_2 : (⟨S16384x1x1, .f32⟩ : BufTy).Contents (Elt F) → (⟨S16384x32x3, .f32⟩ : BufTy).Contents (Elt F)),
    StableHlo.binary main_v46 main_v55 main_v56 (mulf : (⟨S16384x32x3, .f32⟩ : BufTy).Contents (Elt F) → (⟨S16384x32x3, .f32⟩ : BufTy).Contents (Elt F) → (⟨S16384x32x3, .f32⟩ : BufTy).Contents (Elt F)),
    StableHlo.unary main_arg7 main_v57 ((extractStridedSlice S32 ![64] · slices_S112_S32_64) : (⟨S112, .f32⟩ : BufTy).Contents (Elt F) → (⟨S32, .f32⟩ : BufTy).Contents (Elt F)),
    StableHlo.unary main_v57 main_v58 (broadcastInDim S1x32x1 ![1] bcast_S32_S1x32x1_1 : (⟨S32, .f32⟩ : BufTy).Contents (Elt F) → (⟨S1x32x1, .f32⟩ : BufTy).Contents (Elt F)),
    StableHlo.unary main_v58 main_v59 (broadcastInDim S16384x32x3 ![0, 1, 2] bcast_S1x32x1_S16384x32x3_0_1_2 : (⟨S1x32x1, .f32⟩ : BufTy).Contents (Elt F) → (⟨S16384x32x3, .f32⟩ : BufTy).Contents (Elt F)),
    StableHlo.binary main_v56 main_v59 main_v60 (mulf : (⟨S16384x32x3, .f32⟩ : BufTy).Contents (Elt F) → (⟨S16384x32x3, .f32⟩ : BufTy).Contents (Elt F) → (⟨S16384x32x3, .f32⟩ : BufTy).Contents (Elt F)),
    StableHlo.reshape main_v60 main_v61 rfl shapeCasts_S16384x32x3_S16384x96,
    StableHlo.unary main_arg1 main_v62 ((extractStridedSlice S16384x80 ![0, 160] · slices_S16384x240_S16384x80_0_160) : (⟨S16384x240, .f32⟩ : BufTy).Contents (Elt F) → (⟨S16384x80, .f32⟩ : BufTy).Contents (Elt F)),
    StableHlo.reshape main_v62 main_v63 rfl shapeCasts_S16384x80_S16384x16x5,
    StableHlo.binary main_v63 main_v63 main_v64 (mulf : (⟨S16384x16x5, .f32⟩ : BufTy).Contents (Elt F) → (⟨S16384x16x5, .f32⟩ : BufTy).Contents (Elt F) → (⟨S16384x16x5, .f32⟩ : BufTy).Contents (Elt F)),
    StableHlo.nullary main_cst_10 (constant S_ .f32 0x00000000#32),
    StableHlo.binary main_v64 main_cst_10 main_v65 ((fun x v => Host.reduceAdd x v reducesTo_S16384x16x5_S16384_d1_2 h_S_) : (⟨S16384x16x5, .f32⟩ : BufTy).Contents (Elt F) → (⟨S_, .f32⟩ : BufTy).Contents (Elt F) → (⟨S16384, .f32⟩ : BufTy).Contents (Elt F)),
    StableHlo.unary main_v65 main_v66 (broadcastInDim S16384x1x1 ![0] bcast_S16384_S16384x1x1_0 : (⟨S16384, .f32⟩ : BufTy).Contents (Elt F) → (⟨S16384x1x1, .f32⟩ : BufTy).Contents (Elt F)),
    StableHlo.nullary main_cst_11 (constant S_ .f32 0x42A00000#32),
    StableHlo.unary main_cst_11 main_v67 (broadcastInDim S16384x1x1 ![] bcast_S_S16384x1x1 : (⟨S_, .f32⟩ : BufTy).Contents (Elt F) → (⟨S16384x1x1, .f32⟩ : BufTy).Contents (Elt F)),
    StableHlo.binary main_v66 main_v67 main_v68 (Host.divf : (⟨S16384x1x1, .f32⟩ : BufTy).Contents (Elt F) → (⟨S16384x1x1, .f32⟩ : BufTy).Contents (Elt F) → (⟨S16384x1x1, .f32⟩ : BufTy).Contents (Elt F)),
    StableHlo.nullary main_cst_12 (constant S_ .f32 0x3727C5AC#32),
    StableHlo.unary main_cst_12 main_v69 (broadcastInDim S16384x1x1 ![] bcast_S_S16384x1x1 : (⟨S_, .f32⟩ : BufTy).Contents (Elt F) → (⟨S16384x1x1, .f32⟩ : BufTy).Contents (Elt F)),
    StableHlo.binary main_v68 main_v69 main_v70 (addf : (⟨S16384x1x1, .f32⟩ : BufTy).Contents (Elt F) → (⟨S16384x1x1, .f32⟩ : BufTy).Contents (Elt F) → (⟨S16384x1x1, .f32⟩ : BufTy).Contents (Elt F)),
    StableHlo.unary main_v70 main_v71 (Host.rsqrt : (⟨S16384x1x1, .f32⟩ : BufTy).Contents (Elt F) → (⟨S16384x1x1, .f32⟩ : BufTy).Contents (Elt F)),
    StableHlo.unary main_v71 main_v72 (broadcastInDim S16384x16x5 ![0, 1, 2] bcast_S16384x1x1_S16384x16x5_0_1_2 : (⟨S16384x1x1, .f32⟩ : BufTy).Contents (Elt F) → (⟨S16384x16x5, .f32⟩ : BufTy).Contents (Elt F)),
    StableHlo.binary main_v63 main_v72 main_v73 (mulf : (⟨S16384x16x5, .f32⟩ : BufTy).Contents (Elt F) → (⟨S16384x16x5, .f32⟩ : BufTy).Contents (Elt F) → (⟨S16384x16x5, .f32⟩ : BufTy).Contents (Elt F)),
    StableHlo.unary main_arg7 main_v74 ((extractStridedSlice S16 ![96] · slices_S112_S16_96) : (⟨S112, .f32⟩ : BufTy).Contents (Elt F) → (⟨S16, .f32⟩ : BufTy).Contents (Elt F)),
    StableHlo.unary main_v74 main_v75 (broadcastInDim S1x16x1 ![1] bcast_S16_S1x16x1_1 : (⟨S16, .f32⟩ : BufTy).Contents (Elt F) → (⟨S1x16x1, .f32⟩ : BufTy).Contents (Elt F)),
    StableHlo.unary main_v75 main_v76 (broadcastInDim S16384x16x5 ![0, 1, 2] bcast_S1x16x1_S16384x16x5_0_1_2 : (⟨S1x16x1, .f32⟩ : BufTy).Contents (Elt F) → (⟨S16384x16x5, .f32⟩ : BufTy).Contents (Elt F)),
    StableHlo.binary main_v73 main_v76 main_v77 (mulf : (⟨S16384x16x5, .f32⟩ : BufTy).Contents (Elt F) → (⟨S16384x16x5, .f32⟩ : BufTy).Contents (Elt F) → (⟨S16384x16x5, .f32⟩ : BufTy).Contents (Elt F)),
    StableHlo.reshape main_v77 main_v78 rfl shapeCasts_S16384x16x5_S16384x80,
    StableHlo.nary ![main_v44, main_v61, main_v78] main_v79 (fun u => concatenate S16384x240 1 [⟨S16384x64, u 0⟩, ⟨S16384x96, u 1⟩, ⟨S16384x80, u 2⟩] concatenates_S16384x64_S16384x96_S16384x80_S16384x240_d1),
    StableHlo.binary main_v21 main_arg8 main_v80 ((fun l r => Host.dotGeneral dot_S16384x120_S120x120_S16384x120_1_0_0_1_n_n none l r) : (⟨S16384x120, .f32⟩ : BufTy).Contents (Elt F) → (⟨S120x120, .f32⟩ : BufTy).Contents (Elt F) → (⟨S16384x120, .f32⟩ : BufTy).Contents (Elt F)),
    StableHlo.binary main_v21 main_arg9 main_v81 ((fun l r => Host.dotGeneral dot_S16384x120_S120x120_S16384x120_1_0_0_1_n_n none l r) : (⟨S16384x120, .f32⟩ : BufTy).Contents (Elt F) → (⟨S120x120, .f32⟩ : BufTy).Contents (Elt F) → (⟨S16384x120, .f32⟩ : BufTy).Contents (Elt F)),
    StableHlo.binary main_v21 main_arg10 main_v82 ((fun l r => Host.dotGeneral dot_S16384x120_S120x120_S16384x120_1_0_0_1_n_n none l r) : (⟨S16384x120, .f32⟩ : BufTy).Contents (Elt F) → (⟨S120x120, .f32⟩ : BufTy).Contents (Elt F) → (⟨S16384x120, .f32⟩ : BufTy).Contents (Elt F)),
    StableHlo.binary main_v21 main_arg11 main_v83 ((fun l r => Host.dotGeneral dot_S16384x120_S120x120_S16384x120_1_0_0_1_n_n none l r) : (⟨S16384x120, .f32⟩ : BufTy).Contents (Elt F) → (⟨S120x120, .f32⟩ : BufTy).Contents (Elt F) → (⟨S16384x120, .f32⟩ : BufTy).Contents (Elt F)),
    StableHlo.binary main_v21 main_arg12 main_v84 ((fun l r => Host.dotGeneral dot_S16384x120_S120x120_S16384x120_1_0_0_1_n_n none l r) : (⟨S16384x120, .f32⟩ : BufTy).Contents (Elt F) → (⟨S120x120, .f32⟩ : BufTy).Contents (Elt F) → (⟨S16384x120, .f32⟩ : BufTy).Contents (Elt F)),
    StableHlo.binary main_v21 main_arg13 main_v85 ((fun l r => Host.dotGeneral dot_S16384x120_S120x112_S16384x112_1_0_0_1_n_n none l r) : (⟨S16384x120, .f32⟩ : BufTy).Contents (Elt F) → (⟨S120x112, .f32⟩ : BufTy).Contents (Elt F) → (⟨S16384x112, .f32⟩ : BufTy).Contents (Elt F)),
    StableHlo.nullary main_c_13 (constantI S_ 32 0#32),
    StableHlo.unary main_c_13 main_v86 (broadcastInDim S262144 ![] bcast_S_S262144 : (⟨S_, .i32⟩ : BufTy).Contents (Elt F) → (⟨S262144, .i32⟩ : BufTy).Contents (Elt F)),
    StableHlo.binary main_v3 main_v86 main_v87 (cmpi .slt : (⟨S262144, .i32⟩ : BufTy).Contents (Elt F) → (⟨S262144, .i32⟩ : BufTy).Contents (Elt F) → (⟨S262144, .i1⟩ : BufTy).Contents (Elt F)),
    StableHlo.nullary main_c_14 (constantI S_ 32 16384#32),
    StableHlo.unary main_c_14 main_v88 (broadcastInDim S262144 ![] bcast_S_S262144 : (⟨S_, .i32⟩ : BufTy).Contents (Elt F) → (⟨S262144, .i32⟩ : BufTy).Contents (Elt F)),
    StableHlo.binary main_v3 main_v88 main_v89 (addi : (⟨S262144, .i32⟩ : BufTy).Contents (Elt F) → (⟨S262144, .i32⟩ : BufTy).Contents (Elt F) → (⟨S262144, .i32⟩ : BufTy).Contents (Elt F)),
    StableHlo.ternary main_v87 main_v89 main_v3 main_v90 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    StableHlo.unary main_v90 main_v91 (broadcastInDim S262144x1 ![0] bcast_S262144_S262144x1_0 : (⟨S262144, .i32⟩ : BufTy).Contents (Elt F) → (⟨S262144x1, .i32⟩ : BufTy).Contents (Elt F)),
    StableHlo.binary main_v79 main_v91 main_v92 ((fun x i => Host.gather gather_S16384x240_S262144x1_S262144x240_1_0_n_n_0_1_1240 x i) : (⟨S16384x240, .f32⟩ : BufTy).Contents (Elt F) → (⟨S262144x1, .i32⟩ : BufTy).Contents (Elt F) → (⟨S262144x240, .f32⟩ : BufTy).Contents (Elt F)),
    StableHlo.nullary main_c_15 (constantI S_ 32 0#32),
    StableHlo.unary main_c_15 main_v93 (broadcastInDim S262144 ![] bcast_S_S262144 : (⟨S_, .i32⟩ : BufTy).Contents (Elt F) → (⟨S262144, .i32⟩ : BufTy).Contents (Elt F)),
    StableHlo.binary main_v1 main_v93 main_v94 (cmpi .slt : (⟨S262144, .i32⟩ : BufTy).Contents (Elt F) → (⟨S262144, .i32⟩ : BufTy).Contents (Elt F) → (⟨S262144, .i1⟩ : BufTy).Contents (Elt F)),
    StableHlo.nullary main_c_16 (constantI S_ 32 16384#32),
    StableHlo.unary main_c_16 main_v95 (broadcastInDim S262144 ![] bcast_S_S262144 : (⟨S_, .i32⟩ : BufTy).Contents (Elt F) → (⟨S262144, .i32⟩ : BufTy).Contents (Elt F)),
    StableHlo.binary main_v1 main_v95 main_v96 (addi : (⟨S262144, .i32⟩ : BufTy).Contents (Elt F) → (⟨S262144, .i32⟩ : BufTy).Contents (Elt F) → (⟨S262144, .i32⟩ : BufTy).Contents (Elt F)),
    StableHlo.ternary main_v94 main_v96 main_v1 main_v97 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    StableHlo.unary main_v97 main_v98 (broadcastInDim S262144x1 ![0] bcast_S262144_S262144x1_0 : (⟨S262144, .i32⟩ : BufTy).Contents (Elt F) → (⟨S262144x1, .i32⟩ : BufTy).Contents (Elt F)),
    StableHlo.binary main_v79 main_v98 main_v99 ((fun x i => Host.gather gather_S16384x240_S262144x1_S262144x240_1_0_n_n_0_1_1240 x i) : (⟨S16384x240, .f32⟩ : BufTy).Contents (Elt F) → (⟨S262144x1, .i32⟩ : BufTy).Contents (Elt F) → (⟨S262144x240, .f32⟩ : BufTy).Contents (Elt F)),
    StableHlo.binary main_v92 main_v99 main_v100 (subf : (⟨S262144x240, .f32⟩ : BufTy).Contents (Elt F) → (⟨S262144x240, .f32⟩ : BufTy).Contents (Elt F) → (⟨S262144x240, .f32⟩ : BufTy).Contents (Elt F)) ]

set_option maxHeartbeats 40000000 in
/-- statements 121 … 140 of @main. -/
abbrev ops2a : List (HloOp τ sig (Elt F)) :=
  [ StableHlo.unary main_v100 main_v101 ((extractStridedSlice S262144x64 ![0, 0] · slices_S262144x240_S262144x64_0_0) : (⟨S262144x240, .f32⟩ : BufTy).Contents (Elt F) → (⟨S262144x64, .f32⟩ : BufTy).Contents (Elt F)),
    StableHlo.reshape main_v101 main_v102 rfl shapeCasts_S262144x64_S262144x64x1,
    StableHlo.binary main_v102 main_v102 main_v103 (mulf : (⟨S262144x64x1, .f32⟩ : BufTy).Contents (Elt F) → (⟨S262144x64x1, .f32⟩ : BufTy).Contents (Elt F) → (⟨S262144x64x1, .f32⟩ : BufTy).Contents (Elt F)),
    StableHlo.nullary main_cst_17 (constant S_ .f32 0x00000000#32),
    StableHlo.binary main_v103 main_cst_17 main_v104 ((fun x v => Host.reduceAdd x v reducesTo_S262144x64x1_S262144x64_d2 h_S_) : (⟨S262144x64x1, .f32⟩ : BufTy).Contents (Elt F) → (⟨S_, .f32⟩ : BufTy).Contents (Elt F) → (⟨S262144x64, .f32⟩ : BufTy).Contents (Elt F)),
    StableHlo.unary main_v100 main_v105 ((extractStridedSlice S262144x96 ![0, 64] · slices_S262144x240_S262144x96_0_64) : (⟨S262144x240, .f32⟩ : BufTy).Contents (Elt F) → (⟨S262144x96, .f32⟩ : BufTy).Contents (Elt F)),
    StableHlo.reshape main_v105 main_v106 rfl shapeCasts_S262144x96_S262144x32x3,
    StableHlo.binary main_v106 main_v106 main_v107 (mulf : (⟨S262144x32x3, .f32⟩ : BufTy).Contents (Elt F) → (⟨S262144x32x3, .f32⟩ : BufTy).Contents (Elt F) → (⟨S262144x32x3, .f32⟩ : BufTy).Contents (Elt F)),
    StableHlo.nullary main_cst_18 (constant S_ .f32 0x00000000#32),
    StableHlo.binary main_v107 main_cst_18 main_v108 ((fun x v => Host.reduceAdd x v reducesTo_S262144x32x3_S262144x32_d2 h_S_) : (⟨S262144x32x3, .f32⟩ : BufTy).Contents (Elt F) → (⟨S_, .f32⟩ : BufTy).Contents (Elt F) → (⟨S262144x32, .f32⟩ : BufTy).Contents (Elt F)),
    StableHlo.unary main_v100 main_v109 ((extractStridedSlice S262144x80 ![0, 160] · slices_S262144x240_S262144x80_0_160) : (⟨S262144x240, .f32⟩ : BufTy).Contents (Elt F) → (⟨S262144x80, .f32⟩ : BufTy).Contents (Elt F)),
    StableHlo.reshape main_v109 main_v110 rfl shapeCasts_S262144x80_S262144x16x5,
    StableHlo.binary main_v110 main_v110 main_v111 (mulf : (⟨S262144x16x5, .f32⟩ : BufTy).Contents (Elt F) → (⟨S262144x16x5, .f32⟩ : BufTy).Contents (Elt F) → (⟨S262144x16x5, .f32⟩ : BufTy).Contents (Elt F)),
    StableHlo.nullary main_cst_19 (constant S_ .f32 0x00000000#32),
    StableHlo.binary main_v111 main_cst_19 main_v112 ((fun x v => Host.reduceAdd x v reducesTo_S262144x16x5_S262144x16_d2 h_S_) : (⟨S262144x16x5, .f32⟩ : BufTy).Contents (Elt F) → (⟨S_, .f32⟩ : BufTy).Contents (Elt F) → (⟨S262144x16, .f32⟩ : BufTy).Contents (Elt F)),
    StableHlo.nary ![main_v104, main_v108, main_v112] main_v113 (fun u => concatenate S262144x112 1 [⟨S262144x64, u 0⟩, ⟨S262144x32, u 1⟩, ⟨S262144x16, u 2⟩] concatenates_S262144x64_S262144x32_S262144x16_S262144x112_d1),
    StableHlo.binary main_v113 main_arg18 main_v114 ((fun l r => Host.dotGeneral dot_S262144x112_S112x120_S262144x120_1_0_0_1_n_n none l r) : (⟨S262144x112, .f32⟩ : BufTy).Contents (Elt F) → (⟨S112x120, .f32⟩ : BufTy).Contents (Elt F) → (⟨S262144x120, .f32⟩ : BufTy).Contents (Elt F)),
    StableHlo.unary main_arg19 main_v115 (broadcastInDim S1x120 ![1] bcast_S120_S1x120_1 : (⟨S120, .f32⟩ : BufTy).Contents (Elt F) → (⟨S1x120, .f32⟩ : BufTy).Contents (Elt F)),
    StableHlo.unary main_v115 main_v116 (broadcastInDim S262144x120 ![0, 1] bcast_S1x120_S262144x120_0_1 : (⟨S1x120, .f32⟩ : BufTy).Contents (Elt F) → (⟨S262144x120, .f32⟩ : BufTy).Contents (Elt F)),
    StableHlo.binary main_v114 main_v116 main_v117 (addf : (⟨S262144x120, .f32⟩ : BufTy).Contents (Elt F) → (⟨S262144x120, .f32⟩ : BufTy).Contents (Elt F) → (⟨S262144x120, .f32⟩ : BufTy).Contents (Elt F)) ]

set_option maxHeartbeats 40000000 in
/-- statement 141, the call of @silu on %117: its nine operations over the record main_call1. -/
abbrev ops2b : List (HloOp τ sig (Elt F)) :=
  [ StableHlo.TRef.unary (.of main_v117 : StableHlo.TRef sig ⟨S262144x120, .f32⟩) main_call1.v0 Host.negf,
    StableHlo.TRef.unary main_call1.v0 main_call1.v1 Host.exp,
    StableHlo.TRef.nullary main_call1.cst (constant S_ .f32 0x3F800000#32),
    StableHlo.TRef.unary main_call1.cst main_call1.v2 (broadcastInDim S262144x120 ![] bcast_S_S262144x120),
    StableHlo.TRef.binary main_call1.v2 main_call1.v1 main_call1.v3 addf,
    StableHlo.TRef.nullary main_call1.cst_0 (constant S_ .f32 0x3F800000#32),
    StableHlo.TRef.unary main_call1.cst_0 main_call1.v4 (broadcastInDim S262144x120 ![] bcast_S_S262144x120),
    StableHlo.TRef.binary main_call1.v4 main_call1.v3 main_call1.v5 Host.divf,
    StableHlo.TRef.binary (.of main_v117 : StableHlo.TRef sig ⟨S262144x120, .f32⟩) main_call1.v5 main_call1.v6 mulf ]

set_option maxHeartbeats 40000000 in
/-- statements 142 … 149 of @main. -/
abbrev ops2c : List (HloOp τ sig (Elt F)) :=
  [ StableHlo.binary main_v118 main_arg20 main_v119 ((fun l r => Host.dotGeneral dot_S262144x120_S120x120_S262144x120_1_0_0_1_n_n none l r) : (⟨S262144x120, .f32⟩ : BufTy).Contents (Elt F) → (⟨S120x120, .f32⟩ : BufTy).Contents (Elt F) → (⟨S262144x120, .f32⟩ : BufTy).Contents (Elt F)),
    StableHlo.unary main_arg21 main_v120 (broadcastInDim S1x120 ![1] bcast_S120_S1x120_1 : (⟨S120, .f32⟩ : BufTy).Contents (Elt F) → (⟨S1x120, .f32⟩ : BufTy).Contents (Elt F)),
    StableHlo.unary main_v120 main_v121 (broadcastInDim S262144x120 ![0, 1] bcast_S1x120_S262144x120_0_1 : (⟨S1x120, .f32⟩ : BufTy).Contents (Elt F) → (⟨S262144x120, .f32⟩ : BufTy).Contents (Elt F)),
    StableHlo.binary main_v119 main_v121 main_v122 (addf : (⟨S262144x120, .f32⟩ : BufTy).Contents (Elt F) → (⟨S262144x120, .f32⟩ : BufTy).Contents (Elt F) → (⟨S262144x120, .f32⟩ : BufTy).Contents (Elt F)),
    StableHlo.binary main_arg2 main_arg14 main_v123 ((fun l r => Host.dotGeneral dot_S262144x20_S20x120_S262144x120_1_0_0_1_n_n none l r) : (⟨S262144x20, .f32⟩ : BufTy).Contents (Elt F) → (⟨S20x120, .f32⟩ : BufTy).Contents (Elt F) → (⟨S262144x120, .f32⟩ : BufTy).Contents (Elt F)),
    StableHlo.unary main_arg15 main_v124 (broadcastInDim S1x120 ![1] bcast_S120_S1x120_1 : (⟨S120, .f32⟩ : BufTy).Contents (Elt F) → (⟨S1x120, .f32⟩ : BufTy).Contents (Elt F)),
    StableHlo.unary main_v124 main_v125 (broadcastInDim S262144x120 ![0, 1] bcast_S1x120_S262144x120_0_1 : (⟨S1x120, .f32⟩ : BufTy).Contents (Elt F) → (⟨S262144x120, .f32⟩ : BufTy).Contents (Elt F)),
    StableHlo.binary main_v123 main_v125 main_v126 (addf : (⟨S262144x120, .f32⟩ : BufTy).Contents (Elt F) → (⟨S262144x120, .f32⟩ : BufTy).Contents (Elt F) → (⟨S262144x120, .f32⟩ : BufTy).Contents (Elt F)) ]

set_option maxHeartbeats 40000000 in
/-- statement 150, the call of @silu on %126: its nine operations over the record main_call2. -/
abbrev ops2d : List (HloOp τ sig (Elt F)) :=
  [ StableHlo.TRef.unary (.of main_v126 : StableHlo.TRef sig ⟨S262144x120, .f32⟩) main_call2.v0 Host.negf,
    StableHlo.TRef.unary main_call2.v0 main_call2.v1 Host.exp,
    StableHlo.TRef.nullary main_call2.cst (constant S_ .f32 0x3F800000#32),
    StableHlo.TRef.unary main_call2.cst main_call2.v2 (broadcastInDim S262144x120 ![] bcast_S_S262144x120),
    StableHlo.TRef.binary main_call2.v2 main_call2.v1 main_call2.v3 addf,
    StableHlo.TRef.nullary main_call2.cst_0 (constant S_ .f32 0x3F800000#32),
    StableHlo.TRef.unary main_call2.cst_0 main_call2.v4 (broadcastInDim S262144x120 ![] bcast_S_S262144x120),
    StableHlo.TRef.binary main_call2.v4 main_call2.v3 main_call2.v5 Host.divf,
    StableHlo.TRef.binary (.of main_v126 : StableHlo.TRef sig ⟨S262144x120, .f32⟩) main_call2.v5 main_call2.v6 mulf ]

set_option maxHeartbeats 40000000 in
/-- statements 151 … 180 of @main. -/
abbrev ops2e : List (HloOp τ sig (Elt F)) :=
  [ StableHlo.binary main_v127 main_arg16 main_v128 ((fun l r => Host.dotGeneral dot_S262144x120_S120x120_S262144x120_1_0_0_1_n_n none l r) : (⟨S262144x120, .f32⟩ : BufTy).Contents (Elt F) → (⟨S120x120, .f32⟩ : BufTy).Contents (Elt F) → (⟨S262144x120, .f32⟩ : BufTy).Contents (Elt F)),
    StableHlo.unary main_arg17 main_v129 (broadcastInDim S1x120 ![1] bcast_S120_S1x120_1 : (⟨S120, .f32⟩ : BufTy).Contents (Elt F) → (⟨S1x120, .f32⟩ : BufTy).Contents (Elt F)),
    StableHlo.unary main_v129 main_v130 (broadcastInDim S262144x120 ![0, 1] bcast_S1x120_S262144x120_0_1 : (⟨S1x120, .f32⟩ : BufTy).Contents (Elt F) → (⟨S262144x120, .f32⟩ : BufTy).Contents (Elt F)),
    StableHlo.binary main_v128 main_v130 main_v131 (addf : (⟨S262144x120, .f32⟩ : BufTy).Contents (Elt F) → (⟨S262144x120, .f32⟩ : BufTy).Contents (Elt F) → (⟨S262144x120, .f32⟩ : BufTy).Contents (Elt F)),
    StableHlo.binary main_v122 main_v131 main_v132 (addf : (⟨S262144x120, .f32⟩ : BufTy).Contents (Elt F) → (⟨S262144x120, .f32⟩ : BufTy).Contents (Elt F) → (⟨S262144x120, .f32⟩ : BufTy).Contents (Elt F)),
    StableHlo.unary main_arg3 main_v133 (broadcastInDim S262144x120 ![0, 1] bcast_S262144x1_S262144x120_0_1 : (⟨S262144x1, .f32⟩ : BufTy).Contents (Elt F) → (⟨S262144x120, .f32⟩ : BufTy).Contents (Elt F)),
    StableHlo.binary main_v132 main_v133 main_v134 (mulf : (⟨S262144x120, .f32⟩ : BufTy).Contents (Elt F) → (⟨S262144x120, .f32⟩ : BufTy).Contents (Elt F) → (⟨S262144x120, .f32⟩ : BufTy).Contents (Elt F)),
    StableHlo.nullary main_c_20 (constantI S_ 32 0#32),
    StableHlo.unary main_c_20 main_v135 (broadcastInDim S262144 ![] bcast_S_S262144 : (⟨S_, .i32⟩ : BufTy).Contents (Elt F) → (⟨S262144, .i32⟩ : BufTy).Contents (Elt F)),
    StableHlo.binary main_v1 main_v135 main_v136 (cmpi .slt : (⟨S262144, .i32⟩ : BufTy).Contents (Elt F) → (⟨S262144, .i32⟩ : BufTy).Contents (Elt F) → (⟨S262144, .i1⟩ : BufTy).Contents (Elt F)),
    StableHlo.nullary main_c_21 (constantI S_ 32 16384#32),
    StableHlo.unary main_c_21 main_v137 (broadcastInDim S262144 ![] bcast_S_S262144 : (⟨S_, .i32⟩ : BufTy).Contents (Elt F) → (⟨S262144, .i32⟩ : BufTy).Contents (Elt F)),
    StableHlo.binary main_v1 main_v137 main_v138 (addi : (⟨S262144, .i32⟩ : BufTy).Contents (Elt F) → (⟨S262144, .i32⟩ : BufTy).Contents (Elt F) → (⟨S262144, .i32⟩ : BufTy).Contents (Elt F)),
    StableHlo.ternary main_v136 main_v138 main_v1 main_v139 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    StableHlo.unary main_v139 main_v140 (broadcastInDim S262144x1 ![0] bcast_S262144_S262144x1_0 : (⟨S262144, .i32⟩ : BufTy).Contents (Elt F) → (⟨S262144x1, .i32⟩ : BufTy).Contents (Elt F)),
    StableHlo.binary main_v80 main_v140 main_v141 ((fun x i => Host.gather gather_S16384x120_S262144x1_S262144x120_1_0_n_n_0_1_1120 x i) : (⟨S16384x120, .f32⟩ : BufTy).Contents (Elt F) → (⟨S262144x1, .i32⟩ : BufTy).Contents (Elt F) → (⟨S262144x120, .f32⟩ : BufTy).Contents (Elt F)),
    StableHlo.binary main_v141 main_v134 main_v142 (mulf : (⟨S262144x120, .f32⟩ : BufTy).Contents (Elt F) → (⟨S262144x120, .f32⟩ : BufTy).Contents (Elt F) → (⟨S262144x120, .f32⟩ : BufTy).Contents (Elt F)),
    StableHlo.reshape main_v142 main_v143 rfl shapeCasts_S262144x120_S262144x4x30,
    StableHlo.nullary main_c_22 (constantI S_ 32 0#32),
    StableHlo.unary main_c_22 main_v144 (broadcastInDim S262144 ![] bcast_S_S262144 : (⟨S_, .i32⟩ : BufTy).Contents (Elt F) → (⟨S262144, .i32⟩ : BufTy).Contents (Elt F)),
    StableHlo.binary main_v3 main_v144 main_v145 (cmpi .slt : (⟨S262144, .i32⟩ : BufTy).Contents (Elt F) → (⟨S262144, .i32⟩ : BufTy).Contents (Elt F) → (⟨S262144, .i1⟩ : BufTy).Contents (Elt F)),
    StableHlo.nullary main_c_23 (constantI S_ 32 16384#32),
    StableHlo.unary main_c_23 main_v146 (broadcastInDim S262144 ![] bcast_S_S262144 : (⟨S_, .i32⟩ : BufTy).Contents (Elt F) → (⟨S262144, .i32⟩ : BufTy).Contents (Elt F)),
    StableHlo.binary main_v3 main_v146 main_v147 (addi : (⟨S262144, .i32⟩ : BufTy).Contents (Elt F) → (⟨S262144, .i32⟩ : BufTy).Contents (Elt F) → (⟨S262144, .i32⟩ : BufTy).Contents (Elt F)),
    StableHlo.ternary main_v145 main_v147 main_v3 main_v148 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    StableHlo.unary main_v148 main_v149 (broadcastInDim S262144x1 ![0] bcast_S262144_S262144x1_0 : (⟨S262144, .i32⟩ : BufTy).Contents (Elt F) → (⟨S262144x1, .i32⟩ : BufTy).Contents (Elt F)),
    StableHlo.binary main_v81 main_v149 main_v150 ((fun x i => Host.gather gather_S16384x120_S262144x1_S262144x120_1_0_n_n_0_1_1120 x i) : (⟨S16384x120, .f32⟩ : BufTy).Contents (Elt F) → (⟨S262144x1, .i32⟩ : BufTy).Contents (Elt F) → (⟨S262144x120, .f32⟩ : BufTy).Contents (Elt F)),
    StableHlo.reshape main_v150 main_v151 rfl shapeCasts_S262144x120_S262144x4x30,
    StableHlo.nullary main_c_24 (constantI S_ 32 0#32),
    StableHlo.unary main_c_24 main_v152 (broadcastInDim S262144 ![] bcast_S_S262144 : (⟨S_, .i32⟩ : BufTy).Contents (Elt F) → (⟨S262144, .i32⟩ : BufTy).Contents (Elt F)) ]

set_option maxHeartbeats 40000000 in
/-- statements 181 … 240 of @main. -/
abbrev ops3 : List (HloOp τ sig (Elt F)) :=
  [ StableHlo.binary main_v3 main_v152 main_v153 (cmpi .slt : (⟨S262144, .i32⟩ : BufTy).Contents (Elt F) → (⟨S262144, .i32⟩ : BufTy).Contents (Elt F) → (⟨S262144, .i1⟩ : BufTy).Contents (Elt F)),
    StableHlo.nullary main_c_25 (constantI S_ 32 16384#32),
    StableHlo.unary main_c_25 main_v154 (broadcastInDim S262144 ![] bcast_S_S262144 : (⟨S_, .i32⟩ : BufTy).Contents (Elt F) → (⟨S262144, .i32⟩ : BufTy).Contents (Elt F)),
    StableHlo.binary main_v3 main_v154 main_v155 (addi : (⟨S262144, .i32⟩ : BufTy).Contents (Elt F) → (⟨S262144, .i32⟩ : BufTy).Contents (Elt F) → (⟨S262144, .i32⟩ : BufTy).Contents (Elt F)),
    StableHlo.ternary main_v153 main_v155 main_v3 main_v156 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    StableHlo.unary main_v156 main_v157 (broadcastInDim S262144x1 ![0] bcast_S262144_S262144x1_0 : (⟨S262144, .i32⟩ : BufTy).Contents (Elt F) → (⟨S262144x1, .i32⟩ : BufTy).Contents (Elt F)),
    StableHlo.binary main_v82 main_v157 main_v158 ((fun x i => Host.gather gather_S16384x120_S262144x1_S262144x120_1_0_n_n_0_1_1120 x i) : (⟨S16384x120, .f32⟩ : BufTy).Contents (Elt F) → (⟨S262144x1, .i32⟩ : BufTy).Contents (Elt F) → (⟨S262144x120, .f32⟩ : BufTy).Contents (Elt F)),
    StableHlo.reshape main_v158 main_v159 rfl shapeCasts_S262144x120_S262144x4x30,
    StableHlo.binary main_v143 main_v151 main_v160 (mulf : (⟨S262144x4x30, .f32⟩ : BufTy).Contents (Elt F) → (⟨S262144x4x30, .f32⟩ : BufTy).Contents (Elt F) → (⟨S262144x4x30, .f32⟩ : BufTy).Contents (Elt F)),
    StableHlo.nullary main_cst_26 (constant S_ .f32 0x00000000#32),
    StableHlo.binary main_v160 main_cst_26 main_v161 ((fun x v => Host.reduceAdd x v reducesTo_S262144x4x30_S262144x4_d2 h_S_) : (⟨S262144x4x30, .f32⟩ : BufTy).Contents (Elt F) → (⟨S_, .f32⟩ : BufTy).Contents (Elt F) → (⟨S262144x4, .f32⟩ : BufTy).Contents (Elt F)),
    StableHlo.unary main_v161 main_v162 (broadcastInDim S262144x4x1 ![0, 1] bcast_S262144x4_S262144x4x1_0_1 : (⟨S262144x4, .f32⟩ : BufTy).Contents (Elt F) → (⟨S262144x4x1, .f32⟩ : BufTy).Contents (Elt F)),
    StableHlo.nullary main_cst_27 (constant S_ .f32 0x3DBAF4BA#32),
    StableHlo.unary main_cst_27 main_v163 (broadcastInDim S262144x4x1 ![] bcast_S_S262144x4x1 : (⟨S_, .f32⟩ : BufTy).Contents (Elt F) → (⟨S262144x4x1, .f32⟩ : BufTy).Contents (Elt F)),
    StableHlo.binary main_v162 main_v163 main_v164 (mulf : (⟨S262144x4x1, .f32⟩ : BufTy).Contents (Elt F) → (⟨S262144x4x1, .f32⟩ : BufTy).Contents (Elt F) → (⟨S262144x4x1, .f32⟩ : BufTy).Contents (Elt F)),
    StableHlo.unary main_v164 main_v165 (broadcastInDim S262144x4x30 ![0, 1, 2] bcast_S262144x4x1_S262144x4x30_0_1_2 : (⟨S262144x4x1, .f32⟩ : BufTy).Contents (Elt F) → (⟨S262144x4x30, .f32⟩ : BufTy).Contents (Elt F)),
    StableHlo.binary main_v165 main_v159 main_v166 (mulf : (⟨S262144x4x30, .f32⟩ : BufTy).Contents (Elt F) → (⟨S262144x4x30, .f32⟩ : BufTy).Contents (Elt F) → (⟨S262144x4x30, .f32⟩ : BufTy).Contents (Elt F)),
    StableHlo.reshape main_v166 main_v167 rfl shapeCasts_S262144x4x30_S262144x120,
    StableHlo.nullary main_c_28 (constantI S_ 32 0#32),
    StableHlo.unary main_c_28 main_v168 (broadcastInDim S262144 ![] bcast_S_S262144 : (⟨S_, .i32⟩ : BufTy).Contents (Elt F) → (⟨S262144, .i32⟩ : BufTy).Contents (Elt F)),
    StableHlo.binary main_v1 main_v168 main_v169 (cmpi .slt : (⟨S262144, .i32⟩ : BufTy).Contents (Elt F) → (⟨S262144, .i32⟩ : BufTy).Contents (Elt F) → (⟨S262144, .i1⟩ : BufTy).Contents (Elt F)),
    StableHlo.nullary main_c_29 (constantI S_ 32 16384#32),
    StableHlo.unary main_c_29 main_v170 (broadcastInDim S262144 ![] bcast_S_S262144 : (⟨S_, .i32⟩ : BufTy).Contents (Elt F) → (⟨S262144, .i32⟩ : BufTy).Contents (Elt F)),
    StableHlo.binary main_v1 main_v170 main_v171 (addi : (⟨S262144, .i32⟩ : BufTy).Contents (Elt F) → (⟨S262144, .i32⟩ : BufTy).Contents (Elt F) → (⟨S262144, .i32⟩ : BufTy).Contents (Elt F)),
    StableHlo.ternary main_v169 main_v171 main_v1 main_v172 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    StableHlo.unary main_v172 main_v173 (broadcastInDim S262144x1 ![0] bcast_S262144_S262144x1_0 : (⟨S262144, .i32⟩ : BufTy).Contents (Elt F) → (⟨S262144x1, .i32⟩ : BufTy).Contents (Elt F)),
    StableHlo.binary main_v83 main_v173 main_v174 ((fun x i => Host.gather gather_S16384x120_S262144x1_S262144x120_1_0_n_n_0_1_1120 x i) : (⟨S16384x120, .f32⟩ : BufTy).Contents (Elt F) → (⟨S262144x1, .i32⟩ : BufTy).Contents (Elt F) → (⟨S262144x120, .f32⟩ : BufTy).Contents (Elt F)),
    StableHlo.binary main_v174 main_v134 main_v175 (mulf : (⟨S262144x120, .f32⟩ : BufTy).Contents (Elt F) → (⟨S262144x120, .f32⟩ : BufTy).Contents (Elt F) → (⟨S262144x120, .f32⟩ : BufTy).Contents (Elt F)),
    StableHlo.reshape main_v175 main_v176 rfl shapeCasts_S262144x120_S262144x3x40,
    StableHlo.nullary main_c_30 (constantI S_ 32 0#32),
    StableHlo.unary main_c_30 main_v177 (broadcastInDim S262144 ![] bcast_S_S262144 : (⟨S_, .i32⟩ : BufTy).Contents (Elt F) → (⟨S262144, .i32⟩ : BufTy).Contents (Elt F)),
    StableHlo.binary main_v3 main_v177 main_v178 (cmpi .slt : (⟨S262144, .i32⟩ : BufTy).Contents (Elt F) → (⟨S262144, .i32⟩ : BufTy).Contents (Elt F) → (⟨S262144, .i1⟩ : BufTy).Contents (Elt F)),
    StableHlo.nullary main_c_31 (constantI S_ 32 16384#32),
    StableHlo.unary main_c_31 main_v179 (broadcastInDim S262144 ![] bcast_S_S262144 : (⟨S_, .i32⟩ : BufTy).Contents (Elt F) → (⟨S262144, .i32⟩ : BufTy).Contents (Elt F)),
    StableHlo.binary main_v3 main_v179 main_v180 (addi : (⟨S262144, .i32⟩ : BufTy).Contents (Elt F) → (⟨S262144, .i32⟩ : BufTy).Contents (Elt F) → (⟨S262144, .i32⟩ : BufTy).Contents (Elt F)),
    StableHlo.ternary main_v178 main_v180 main_v3 main_v181 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    StableHlo.unary main_v181 main_v182 (broadcastInDim S262144x1 ![0] bcast_S262144_S262144x1_0 : (⟨S262144, .i32⟩ : BufTy).Contents (Elt F) → (⟨S262144x1, .i32⟩ : BufTy).Contents (Elt F)),
    StableHlo.binary main_v84 main_v182 main_v183 ((fun x i => Host.gather gather_S16384x120_S262144x1_S262144x120_1_0_n_n_0_1_1120 x i) : (⟨S16384x120, .f32⟩ : BufTy).Contents (Elt F) → (⟨S262144x1, .i32⟩ : BufTy).Contents (Elt F) → (⟨S262144x120, .f32⟩ : BufTy).Contents (Elt F)),
    StableHlo.reshape main_v183 main_v184 rfl shapeCasts_S262144x120_S262144x3x40,
    StableHlo.nullary main_c_32 (constantI S_ 32 0#32),
    StableHlo.unary main_c_32 main_v185 (broadcastInDim S262144 ![] bcast_S_S262144 : (⟨S_, .i32⟩ : BufTy).Contents (Elt F) → (⟨S262144, .i32⟩ : BufTy).Contents (Elt F)),
    StableHlo.binary main_v3 main_v185 main_v186 (cmpi .slt : (⟨S262144, .i32⟩ : BufTy).Contents (Elt F) → (⟨S262144, .i32⟩ : BufTy).Contents (Elt F) → (⟨S262144, .i1⟩ : BufTy).Contents (Elt F)),
    StableHlo.nullary main_c_33 (constantI S_ 32 16384#32),
    StableHlo.unary main_c_33 main_v187 (broadcastInDim S262144 ![] bcast_S_S262144 : (⟨S_, .i32⟩ : BufTy).Contents (Elt F) → (⟨S262144, .i32⟩ : BufTy).Contents (Elt F)),
    StableHlo.binary main_v3 main_v187 main_v188 (addi : (⟨S262144, .i32⟩ : BufTy).Contents (Elt F) → (⟨S262144, .i32⟩ : BufTy).Contents (Elt F) → (⟨S262144, .i32⟩ : BufTy).Contents (Elt F)),
    StableHlo.ternary main_v186 main_v188 main_v3 main_v189 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    StableHlo.unary main_v189 main_v190 (broadcastInDim S262144x1 ![0] bcast_S262144_S262144x1_0 : (⟨S262144, .i32⟩ : BufTy).Contents (Elt F) → (⟨S262144x1, .i32⟩ : BufTy).Contents (Elt F)),
    StableHlo.binary main_v85 main_v190 main_v191 ((fun x i => Host.gather gather_S16384x112_S262144x1_S262144x112_1_0_n_n_0_1_1112 x i) : (⟨S16384x112, .f32⟩ : BufTy).Contents (Elt F) → (⟨S262144x1, .i32⟩ : BufTy).Contents (Elt F) → (⟨S262144x112, .f32⟩ : BufTy).Contents (Elt F)),
    StableHlo.binary main_v176 main_v184 main_v192 (mulf : (⟨S262144x3x40, .f32⟩ : BufTy).Contents (Elt F) → (⟨S262144x3x40, .f32⟩ : BufTy).Contents (Elt F) → (⟨S262144x3x40, .f32⟩ : BufTy).Contents (Elt F)),
    StableHlo.nullary main_cst_34 (constant S_ .f32 0x00000000#32),
    StableHlo.binary main_v192 main_cst_34 main_v193 ((fun x v => Host.reduceAdd x v reducesTo_S262144x3x40_S262144x3_d2 h_S_) : (⟨S262144x3x40, .f32⟩ : BufTy).Contents (Elt F) → (⟨S_, .f32⟩ : BufTy).Contents (Elt F) → (⟨S262144x3, .f32⟩ : BufTy).Contents (Elt F)),
    StableHlo.nullary main_cst_35 (constant S_ .f32 0x3DC1848F#32),
    StableHlo.unary main_cst_35 main_v194 (broadcastInDim S262144x3 ![] bcast_S_S262144x3 : (⟨S_, .f32⟩ : BufTy).Contents (Elt F) → (⟨S262144x3, .f32⟩ : BufTy).Contents (Elt F)),
    StableHlo.binary main_v193 main_v194 main_v195 (mulf : (⟨S262144x3, .f32⟩ : BufTy).Contents (Elt F) → (⟨S262144x3, .f32⟩ : BufTy).Contents (Elt F) → (⟨S262144x3, .f32⟩ : BufTy).Contents (Elt F)),
    StableHlo.unary main_v195 main_v196 ((extractStridedSlice S262144x1 ![0, 0] · slices_S262144x3_S262144x1_0_0) : (⟨S262144x3, .f32⟩ : BufTy).Contents (Elt F) → (⟨S262144x1, .f32⟩ : BufTy).Contents (Elt F)),
    StableHlo.unary main_v196 main_v197 (broadcastInDim S262144x1x64 ![0, 1] bcast_S262144x1_S262144x1x64_0_1 : (⟨S262144x1, .f32⟩ : BufTy).Contents (Elt F) → (⟨S262144x1x64, .f32⟩ : BufTy).Contents (Elt F)),
    StableHlo.reshape main_v197 main_v198 rfl shapeCasts_S262144x1x64_S262144x64,
    StableHlo.unary main_v195 main_v199 ((extractStridedSlice S262144x1 ![0, 1] · slices_S262144x3_S262144x1_0_1) : (⟨S262144x3, .f32⟩ : BufTy).Contents (Elt F) → (⟨S262144x1, .f32⟩ : BufTy).Contents (Elt F)),
    StableHlo.unary main_v199 main_v200 (broadcastInDim S262144x1x32 ![0, 1] bcast_S262144x1_S262144x1x32_0_1 : (⟨S262144x1, .f32⟩ : BufTy).Contents (Elt F) → (⟨S262144x1x32, .f32⟩ : BufTy).Contents (Elt F)),
    StableHlo.reshape main_v200 main_v201 rfl shapeCasts_S262144x1x32_S262144x32 ]

set_option maxHeartbeats 40000000 in
/-- statements 241 … 282 of @main (283 is the return). -/
abbrev ops4 : List (HloOp τ sig (Elt F)) :=
  [ StableHlo.unary main_v195 main_v202 ((extractStridedSlice S262144x1 ![0, 2] · slices_S262144x3_S262144x1_0_2) : (⟨S262144x3, .f32⟩ : BufTy).Contents (Elt F) → (⟨S262144x1, .f32⟩ : BufTy).Contents (Elt F)),
    StableHlo.unary main_v202 main_v203 (broadcastInDim S262144x1x16 ![0, 1] bcast_S262144x1_S262144x1x16_0_1 : (⟨S262144x1, .f32⟩ : BufTy).Contents (Elt F) → (⟨S262144x1x16, .f32⟩ : BufTy).Contents (Elt F)),
    StableHlo.reshape main_v203 main_v204 rfl shapeCasts_S262144x1x16_S262144x16,
    StableHlo.nary ![main_v198, main_v201, main_v204] main_v205 (fun u => concatenate S262144x112 1 [⟨S262144x64, u 0⟩, ⟨S262144x32, u 1⟩, ⟨S262144x16, u 2⟩] concatenates_S262144x64_S262144x32_S262144x16_S262144x112_d1),
    StableHlo.binary main_v205 main_v191 main_v206 (mulf : (⟨S262144x112, .f32⟩ : BufTy).Contents (Elt F) → (⟨S262144x112, .f32⟩ : BufTy).Contents (Elt F) → (⟨S262144x112, .f32⟩ : BufTy).Contents (Elt F)),
    StableHlo.unary main_v206 main_v207 ((extractStridedSlice S262144x64 ![0, 0] · slices_S262144x112_S262144x64_0_0) : (⟨S262144x112, .f32⟩ : BufTy).Contents (Elt F) → (⟨S262144x64, .f32⟩ : BufTy).Contents (Elt F)),
    StableHlo.unary main_v207 main_v208 (broadcastInDim S262144x64x1 ![0, 1] bcast_S262144x64_S262144x64x1_0_1 : (⟨S262144x64, .f32⟩ : BufTy).Contents (Elt F) → (⟨S262144x64x1, .f32⟩ : BufTy).Contents (Elt F)),
    StableHlo.unary main_v208 main_v209 (broadcastInDim S262144x64x1x1 ![0, 1, 2] bcast_S262144x64x1_S262144x64x1x1_0_1_2 : (⟨S262144x64x1, .f32⟩ : BufTy).Contents (Elt F) → (⟨S262144x64x1x1, .f32⟩ : BufTy).Contents (Elt F)),
    StableHlo.reshape main_v209 main_v210 rfl shapeCasts_S262144x64x1x1_S262144x64x1,
    StableHlo.reshape main_v210 main_v211 rfl shapeCasts_S262144x64x1_S262144x64,
    StableHlo.unary main_v206 main_v212 ((extractStridedSlice S262144x32 ![0, 64] · slices_S262144x112_S262144x32_0_64) : (⟨S262144x112, .f32⟩ : BufTy).Contents (Elt F) → (⟨S262144x32, .f32⟩ : BufTy).Contents (Elt F)),
    StableHlo.unary main_v212 main_v213 (broadcastInDim S262144x32x1 ![0, 1] bcast_S262144x32_S262144x32x1_0_1 : (⟨S262144x32, .f32⟩ : BufTy).Contents (Elt F) → (⟨S262144x32x1, .f32⟩ : BufTy).Contents (Elt F)),
    StableHlo.unary main_v213 main_v214 (broadcastInDim S262144x32x1x3 ![0, 1, 2] bcast_S262144x32x1_S262144x32x1x3_0_1_2 : (⟨S262144x32x1, .f32⟩ : BufTy).Contents (Elt F) → (⟨S262144x32x1x3, .f32⟩ : BufTy).Contents (Elt F)),
    StableHlo.reshape main_v214 main_v215 rfl shapeCasts_S262144x32x1x3_S262144x32x3,
    StableHlo.reshape main_v215 main_v216 rfl shapeCasts_S262144x32x3_S262144x96,
    StableHlo.unary main_v206 main_v217 ((extractStridedSlice S262144x16 ![0, 96] · slices_S262144x112_S262144x16_0_96) : (⟨S262144x112, .f32⟩ : BufTy).Contents (Elt F) → (⟨S262144x16, .f32⟩ : BufTy).Contents (Elt F)),
    StableHlo.unary main_v217 main_v218 (broadcastInDim S262144x16x1 ![0, 1] bcast_S262144x16_S262144x16x1_0_1 : (⟨S262144x16, .f32⟩ : BufTy).Contents (Elt F) → (⟨S262144x16x1, .f32⟩ : BufTy).Contents (Elt F)),
    StableHlo.unary main_v218 main_v219 (broadcastInDim S262144x16x1x5 ![0, 1, 2] bcast_S262144x16x1_S262144x16x1x5_0_1_2 : (⟨S262144x16x1, .f32⟩ : BufTy).Contents (Elt F) → (⟨S262144x16x1x5, .f32⟩ : BufTy).Contents (Elt F)),
    StableHlo.reshape main_v219 main_v220 rfl shapeCasts_S262144x16x1x5_S262144x16x5,
    StableHlo.reshape main_v220 main_v221 rfl shapeCasts_S262144x16x5_S262144x80,
    StableHlo.nary ![main_v211, main_v216, main_v221] main_v222 (fun u => concatenate S262144x240 1 [⟨S262144x64, u 0⟩, ⟨S262144x96, u 1⟩, ⟨S262144x80, u 2⟩] concatenates_S262144x64_S262144x96_S262144x80_S262144x240_d1),
    StableHlo.binary main_arg4 main_v222 main_v223 (mulf : (⟨S262144x240, .f32⟩ : BufTy).Contents (Elt F) → (⟨S262144x240, .f32⟩ : BufTy).Contents (Elt F) → (⟨S262144x240, .f32⟩ : BufTy).Contents (Elt F)),
    StableHlo.unary main_arg3 main_v224 (broadcastInDim S262144x240 ![0, 1] bcast_S262144x1_S262144x240_0_1 : (⟨S262144x1, .f32⟩ : BufTy).Contents (Elt F) → (⟨S262144x240, .f32⟩ : BufTy).Contents (Elt F)),
    StableHlo.binary main_v223 main_v224 main_v225 (mulf : (⟨S262144x240, .f32⟩ : BufTy).Contents (Elt F) → (⟨S262144x240, .f32⟩ : BufTy).Contents (Elt F) → (⟨S262144x240, .f32⟩ : BufTy).Contents (Elt F)),
    StableHlo.nullary main_c_36 (constantI S_ 32 0#32),
    StableHlo.unary main_c_36 main_v226 (broadcastInDim S262144 ![] bcast_S_S262144 : (⟨S_, .i32⟩ : BufTy).Contents (Elt F) → (⟨S262144, .i32⟩ : BufTy).Contents (Elt F)),
    StableHlo.binary main_v1 main_v226 main_v227 (cmpi .slt : (⟨S262144, .i32⟩ : BufTy).Contents (Elt F) → (⟨S262144, .i32⟩ : BufTy).Contents (Elt F) → (⟨S262144, .i1⟩ : BufTy).Contents (Elt F)),
    StableHlo.nullary main_c_37 (constantI S_ 32 16384#32),
    StableHlo.unary main_c_37 main_v228 (broadcastInDim S262144 ![] bcast_S_S262144 : (⟨S_, .i32⟩ : BufTy).Contents (Elt F) → (⟨S262144, .i32⟩ : BufTy).Contents (Elt F)),
    StableHlo.binary main_v1 main_v228 main_v229 (addi : (⟨S262144, .i32⟩ : BufTy).Contents (Elt F) → (⟨S262144, .i32⟩ : BufTy).Contents (Elt F) → (⟨S262144, .i32⟩ : BufTy).Contents (Elt F)),
    StableHlo.ternary main_v227 main_v229 main_v1 main_v230 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    StableHlo.unary main_v230 main_v231 (broadcastInDim S262144x1 ![0] bcast_S262144_S262144x1_0 : (⟨S262144, .i32⟩ : BufTy).Contents (Elt F) → (⟨S262144x1, .i32⟩ : BufTy).Contents (Elt F)),
    StableHlo.ternary main_arg0 main_v231 main_v167 main_v232 ((fun x i u => Host.scatterAdd scatter_S16384x120_S262144x1_S262144x120_1_0_0_1 x i u) : (⟨S16384x120, .f32⟩ : BufTy).Contents (Elt F) → (⟨S262144x1, .i32⟩ : BufTy).Contents (Elt F) → (⟨S262144x120, .f32⟩ : BufTy).Contents (Elt F) → (⟨S16384x120, .f32⟩ : BufTy).Contents (Elt F)),
    StableHlo.nullary main_c_38 (constantI S_ 32 0#32),
    StableHlo.unary main_c_38 main_v233 (broadcastInDim S262144 ![] bcast_S_S262144 : (⟨S_, .i32⟩ : BufTy).Contents (Elt F) → (⟨S262144, .i32⟩ : BufTy).Contents (Elt F)),
    StableHlo.binary main_v1 main_v233 main_v234 (cmpi .slt : (⟨S262144, .i32⟩ : BufTy).Contents (Elt F) → (⟨S262144, .i32⟩ : BufTy).Contents (Elt F) → (⟨S262144, .i1⟩ : BufTy).Contents (Elt F)),
    StableHlo.nullary main_c_39 (constantI S_ 32 16384#32),
    StableHlo.unary main_c_39 main_v235 (broadcastInDim S262144 ![] bcast_S_S262144 : (⟨S_, .i32⟩ : BufTy).Contents (Elt F) → (⟨S262144, .i32⟩ : BufTy).Contents (Elt F)),
    StableHlo.binary main_v1 main_v235 main_v236 (addi : (⟨S262144, .i32⟩ : BufTy).Contents (Elt F) → (⟨S262144, .i32⟩ : BufTy).Contents (Elt F) → (⟨S262144, .i32⟩ : BufTy).Contents (Elt F)),
    StableHlo.ternary main_v234 main_v236 main_v1 main_v237 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    StableHlo.unary main_v237 main_v238 (broadcastInDim S262144x1 ![0] bcast_S262144_S262144x1_0 : (⟨S262144, .i32⟩ : BufTy).Contents (Elt F) → (⟨S262144x1, .i32⟩ : BufTy).Contents (Elt F)),
    StableHlo.ternary main_arg1 main_v238 main_v225 main_v239 ((fun x i u => Host.scatterAdd scatter_S16384x240_S262144x1_S262144x240_1_0_0_1 x i u) : (⟨S16384x240, .f32⟩ : BufTy).Contents (Elt F) → (⟨S262144x1, .i32⟩ : BufTy).Contents (Elt F) → (⟨S262144x240, .f32⟩ : BufTy).Contents (Elt F) → (⟨S16384x240, .f32⟩ : BufTy).Contents (Elt F)) ]

/-- Window 0: eleven operations, the call of @_var, forty-eight operations. -/
abbrev ops0 : List (HloOp τ sig (Elt F)) := ops0a ++ (ops0b ++ ops0c)

/-- Window 2: twenty operations, a call of @silu, eight operations, a call of @silu, thirty operations. -/
abbrev ops2 : List (HloOp τ sig (Elt F)) := ops2a ++ (ops2b ++ (ops2c ++ (ops2d ++ ops2e)))

/-- Every operation of @main in program order, the callees' operations at their call sites. -/
abbrev ops : List (HloOp τ sig (Elt F)) := ops0 ++ (ops1 ++ (ops2 ++ (ops3 ++ ops4)))

/-! ## @main is that line -/

/-- Window 0 is its three pieces run in order: @_var's body, and @_where's inside it, unfold at the call into
    the operations of `ops0b`. The window's last statement is in tail position; `seq` closes with the
    return, which a bind absorbs. -/
theorem part0_eq (c : Dev nD) :
    main_part0 (F := F) c = (seq ops0a >>= fun _ => seq ops0b >>= fun _ => seq ops0c) := by
  chain_rfl

/-- Window 1 is one piece. -/
theorem part1_eq (c : Dev nD) : main_part1 (F := F) c = seq ops1 := by
  chain_rfl

/-- Window 2 is its five pieces run in order, @silu's body unfolded at each of its two calls. -/
theorem part2_eq (c : Dev nD) :
    main_part2 (F := F) c
      = (seq ops2a >>= fun _ => seq ops2b >>= fun _ => seq ops2c >>= fun _ => seq ops2d >>= fun _ => seq ops2e) := by
  chain_rfl

/-- Window 3 is one piece. -/
theorem part3_eq (c : Dev nD) : main_part3 (F := F) c = seq ops3 := by
  chain_rfl

/-- Window 4 is one piece, its closing return `seq`'s own. -/
theorem part4_eq (c : Dev nD) : main_part4 (F := F) c = seq ops4 := by
  chain_rfl

/-- @main runs its windows in order. -/
theorem main_windows (c : Dev nD) :
    main (F := F) c
      = (main_part0 c >>= fun _ => main_part1 c >>= fun _ => main_part2 c >>= fun _ => main_part3 c >>= fun _ => main_part4 c) :=
  rfl

/-- @main is the line `ops`: the windows' equations, then both sides are the pieces' lines bound in order once
    concatenation is split (`seq_append`) and sequencing re-associated (`bind_assoc`). -/
theorem main_eq (c : Dev nD) : main (F := F) c = seq ops := by
  rw [main_windows, part0_eq, part1_eq, part2_eq, part3_eq, part4_eq]
  simp only [ops, ops0, ops2, seq_append, bind_assoc]

/-! ## The operations touch TensorCore references only -/

/-- A property of every element of two lists is one of every element of their concatenation. -/
theorem forall_append {α : Type} {p : α → Prop} {l₁ l₂ : List α} (h₁ : l₁.Forall p) (h₂ : l₂.Forall p) :
    (l₁ ++ l₂).Forall p :=
  List.forall_iff_forall_mem.2 fun x hx =>
    (List.mem_append.1 hx).elim (List.forall_iff_forall_mem.1 h₁ x) (List.forall_iff_forall_mem.1 h₂ x)

/-- Each operation of `ops0a` touches TensorCore references only. -/
theorem ops0a_sub : (ops0a : List (HloOp τ sig (Elt F))).Forall fun op => op.bufs ⊆ tcRefs τ sig :=
  ⟨unary_bufs_sub .., reshape_bufs_sub .., unary_bufs_sub .., reshape_bufs_sub .., nullary_bufs_sub .., binary_bufs_sub ..,
    unary_bufs_sub .., nullary_bufs_sub .., unary_bufs_sub .., binary_bufs_sub .., nullary_bufs_sub ..⟩

/-- Each operation of `ops0b` touches TensorCore references only. -/
theorem ops0b_sub : (ops0b : List (HloOp τ sig (Elt F))).Forall fun op => op.bufs ⊆ tcRefs τ sig :=
  ⟨nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., unary_bufs_sub .., binary_bufs_sub .., nullary_bufs_sub ..,
    binary_bufs_sub .., nullary_bufs_sub .., unary_bufs_sub .., unary_bufs_sub .., ternary_bufs_sub ..⟩

/-- Each operation of `ops0c` touches TensorCore references only. -/
theorem ops0c_sub : (ops0c : List (HloOp τ sig (Elt F))).Forall fun op => op.bufs ⊆ tcRefs τ sig :=
  ⟨unary_bufs_sub .., binary_bufs_sub .., nullary_bufs_sub .., unary_bufs_sub .., binary_bufs_sub .., unary_bufs_sub ..,
    unary_bufs_sub .., binary_bufs_sub .., unary_bufs_sub .., unary_bufs_sub .., binary_bufs_sub .., unary_bufs_sub ..,
    unary_bufs_sub .., binary_bufs_sub .., unary_bufs_sub .., reshape_bufs_sub .., nullary_bufs_sub .., binary_bufs_sub ..,
    unary_bufs_sub .., nullary_bufs_sub .., unary_bufs_sub .., binary_bufs_sub .., unary_bufs_sub .., binary_bufs_sub ..,
    binary_bufs_sub .., nullary_bufs_sub .., binary_bufs_sub .., unary_bufs_sub .., nullary_bufs_sub .., unary_bufs_sub ..,
    binary_bufs_sub .., nullary_bufs_sub .., unary_bufs_sub .., binary_bufs_sub .., unary_bufs_sub .., unary_bufs_sub ..,
    binary_bufs_sub .., unary_bufs_sub .., unary_bufs_sub .., unary_bufs_sub .., binary_bufs_sub .., reshape_bufs_sub ..,
    unary_bufs_sub .., reshape_bufs_sub .., binary_bufs_sub .., nullary_bufs_sub .., binary_bufs_sub .., unary_bufs_sub ..⟩

/-- Each operation of `ops1` touches TensorCore references only. -/
theorem ops1_sub : (ops1 : List (HloOp τ sig (Elt F))).Forall fun op => op.bufs ⊆ tcRefs τ sig :=
  ⟨nullary_bufs_sub .., unary_bufs_sub .., binary_bufs_sub .., nullary_bufs_sub .., unary_bufs_sub .., binary_bufs_sub ..,
    unary_bufs_sub .., unary_bufs_sub .., binary_bufs_sub .., unary_bufs_sub .., unary_bufs_sub .., unary_bufs_sub ..,
    binary_bufs_sub .., reshape_bufs_sub .., unary_bufs_sub .., reshape_bufs_sub .., binary_bufs_sub .., nullary_bufs_sub ..,
    binary_bufs_sub .., unary_bufs_sub .., nullary_bufs_sub .., unary_bufs_sub .., binary_bufs_sub .., nullary_bufs_sub ..,
    unary_bufs_sub .., binary_bufs_sub .., unary_bufs_sub .., unary_bufs_sub .., binary_bufs_sub .., unary_bufs_sub ..,
    unary_bufs_sub .., unary_bufs_sub .., binary_bufs_sub .., reshape_bufs_sub .., nary_bufs_sub .., binary_bufs_sub ..,
    binary_bufs_sub .., binary_bufs_sub .., binary_bufs_sub .., binary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., binary_bufs_sub ..⟩

/-- Each operation of `ops2a` touches TensorCore references only. -/
theorem ops2a_sub : (ops2a : List (HloOp τ sig (Elt F))).Forall fun op => op.bufs ⊆ tcRefs τ sig :=
  ⟨unary_bufs_sub .., reshape_bufs_sub .., binary_bufs_sub .., nullary_bufs_sub .., binary_bufs_sub .., unary_bufs_sub ..,
    reshape_bufs_sub .., binary_bufs_sub .., nullary_bufs_sub .., binary_bufs_sub .., unary_bufs_sub .., reshape_bufs_sub ..,
    binary_bufs_sub .., nullary_bufs_sub .., binary_bufs_sub .., nary_bufs_sub .., binary_bufs_sub .., unary_bufs_sub ..,
    unary_bufs_sub .., binary_bufs_sub ..⟩

/-- Each operation of `ops2b` touches TensorCore references only. -/
theorem ops2b_sub : (ops2b : List (HloOp τ sig (Elt F))).Forall fun op => op.bufs ⊆ tcRefs τ sig :=
  ⟨unary_bufs_sub .., unary_bufs_sub .., nullary_bufs_sub .., unary_bufs_sub .., binary_bufs_sub .., nullary_bufs_sub ..,
    unary_bufs_sub .., binary_bufs_sub .., binary_bufs_sub ..⟩

/-- Each operation of `ops2c` touches TensorCore references only. -/
theorem ops2c_sub : (ops2c : List (HloOp τ sig (Elt F))).Forall fun op => op.bufs ⊆ tcRefs τ sig :=
  ⟨binary_bufs_sub .., unary_bufs_sub .., unary_bufs_sub .., binary_bufs_sub .., binary_bufs_sub .., unary_bufs_sub ..,
    unary_bufs_sub .., binary_bufs_sub ..⟩

/-- Each operation of `ops2d` touches TensorCore references only. -/
theorem ops2d_sub : (ops2d : List (HloOp τ sig (Elt F))).Forall fun op => op.bufs ⊆ tcRefs τ sig :=
  ⟨unary_bufs_sub .., unary_bufs_sub .., nullary_bufs_sub .., unary_bufs_sub .., binary_bufs_sub .., nullary_bufs_sub ..,
    unary_bufs_sub .., binary_bufs_sub .., binary_bufs_sub ..⟩

/-- Each operation of `ops2e` touches TensorCore references only. -/
theorem ops2e_sub : (ops2e : List (HloOp τ sig (Elt F))).Forall fun op => op.bufs ⊆ tcRefs τ sig :=
  ⟨binary_bufs_sub .., unary_bufs_sub .., unary_bufs_sub .., binary_bufs_sub .., binary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., binary_bufs_sub .., reshape_bufs_sub ..,
    nullary_bufs_sub .., unary_bufs_sub .., binary_bufs_sub .., nullary_bufs_sub .., unary_bufs_sub .., binary_bufs_sub ..,
    ternary_bufs_sub .., unary_bufs_sub .., binary_bufs_sub .., reshape_bufs_sub .., nullary_bufs_sub .., unary_bufs_sub ..⟩

/-- Each operation of `ops3` touches TensorCore references only. -/
theorem ops3_sub : (ops3 : List (HloOp τ sig (Elt F))).Forall fun op => op.bufs ⊆ tcRefs τ sig :=
  ⟨binary_bufs_sub .., nullary_bufs_sub .., unary_bufs_sub .., binary_bufs_sub .., ternary_bufs_sub .., unary_bufs_sub ..,
    binary_bufs_sub .., reshape_bufs_sub .., binary_bufs_sub .., nullary_bufs_sub .., binary_bufs_sub .., unary_bufs_sub ..,
    nullary_bufs_sub .., unary_bufs_sub .., binary_bufs_sub .., unary_bufs_sub .., binary_bufs_sub .., reshape_bufs_sub ..,
    nullary_bufs_sub .., unary_bufs_sub .., binary_bufs_sub .., nullary_bufs_sub .., unary_bufs_sub .., binary_bufs_sub ..,
    ternary_bufs_sub .., unary_bufs_sub .., binary_bufs_sub .., binary_bufs_sub .., reshape_bufs_sub .., nullary_bufs_sub ..,
    unary_bufs_sub .., binary_bufs_sub .., nullary_bufs_sub .., unary_bufs_sub .., binary_bufs_sub .., ternary_bufs_sub ..,
    unary_bufs_sub .., binary_bufs_sub .., reshape_bufs_sub .., nullary_bufs_sub .., unary_bufs_sub .., binary_bufs_sub ..,
    nullary_bufs_sub .., unary_bufs_sub .., binary_bufs_sub .., ternary_bufs_sub .., unary_bufs_sub .., binary_bufs_sub ..,
    binary_bufs_sub .., nullary_bufs_sub .., binary_bufs_sub .., nullary_bufs_sub .., unary_bufs_sub .., binary_bufs_sub ..,
    unary_bufs_sub .., unary_bufs_sub .., reshape_bufs_sub .., unary_bufs_sub .., unary_bufs_sub .., reshape_bufs_sub ..⟩

/-- Each operation of `ops4` touches TensorCore references only. -/
theorem ops4_sub : (ops4 : List (HloOp τ sig (Elt F))).Forall fun op => op.bufs ⊆ tcRefs τ sig :=
  ⟨unary_bufs_sub .., unary_bufs_sub .., reshape_bufs_sub .., nary_bufs_sub .., binary_bufs_sub .., unary_bufs_sub ..,
    unary_bufs_sub .., unary_bufs_sub .., reshape_bufs_sub .., reshape_bufs_sub .., unary_bufs_sub .., unary_bufs_sub ..,
    unary_bufs_sub .., reshape_bufs_sub .., reshape_bufs_sub .., unary_bufs_sub .., unary_bufs_sub .., unary_bufs_sub ..,
    reshape_bufs_sub .., reshape_bufs_sub .., nary_bufs_sub .., binary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., ternary_bufs_sub .., nullary_bufs_sub .., unary_bufs_sub .., binary_bufs_sub ..,
    nullary_bufs_sub .., unary_bufs_sub .., binary_bufs_sub .., ternary_bufs_sub .., unary_bufs_sub .., ternary_bufs_sub ..⟩

theorem ops_sub : (ops : List (HloOp τ sig (Elt F))).Forall fun op => op.bufs ⊆ tcRefs τ sig :=
  forall_append (forall_append ops0a_sub (forall_append ops0b_sub ops0c_sub))
    (forall_append ops1_sub
      (forall_append
        (forall_append ops2a_sub (forall_append ops2b_sub (forall_append ops2c_sub (forall_append ops2d_sub ops2e_sub))))
        (forall_append ops3_sub ops4_sub)))

end Cert.ReferenceIdeal.RefRun

end
-- ==== Proof.RefRun.lean ====
/-
  The reference program's run, read off its line of operations (`ops`, `main_eq`).

  `run_after`: at the compiled mesh, for any float values, from any memory with zero counters, every weakly fair
  execution of @main on the TensorCores terminates, and every TensorCore buffer of every device ends at the fold
  of the operations' results over the device's launch contents (`after ops`). It is the library's statement for a
  straight line of operations on a signature that scopes no buffer and no semaphore; besides `main_eq` and
  `ops_sub` it asks that every operation determine what it writes (none marks a buffer fresh).

  `kept`: each operation writes exactly one buffer, the buffer of the value it defines, and those are the
  references numbered 23 and up — the 23 arguments are references 0 … 22. So no operation writes an argument,
  and the fold leaves an argument's buffer at its launch contents.

  `frame`: the two together — @main runs and its 23 argument arrays end unchanged.
-/
import proofs.«145672_j73899207295099_1_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The signature scopes nothing -/

/-- No TensorCore reference is scoped: every buffer is a tensor value's, in HBM (the other spaces hold none). -/
theorem ref_unscoped (b : Ref sig .tc) : b.isScoped = false := by
  rcases b with ⟨sp, i, h⟩
  rcases sp with _ | _ | _ | _
  all_goals first | rfl | exact i.elim0 | cases h

theorem scopedRefs_eq : (Finset.univ.filter fun b : Ref sig .tc => b.isScoped) = ∅ :=
  Finset.filter_eq_empty_iff.2 fun b _ hb => Bool.false_ne_true ((ref_unscoped b).symm.trans hb)

/-- There is no semaphore. -/
theorem scopedSems_eq : (Finset.univ.filter fun sm : SemLoc sig => sm.isScoped .tc) = ∅ := by decide

/-! ## Every operation determines what it writes -/

theorem ops0a_fresh : (ops0a : List (HloOp τ sig (Elt F))).Forall fun op => op.fresh = ∅ :=
  ⟨rfl, rfl, rfl, rfl, rfl, rfl, rfl, rfl, rfl, rfl, rfl⟩

theorem ops0b_fresh : (ops0b : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl⟩

theorem ops0c_fresh : (ops0c : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl⟩

theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl⟩

theorem ops2a_fresh : (ops2a : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩

theorem ops2b_fresh : (ops2b : List (HloOp τ sig (Elt F))).Forall fun op => op.fresh = ∅ :=
  ⟨rfl, rfl, rfl, rfl, rfl, rfl, rfl, rfl, rfl⟩

theorem ops2c_fresh : (ops2c : List (HloOp τ sig (Elt F))).Forall fun op => op.fresh = ∅ :=
  ⟨rfl, rfl, rfl, rfl, rfl, rfl, rfl, rfl⟩

theorem ops2d_fresh : (ops2d : List (HloOp τ sig (Elt F))).Forall fun op => op.fresh = ∅ :=
  ⟨rfl, rfl, rfl, rfl, rfl, rfl, rfl, rfl, rfl⟩

theorem ops2e_fresh : (ops2e : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl⟩

theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl⟩

theorem ops4_fresh : (ops4 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl⟩

theorem ops_fresh : ∀ op ∈ (ops : List (HloOp τ sig (Elt F))), op.fresh = ∅ :=
  List.forall_iff_forall_mem.1
    (forall_append (forall_append ops0a_fresh (forall_append ops0b_fresh ops0c_fresh))
    (forall_append ops1_fresh
      (forall_append
        (forall_append ops2a_fresh (forall_append ops2b_fresh (forall_append ops2c_fresh (forall_append ops2d_fresh ops2e_fresh))))
        (forall_append ops3_fresh ops4_fresh))))

/-! ## The run -/

/-- Every weakly fair execution of @main terminates with each TensorCore buffer at the fold of the operations'
    results over its device's launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ (fun _ => ops_fresh)

/-! ## No operation writes an argument -/

/-- The operation writes exactly one buffer, that of a reference numbered `n` or more. -/
def WritesFrom (n : Nat) (op : HloOp τ sig (Elt F)) : Prop :=
  ∃ y : Ref sig .tc, op.writes = {Proc.devRef .tc y} ∧ n ≤ y.idx.val

theorem ops0a_writes : (ops0a : List (HloOp τ sig (Elt F))).Forall (WritesFrom 23) :=
  ⟨⟨main_v0, rfl, by decide⟩, ⟨main_v1, rfl, by decide⟩, ⟨main_v2, rfl, by decide⟩, ⟨main_v3, rfl, by decide⟩,
    ⟨main_cst, rfl, by decide⟩, ⟨main_v4, rfl, by decide⟩, ⟨main_v5, rfl, by decide⟩, ⟨main_cst_0, rfl, by decide⟩,
    ⟨main_v6, rfl, by decide⟩, ⟨main_v7, rfl, by decide⟩, ⟨main_c, rfl, by decide⟩⟩

theorem ops0b_writes : (ops0b : List (HloOp τ sig (Elt F))).Forall (WritesFrom 23) :=
  ⟨⟨main_call0.cst.ref, rfl, by decide⟩, ⟨main_call0.v0.ref, rfl, by decide⟩, ⟨main_call0.v1.ref, rfl, by decide⟩, ⟨main_call0.cst_0.ref, rfl, by decide⟩,
    ⟨main_call0.v2.ref, rfl, by decide⟩, ⟨main_call0.v3.ref, rfl, by decide⟩, ⟨main_call0.v4.ref, rfl, by decide⟩, ⟨main_call0.v5.ref, rfl, by decide⟩,
    ⟨main_call0.v6.ref, rfl, by decide⟩, ⟨main_call0.v7.ref, rfl, by decide⟩, ⟨main_call0.cst_1.ref, rfl, by decide⟩, ⟨main_call0.v8.ref, rfl, by decide⟩,
    ⟨main_call0.cst_2.ref, rfl, by decide⟩, ⟨main_call0.v9.ref, rfl, by decide⟩, ⟨main_call0.v10.ref, rfl, by decide⟩, ⟨main_call0.v11.ref, rfl, by decide⟩,
    ⟨main_call0.v12.ref, rfl, by decide⟩, ⟨main_call0.cst_3.ref, rfl, by decide⟩, ⟨main_call0.v13.ref, rfl, by decide⟩, ⟨main_call0.cst_4.ref, rfl, by decide⟩,
    ⟨main_call0.call0.v0.ref, rfl, by decide⟩, ⟨main_call0.call0.v1.ref, rfl, by decide⟩, ⟨main_call0.call0.v2.ref, rfl, by decide⟩⟩

theorem ops0c_writes : (ops0c : List (HloOp τ sig (Elt F))).Forall (WritesFrom 23) :=
  ⟨⟨main_v9, rfl, by decide⟩, ⟨main_v10, rfl, by decide⟩, ⟨main_cst_1, rfl, by decide⟩, ⟨main_v11, rfl, by decide⟩,
    ⟨main_v12, rfl, by decide⟩, ⟨main_v13, rfl, by decide⟩, ⟨main_v14, rfl, by decide⟩, ⟨main_v15, rfl, by decide⟩,
    ⟨main_v16, rfl, by decide⟩, ⟨main_v17, rfl, by decide⟩, ⟨main_v18, rfl, by decide⟩, ⟨main_v19, rfl, by decide⟩,
    ⟨main_v20, rfl, by decide⟩, ⟨main_v21, rfl, by decide⟩, ⟨main_v22, rfl, by decide⟩, ⟨main_v23, rfl, by decide⟩,
    ⟨main_cst_2, rfl, by decide⟩, ⟨main_v24, rfl, by decide⟩, ⟨main_v25, rfl, by decide⟩, ⟨main_cst_3, rfl, by decide⟩,
    ⟨main_v26, rfl, by decide⟩, ⟨main_v27, rfl, by decide⟩, ⟨main_v28, rfl, by decide⟩, ⟨main_v29, rfl, by decide⟩,
    ⟨main_v30, rfl, by decide⟩, ⟨main_cst_4, rfl, by decide⟩, ⟨main_v31, rfl, by decide⟩, ⟨main_v32, rfl, by decide⟩,
    ⟨main_cst_5, rfl, by decide⟩, ⟨main_v33, rfl, by decide⟩, ⟨main_v34, rfl, by decide⟩, ⟨main_cst_6, rfl, by decide⟩,
    ⟨main_v35, rfl, by decide⟩, ⟨main_v36, rfl, by decide⟩, ⟨main_v37, rfl, by decide⟩, ⟨main_v38, rfl, by decide⟩,
    ⟨main_v39, rfl, by decide⟩, ⟨main_v40, rfl, by decide⟩, ⟨main_v41, rfl, by decide⟩, ⟨main_v42, rfl, by decide⟩,
    ⟨main_v43, rfl, by decide⟩, ⟨main_v44, rfl, by decide⟩, ⟨main_v45, rfl, by decide⟩, ⟨main_v46, rfl, by decide⟩,
    ⟨main_v47, rfl, by decide⟩, ⟨main_cst_7, rfl, by decide⟩, ⟨main_v48, rfl, by decide⟩, ⟨main_v49, rfl, by decide⟩⟩

theorem ops1_writes : (ops1 : List (HloOp τ sig (Elt F))).Forall (WritesFrom 23) :=
  ⟨⟨main_cst_8, rfl, by decide⟩, ⟨main_v50, rfl, by decide⟩, ⟨main_v51, rfl, by decide⟩, ⟨main_cst_9, rfl, by decide⟩,
    ⟨main_v52, rfl, by decide⟩, ⟨main_v53, rfl, by decide⟩, ⟨main_v54, rfl, by decide⟩, ⟨main_v55, rfl, by decide⟩,
    ⟨main_v56, rfl, by decide⟩, ⟨main_v57, rfl, by decide⟩, ⟨main_v58, rfl, by decide⟩, ⟨main_v59, rfl, by decide⟩,
    ⟨main_v60, rfl, by decide⟩, ⟨main_v61, rfl, by decide⟩, ⟨main_v62, rfl, by decide⟩, ⟨main_v63, rfl, by decide⟩,
    ⟨main_v64, rfl, by decide⟩, ⟨main_cst_10, rfl, by decide⟩, ⟨main_v65, rfl, by decide⟩, ⟨main_v66, rfl, by decide⟩,
    ⟨main_cst_11, rfl, by decide⟩, ⟨main_v67, rfl, by decide⟩, ⟨main_v68, rfl, by decide⟩, ⟨main_cst_12, rfl, by decide⟩,
    ⟨main_v69, rfl, by decide⟩, ⟨main_v70, rfl, by decide⟩, ⟨main_v71, rfl, by decide⟩, ⟨main_v72, rfl, by decide⟩,
    ⟨main_v73, rfl, by decide⟩, ⟨main_v74, rfl, by decide⟩, ⟨main_v75, rfl, by decide⟩, ⟨main_v76, rfl, by decide⟩,
    ⟨main_v77, rfl, by decide⟩, ⟨main_v78, rfl, by decide⟩, ⟨main_v79, rfl, by decide⟩, ⟨main_v80, rfl, by decide⟩,
    ⟨main_v81, rfl, by decide⟩, ⟨main_v82, rfl, by decide⟩, ⟨main_v83, rfl, by decide⟩, ⟨main_v84, rfl, by decide⟩,
    ⟨main_v85, rfl, by decide⟩, ⟨main_c_13, rfl, by decide⟩, ⟨main_v86, rfl, by decide⟩, ⟨main_v87, rfl, by decide⟩,
    ⟨main_c_14, rfl, by decide⟩, ⟨main_v88, rfl, by decide⟩, ⟨main_v89, rfl, by decide⟩, ⟨main_v90, rfl, by decide⟩,
    ⟨main_v91, rfl, by decide⟩, ⟨main_v92, rfl, by decide⟩, ⟨main_c_15, rfl, by decide⟩, ⟨main_v93, rfl, by decide⟩,
    ⟨main_v94, rfl, by decide⟩, ⟨main_c_16, rfl, by decide⟩, ⟨main_v95, rfl, by decide⟩, ⟨main_v96, rfl, by decide⟩,
    ⟨main_v97, rfl, by decide⟩, ⟨main_v98, rfl, by decide⟩, ⟨main_v99, rfl, by decide⟩, ⟨main_v100, rfl, by decide⟩⟩

theorem ops2a_writes : (ops2a : List (HloOp τ sig (Elt F))).Forall (WritesFrom 23) :=
  ⟨⟨main_v101, rfl, by decide⟩, ⟨main_v102, rfl, by decide⟩, ⟨main_v103, rfl, by decide⟩, ⟨main_cst_17, rfl, by decide⟩,
    ⟨main_v104, rfl, by decide⟩, ⟨main_v105, rfl, by decide⟩, ⟨main_v106, rfl, by decide⟩, ⟨main_v107, rfl, by decide⟩,
    ⟨main_cst_18, rfl, by decide⟩, ⟨main_v108, rfl, by decide⟩, ⟨main_v109, rfl, by decide⟩, ⟨main_v110, rfl, by decide⟩,
    ⟨main_v111, rfl, by decide⟩, ⟨main_cst_19, rfl, by decide⟩, ⟨main_v112, rfl, by decide⟩, ⟨main_v113, rfl, by decide⟩,
    ⟨main_v114, rfl, by decide⟩, ⟨main_v115, rfl, by decide⟩, ⟨main_v116, rfl, by decide⟩, ⟨main_v117, rfl, by decide⟩⟩

theorem ops2b_writes : (ops2b : List (HloOp τ sig (Elt F))).Forall (WritesFrom 23) :=
  ⟨⟨main_call1.v0.ref, rfl, by decide⟩, ⟨main_call1.v1.ref, rfl, by decide⟩, ⟨main_call1.cst.ref, rfl, by decide⟩, ⟨main_call1.v2.ref, rfl, by decide⟩,
    ⟨main_call1.v3.ref, rfl, by decide⟩, ⟨main_call1.cst_0.ref, rfl, by decide⟩, ⟨main_call1.v4.ref, rfl, by decide⟩, ⟨main_call1.v5.ref, rfl, by decide⟩,
    ⟨main_call1.v6.ref, rfl, by decide⟩⟩

theorem ops2c_writes : (ops2c : List (HloOp τ sig (Elt F))).Forall (WritesFrom 23) :=
  ⟨⟨main_v119, rfl, by decide⟩, ⟨main_v120, rfl, by decide⟩, ⟨main_v121, rfl, by decide⟩, ⟨main_v122, rfl, by decide⟩,
    ⟨main_v123, rfl, by decide⟩, ⟨main_v124, rfl, by decide⟩, ⟨main_v125, rfl, by decide⟩, ⟨main_v126, rfl, by decide⟩⟩

theorem ops2d_writes : (ops2d : List (HloOp τ sig (Elt F))).Forall (WritesFrom 23) :=
  ⟨⟨main_call2.v0.ref, rfl, by decide⟩, ⟨main_call2.v1.ref, rfl, by decide⟩, ⟨main_call2.cst.ref, rfl, by decide⟩, ⟨main_call2.v2.ref, rfl, by decide⟩,
    ⟨main_call2.v3.ref, rfl, by decide⟩, ⟨main_call2.cst_0.ref, rfl, by decide⟩, ⟨main_call2.v4.ref, rfl, by decide⟩, ⟨main_call2.v5.ref, rfl, by decide⟩,
    ⟨main_call2.v6.ref, rfl, by decide⟩⟩

theorem ops2e_writes : (ops2e : List (HloOp τ sig (Elt F))).Forall (WritesFrom 23) :=
  ⟨⟨main_v128, rfl, by decide⟩, ⟨main_v129, rfl, by decide⟩, ⟨main_v130, rfl, by decide⟩, ⟨main_v131, rfl, by decide⟩,
    ⟨main_v132, rfl, by decide⟩, ⟨main_v133, rfl, by decide⟩, ⟨main_v134, rfl, by decide⟩, ⟨main_c_20, rfl, by decide⟩,
    ⟨main_v135, rfl, by decide⟩, ⟨main_v136, rfl, by decide⟩, ⟨main_c_21, rfl, by decide⟩, ⟨main_v137, rfl, by decide⟩,
    ⟨main_v138, rfl, by decide⟩, ⟨main_v139, rfl, by decide⟩, ⟨main_v140, rfl, by decide⟩, ⟨main_v141, rfl, by decide⟩,
    ⟨main_v142, rfl, by decide⟩, ⟨main_v143, rfl, by decide⟩, ⟨main_c_22, rfl, by decide⟩, ⟨main_v144, rfl, by decide⟩,
    ⟨main_v145, rfl, by decide⟩, ⟨main_c_23, rfl, by decide⟩, ⟨main_v146, rfl, by decide⟩, ⟨main_v147, rfl, by decide⟩,
    ⟨main_v148, rfl, by decide⟩, ⟨main_v149, rfl, by decide⟩, ⟨main_v150, rfl, by decide⟩, ⟨main_v151, rfl, by decide⟩,
    ⟨main_c_24, rfl, by decide⟩, ⟨main_v152, rfl, by decide⟩⟩

theorem ops3_writes : (ops3 : List (HloOp τ sig (Elt F))).Forall (WritesFrom 23) :=
  ⟨⟨main_v153, rfl, by decide⟩, ⟨main_c_25, rfl, by decide⟩, ⟨main_v154, rfl, by decide⟩, ⟨main_v155, rfl, by decide⟩,
    ⟨main_v156, rfl, by decide⟩, ⟨main_v157, rfl, by decide⟩, ⟨main_v158, rfl, by decide⟩, ⟨main_v159, rfl, by decide⟩,
    ⟨main_v160, rfl, by decide⟩, ⟨main_cst_26, rfl, by decide⟩, ⟨main_v161, rfl, by decide⟩, ⟨main_v162, rfl, by decide⟩,
    ⟨main_cst_27, rfl, by decide⟩, ⟨main_v163, rfl, by decide⟩, ⟨main_v164, rfl, by decide⟩, ⟨main_v165, rfl, by decide⟩,
    ⟨main_v166, rfl, by decide⟩, ⟨main_v167, rfl, by decide⟩, ⟨main_c_28, rfl, by decide⟩, ⟨main_v168, rfl, by decide⟩,
    ⟨main_v169, rfl, by decide⟩, ⟨main_c_29, rfl, by decide⟩, ⟨main_v170, rfl, by decide⟩, ⟨main_v171, rfl, by decide⟩,
    ⟨main_v172, rfl, by decide⟩, ⟨main_v173, rfl, by decide⟩, ⟨main_v174, rfl, by decide⟩, ⟨main_v175, rfl, by decide⟩,
    ⟨main_v176, rfl, by decide⟩, ⟨main_c_30, rfl, by decide⟩, ⟨main_v177, rfl, by decide⟩, ⟨main_v178, rfl, by decide⟩,
    ⟨main_c_31, rfl, by decide⟩, ⟨main_v179, rfl, by decide⟩, ⟨main_v180, rfl, by decide⟩, ⟨main_v181, rfl, by decide⟩,
    ⟨main_v182, rfl, by decide⟩, ⟨main_v183, rfl, by decide⟩, ⟨main_v184, rfl, by decide⟩, ⟨main_c_32, rfl, by decide⟩,
    ⟨main_v185, rfl, by decide⟩, ⟨main_v186, rfl, by decide⟩, ⟨main_c_33, rfl, by decide⟩, ⟨main_v187, rfl, by decide⟩,
    ⟨main_v188, rfl, by decide⟩, ⟨main_v189, rfl, by decide⟩, ⟨main_v190, rfl, by decide⟩, ⟨main_v191, rfl, by decide⟩,
    ⟨main_v192, rfl, by decide⟩, ⟨main_cst_34, rfl, by decide⟩, ⟨main_v193, rfl, by decide⟩, ⟨main_cst_35, rfl, by decide⟩,
    ⟨main_v194, rfl, by decide⟩, ⟨main_v195, rfl, by decide⟩, ⟨main_v196, rfl, by decide⟩, ⟨main_v197, rfl, by decide⟩,
    ⟨main_v198, rfl, by decide⟩, ⟨main_v199, rfl, by decide⟩, ⟨main_v200, rfl, by decide⟩, ⟨main_v201, rfl, by decide⟩⟩

theorem ops4_writes : (ops4 : List (HloOp τ sig (Elt F))).Forall (WritesFrom 23) :=
  ⟨⟨main_v202, rfl, by decide⟩, ⟨main_v203, rfl, by decide⟩, ⟨main_v204, rfl, by decide⟩, ⟨main_v205, rfl, by decide⟩,
    ⟨main_v206, rfl, by decide⟩, ⟨main_v207, rfl, by decide⟩, ⟨main_v208, rfl, by decide⟩, ⟨main_v209, rfl, by decide⟩,
    ⟨main_v210, rfl, by decide⟩, ⟨main_v211, rfl, by decide⟩, ⟨main_v212, rfl, by decide⟩, ⟨main_v213, rfl, by decide⟩,
    ⟨main_v214, rfl, by decide⟩, ⟨main_v215, rfl, by decide⟩, ⟨main_v216, rfl, by decide⟩, ⟨main_v217, rfl, by decide⟩,
    ⟨main_v218, rfl, by decide⟩, ⟨main_v219, rfl, by decide⟩, ⟨main_v220, rfl, by decide⟩, ⟨main_v221, rfl, by decide⟩,
    ⟨main_v222, rfl, by decide⟩, ⟨main_v223, rfl, by decide⟩, ⟨main_v224, rfl, by decide⟩, ⟨main_v225, rfl, by decide⟩,
    ⟨main_c_36, rfl, by decide⟩, ⟨main_v226, rfl, by decide⟩, ⟨main_v227, rfl, by decide⟩, ⟨main_c_37, rfl, by decide⟩,
    ⟨main_v228, rfl, by decide⟩, ⟨main_v229, rfl, by decide⟩, ⟨main_v230, rfl, by decide⟩, ⟨main_v231, rfl, by decide⟩,
    ⟨main_v232, rfl, by decide⟩, ⟨main_c_38, rfl, by decide⟩, ⟨main_v233, rfl, by decide⟩, ⟨main_v234, rfl, by decide⟩,
    ⟨main_c_39, rfl, by decide⟩, ⟨main_v235, rfl, by decide⟩, ⟨main_v236, rfl, by decide⟩, ⟨main_v237, rfl, by decide⟩,
    ⟨main_v238, rfl, by decide⟩, ⟨main_v239, rfl, by decide⟩⟩

theorem ops_writes : ∀ op ∈ (ops : List (HloOp τ sig (Elt F))), WritesFrom 23 op :=
  List.forall_iff_forall_mem.1
    (forall_append (forall_append ops0a_writes (forall_append ops0b_writes ops0c_writes))
    (forall_append ops1_writes
      (forall_append
        (forall_append ops2a_writes (forall_append ops2b_writes (forall_append ops2c_writes (forall_append ops2d_writes ops2e_writes))))
        (forall_append ops3_writes ops4_writes))))

/-- A reference numbered below 23 — an argument — is written by no operation: the fold leaves it as it was. -/
theorem kept (V : Valuation τ sig (Elt F)) (r : Ref sig .tc) (hr : r.idx.val < 23) :
    after ops V (Proc.devRef .tc r) = V (Proc.devRef .tc r) :=
  after_of_forall_not_mem ops V fun op hop hb => by
    obtain ⟨y, hy, hn⟩ := ops_writes op hop
    rw [hy, Finset.mem_singleton] at hb
    have e : r = y := Proc.devRef_injective _ hb
    subst e
    exact absurd hn (Nat.not_le.2 hr)

/-! ## The frame -/

/-- From the run's post: an argument's buffer ends at its launch contents. -/
theorem arg_kept {m : (ℓ : Loc nD τ sig) → Buf (Elt F) ℓ} {mem : (ℓ : Loc nD τ sig) → Buf (Elt F) ℓ}
    (h : ∀ (c : Dev nD) (b : Ref sig .tc), mem ((c.tc : Thread nD τ).loc b) = after ops (launchContents m c) (Proc.devRef .tc b))
    (c : Dev nD) (b : Ref sig .tc) (hb : b.idx.val < 23) :
    mem ((c.tc : Thread nD τ).loc b) = m ((c.tc : Thread nD τ).loc b) :=
  (h c b).trans (kept (launchContents m c) b hb)

/-- @main runs (terminates, no fault) and its 23 argument arrays end unchanged. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run defs _ _).mono (fun _ h c =>
    ⟨arg_kept h c main_arg0 (by decide), arg_kept h c main_arg1 (by decide), arg_kept h c main_arg2 (by decide),
      arg_kept h c main_arg3 (by decide), arg_kept h c main_arg4 (by decide), arg_kept h c main_arg5 (by decide),
      arg_kept h c main_arg6 (by decide), arg_kept h c main_arg7 (by decide), arg_kept h c main_arg8 (by decide),
      arg_kept h c main_arg9 (by decide), arg_kept h c main_arg10 (by decide), arg_kept h c main_arg11 (by decide),
      arg_kept h c main_arg12 (by decide), arg_kept h c main_arg13 (by decide), arg_kept h c main_arg14 (by decide),
      arg_kept h c main_arg15 (by decide), arg_kept h c main_arg16 (by decide), arg_kept h c main_arg17 (by decide),
      arg_kept h c main_arg18 (by decide), arg_kept h c main_arg19 (by decide), arg_kept h c main_arg20 (by decide),
      arg_kept h c main_arg21 (by decide), arg_kept h c main_arg22 (by decide)⟩)
    (run_after m ρ)

end Cert.ReferenceIdeal.RefRun

end
-- ==== Proof.Frames.lean ====
/-
  Three of the certificate's conjuncts: each of the three programs runs to the end, faults nowhere and leaves its argument
  arrays unchanged; and the idealized kernel is the kernel's own text read over the extended reals (that reading rewrites
  nothing of the text).

  The two kernel programs: the frame of one launch between host lines, from the body's triple at symbolic blocks.  The
  reference: a straight line of host operations, none of which writes an argument.
-/
import proofs.«145672_j73899207295099_1_alg».proof.Defs
import proofs.«145672_j73899207295099_1_alg».proof.Proof.Gen.Pre_finite_inputs
import proofs.«145672_j73899207295099_1_alg».proof.Proof.KFrame
import proofs.«145672_j73899207295099_1_alg».proof.Proof.KIFrame
import proofs.«145672_j73899207295099_1_alg».proof.Proof.RefRun

noncomputable section

namespace Cert.Proof.Frames

open Idealize.ShloMosaic Idealize.SL.Sem

theorem frame_p : Cert.frame_Kernel := fun m ρ _ => Cert.Kernel.Hand.frame (F := Bits) m ρ
theorem frame_pi : Cert.frame_KernelIdeal := fun m ρ _ => Cert.KernelIdeal.Hand.frame (F := Ideal) m ρ
theorem frame_ri : Cert.frame_ReferenceIdeal := fun m ρ _ => Cert.ReferenceIdeal.RefRun.frame (F := Ideal) m ρ
theorem preserves : Cert.preserves_Kernel_KernelIdeal := trivial

end Cert.Proof.Frames

end
-- ==== Proof.KIBlocks.lean ====
/-
  Reading the launch's blocks.

  Grid point t handles edges 512·t … 512·t + 511: window w of an edge-indexed array (width D) is, at point t, rows
  512·t … 512·t + 511 of it, all D columns; a weight's or bias's window is the whole array at every point.  So entry
  (r, a) of an edge block is entry (512·t + r, a) of the array, and the output blocks, one per point, tile the two
  message arrays.
-/
import proofs.«145672_j73899207295099_1_alg».proof.Proof.KIFrame
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat Cfg Window)
open Cert.KernelIdeal Cert.KernelIdeal.Gen

variable {F : FTy → Type} [FloatOps F]
variable (m : (ℓ : Loc nD τ sig) → Buf (Elt F) ℓ)

/-- The printed index maps over the grid: an edge window's block index is (t, 0), a weight's is 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0
    ∧ win0_10.index t (0 : Fin 2) = 0 ∧ win0_10.index t (1 : Fin 2) = 0
    ∧ win0_12.index t (0 : Fin 2) = 0 ∧ win0_12.index t (1 : Fin 2) = 0
    ∧ win0_14.index t (0 : Fin 2) = 0 ∧ win0_14.index t (1 : Fin 2) = 0
    ∧ win0_16.index t (0 : Fin 2) = 0 ∧ win0_16.index t (1 : Fin 2) = 0
    ∧ win0_11.index t (0 : Fin 1) = 0
    ∧ win0_13.index t (0 : Fin 1) = 0
    ∧ win0_15.index t (0 : Fin 1) = 0
    ∧ win0_17.index t (0 : Fin 1) = 0
    ∧ win0_18.index t (0 : Fin 2) = t.val ∧ win0_18.index t (1 : Fin 2) = 0
    ∧ win0_19.index t (0 : Fin 2) = t.val ∧ win0_19.index t (1 : Fin 2) = 0 :=
  (by decide +kernel : ∀ t : Fin grid0.N, _)

/-- Entry (r, a) of window 0's block at point t is entry (512·t + r, a) of its array. -/
theorem iblk0_apply (c : Dev nD) (t : Fin cfg0.N) (r : Fin 512) (a : Fin 20) (e : Fin 262144) (he : e.val = t.val * 512 + r.val) :
    iblk m c 0 t (ix2 r a) = V m c main_arg2 (ix2 e a) := by
  have h := idx_facts t
  have h0 : win0_0.index t (0 : Fin 2) = t.val := h.1
  have h1 : win0_0.index t (1 : Fin 2) = 0 := h.2.1
  unfold iblk
  show V m c main_arg2 (((cfg0.win 0).blk t).view.emb (ix2 r a)) = V m c main_arg2 (ix2 e a)
  refine congrArg (V m c main_arg2) ?_
  funext d; apply Fin.ext
  match d with
  | ⟨0, _⟩ => show win0_0.index t (0 : Fin 2) * 512 + 1 * r.val = e.val; omega
  | ⟨1, _⟩ => show win0_0.index t (1 : Fin 2) * 20 + 1 * a.val = a.val; omega

/-- Entry (r, a) of window 1's block at point t is entry (512·t + r, a) of its array. -/
theorem iblk1_apply (c : Dev nD) (t : Fin cfg0.N) (r : Fin 512) (a : Fin 1) (e : Fin 262144) (he : e.val = t.val * 512 + r.val) :
    iblk m c 1 t (ix2 r a) = V m c main_arg3 (ix2 e a) := by
  have h := idx_facts t
  have h0 : win0_1.index t (0 : Fin 2) = t.val := h.2.2.1
  have h1 : win0_1.index t (1 : Fin 2) = 0 := h.2.2.2.1
  unfold iblk
  show V m c main_arg3 (((cfg0.win 1).blk t).view.emb (ix2 r a)) = V m c main_arg3 (ix2 e a)
  refine congrArg (V m c main_arg3) ?_
  funext d; apply Fin.ext
  match d with
  | ⟨0, _⟩ => show win0_1.index t (0 : Fin 2) * 512 + 1 * r.val = e.val; omega
  | ⟨1, _⟩ => show win0_1.index t (1 : Fin 2) * 1 + 1 * a.val = a.val; omega

/-- Entry (r, a) of window 2's block at point t is entry (512·t + r, a) of its array. -/
theorem iblk2_apply (c : Dev nD) (t : Fin cfg0.N) (r : Fin 512) (a : Fin 240) (e : Fin 262144) (he : e.val = t.val * 512 + r.val) :
    iblk m c 2 t (ix2 r a) = V m c main_arg4 (ix2 e a) := by
  have h := idx_facts t
  have h0 : win0_2.index t (0 : Fin 2) = t.val := h.2.2.2.2.1
  have h1 : win0_2.index t (1 : Fin 2) = 0 := h.2.2.2.2.2.1
  unfold iblk
  show V m c main_arg4 (((cfg0.win 2).blk t).view.emb (ix2 r a)) = V m c main_arg4 (ix2 e a)
  refine congrArg (V m c main_arg4) ?_
  funext d; apply Fin.ext
  match d with
  | ⟨0, _⟩ => show win0_2.index t (0 : Fin 2) * 512 + 1 * r.val = e.val; omega
  | ⟨1, _⟩ => show win0_2.index t (1 : Fin 2) * 240 + 1 * a.val = a.val; omega

/-- Entry (r, a) of window 3's block at point t is entry (512·t + r, a) of its array. -/
theorem iblk3_apply (c : Dev nD) (t : Fin cfg0.N) (r : Fin 512) (a : Fin 240) (e : Fin 262144) (he : e.val = t.val * 512 + r.val) :
    iblk m c 3 t (ix2 r a) = V m c main_v100 (ix2 e a) := by
  have h := idx_facts t
  have h0 : win0_3.index t (0 : Fin 2) = t.val := h.2.2.2.2.2.2.1
  have h1 : win0_3.index t (1 : Fin 2) = 0 := h.2.2.2.2.2.2.2.1
  unfold iblk
  show V m c main_v100 (((cfg0.win 3).blk t).view.emb (ix2 r a)) = V m c main_v100 (ix2 e a)
  refine congrArg (V m c main_v100) ?_
  funext d; apply Fin.ext
  match d with
  | ⟨0, _⟩ => show win0_3.index t (0 : Fin 2) * 512 + 1 * r.val = e.val; omega
  | ⟨1, _⟩ => show win0_3.index t (1 : Fin 2) * 240 + 1 * a.val = a.val; omega

/-- Entry (r, a) of window 4's block at point t is entry (512·t + r, a) of its array. -/
theorem iblk4_apply (c : Dev nD) (t : Fin cfg0.N) (r : Fin 512) (a : Fin 120) (e : Fin 262144) (he : e.val = t.val * 512 + r.val) :
    iblk m c 4 t (ix2 r a) = V m c main_v107 (ix2 e a) := by
  have h := idx_facts t
  have h0 : win0_4.index t (0 : Fin 2) = t.val := h.2.2.2.2.2.2.2.2.1
  have h1 : win0_4.index t (1 : Fin 2) = 0 := h.2.2.2.2.2.2.2.2.2.1
  unfold iblk
  show V m c main_v107 (((cfg0.win 4).blk t).view.emb (ix2 r a)) = V m c main_v107 (ix2 e a)
  refine congrArg (V m c main_v107) ?_
  funext d; apply Fin.ext
  match d with
  | ⟨0, _⟩ => show win0_4.index t (0 : Fin 2) * 512 + 1 * r.val = e.val; omega
  | ⟨1, _⟩ => show win0_4.index t (1 : Fin 2) * 120 + 1 * a.val = a.val; omega

/-- Entry (r, a) of window 5's block at point t is entry (512·t + r, a) of its array. -/
theorem iblk5_apply (c : Dev nD) (t : Fin cfg0.N) (r : Fin 512) (a : Fin 120) (e : Fin 262144) (he : e.val = t.val * 512 + r.val) :
    iblk m c 5 t (ix2 r a) = V m c main_v114 (ix2 e a) := by
  have h := idx_facts t
  have h0 : win0_5.index t (0 : Fin 2) = t.val := h.2.2.2.2.2.2.2.2.2.2.1
  have h1 : win0_5.index t (1 : Fin 2) = 0 := h.2.2.2.2.2.2.2.2.2.2.2.1
  unfold iblk
  show V m c main_v114 (((cfg0.win 5).blk t).view.emb (ix2 r a)) = V m c main_v114 (ix2 e a)
  refine congrArg (V m c main_v114) ?_
  funext d; apply Fin.ext
  match d with
  | ⟨0, _⟩ => show win0_5.index t (0 : Fin 2) * 512 + 1 * r.val = e.val; omega
  | ⟨1, _⟩ => show win0_5.index t (1 : Fin 2) * 120 + 1 * a.val = a.val; omega

/-- Entry (r, a) of window 6's block at point t is entry (512·t + r, a) of its array. -/
theorem iblk6_apply (c : Dev nD) (t : Fin cfg0.N) (r : Fin 512) (a : Fin 120) (e : Fin 262144) (he : e.val = t.val * 512 + r.val) :
    iblk m c 6 t (ix2 r a) = V m c main_v121 (ix2 e a) := by
  have h := idx_facts t
  have h0 : win0_6.index t (0 : Fin 2) = t.val := h.2.2.2.2.2.2.2.2.2.2.2.2.1
  have h1 : win0_6.index t (1 : Fin 2) = 0 := h.2.2.2.2.2.2.2.2.2.2.2.2.2.1
  unfold iblk
  show V m c main_v121 (((cfg0.win 6).blk t).view.emb (ix2 r a)) = V m c main_v121 (ix2 e a)
  refine congrArg (V m c main_v121) ?_
  funext d; apply Fin.ext
  match d with
  | ⟨0, _⟩ => show win0_6.index t (0 : Fin 2) * 512 + 1 * r.val = e.val; omega
  | ⟨1, _⟩ => show win0_6.index t (1 : Fin 2) * 120 + 1 * a.val = a.val; omega

/-- Entry (r, a) of window 7's block at point t is entry (512·t + r, a) of its array. -/
theorem iblk7_apply (c : Dev nD) (t : Fin cfg0.N) (r : Fin 512) (a : Fin 120) (e : Fin 262144) (he : e.val = t.val * 512 + r.val) :
    iblk m c 7 t (ix2 r a) = V m c main_v128 (ix2 e a) := by
  have h := idx_facts t
  have h0 : win0_7.index t (0 : Fin 2) = t.val := h.2.2.2.2.2.2.2.2.2.2.2.2.2.2.1
  have h1 : win0_7.index t (1 : Fin 2) = 0 := h.2.2.2.2.2.2.2.2.2.2.2.2.2.2.2.1
  unfold iblk
  show V m c main_v128 (((cfg0.win 7).blk t).view.emb (ix2 r a)) = V m c main_v128 (ix2 e a)
  refine congrArg (V m c main_v128) ?_
  funext d; apply Fin.ext
  match d with
  | ⟨0, _⟩ => show win0_7.index t (0 : Fin 2) * 512 + 1 * r.val = e.val; omega
  | ⟨1, _⟩ => show win0_7.index t (1 : Fin 2) * 120 + 1 * a.val = a.val; omega

/-- Entry (r, a) of window 8's block at point t is entry (512·t + r, a) of its array. -/
theorem iblk8_apply (c : Dev nD) (t : Fin cfg0.N) (r : Fin 512) (a : Fin 120) (e : Fin 262144) (he : e.val = t.val * 512 + r.val) :
    iblk m c 8 t (ix2 r a) = V m c main_v135 (ix2 e a) := by
  have h := idx_facts t
  have h0 : win0_8.index t (0 : Fin 2) = t.val := h.2.2.2.2.2.2.2.2.2.2.2.2.2.2.2.2.1
  have h1 : win0_8.index t (1 : Fin 2) = 0 := h.2.2.2.2.2.2.2.2.2.2.2.2.2.2.2.2.2.1
  unfold iblk
  show V m c main_v135 (((cfg0.win 8).blk t).view.emb (ix2 r a)) = V m c main_v135 (ix2 e a)
  refine congrArg (V m c main_v135) ?_
  funext d; apply Fin.ext
  match d with
  | ⟨0, _⟩ => show win0_8.index t (0 : Fin 2) * 512 + 1 * r.val = e.val; omega
  | ⟨1, _⟩ => show win0_8.index t (1 : Fin 2) * 120 + 1 * a.val = a.val; omega

/-- Entry (r, a) of window 9's block at point t is entry (512·t + r, a) of its array. -/
theorem iblk9_apply (c : Dev nD) (t : Fin cfg0.N) (r : Fin 512) (a : Fin 112) (e : Fin 262144) (he : e.val = t.val * 512 + r.val) :
    iblk m c 9 t (ix2 r a) = V m c main_v142 (ix2 e a) := by
  have h := idx_facts t
  have h0 : win0_9.index t (0 : Fin 2) = t.val := h.2.2.2.2.2.2.2.2.2.2.2.2.2.2.2.2.2.2.1
  have h1 : win0_9.index t (1 : Fin 2) = 0 := h.2.2.2.2.2.2.2.2.2.2.2.2.2.2.2.2.2.2.2.1
  unfold iblk
  show V m c main_v142 (((cfg0.win 9).blk t).view.emb (ix2 r a)) = V m c main_v142 (ix2 e a)
  refine congrArg (V m c main_v142) ?_
  funext d; apply Fin.ext
  match d with
  | ⟨0, _⟩ => show win0_9.index t (0 : Fin 2) * 512 + 1 * r.val = e.val; omega
  | ⟨1, _⟩ => show win0_9.index t (1 : Fin 2) * 112 + 1 * a.val = a.val; omega

end Cert.KernelIdeal.Hand

end
-- ==== Proof.KIBlocksW1.lean ====
/-
  Reading the launch's weight and bias windows: each is its whole array at every grid point.
-/
import proofs.«145672_j73899207295099_1_alg».proof.Proof.KIBlocks
import Idealize.ShloMosaic.Lib.Pipeline.Value
import Idealize.ShloMosaic.Lib.ValueIdx
set_option maxRecDepth 16384
noncomputable section
namespace Cert.KernelIdeal.Hand
open Idealize.ShloMosaic Idealize.ShloMosaic.TcCoe Idealize.SL.Sem Idealize.ShloMosaic.ValueIdx
open Idealize.ShloMosaic.Pipeline (Dat Cfg Window)
open Cert.KernelIdeal Cert.KernelIdeal.Gen
variable {F : FTy → Type} [FloatOps F]
variable (m : (ℓ : Loc nD τ sig) → Buf (Elt F) ℓ)
/-- A bias's window is the whole vector at every point. -/
theorem iblk11_apply (c : Dev nD) (t : Fin cfg0.N) (k : Fin 120) :
    iblk m c 11 t (ix1 k) = V m c main_arg19 (ix1 k) := by
  have h := idx_facts t
  have h0 : win0_11.index t (0 : Fin 1) = 0 := h.2.2.2.2.2.2.2.2.2.2.2.2.2.2.2.2.2.2.2.2.2.2.2.2.2.2.2.2.1
  unfold iblk
  show V m c main_arg19 (((cfg0.win 11).blk t).view.emb (ix1 k)) = V m c main_arg19 (ix1 k)
  refine congrArg (V m c main_arg19) ?_
  funext d; apply Fin.ext
  match d with
  | ⟨0, _⟩ => show win0_11.index t (0 : Fin 1) * 120 + 1 * k.val = k.val; omega

/-- A bias's window is the whole vector at every point. -/
theorem iblk13_apply (c : Dev nD) (t : Fin cfg0.N) (k : Fin 120) :
    iblk m c 13 t (ix1 k) = V m c main_arg21 (ix1 k) := by
  have h := idx_facts t
  have h0 : win0_13.index t (0 : Fin 1) = 0 := h.2.2.2.2.2.2.2.2.2.2.2.2.2.2.2.2.2.2.2.2.2.2.2.2.2.2.2.2.2.1
  unfold iblk
  show V m c main_arg21 (((cfg0.win 13).blk t).view.emb (ix1 k)) = V m c main_arg21 (ix1 k)
  refine congrArg (V m c main_arg21) ?_
  funext d; apply Fin.ext
  match d with
  | ⟨0, _⟩ => show win0_13.index t (0 : Fin 1) * 120 + 1 * k.val = k.val; omega

/-- A bias's window is the whole vector at every point. -/
theorem iblk15_apply (c : Dev nD) (t : Fin cfg0.N) (k : Fin 120) :
    iblk m c 15 t (ix1 k) = V m c main_arg15 (ix1 k) := by
  have h := idx_facts t
  have h0 : win0_15.index t (0 : Fin 1) = 0 := h.2.2.2.2.2.2.2.2.2.2.2.2.2.2.2.2.2.2.2.2.2.2.2.2.2.2.2.2.2.2.1
  unfold iblk
  show V m c main_arg15 (((cfg0.win 15).blk t).view.emb (ix1 k)) = V m c main_arg15 (ix1 k)
  refine congrArg (V m c main_arg15) ?_
  funext d; apply Fin.ext
  match d with
  | ⟨0, _⟩ => show win0_15.index t (0 : Fin 1) * 120 + 1 * k.val = k.val; omega

/-- A bias's window is the whole vector at every point. -/
theorem iblk17_apply (c : Dev nD) (t : Fin cfg0.N) (k : Fin 120) :
    iblk m c 17 t (ix1 k) = V m c main_arg17 (ix1 k) := by
  have h := idx_facts t
  have h0 : win0_17.index t (0 : Fin 1) = 0 := h.2.2.2.2.2.2.2.2.2.2.2.2.2.2.2.2.2.2.2.2.2.2.2.2.2.2.2.2.2.2.2.1
  unfold iblk
  show V m c main_arg17 (((cfg0.win 17).blk t).view.emb (ix1 k)) = V m c main_arg17 (ix1 k)
  refine congrArg (V m c main_arg17) ?_
  funext d; apply Fin.ext
  match d with
  | ⟨0, _⟩ => show win0_17.index t (0 : Fin 1) * 120 + 1 * k.val = k.val; omega

end Cert.KernelIdeal.Hand
end
-- ==== Proof.KIBlocksW2.lean ====
/-
  Reading the launch's weight and bias windows: each is its whole array at every grid point.
-/
import proofs.«145672_j73899207295099_1_alg».proof.Proof.KIBlocks
import Idealize.ShloMosaic.Lib.Pipeline.Value
import Idealize.ShloMosaic.Lib.ValueIdx
set_option maxRecDepth 16384
noncomputable section
namespace Cert.KernelIdeal.Hand
open Idealize.ShloMosaic Idealize.ShloMosaic.TcCoe Idealize.SL.Sem Idealize.ShloMosaic.ValueIdx
open Idealize.ShloMosaic.Pipeline (Dat Cfg Window)
open Cert.KernelIdeal Cert.KernelIdeal.Gen
variable {F : FTy → Type} [FloatOps F]
variable (m : (ℓ : Loc nD τ sig) → Buf (Elt F) ℓ)
/-- A weight's window is the whole matrix at every point. -/
theorem iblk10_apply (c : Dev nD) (t : Fin cfg0.N) (i : Fin 112) (k : Fin 120) :
    iblk m c 10 t (ix2 i k) = V m c main_v143 (ix2 i k) := by
  have h := idx_facts t
  have h0 : win0_10.index t (0 : Fin 2) = 0 := h.2.2.2.2.2.2.2.2.2.2.2.2.2.2.2.2.2.2.2.2.1
  have h1 : win0_10.index t (1 : Fin 2) = 0 := h.2.2.2.2.2.2.2.2.2.2.2.2.2.2.2.2.2.2.2.2.2.1
  unfold iblk
  show V m c main_v143 (((cfg0.win 10).blk t).view.emb (ix2 i k)) = V m c main_v143 (ix2 i k)
  refine congrArg (V m c main_v143) ?_
  funext d; apply Fin.ext
  match d with
  | ⟨0, _⟩ => show win0_10.index t (0 : Fin 2) * 112 + 1 * i.val = i.val; omega
  | ⟨1, _⟩ => show win0_10.index t (1 : Fin 2) * 120 + 1 * k.val = k.val; omega

/-- A weight's window is the whole matrix at every point. -/
theorem iblk12_apply (c : Dev nD) (t : Fin cfg0.N) (i : Fin 120) (k : Fin 120) :
    iblk m c 12 t (ix2 i k) = V m c main_v144 (ix2 i k) := by
  have h := idx_facts t
  have h0 : win0_12.index t (0 : Fin 2) = 0 := h.2.2.2.2.2.2.2.2.2.2.2.2.2.2.2.2.2.2.2.2.2.2.1
  have h1 : win0_12.index t (1 : Fin 2) = 0 := h.2.2.2.2.2.2.2.2.2.2.2.2.2.2.2.2.2.2.2.2.2.2.2.1
  unfold iblk
  show V m c main_v144 (((cfg0.win 12).blk t).view.emb (ix2 i k)) = V m c main_v144 (ix2 i k)
  refine congrArg (V m c main_v144) ?_
  funext d; apply Fin.ext
  match d with
  | ⟨0, _⟩ => show win0_12.index t (0 : Fin 2) * 120 + 1 * i.val = i.val; omega
  | ⟨1, _⟩ => show win0_12.index t (1 : Fin 2) * 120 + 1 * k.val = k.val; omega

/-- A weight's window is the whole matrix at every point. -/
theorem iblk14_apply (c : Dev nD) (t : Fin cfg0.N) (i : Fin 20) (k : Fin 120) :
    iblk m c 14 t (ix2 i k) = V m c main_v145 (ix2 i k) := by
  have h := idx_facts t
  have h0 : win0_14.index t (0 : Fin 2) = 0 := h.2.2.2.2.2.2.2.2.2.2.2.2.2.2.2.2.2.2.2.2.2.2.2.2.1
  have h1 : win0_14.index t (1 : Fin 2) = 0 := h.2.2.2.2.2.2.2.2.2.2.2.2.2.2.2.2.2.2.2.2.2.2.2.2.2.1
  unfold iblk
  show V m c main_v145 (((cfg0.win 14).blk t).view.emb (ix2 i k)) = V m c main_v145 (ix2 i k)
  refine congrArg (V m c main_v145) ?_
  funext d; apply Fin.ext
  match d with
  | ⟨0, _⟩ => show win0_14.index t (0 : Fin 2) * 20 + 1 * i.val = i.val; omega
  | ⟨1, _⟩ => show win0_14.index t (1 : Fin 2) * 120 + 1 * k.val = k.val; omega

/-- A weight's window is the whole matrix at every point. -/
theorem iblk16_apply (c : Dev nD) (t : Fin cfg0.N) (i : Fin 120) (k : Fin 120) :
    iblk m c 16 t (ix2 i k) = V m c main_v146 (ix2 i k) := by
  have h := idx_facts t
  have h0 : win0_16.index t (0 : Fin 2) = 0 := h.2.2.2.2.2.2.2.2.2.2.2.2.2.2.2.2.2.2.2.2.2.2.2.2.2.2.1
  have h1 : win0_16.index t (1 : Fin 2) = 0 := h.2.2.2.2.2.2.2.2.2.2.2.2.2.2.2.2.2.2.2.2.2.2.2.2.2.2.2.1
  unfold iblk
  show V m c main_v146 (((cfg0.win 16).blk t).view.emb (ix2 i k)) = V m c main_v146 (ix2 i k)
  refine congrArg (V m c main_v146) ?_
  funext d; apply Fin.ext
  match d with
  | ⟨0, _⟩ => show win0_16.index t (0 : Fin 2) * 120 + 1 * i.val = i.val; omega
  | ⟨1, _⟩ => show win0_16.index t (1 : Fin 2) * 120 + 1 * k.val = k.val; omega

end Cert.KernelIdeal.Hand
end
-- ==== Proof.KICover.lean ====
/-
  The two output windows: which entries of the message arrays a grid point's block holds, that the 512 blocks cover
  them, and where an entry of a block sits in its array (row 512·t + r).
-/
import proofs.«145672_j73899207295099_1_alg».proof.Proof.KIBlocks
import Idealize.ShloMosaic.Lib.Pipeline.Value
import Idealize.ShloMosaic.Lib.ValueIdx
set_option maxRecDepth 16384
noncomputable section
namespace Cert.KernelIdeal.Hand
open Idealize.ShloMosaic Idealize.ShloMosaic.TcCoe Idealize.SL.Sem Idealize.ShloMosaic.ValueIdx
open Idealize.ShloMosaic.Pipeline (Dat Cfg Window)
open Cert.KernelIdeal Cert.KernelIdeal.Gen
variable {F : FTy → Type} [FloatOps F]
variable (m : (ℓ : Loc nD τ sig) → Buf (Elt F) ℓ)
/-- An index of output array 18 lies in point t's block iff each coordinate lies in the block's range. -/
theorem mem_blk18 (t : Fin cfg0.N) (i : S262144x120.Idx) :
    i ∈ ((cfg0.win 18).blk t).view.set ↔ ∀ a : Fin 2, win0_18.index t a * S512x120.size a ≤ (i a).val ∧ (i a).val < win0_18.index t a * S512x120.size a + S512x120.size a := by
  show i ∈ ((View.whole main_v147_0).slice (win0_18.rect t)).set ↔ _
  rw [View.set_slice_whole, Rect.mem_set_unit]
  exact Iff.rfl

/-- Every entry of output array 18 is written back by the point that handles its edge: point (row / 512). -/
theorem cover18 (i : S262144x120.Idx) : ∃ t : Fin cfg0.N, (cfg0.win 18).flush t = true ∧ i ∈ ((cfg0.win 18).blk t).view.set := by
  have hi0 : (i 0).val < 262144 := idx2_lt0 i
  have hi1 : (i 1).val < 120 := idx2_lt1 i
  have ht : (i 0).val / 512 < 512 := by omega
  refine ⟨⟨(i 0).val / 512, ht⟩, flush0_18 _, ?_⟩
  have h := idx_facts ⟨(i 0).val / 512, ht⟩
  have h0 : win0_18.index ⟨(i 0).val / 512, ht⟩ (0 : Fin 2) = (i 0).val / 512 := h.2.2.2.2.2.2.2.2.2.2.2.2.2.2.2.2.2.2.2.2.2.2.2.2.2.2.2.2.2.2.2.2.1
  have h1 : win0_18.index ⟨(i 0).val / 512, ht⟩ (1 : Fin 2) = 0 := h.2.2.2.2.2.2.2.2.2.2.2.2.2.2.2.2.2.2.2.2.2.2.2.2.2.2.2.2.2.2.2.2.2.1
  rw [mem_blk18]
  intro a
  match a with
  | ⟨0, _⟩ => show win0_18.index ⟨(i 0).val / 512, ht⟩ (0 : Fin 2) * 512 ≤ (i 0).val ∧ (i 0).val < win0_18.index ⟨(i 0).val / 512, ht⟩ (0 : Fin 2) * 512 + 512; omega
  | ⟨1, _⟩ => show win0_18.index ⟨(i 0).val / 512, ht⟩ (1 : Fin 2) * 120 ≤ (i 1).val ∧ (i 1).val < win0_18.index ⟨(i 0).val / 512, ht⟩ (1 : Fin 2) * 120 + 120; omega

/-- Entry (r, a) of output block t sits at row 512·t + r of output array 18. -/
theorem emb18_apply (t : Fin cfg0.N) (r : Fin 512) (a : Fin 120) (e : Fin 262144) (he : e.val = t.val * 512 + r.val) :
    ((cfg0.win 18).blk t).view.emb (ix2 r a) = (ix2 e a : S262144x120.Idx) := by
  have h := idx_facts t
  have h0 : win0_18.index t (0 : Fin 2) = t.val := h.2.2.2.2.2.2.2.2.2.2.2.2.2.2.2.2.2.2.2.2.2.2.2.2.2.2.2.2.2.2.2.2.1
  have h1 : win0_18.index t (1 : Fin 2) = 0 := h.2.2.2.2.2.2.2.2.2.2.2.2.2.2.2.2.2.2.2.2.2.2.2.2.2.2.2.2.2.2.2.2.2.1
  funext d; apply Fin.ext
  match d with
  | ⟨0, _⟩ => show win0_18.index t (0 : Fin 2) * 512 + 1 * r.val = e.val; omega
  | ⟨1, _⟩ => show win0_18.index t (1 : Fin 2) * 120 + 1 * a.val = a.val; omega

/-- An index of output array 19 lies in point t's block iff each coordinate lies in the block's range. -/
theorem mem_blk19 (t : Fin cfg0.N) (i : S262144x240.Idx) :
    i ∈ ((cfg0.win 19).blk t).view.set ↔ ∀ a : Fin 2, win0_19.index t a * S512x240.size a ≤ (i a).val ∧ (i a).val < win0_19.index t a * S512x240.size a + S512x240.size a := by
  show i ∈ ((View.whole main_v147_1).slice (win0_19.rect t)).set ↔ _
  rw [View.set_slice_whole, Rect.mem_set_unit]
  exact Iff.rfl

/-- Every entry of output array 19 is written back by the point that handles its edge: point (row / 512). -/
theorem cover19 (i : S262144x240.Idx) : ∃ t : Fin cfg0.N, (cfg0.win 19).flush t = true ∧ i ∈ ((cfg0.win 19).blk t).view.set := by
  have hi0 : (i 0).val < 262144 := idx2_lt0 i
  have hi1 : (i 1).val < 240 := idx2_lt1 i
  have ht : (i 0).val / 512 < 512 := by omega
  refine ⟨⟨(i 0).val / 512, ht⟩, flush0_19 _, ?_⟩
  have h := idx_facts ⟨(i 0).val / 512, ht⟩
  have h0 : win0_19.index ⟨(i 0).val / 512, ht⟩ (0 : Fin 2) = (i 0).val / 512 := h.2.2.2.2.2.2.2.2.2.2.2.2.2.2.2.2.2.2.2.2.2.2.2.2.2.2.2.2.2.2.2.2.2.2.1
  have h1 : win0_19.index ⟨(i 0).val / 512, ht⟩ (1 : Fin 2) = 0 := h.2.2.2.2.2.2.2.2.2.2.2.2.2.2.2.2.2.2.2.2.2.2.2.2.2.2.2.2.2.2.2.2.2.2.2
  rw [mem_blk19]
  intro a
  match a with
  | ⟨0, _⟩ => show win0_19.index ⟨(i 0).val / 512, ht⟩ (0 : Fin 2) * 512 ≤ (i 0).val ∧ (i 0).val < win0_19.index ⟨(i 0).val / 512, ht⟩ (0 : Fin 2) * 512 + 512; omega
  | ⟨1, _⟩ => show win0_19.index ⟨(i 0).val / 512, ht⟩ (1 : Fin 2) * 240 ≤ (i 1).val ∧ (i 1).val < win0_19.index ⟨(i 0).val / 512, ht⟩ (1 : Fin 2) * 240 + 240; omega

/-- Entry (r, a) of output block t sits at row 512·t + r of output array 19. -/
theorem emb19_apply (t : Fin cfg0.N) (r : Fin 512) (a : Fin 240) (e : Fin 262144) (he : e.val = t.val * 512 + r.val) :
    ((cfg0.win 19).blk t).view.emb (ix2 r a) = (ix2 e a : S262144x240.Idx) := by
  have h := idx_facts t
  have h0 : win0_19.index t (0 : Fin 2) = t.val := h.2.2.2.2.2.2.2.2.2.2.2.2.2.2.2.2.2.2.2.2.2.2.2.2.2.2.2.2.2.2.2.2.2.2.1
  have h1 : win0_19.index t (1 : Fin 2) = 0 := h.2.2.2.2.2.2.2.2.2.2.2.2.2.2.2.2.2.2.2.2.2.2.2.2.2.2.2.2.2.2.2.2.2.2.2
  funext d; apply Fin.ext
  match d with
  | ⟨0, _⟩ => show win0_19.index t (0 : Fin 2) * 512 + 1 * r.val = e.val; omega
  | ⟨1, _⟩ => show win0_19.index t (1 : Fin 2) * 240 + 1 * a.val = a.val; omega

end Cert.KernelIdeal.Hand
end
-- ==== Proof.EdgeSpec.lean ====
/-
  The message of one edge, as mathematics on the extended reals.

  For an edge with radial basis `rbf` (20), cutoff `fc`, spherical harmonics `rsh` (240 = 64·1 + 32·3 + 16·5 components),
  equivariant difference `x` (240), gathered scalar projections `qi ki vi` (120 each) and spherical projections
  `qs ks` (120 each), `vs` (112 = 64 + 32 + 16 irreducible blocks), and the two filter networks' weights:

    inv k      = the squared norm of irreducible block k of x                                   (k < 112)
    mlp u j    = Σ_k silu (Σ_i u i · Wa i k + ba k) · Wb k j + bb j,   silu h = h · logistic h  (j < 120)
    w j        = (mlp inv j + mlp rbf j) · fc
    msgS j     = ((Σ_{a<30} (qi · w)(30h + a) · ki (30h + a)) · cS) · vi j,      h = j / 30     (j < 120)
    attn l     = (Σ_{a<40} (qs · w)(40l + a) · ks (40l + a)) · cE                               (l < 3)
    gate k     = attn (degree of block k) · vs k                                                (k < 112)
    msgE i     = (rsh i · gate (block of component i)) · fc                                     (i < 240)

  Both programs compute exactly these, in exactly this order of products; sums are finite sums, whose order is immaterial.
-/
import Idealize.ShloMosaic.PureOps.Ideal

noncomputable section

namespace Cert.EdgeSpec

open Idealize.ShloMosaic

/-- x · logistic x. -/
def silu (h : EReal) : EReal := h * Ideal.logistic h

/-- Squared norms of the 64 one-component blocks (components 0 … 63). -/
def inv0 (x : Fin 240 → EReal) (k : Fin 64) : EReal :=
  ∑ a : Fin 1, x ⟨k.val * 1 + a.val, by have := k.isLt; have := a.isLt; omega⟩ * x ⟨k.val * 1 + a.val, by have := k.isLt; have := a.isLt; omega⟩
/-- Squared norms of the 32 three-component blocks (components 64 … 159). -/
def inv1 (x : Fin 240 → EReal) (k : Fin 32) : EReal :=
  ∑ a : Fin 3, x ⟨64 + (k.val * 3 + a.val), by have := k.isLt; have := a.isLt; omega⟩ * x ⟨64 + (k.val * 3 + a.val), by have := k.isLt; have := a.isLt; omega⟩
/-- Squared norms of the 16 five-component blocks (components 160 … 239). -/
def inv2 (x : Fin 240 → EReal) (k : Fin 16) : EReal :=
  ∑ a : Fin 5, x ⟨160 + (k.val * 5 + a.val), by have := k.isLt; have := a.isLt; omega⟩ * x ⟨160 + (k.val * 5 + a.val), by have := k.isLt; have := a.isLt; omega⟩
/-- The 112 invariants, the three families side by side. -/
def inv (x : Fin 240 → EReal) (k : Fin 112) : EReal :=
  if h : k.val < 64 then inv0 x ⟨k.val, h⟩
  else if h' : k.val < 96 then inv1 x ⟨k.val - 64, by omega⟩
  else inv2 x ⟨k.val - 96, by have := k.isLt; omega⟩

/-- A hidden unit before its activation. -/
def hidden {n : Nat} (u : Fin n → EReal) (Wa : Fin n → Fin 120 → EReal) (ba : Fin 120 → EReal) (k : Fin 120) : EReal :=
  (∑ i : Fin n, u i * Wa i k) + ba k
/-- A two-layer network with silu between the layers. -/
def mlp {n : Nat} (u : Fin n → EReal) (Wa : Fin n → Fin 120 → EReal) (ba : Fin 120 → EReal) (Wb : Fin 120 → Fin 120 → EReal)
    (bb : Fin 120 → EReal) (j : Fin 120) : EReal :=
  (∑ k : Fin 120, silu (hidden u Wa ba k) * Wb k j) + bb j

/-- The filter weights of one edge: its 120 channels. -/
structure Weights where
  W1 : Fin 112 → Fin 120 → EReal
  b1 : Fin 120 → EReal
  W2 : Fin 120 → Fin 120 → EReal
  b2 : Fin 120 → EReal
  Wr1 : Fin 20 → Fin 120 → EReal
  br1 : Fin 120 → EReal
  Wr2 : Fin 120 → Fin 120 → EReal
  br2 : Fin 120 → EReal

/-- (network of the invariants + network of the radial basis) · cutoff. -/
def filt (P : Weights) (x : Fin 240 → EReal) (rbf : Fin 20 → EReal) (fc : EReal) (j : Fin 120) : EReal :=
  (mlp (inv x) P.W1 P.b1 P.W2 P.b2 j + mlp rbf P.Wr1 P.br1 P.Wr2 P.br2 j) * fc

/-- The attention weight of head h (four heads of thirty channels). -/
def attnS (cS : EReal) (qi ki w : Fin 120 → EReal) (h : Fin 4) : EReal :=
  (∑ a : Fin 30, (qi ⟨h.val * 30 + a.val, by have := h.isLt; have := a.isLt; omega⟩ * w ⟨h.val * 30 + a.val, by have := h.isLt; have := a.isLt; omega⟩)
      * ki ⟨h.val * 30 + a.val, by have := h.isLt; have := a.isLt; omega⟩) * cS
/-- The scalar message, channel j. -/
def msgS (cS : EReal) (qi ki vi w : Fin 120 → EReal) (j : Fin 120) : EReal :=
  attnS cS qi ki w ⟨j.val / 30, by have := j.isLt; omega⟩ * vi j

/-- The attention weight of degree l (three degrees of forty channels). -/
def attnE (cE : EReal) (qs ks w : Fin 120 → EReal) (l : Fin 3) : EReal :=
  (∑ a : Fin 40, (qs ⟨l.val * 40 + a.val, by have := l.isLt; have := a.isLt; omega⟩ * w ⟨l.val * 40 + a.val, by have := l.isLt; have := a.isLt; omega⟩)
      * ks ⟨l.val * 40 + a.val, by have := l.isLt; have := a.isLt; omega⟩) * cE
/-- The degree of irreducible block k: blocks 0 … 63 have degree 0, 64 … 95 degree 1, 96 … 111 degree 2. -/
def degOf (k : Fin 112) : Fin 3 := if k.val < 64 then 0 else if k.val < 96 then 1 else 2
/-- The gate of irreducible block k. -/
def gate (cE : EReal) (qs ks w : Fin 120 → EReal) (vs : Fin 112 → EReal) (k : Fin 112) : EReal :=
  attnE cE qs ks w (degOf k) * vs k
/-- The irreducible block a component lies in. -/
def blockOf (i : Fin 240) : Fin 112 :=
  if h : i.val < 64 then ⟨i.val, by omega⟩
  else if h' : i.val < 160 then ⟨64 + (i.val - 64) / 3, by omega⟩
  else ⟨96 + (i.val - 160) / 5, by have := i.isLt; omega⟩
/-- The equivariant message, component i. -/
def msgE (cE : EReal) (rsh : Fin 240 → EReal) (qs ks w : Fin 120 → EReal) (vs : Fin 112 → EReal) (fc : EReal) (i : Fin 240) : EReal :=
  (rsh i * gate cE qs ks w vs (blockOf i)) * fc

end Cert.EdgeSpec

end
-- ==== Proof.LibVecLastAxis.lean ====
/-
  A matrix whose columns are grouped: the last axis of an [n, m] array regrouped as [n, a, b] (m = a · b), read at an
  index given by coordinates.

  Regrouping is a reindexing by row-major position: entry (i, j, k) of the regrouped array is entry (i, j · b + k) of
  the matrix, and entry (i, c) of the matrix is entry (i, c / b, c % b) of the regrouped array. A trailing unit axis
  added or dropped ([n, a] and [n, a, 1]) changes nothing. A sum over the last axis of an [n, a, b] array read at (i, j)
  is the sum over k of the entries (i, j, k). An [n, a, 1] array broadcast over a last axis of extent b reads, at
  (i, j, k), its entry (i, j, 0).
-/
import Idealize.ShloMosaic.Lib.ValueLayout
import Idealize.ShloMosaic.PureOps.Ideal.Laws

namespace Cert.Lib.VecLastAxis

open Idealize.ShloMosaic Idealize.ShloMosaic.ValueIdx

variable {α : Type}

/-! ## The last axis split in two, and merged back -/

/-- An [n, m] matrix cast to [n, a, b], m = a · b, reads at (i, j, k) the matrix at (i, j · b + k). -/
theorem shapeCast_split_apply {n m a b : ℕ} (x : (⟨2, ![n, m]⟩ : Shape).Idx → α)
    (h : (⟨2, ![n, m]⟩ : Shape).ShapeCasts ⟨3, ![n, a, b]⟩) (hm : m = a * b)
    (i : Fin n) (j : Fin a) (k : Fin b) (c : Fin m) (hc : c.val = j.val * b + k.val) :
    shapeCast ⟨3, ![n, a, b]⟩ x h (ix3 i j k) = x (ix2 i c) :=
  shapeCast_apply x h _ _ (by
    rw [Shape.rowMajor_val_two, Shape.rowMajor_val_three]
    show i.val * m + c.val = (i.val * a + j.val) * b + k.val
    rw [hc, hm, Nat.add_mul, Nat.mul_assoc, Nat.add_assoc])

/-- An [n, a, b] array cast to an [n, m] matrix, m = a · b, reads at (i, c) the array at (i, c / b, c % b). -/
theorem shapeCast_merge_apply {n m a b : ℕ} (x : (⟨3, ![n, a, b]⟩ : Shape).Idx → α)
    (h : (⟨3, ![n, a, b]⟩ : Shape).ShapeCasts ⟨2, ![n, m]⟩) (hm : m = a * b)
    (i : Fin n) (c : Fin m) (j : Fin a) (k : Fin b) (hc : c.val = j.val * b + k.val) :
    shapeCast ⟨2, ![n, m]⟩ x h (ix2 i c) = x (ix3 i j k) :=
  shapeCast_apply x h _ _ (by
    rw [Shape.rowMajor_val_two, Shape.rowMajor_val_three]
    show (i.val * a + j.val) * b + k.val = i.val * m + c.val
    rw [hc, hm, Nat.add_mul, Nat.mul_assoc, Nat.add_assoc])

/-- An [n, a] matrix cast to [n, a, 1] reads at (i, j, u) the matrix at (i, j). -/
theorem shapeCast_addLast_apply {n a : ℕ} (x : (⟨2, ![n, a]⟩ : Shape).Idx → α)
    (h : (⟨2, ![n, a]⟩ : Shape).ShapeCasts ⟨3, ![n, a, 1]⟩) (i : Fin n) (j : Fin a) (u : Fin 1) :
    shapeCast ⟨3, ![n, a, 1]⟩ x h (ix3 i j u) = x (ix2 i j) :=
  shapeCast_split_apply x h (Nat.mul_one a).symm i j u j (by have := u.isLt; omega)

/-- An [n, a, 1] array cast to an [n, a] matrix reads at (i, j) the array at (i, j, 0). -/
theorem shapeCast_dropLast_apply {n a : ℕ} (x : (⟨3, ![n, a, 1]⟩ : Shape).Idx → α)
    (h : (⟨3, ![n, a, 1]⟩ : Shape).ShapeCasts ⟨2, ![n, a]⟩) (i : Fin n) (j : Fin a) :
    shapeCast ⟨2, ![n, a]⟩ x h (ix2 i j) = x (ix3 i j (0 : Fin 1)) :=
  shapeCast_merge_apply x h (Nat.mul_one a).symm i j j 0 (by show j.val = j.val * 1 + 0; omega)

/-! ## A sum over the last axis -/

/-- At the exact values, the vector unit's sum over the last axis of an [n, a, b] array, read at (i, j), is the sum
    over k of the entries (i, j, k). -/
theorem multiReduction_add_last_apply {n a b : ℕ} {φ : FTy} (src : FVec Ideal ⟨3, ![n, a, b]⟩ φ) (acc : BitVec φ.bits)
    (h : (⟨3, ![n, a, b]⟩ : Shape).Reduces [2] ⟨2, ![n, a]⟩) (hφ : FKind.Formats φ) (hacc : acc = FKind.add.neutral φ hφ)
    (i : Fin n) (j : Fin a) :
    multiReduction .add [2] ⟨2, ![n, a]⟩ src acc h hφ hacc (ix2 i j) = ∑ k : Fin b, src (ix3 i j k) := by
  refine (Ideal.multiReduction_add_single src acc h hφ hacc (ix2 i j)).trans ?_
  show ∑ k : Fin b, src (h.lift (ix2 i j) k) = ∑ k : Fin b, src (ix3 i j k)
  refine Finset.sum_congr rfl fun k _ => congrArg src (funext fun c => Fin.ext ?_)
  match c with
  | ⟨0, _⟩ => rfl
  | ⟨1, _⟩ => rfl
  | ⟨2, _⟩ => rfl

/-! ## A trailing unit axis broadcast -/

/-- An [n, a, 1] array broadcast to [n, a, b] reads at (i, j, k) the array at (i, j, 0). -/
theorem broadcastTo_last_apply {n a b : ℕ} (v : (⟨3, ![n, a, 1]⟩ : Shape).Idx → α)
    (h : (⟨3, ![n, a, 1]⟩ : Shape).Broadcasts ⟨3, ![n, a, b]⟩) (i : Fin n) (j : Fin a) (k : Fin b) :
    broadcastTo ⟨3, ![n, a, b]⟩ v h (ix3 i j k) = v (ix3 i j (0 : Fin 1)) := by
  refine broadcastTo_apply v h (ix3 i j k) (ix3 i j (0 : Fin 1)) fun ax => ?_
  match ax with
  | ⟨0, _⟩ =>
    show i.val = if n = 1 then 0 else i.val
    split
    · have := i.isLt; omega
    · rfl
  | ⟨1, _⟩ =>
    show j.val = if a = 1 then 0 else j.val
    split
    · have := j.isLt; omega
    · rfl
  | ⟨2, _⟩ => exact (if_pos rfl).symm

end Cert.Lib.VecLastAxis
-- ==== Proof.LibConcat3.lean ====
/-
  Three matrices laid side by side: a three-piece concatenation along the columns, read at an index given by
  coordinates.

  For [n, m0], [n, m1] and [n, m2] matrices concatenated along axis 1 into an [n, m] matrix (m = m0 + m1 + m2), entry
  (i, c) is the first piece at (i, c) when c < m0, the second at (i, c - m0) when m0 ≤ c < m0 + m1, and the third at
  (i, c - m0 - m1) otherwise. Each case names the piece's column k and asks for the one linear equation relating it to c.
-/
import Idealize.ShloMosaic.Lib.ValueLayout

namespace Cert.Lib.Concat3

open Idealize.ShloMosaic Idealize.ShloMosaic.ValueIdx

variable {α : Type} {n m m0 m1 m2 : ℕ}

/-- A column in the first piece's span reads the first piece. -/
theorem concatenate3_axis1_fst (x0 : (⟨2, ![n, m0]⟩ : Shape).Idx → α) (x1 : (⟨2, ![n, m1]⟩ : Shape).Idx → α)
    (x2 : (⟨2, ![n, m2]⟩ : Shape).Idx → α)
    (h : Shape.Concatenates [⟨2, ![n, m0]⟩, ⟨2, ![n, m1]⟩, ⟨2, ![n, m2]⟩] ⟨2, ![n, m]⟩ 1)
    (i : Fin n) (c : Fin m) (k : Fin m0) (hk : k.val = c.val) :
    concatenate ⟨2, ![n, m]⟩ 1 [⟨⟨2, ![n, m0]⟩, x0⟩, ⟨⟨2, ![n, m1]⟩, x1⟩, ⟨⟨2, ![n, m2]⟩, x2⟩] h (ix2 i c) = x0 (ix2 i k) :=
  concatenate_apply_piece (t := ⟨2, ![n, m]⟩) (1 : Fin 2) [⟨⟨2, ![n, m0]⟩, x0⟩, ⟨⟨2, ![n, m1]⟩, x1⟩, ⟨⟨2, ![n, m2]⟩, x2⟩] h (ix2 i c) 0 (by show 0 < 3; omega) ⟨2, ![n, m0]⟩ x0 rfl rfl 0 rfl (ix2 i k)
    (fun b => by
      match b with
      | ⟨0, _⟩ => exact fun _ => rfl
      | ⟨1, _⟩ => exact fun hne => absurd rfl hne)
    (by show 0 + k.val = c.val; omega)

/-- A column in the second piece's span reads the second piece, the first extent less. -/
theorem concatenate3_axis1_snd (x0 : (⟨2, ![n, m0]⟩ : Shape).Idx → α) (x1 : (⟨2, ![n, m1]⟩ : Shape).Idx → α)
    (x2 : (⟨2, ![n, m2]⟩ : Shape).Idx → α)
    (h : Shape.Concatenates [⟨2, ![n, m0]⟩, ⟨2, ![n, m1]⟩, ⟨2, ![n, m2]⟩] ⟨2, ![n, m]⟩ 1)
    (i : Fin n) (c : Fin m) (k : Fin m1) (hk : m0 + k.val = c.val) :
    concatenate ⟨2, ![n, m]⟩ 1 [⟨⟨2, ![n, m0]⟩, x0⟩, ⟨⟨2, ![n, m1]⟩, x1⟩, ⟨⟨2, ![n, m2]⟩, x2⟩] h (ix2 i c) = x1 (ix2 i k) :=
  concatenate_apply_piece (t := ⟨2, ![n, m]⟩) (1 : Fin 2) [⟨⟨2, ![n, m0]⟩, x0⟩, ⟨⟨2, ![n, m1]⟩, x1⟩, ⟨⟨2, ![n, m2]⟩, x2⟩] h (ix2 i c) 1 (by show 1 < 3; omega) ⟨2, ![n, m1]⟩ x1 rfl rfl m0 rfl (ix2 i k)
    (fun b => by
      match b with
      | ⟨0, _⟩ => exact fun _ => rfl
      | ⟨1, _⟩ => exact fun hne => absurd rfl hne)
    (by show m0 + k.val = c.val; exact hk)

/-- A column in the third piece's span reads the third piece, the first two extents less. -/
theorem concatenate3_axis1_thd (x0 : (⟨2, ![n, m0]⟩ : Shape).Idx → α) (x1 : (⟨2, ![n, m1]⟩ : Shape).Idx → α)
    (x2 : (⟨2, ![n, m2]⟩ : Shape).Idx → α)
    (h : Shape.Concatenates [⟨2, ![n, m0]⟩, ⟨2, ![n, m1]⟩, ⟨2, ![n, m2]⟩] ⟨2, ![n, m]⟩ 1)
    (i : Fin n) (c : Fin m) (k : Fin m2) (hk : m0 + m1 + k.val = c.val) :
    concatenate ⟨2, ![n, m]⟩ 1 [⟨⟨2, ![n, m0]⟩, x0⟩, ⟨⟨2, ![n, m1]⟩, x1⟩, ⟨⟨2, ![n, m2]⟩, x2⟩] h (ix2 i c) = x2 (ix2 i k) :=
  concatenate_apply_piece (t := ⟨2, ![n, m]⟩) (1 : Fin 2) [⟨⟨2, ![n, m0]⟩, x0⟩, ⟨⟨2, ![n, m1]⟩, x1⟩, ⟨⟨2, ![n, m2]⟩, x2⟩] h (ix2 i c) 2 (by show 2 < 3; omega) ⟨2, ![n, m2]⟩ x2 rfl rfl (m0 + m1) rfl (ix2 i k)
    (fun b => by
      match b with
      | ⟨0, _⟩ => exact fun _ => rfl
      | ⟨1, _⟩ => exact fun hne => absurd rfl hne)
    (by show m0 + m1 + k.val = c.val; exact hk)

end Cert.Lib.Concat3
-- ==== Proof.KIPayInv.lean ====
/-
  The 112 invariants of the equivariant difference, as the body computes them, read at an index.

  The body cuts the 240 components of one edge's difference into 64 blocks of one, 32 blocks of three and 16 blocks of
  five components, squares, sums each block over its components, and lays the three families side by side. Read at
  (r, k) this is the squared norm of irreducible block k of row r.
-/
import proofs.«145672_j73899207295099_1_alg».proof.Proof.Gen.KernelIdeal.Skeleton
import proofs.«145672_j73899207295099_1_alg».proof.Proof.KIBodyOut
import proofs.«145672_j73899207295099_1_alg».proof.Proof.EdgeSpec
import proofs.«145672_j73899207295099_1_alg».proof.Proof.LibVecLastAxis
import proofs.«145672_j73899207295099_1_alg».proof.Proof.LibConcat3

set_option maxRecDepth 16384

noncomputable section

namespace Cert.KernelIdeal.PayValue

open Cert.KernelIdeal Cert.KernelIdeal.Gen Cert.KernelIdeal.Hand Idealize.ShloMosaic Idealize.ShloMosaic.ValueIdx
open Cert.Lib.VecLastAxis Cert.Lib.Concat3

/-- Position t of group j of extent b lies below a · b. -/
theorem flat_lt {a b j t : ℕ} (hj : j < a) (ht : t < b) : j * b + t < a * b :=
  calc j * b + t < j * b + b := Nat.add_lt_add_left ht _
    _ = (j + 1) * b := by rw [Nat.add_mul, Nat.one_mul]
    _ ≤ a * b := Nat.mul_le_mul_right b hj

/-- The column of component t of group j of the groups that start at column o. -/
abbrev col {M m a b : ℕ} (o : ℕ) (hm : m = a * b) (hoM : o + m ≤ M) (j : Fin a) (t : Fin b) : Fin M :=
  ⟨o + (j.val * b + t.val), lt_of_lt_of_le (Nat.add_lt_add_left (by rw [hm]; exact flat_lt j.isLt t.isLt) o) hoM⟩

/-- The columns o … o + m of a matrix, grouped a groups of b, squared and summed over each group: at (i, j) the sum
    over the group's components of the squares. -/
theorem sqnorm_groups_apply {n M m a b : ℕ} (o : ℕ) (X : FVec Ideal ⟨2, ![n, M]⟩ .f32)
    (hs : (⟨2, ![n, M]⟩ : Shape).Slices ![0, o] ⟨2, ![n, m]⟩)
    (hc : (⟨2, ![n, m]⟩ : Shape).ShapeCasts ⟨3, ![n, a, b]⟩) (hm : m = a * b) (hoM : o + m ≤ M)
    (hr : (⟨3, ![n, a, b]⟩ : Shape).Reduces [2] ⟨2, ![n, a]⟩) (hφ : FKind.Formats .f32)
    (hacc : (0x00000000#32 : BitVec 32) = FKind.add.neutral .f32 hφ) (i : Fin n) (j : Fin a) :
    multiReduction .add [2] ⟨2, ![n, a]⟩
        (mulf (shapeCast ⟨3, ![n, a, b]⟩ (extractStridedSlice ⟨2, ![n, m]⟩ ![0, o] X hs) hc)
          (shapeCast ⟨3, ![n, a, b]⟩ (extractStridedSlice ⟨2, ![n, m]⟩ ![0, o] X hs) hc))
        0x00000000#32 hr hφ hacc (ix2 i j)
      = ∑ t : Fin b, X (ix2 i (col o hm hoM j t)) * X (ix2 i (col o hm hoM j t)) := by
  refine (multiReduction_add_last_apply _ _ hr hφ hacc i j).trans (Finset.sum_congr rfl fun t _ => ?_)
  have e : shapeCast ⟨3, ![n, a, b]⟩ (extractStridedSlice ⟨2, ![n, m]⟩ ![0, o] X hs) hc (ix3 i j t)
      = X (ix2 i (col o hm hoM j t)) :=
    (shapeCast_split_apply _ hc hm i j t ⟨j.val * b + t.val, by rw [hm]; exact flat_lt j.isLt t.isLt⟩ rfl).trans
      (slice2_axis1_apply o X hs i _ _ rfl)
  show shapeCast ⟨3, ![n, a, b]⟩ (extractStridedSlice ⟨2, ![n, m]⟩ ![0, o] X hs) hc (ix3 i j t)
      * shapeCast ⟨3, ![n, a, b]⟩ (extractStridedSlice ⟨2, ![n, m]⟩ ![0, o] X hs) hc (ix3 i j t) = _
  rw [e]

/-- The invariants the body computes, at (r, k): the squared norm of irreducible block k of row r. -/
theorem pay9_apply (v3 : FVec Ideal S512x240 .f32) (r : Fin 512) (k : Fin 112) :
    k0_pay9 (F := Ideal) v3 (ix2 r k) = Cert.EdgeSpec.inv (fun a => v3 (ix2 r a)) k := by
  unfold k0_pay9
  dsimp only
  rw [shapeCast_self]
  unfold Cert.EdgeSpec.inv
  by_cases h0 : k.val < 64
  · rw [dif_pos h0]
    refine (concatenate3_axis1_fst _ _ _ _ r k ⟨k.val, h0⟩ rfl).trans ?_
    refine (sqnorm_groups_apply 0 v3 _ _ rfl (by decide) _ _ _ r ⟨k.val, h0⟩).trans ?_
    unfold Cert.EdgeSpec.inv0
    refine Finset.sum_congr rfl fun a _ => ?_
    have e : col (M := 240) (m := 64) (a := 64) (b := 1) 0 rfl (by decide) ⟨k.val, h0⟩ a
        = ⟨k.val * 1 + a.val, by have := a.isLt; omega⟩ := Fin.ext (Nat.zero_add _)
    rw [e]
  · rw [dif_neg h0]
    by_cases h1 : k.val < 96
    · rw [dif_pos h1]
      refine (concatenate3_axis1_snd _ _ _ _ r k ⟨k.val - 64, by omega⟩ (by show 64 + (k.val - 64) = k.val; omega)).trans ?_
      refine (sqnorm_groups_apply 64 v3 _ _ rfl (by decide) _ _ _ r ⟨k.val - 64, by omega⟩).trans ?_
      rfl
    · rw [dif_neg h1]
      have hk := k.isLt
      refine (concatenate3_axis1_thd _ _ _ _ r k ⟨k.val - 96, by omega⟩ (by show 64 + 32 + (k.val - 96) = k.val; omega)).trans ?_
      refine (sqnorm_groups_apply 160 v3 _ _ rfl (by decide) _ _ _ r ⟨k.val - 96, by omega⟩).trans ?_
      rfl

end Cert.KernelIdeal.PayValue

end
-- ==== Proof.LibMatmulPlain.lean ====
/-
  A plain matrix product on extended reals, read at an index given by coordinates.
  The product of a `[B, K]` block by a `[K, M]` matrix (contracting the block's columns with the matrix's rows, no batch
  axes) is computed by the matrix unit into an accumulator of zeros, and by the host as a general dot product. Read at
  `(p, q)` both are the sum over `k` of `lhs (p, k) · rhs (k, q)`: one sum of `K` products, whatever the operands'
  float formats were (a change of format is the identity on extended reals).
-/
import Idealize.ShloMosaic.Lib.ValueIdx
import Idealize.ShloMosaic.PureOps.Ideal.Laws

namespace Cert.Lib.MatmulPlain

open Idealize.ShloMosaic Idealize.ShloMosaic.ValueIdx

/-- The dimension numbers of `lhs @ rhs` for `[B, K]` by `[K, M]`. -/
abbrev plainDims (B K M : Nat)
    (wf : DotDims.WF ⟨2, ![B, K]⟩ ⟨2, ![K, M]⟩ ⟨2, ![B, M]⟩ [1] [0] [0] [1] [] []) :
    DotDims ⟨2, ![B, K]⟩ ⟨2, ![K, M]⟩ ⟨2, ![B, M]⟩ where
  lhsContracting := [1]
  rhsContracting := [0]
  lhsNonContracting := [0]
  rhsNonContracting := [1]
  lhsBatch := []
  rhsBatch := []
  wf := wf

section

variable {B K M : Nat} (wf : DotDims.WF ⟨2, ![B, K]⟩ ⟨2, ![K, M]⟩ ⟨2, ![B, M]⟩ [1] [0] [0] [1] [] [])

/-- The left operand is read at row `p`, column the contraction coordinate. -/
theorem lhsIdx_eq (p : Fin B) (q : Fin M) (k : Fin K) :
    (plainDims B K M wf).lhsIdx (ix2 p q) ((contrEquiv1 (plainDims B K M wf) K rfl rfl).symm k) = ix2 p k :=
  funext fun a => Fin.ext (by
    match a with
    | ⟨0, _⟩ =>
      show ((plainDims B K M wf).lhsIdx (ix2 p q) ((contrEquiv1 (plainDims B K M wf) K rfl rfl).symm k) 0).val = p.val
      unfold DotDims.lhsIdx
      rw [dif_neg List.not_mem_nil, dif_pos (List.mem_singleton.mpr rfl)]
      rfl
    | ⟨1, _⟩ =>
      exact ((plainDims B K M wf).lhsIdx_val_of_single rfl _ _).trans
        (contrEquiv1_symm_val (plainDims B K M wf) K rfl rfl k))

/-- The right operand is read at row the contraction coordinate, column `q`. -/
theorem rhsIdx_eq (p : Fin B) (q : Fin M) (k : Fin K) :
    (plainDims B K M wf).rhsIdx (ix2 p q) ((contrEquiv1 (plainDims B K M wf) K rfl rfl).symm k) = ix2 k q :=
  funext fun a => Fin.ext (by
    match a with
    | ⟨0, _⟩ =>
      exact ((plainDims B K M wf).rhsIdx_val_of_single rfl _ _).trans
        (contrEquiv1_symm_val (plainDims B K M wf) K rfl rfl k)
    | ⟨1, _⟩ =>
      show ((plainDims B K M wf).rhsIdx (ix2 p q) ((contrEquiv1 (plainDims B K M wf) K rfl rfl).symm k) 1).val = q.val
      unfold DotDims.rhsIdx
      rw [dif_neg List.not_mem_nil, dif_pos (List.mem_singleton.mpr rfl)]
      rfl)

/-- THE MATRIX UNIT'S PRODUCT INTO ZEROS, read at `(p, q)`. -/
theorem matmul_zero_apply {φ₁ φ₂ : FTy} (prec : Option ContractPrecision)
    (lhs : FVec Ideal ⟨2, ![B, K]⟩ φ₁) (rhs : FVec Ideal ⟨2, ![K, M]⟩ φ₂) (p : Fin B) (q : Fin M) :
    FloatOps.matmul (plainDims B K M wf) prec lhs rhs (constant ⟨2, ![B, M]⟩ .f32 0x00000000#32) (ix2 p q)
      = ∑ k : Fin K, lhs (ix2 p k) * rhs (ix2 k q) := by
  rw [Ideal.matmul_constant_zero_apply, ← Equiv.sum_comp (contrEquiv1 (plainDims B K M wf) K rfl rfl).symm]
  refine Finset.sum_congr rfl fun k _ => ?_
  rw [lhsIdx_eq wf p q k, rhsIdx_eq wf p q k]

/-- THE HOST'S PRODUCT, read at `(p, q)`. -/
theorem dotGeneral_apply {φ₁ φ₂ : FTy} (prec : Option ContractPrecision)
    (lhs : FVec Ideal ⟨2, ![B, K]⟩ φ₁) (rhs : FVec Ideal ⟨2, ![K, M]⟩ φ₂) (p : Fin B) (q : Fin M) :
    Host.dotGeneral (plainDims B K M wf) prec lhs rhs (ix2 p q) = ∑ k : Fin K, lhs (ix2 p k) * rhs (ix2 k q) := by
  simp only [Host.dotGeneral]
  rw [Ideal.dotGeneral_apply, ← Equiv.sum_comp (contrEquiv1 (plainDims B K M wf) K rfl rfl).symm]
  refine Finset.sum_congr rfl fun k _ => ?_
  rw [lhsIdx_eq wf p q k, rhsIdx_eq wf p q k]

end

end Cert.Lib.MatmulPlain
-- ==== Proof.LibKeepdims.lean ====
/-
  Column layouts read at an index given by coordinates.
  A row-wise reduction that keeps its reduced axis (a sum over the columns of an [a, b] array, kept as an [a, 1]
  column) meets three layout steps on the way: the vector of row results is cast to a column, the column may be cast
  to a row, and the column is broadcast back over the b columns. Each is a reindexing; at an index written by its
  coordinates the result is the operand at the evident index: row i of the column is entry i of the vector, and entry
  (p, c) of the broadcast is row p of the column, whatever c. The same three steps written as host operations
  (a broadcast that places a vector along axis 0 of a column, a broadcast of a column over columns) read the same way,
  and so do a vector laid as a row, a row repeated over the rows, and a scalar spread over a whole shape.
-/
import Idealize.ShloMosaic.Lib.ValueLayout

namespace Cert.Lib.Keepdims

open Idealize.ShloMosaic Idealize.ShloMosaic.ValueIdx

variable {α : Type}

/-! ## A vector and its column -/

/-- An `[a]` vector cast to an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to an `[a]` vector reads, at `i`, the column at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column cast to a `[1, a]` row reads, at `(u, i)`, the column at `(i, 0)`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.mul_one, Nat.add_zero, Nat.zero_mul, Nat.zero_add])

/-! ## A column broadcast over the columns -/

/-- An `[a, 1]` column broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => exact (if_pos rfl).symm

/-! ## The same steps as host broadcasts -/

/-- A host broadcast that lays an `[a]` vector along axis 0 of an `[a, 1]` column reads, at `(i, u)`, the vector at `i`. -/
theorem broadcastInDim_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- A host broadcast of an `[a, 1]` column over `[a, b]` (axes kept in place) reads, at `(p, c)`, the column at `(p, 0)`. -/
theorem broadcastInDim_a1_ab_apply {a b : ℕ} (x : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => exact (if_pos rfl).symm

/-! ## A row as host broadcasts -/

/-- A host broadcast that lays a `[b]` vector along axis 1 of a `[1, b]` row reads, at `(u, c)`, the vector at `c`. -/
theorem broadcastInDim_b_1b_apply {b : ℕ} (x : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- A host broadcast of a `[1, b]` row over `[a, b]` (axes kept in place) reads, at `(p, c)`, the row at `(0, c)`. -/
theorem broadcastInDim_1b_ab_apply {a b : ℕ} (x : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => exact (if_pos rfl).symm
  | ⟨1, _⟩ =>
    show c.val = if b = 1 then 0 else c.val
    split
    · have := c.isLt; omega
    · rfl

/-- A host broadcast of a scalar to any shape reads the scalar everywhere. -/
theorem broadcastInDim_scalar_apply {t : Shape} (x : (⟨0, ![]⟩ : Shape).Idx → α)
    (h : (⟨0, ![]⟩ : Shape).BroadcastsInDim t ![]) (j : t.Idx) :
    broadcastInDim t ![] h x j = x ix0 :=
  broadcastInDim_apply _ h x j ix0 fun ax => ax.elim0

end Cert.Lib.Keepdims
-- ==== Proof.KIPayFilt.lean ====
/-
  The filter weight of one edge and channel, as the body computes it, read at an index.

  Two two-layer networks — one on the 112 invariants, one on the 20 radial basis values — each a matrix product plus a
  bias, x · logistic x between the layers, a second product plus bias; their sum is multiplied by the cutoff. At the
  exact values a change of float format is the identity and a matrix-unit product into zeros is the plain finite sum,
  so at (r, j) this is (mlp(inv) j + mlp(rbf) j) · fc of row r.
-/
import proofs.«145672_j73899207295099_1_alg».proof.Proof.Gen.KernelIdeal.Skeleton
import proofs.«145672_j73899207295099_1_alg».proof.Proof.KIBodyOut
import proofs.«145672_j73899207295099_1_alg».proof.Proof.EdgeSpec
import proofs.«145672_j73899207295099_1_alg».proof.Proof.LibMatmulPlain
import proofs.«145672_j73899207295099_1_alg».proof.Proof.LibKeepdims
import Idealize.ShloMosaic.Lib.ValueLayout

set_option maxRecDepth 16384

noncomputable section

namespace Cert.KernelIdeal.PayValue

open Cert.KernelIdeal Cert.KernelIdeal.Gen Cert.KernelIdeal.Hand Idealize.ShloMosaic Idealize.ShloMosaic.ValueIdx
open Cert.Lib.MatmulPlain Cert.Lib.Keepdims

/-- A matrix product into zeros plus a bias row, at (r, j): the sum over the contraction plus the bias at j. -/
theorem dense_apply {n K M : ℕ} (wf : DotDims.WF ⟨2, ![n, K]⟩ ⟨2, ![K, M]⟩ ⟨2, ![n, M]⟩ [1] [0] [0] [1] [] [])
    {φ₁ φ₂ : FTy} (u : FVec Ideal ⟨2, ![n, K]⟩ φ₁) (W : FVec Ideal ⟨2, ![K, M]⟩ φ₂) (bias : FVec Ideal ⟨1, ![M]⟩ .f32)
    (hc : (⟨1, ![M]⟩ : Shape).ShapeCasts ⟨2, ![1, M]⟩) (hb : (⟨2, ![1, M]⟩ : Shape).Broadcasts ⟨2, ![n, M]⟩)
    (r : Fin n) (j : Fin M) :
    addf (matmul (plainDims n K M wf) none u W (constant ⟨2, ![n, M]⟩ .f32 0x00000000#32))
        (broadcastTo ⟨2, ![n, M]⟩ (shapeCast ⟨2, ![1, M]⟩ bias hc) hb) (ix2 r j)
      = (∑ i : Fin K, u (ix2 r i) * W (ix2 i j)) + bias (ix1 j) := by
  show matmul (plainDims n K M wf) none u W (constant ⟨2, ![n, M]⟩ .f32 0x00000000#32) (ix2 r j)
      + broadcastTo ⟨2, ![n, M]⟩ (shapeCast ⟨2, ![1, M]⟩ bias hc) hb (ix2 r j) = _
  rw [broadcastTo_1b_ab_apply, shapeCast_a_1a_apply]
  exact congrArg (· + bias (ix1 j)) (matmul_zero_apply wf none u W r j)

/-- A two-layer network with x · logistic x between the layers, at (r, j). -/
theorem mlp_apply {n K : ℕ} (wf1 : DotDims.WF ⟨2, ![n, K]⟩ ⟨2, ![K, 120]⟩ ⟨2, ![n, 120]⟩ [1] [0] [0] [1] [] [])
    (wf2 : DotDims.WF ⟨2, ![n, 120]⟩ ⟨2, ![120, 120]⟩ ⟨2, ![n, 120]⟩ [1] [0] [0] [1] [] [])
    {φ₁ φ₂ φ₃ : FTy} (hlt : FTy.bits .bf16 < FTy.bits .f32)
    (u : FVec Ideal ⟨2, ![n, K]⟩ φ₁) (Wa : FVec Ideal ⟨2, ![K, 120]⟩ φ₂) (ba : FVec Ideal ⟨1, ![120]⟩ .f32)
    (Wb : FVec Ideal ⟨2, ![120, 120]⟩ φ₃) (bb : FVec Ideal ⟨1, ![120]⟩ .f32)
    (hc : (⟨1, ![120]⟩ : Shape).ShapeCasts ⟨2, ![1, 120]⟩) (hb : (⟨2, ![1, 120]⟩ : Shape).Broadcasts ⟨2, ![n, 120]⟩)
    (r : Fin n) (j : Fin 120) :
    addf (matmul (plainDims n 120 120 wf2) none
          (truncf .bf16 (mulf
            (addf (matmul (plainDims n K 120 wf1) none u Wa (constant ⟨2, ![n, 120]⟩ .f32 0x00000000#32))
              (broadcastTo ⟨2, ![n, 120]⟩ (shapeCast ⟨2, ![1, 120]⟩ ba hc) hb))
            (logistic
              (addf (matmul (plainDims n K 120 wf1) none u Wa (constant ⟨2, ![n, 120]⟩ .f32 0x00000000#32))
                (broadcastTo ⟨2, ![n, 120]⟩ (shapeCast ⟨2, ![1, 120]⟩ ba hc) hb)))) hlt)
          Wb (constant ⟨2, ![n, 120]⟩ .f32 0x00000000#32))
        (broadcastTo ⟨2, ![n, 120]⟩ (shapeCast ⟨2, ![1, 120]⟩ bb hc) hb) (ix2 r j)
      = Cert.EdgeSpec.mlp (fun i => u (ix2 r i)) (fun i k => Wa (ix2 i k)) (fun k => ba (ix1 k))
          (fun k j => Wb (ix2 k j)) (fun j => bb (ix1 j)) j := by
  rw [dense_apply]
  unfold Cert.EdgeSpec.mlp Cert.EdgeSpec.silu Cert.EdgeSpec.hidden
  refine congrArg (· + bb (ix1 j)) (Finset.sum_congr rfl fun k _ => ?_)
  show (addf (matmul (plainDims n K 120 wf1) none u Wa (constant ⟨2, ![n, 120]⟩ .f32 0x00000000#32))
          (broadcastTo ⟨2, ![n, 120]⟩ (shapeCast ⟨2, ![1, 120]⟩ ba hc) hb) (ix2 r k)
        * Ideal.logistic (addf (matmul (plainDims n K 120 wf1) none u Wa (constant ⟨2, ![n, 120]⟩ .f32 0x00000000#32))
          (broadcastTo ⟨2, ![n, 120]⟩ (shapeCast ⟨2, ![1, 120]⟩ ba hc) hb) (ix2 r k))) * Wb (ix2 k j) = _
  rw [dense_apply]

/-- The dimension numbers the program names are the plain ones. -/
theorem dot112_eq : dot_S512x112_S112x120_S512x120_1_0_0_1_n_n = plainDims 512 112 120 dot_S512x112_S112x120_S512x120_1_0_0_1_n_n_wf := rfl
theorem dot120_eq : dot_S512x120_S120x120_S512x120_1_0_0_1_n_n = plainDims 512 120 120 dot_S512x120_S120x120_S512x120_1_0_0_1_n_n_wf := rfl
theorem dot20_eq : dot_S512x20_S20x120_S512x120_1_0_0_1_n_n = plainDims 512 20 120 dot_S512x20_S20x120_S512x120_1_0_0_1_n_n_wf := rfl

/-- The filter weight the body computes, at (r, j), from the invariants v29 and the loaded blocks. -/
theorem pay11_apply (v0 : FVec Ideal S512x20 .f32) (v1 : FVec Ideal S512x1 .f32) (v29 : FVec Ideal S512x112 .f32)
    (v31 : FVec Ideal S112x120 .bf16) (v32 : FVec Ideal S120 .f32) (v33 : FVec Ideal S120x120 .bf16) (v35 : FVec Ideal S120 .f32)
    (v48 : FVec Ideal S20x120 .bf16) (v50 : FVec Ideal S120 .f32) (v51 : FVec Ideal S120x120 .bf16) (v53 : FVec Ideal S120 .f32)
    (r : Fin 512) (j : Fin 120) :
    k0_pay11 (F := Ideal) v0 v1 v29 v31 v32 v33 v35 v48 v50 v51 v53 (ix2 r j)
      = (Cert.EdgeSpec.mlp (fun i => v29 (ix2 r i)) (fun i k => v31 (ix2 i k)) (fun k => v32 (ix1 k))
            (fun k j => v33 (ix2 k j)) (fun j => v35 (ix1 j)) j
          + Cert.EdgeSpec.mlp (fun i => v0 (ix2 r i)) (fun i k => v48 (ix2 i k)) (fun k => v50 (ix1 k))
            (fun k j => v51 (ix2 k j)) (fun j => v53 (ix1 j)) j) * v1 (ix2 r (0 : Fin 1)) := by
  unfold k0_pay11
  try dsimp only
  rw [shapeCast_self, shapeCast_self, shapeCast_self, dot112_eq, dot120_eq, dot20_eq]
  rw [mulf_apply, addf_apply, mlp_apply, mlp_apply, broadcastTo_a1_ab_apply]
  rfl

end Cert.KernelIdeal.PayValue

end
-- ==== Proof.KIPayWij.lean ====
/-
  The filter weight of one edge from the blocks the body loads, read at an index.

  The body loads each block whole, so what it computes from the loaded blocks it computes from the blocks themselves;
  the invariants are those of the difference block's row, the networks' weights are the loaded matrices and biases.
  At (r, j) the filter weight is the specification's, of row r.
-/
import proofs.«145672_j73899207295099_1_alg».proof.Proof.KIPayInv
import proofs.«145672_j73899207295099_1_alg».proof.Proof.KIPayFilt
import Idealize.ShloMosaic.Lib.Pipeline.Value

set_option maxRecDepth 16384

noncomputable section

namespace Cert.KernelIdeal.PayValue

open Cert.KernelIdeal Cert.KernelIdeal.Gen Cert.KernelIdeal.Hand Idealize.ShloMosaic Idealize.ShloMosaic.ValueIdx

/-- The weights of the two filter networks as the body loads them: at the exact values a bf16 matrix is a matrix of
    extended reals. -/
def weightsOf (x10 : Vec Ideal S112x120 .bf16) (x11 : Vec Ideal S120 .f32) (x12 : Vec Ideal S120x120 .bf16) (x13 : Vec Ideal S120 .f32)
    (x14 : Vec Ideal S20x120 .bf16) (x15 : Vec Ideal S120 .f32) (x16 : Vec Ideal S120x120 .bf16) (x17 : Vec Ideal S120 .f32) : Cert.EdgeSpec.Weights :=
  ⟨fun i k => x10 (ix2 i k), fun k => x11 (ix1 k), fun i k => x12 (ix2 i k), fun k => x13 (ix1 k),
    fun i k => x14 (ix2 i k), fun k => x15 (ix1 k), fun i k => x16 (ix2 i k), fun k => x17 (ix1 k)⟩

/-- The whole rectangles start at the origin. -/
theorem hz2 : (![0, 0] : Fin 2 → ℕ) = fun _ => 0 := by
  funext a; match a with | ⟨0, _⟩ => rfl | ⟨1, _⟩ => rfl
theorem hz1 : (![0] : Fin 1 → ℕ) = fun _ => 0 := by
  funext a; match a with | ⟨0, _⟩ => rfl

/-- A shape cast to the same shape changes nothing: six of the loaded blocks pass through one. -/
theorem pay3_eq (v : FVec Ideal S512x120 .f32) : k0_pay3 (F := Ideal) v = v := by unfold k0_pay3; exact shapeCast_self _ _
theorem pay4_eq (v : FVec Ideal S512x120 .f32) : k0_pay4 (F := Ideal) v = v := by unfold k0_pay4; exact shapeCast_self _ _
theorem pay5_eq (v : FVec Ideal S512x120 .f32) : k0_pay5 (F := Ideal) v = v := by unfold k0_pay5; exact shapeCast_self _ _
theorem pay6_eq (v : FVec Ideal S512x120 .f32) : k0_pay6 (F := Ideal) v = v := by unfold k0_pay6; exact shapeCast_self _ _
theorem pay7_eq (v : FVec Ideal S512x120 .f32) : k0_pay7 (F := Ideal) v = v := by unfold k0_pay7; exact shapeCast_self _ _
theorem pay8_eq (v : FVec Ideal S512x112 .f32) : k0_pay8 (F := Ideal) v = v := by unfold k0_pay8; exact shapeCast_self _ _
theorem pay10_eq (v : FVec Ideal S112x120 .bf16) : k0_pay10 (F := Ideal) v = v := by unfold k0_pay10; exact shapeCast_self _ _

/-- The filter weight from the blocks themselves, at (r, j). -/
theorem pay11_filt (x0 : Vec Ideal S512x20 .f32) (x1 : Vec Ideal S512x1 .f32) (x3 : Vec Ideal S512x240 .f32)
    (x10 : Vec Ideal S112x120 .bf16) (x11 : Vec Ideal S120 .f32) (x12 : Vec Ideal S120x120 .bf16) (x13 : Vec Ideal S120 .f32)
    (x14 : Vec Ideal S20x120 .bf16) (x15 : Vec Ideal S120 .f32) (x16 : Vec Ideal S120x120 .bf16) (x17 : Vec Ideal S120 .f32) (r : Fin 512) (j : Fin 120) :
    k0_pay11 (F := Ideal) x0 x1 (k0_pay9 x3) (k0_pay10 x10) x11 x12 x13 x14 x15 x16 x17 (ix2 r j)
      = Cert.EdgeSpec.filt (weightsOf x10 x11 x12 x13 x14 x15 x16 x17) (fun a => x3 (ix2 r a)) (fun a => x0 (ix2 r a))
          (x1 (ix2 r 0)) j := by
  rw [pay11_apply, pay10_eq]
  simp only [pay9_apply]
  rfl

/-- What the body names the filter weight is that payload of the blocks. -/
theorem wij_eq (x0 : Vec Ideal S512x20 .f32) (x1 : Vec Ideal S512x1 .f32) (x3 : Vec Ideal S512x240 .f32)
    (x10 : Vec Ideal S112x120 .bf16) (x11 : Vec Ideal S120 .f32) (x12 : Vec Ideal S120x120 .bf16) (x13 : Vec Ideal S120 .f32)
    (x14 : Vec Ideal S20x120 .bf16) (x15 : Vec Ideal S120 .f32) (x16 : Vec Ideal S120x120 .bf16) (x17 : Vec Ideal S120 .f32) :
    wij (F := Ideal) x0 x1 x3 x10 x11 x12 x13 x14 x15 x16 x17
      = k0_pay11 (F := Ideal) x0 x1 (k0_pay9 x3) (k0_pay10 x10) x11 x12 x13 x14 x15 x16 x17 := by
  unfold wij
  simp only [View.ld_unit_zero (S := S512x20) hz2, View.ld_unit_zero (S := S512x1) hz2, View.ld_unit_zero (S := S512x240) hz2, View.ld_unit_zero (S := S512x120) hz2, View.ld_unit_zero (S := S512x112) hz2, View.ld_unit_zero (S := S112x120) hz2, View.ld_unit_zero (S := S120x120) hz2, View.ld_unit_zero (S := S20x120) hz2, View.ld_unit_zero (S := S120) hz1]

/-- THE FILTER WEIGHT at (r, j). -/
theorem wij_apply (x0 : Vec Ideal S512x20 .f32) (x1 : Vec Ideal S512x1 .f32) (x3 : Vec Ideal S512x240 .f32)
    (x10 : Vec Ideal S112x120 .bf16) (x11 : Vec Ideal S120 .f32) (x12 : Vec Ideal S120x120 .bf16) (x13 : Vec Ideal S120 .f32)
    (x14 : Vec Ideal S20x120 .bf16) (x15 : Vec Ideal S120 .f32) (x16 : Vec Ideal S120x120 .bf16) (x17 : Vec Ideal S120 .f32) (r : Fin 512) (j : Fin 120) :
    wij (F := Ideal) x0 x1 x3 x10 x11 x12 x13 x14 x15 x16 x17 (ix2 r j)
      = Cert.EdgeSpec.filt (weightsOf x10 x11 x12 x13 x14 x15 x16 x17) (fun a => x3 (ix2 r a)) (fun a => x0 (ix2 r a))
          (x1 (ix2 r 0)) j := by
  rw [wij_eq, pay11_filt]

end Cert.KernelIdeal.PayValue

end
-- ==== Proof.KIPayHeads.lean ====
/-
  The scalar message's attention weights and the message itself, as the body computes them, read at an index.

  The 120 channels are four heads of thirty. The body multiplies the query row by the filter weight and by the key row,
  sums each head's thirty channels, scales by a constant, and multiplies each value channel by its head's weight.
-/
import proofs.«145672_j73899207295099_1_alg».proof.Proof.Gen.KernelIdeal.Skeleton
import proofs.«145672_j73899207295099_1_alg».proof.Proof.KIBodyOut
import proofs.«145672_j73899207295099_1_alg».proof.Proof.EdgeSpec
import proofs.«145672_j73899207295099_1_alg».proof.Proof.LibVecLastAxis

set_option maxRecDepth 16384

noncomputable section

namespace Cert.KernelIdeal.PayValue

open Cert.KernelIdeal Cert.KernelIdeal.Gen Cert.KernelIdeal.Hand Idealize.ShloMosaic Idealize.ShloMosaic.ValueIdx
open Cert.Lib.VecLastAxis

/-- Channel a of head h. -/
abbrev chan (h : Fin 4) (a : Fin 30) : Fin 120 := ⟨h.val * 30 + a.val, by have := h.isLt; have := a.isLt; omega⟩

/-- The head weights the body computes, at (r, h): the specification's, of the query and key rows and the filter
    weights of row r. -/
theorem pay13_apply (v0 : FVec Ideal S512x20 .f32) (v1 : FVec Ideal S512x1 .f32) (v29 : FVec Ideal S512x112 .f32)
    (v31 : FVec Ideal S112x120 .bf16) (v32 : FVec Ideal S120 .f32) (v33 : FVec Ideal S120x120 .bf16) (v35 : FVec Ideal S120 .f32)
    (v48 : FVec Ideal S20x120 .bf16) (v50 : FVec Ideal S120 .f32) (v51 : FVec Ideal S120x120 .bf16) (v53 : FVec Ideal S120 .f32)
    (v6 v8 : FVec Ideal S512x120 .f32) (r : Fin 512) (h : Fin 4) (u : Fin 1) :
    k0_pay13 (F := Ideal) v0 v1 v6 v8 v29 v31 v32 v33 v35 v48 v50 v51 v53 (ix3 r h u)
      = Cert.EdgeSpec.attnS (Ideal.ofBits .f32 0x3DBAF4BA#32) (fun a => v6 (ix2 r a)) (fun a => v8 (ix2 r a))
          (fun a => k0_pay11 (F := Ideal) v0 v1 v29 v31 v32 v33 v35 v48 v50 v51 v53 (ix2 r a)) h := by
  unfold k0_pay13
  try dsimp only
  rw [mulf_apply, broadcast_apply, shapeCast_addLast_apply]
  unfold Cert.EdgeSpec.attnS
  show _ * Ideal.ofBits .f32 0x3DBAF4BA#32 = _
  refine congrArg (· * Ideal.ofBits .f32 0x3DBAF4BA#32) ?_
  refine (multiReduction_add_last_apply _ _ _ _ _ r h).trans (Finset.sum_congr rfl fun a _ => ?_)
  rw [mulf_apply, shapeCast_split_apply _ _ rfl r h a (chan h a) rfl, shapeCast_split_apply _ _ rfl r h a (chan h a) rfl,
    mulf_apply]

/-- The value row regrouped by heads, at (r, h, a): the row's channel a of head h. -/
theorem pay12_apply (v10 : FVec Ideal S512x120 .f32) (r : Fin 512) (h : Fin 4) (a : Fin 30) (c : Fin 120)
    (hc : c.val = h.val * 30 + a.val) :
    k0_pay12 (F := Ideal) v10 (ix3 r h a) = v10 (ix2 r c) := by
  unfold k0_pay12
  exact shapeCast_split_apply _ _ rfl r h a c hc

/-- The scalar message the body stores, at (r, j): the weight of j's head times the value channel j. -/
theorem pay1_apply (v72 : FVec Ideal S512x4x30 .f32) (v77 : FVec Ideal S512x4x1 .f32) (r : Fin 512) (j : Fin 120) :
    k0_pay1 (F := Ideal) v72 v77 (ix2 r j)
      = v77 (ix3 r ⟨j.val / 30, by have := j.isLt; omega⟩ (0 : Fin 1))
        * v72 (ix3 r ⟨j.val / 30, by have := j.isLt; omega⟩ ⟨j.val % 30, Nat.mod_lt _ (by decide)⟩) := by
  unfold k0_pay1
  try dsimp only
  rw [shapeCast_merge_apply (n := 512) (m := 120) (a := 4) (b := 30) _ _ rfl r j ⟨j.val / 30, by have := j.isLt; omega⟩ ⟨j.val % 30, Nat.mod_lt _ (by decide)⟩
      (by show j.val = j.val / 30 * 30 + j.val % 30; omega),
    mulf_apply, broadcastTo_last_apply]

end Cert.KernelIdeal.PayValue

end
-- ==== Proof.KIPayGate.lean ====
/-
  The equivariant message, as the body computes it, read at an index.

  The 120 spherical channels are three degrees of forty. The body multiplies the query row by the filter weight and by
  the key row, sums each degree's forty channels and scales by a constant: one attention weight per degree. Each of the
  112 irreducible blocks takes the weight of its degree (64 blocks of degree 0, 32 of degree 1, 16 of degree 2) times its
  value; each of the 240 components takes the gate of its block (64 blocks of one, 32 of three, 16 of five components)
  times its spherical harmonic, times the cutoff.
-/
import proofs.«145672_j73899207295099_1_alg».proof.Proof.Gen.KernelIdeal.Skeleton
import proofs.«145672_j73899207295099_1_alg».proof.Proof.KIBodyOut
import proofs.«145672_j73899207295099_1_alg».proof.Proof.EdgeSpec
import proofs.«145672_j73899207295099_1_alg».proof.Proof.LibVecLastAxis
import proofs.«145672_j73899207295099_1_alg».proof.Proof.LibConcat3
import proofs.«145672_j73899207295099_1_alg».proof.Proof.LibKeepdims

set_option maxRecDepth 16384

noncomputable section

namespace Cert.KernelIdeal.PayValue

open Cert.KernelIdeal Cert.KernelIdeal.Gen Cert.KernelIdeal.Hand Idealize.ShloMosaic Idealize.ShloMosaic.ValueIdx
open Cert.Lib.VecLastAxis Cert.Lib.Concat3 Cert.Lib.Keepdims

/-- Channel a of degree l. -/
abbrev chanE (l : Fin 3) (a : Fin 40) : Fin 120 := ⟨l.val * 40 + a.val, by have := l.isLt; have := a.isLt; omega⟩

/-- The degree weights the body computes, at (r, l). -/
theorem attnE_vec_apply (v12 v14 v68 : FVec Ideal S512x120 .f32) (hφ : FKind.Formats .f32)
    (hacc : (0x00000000#32 : BitVec 32) = FKind.add.neutral .f32 hφ) (r : Fin 512) (l : Fin 3) :
    mulf (multiReduction .add [2] S512x3
          (mulf (shapeCast S512x3x40 (mulf v12 v68) shapeCasts_S512x120_S512x3x40)
            (shapeCast S512x3x40 v14 shapeCasts_S512x120_S512x3x40))
          0x00000000#32 reduces_S512x3x40_S512x3 hφ hacc)
        (broadcast S512x3 (FloatOps.ofBits .f32 0x3DC1848F#32)) (ix2 r l)
      = Cert.EdgeSpec.attnE (Ideal.ofBits .f32 0x3DC1848F#32) (fun a => v12 (ix2 r a)) (fun a => v14 (ix2 r a))
          (fun a => v68 (ix2 r a)) l := by
  rw [mulf_apply, broadcast_apply]
  unfold Cert.EdgeSpec.attnE
  show _ * Ideal.ofBits .f32 0x3DC1848F#32 = _
  refine congrArg (· * Ideal.ofBits .f32 0x3DC1848F#32) ?_
  refine (multiReduction_add_last_apply _ _ _ _ _ r l).trans (Finset.sum_congr rfl fun a _ => ?_)
  rw [mulf_apply, shapeCast_split_apply _ _ rfl r l a (chanE l a) rfl, shapeCast_split_apply _ _ rfl r l a (chanE l a) rfl,
    mulf_apply]

/-- Each irreducible block takes its degree's entry of a three-column array. -/
theorem degSpread_apply (A : FVec Ideal S512x3 .f32) (r : Fin 512) (k : Fin 112) :
    concatenate S512x112 1
        [⟨S512x64, broadcastTo S512x64 (shapeCast S512x1 (extractStridedSlice S512x1 ![0, 0] A slices_S512x3_o0_0_S512x1)
            shapeCasts_S512x1_S512x1) broadcasts_S512x1_S512x64⟩,
          ⟨S512x32, broadcastTo S512x32 (shapeCast S512x1 (extractStridedSlice S512x1 ![0, 1] A slices_S512x3_o0_1_S512x1)
            shapeCasts_S512x1_S512x1) broadcasts_S512x1_S512x32⟩,
          ⟨S512x16, broadcastTo S512x16 (shapeCast S512x1 (extractStridedSlice S512x1 ![0, 2] A slices_S512x3_o0_2_S512x1)
            shapeCasts_S512x1_S512x1) broadcasts_S512x1_S512x16⟩]
        concatenates_S512x64_S512x32_S512x16_S512x112_d1 (ix2 r k)
      = A (ix2 r (Cert.EdgeSpec.degOf k)) := by
  unfold Cert.EdgeSpec.degOf
  by_cases h0 : k.val < 64
  · rw [if_pos h0]
    refine (concatenate3_axis1_fst _ _ _ _ r k ⟨k.val, h0⟩ rfl).trans ?_
    rw [broadcastTo_a1_ab_apply, shapeCast_self]
    exact slice2_axis1_apply 0 A _ r 0 0 rfl
  · rw [if_neg h0]
    by_cases h1 : k.val < 96
    · rw [if_pos h1]
      refine (concatenate3_axis1_snd _ _ _ _ r k ⟨k.val - 64, by omega⟩ (by show 64 + (k.val - 64) = k.val; omega)).trans ?_
      rw [broadcastTo_a1_ab_apply, shapeCast_self]
      exact slice2_axis1_apply 1 A _ r 0 1 rfl
    · rw [if_neg h1]
      have hk := k.isLt
      refine (concatenate3_axis1_thd _ _ _ _ r k ⟨k.val - 96, by omega⟩ (by show 64 + 32 + (k.val - 96) = k.val; omega)).trans ?_
      rw [broadcastTo_a1_ab_apply, shapeCast_self]
      exact slice2_axis1_apply 2 A _ r 0 2 rfl

/-- Each component takes its block's entry of a 112-column array. -/
theorem blockSpread_apply (G : FVec Ideal S512x112 .f32) (r : Fin 512) (i : Fin 240) :
    concatenate S512x240 1
        [⟨S512x64, shapeCast S512x64 (shapeCast S512x64x1 (extractStridedSlice S512x64 ![0, 0] G slices_S512x112_o0_0_S512x64)
            shapeCasts_S512x64_S512x64x1) shapeCasts_S512x64x1_S512x64⟩,
          ⟨S512x96, shapeCast S512x96 (broadcastTo S512x32x3 (shapeCast S512x32x1 (shapeCast S512x32x1
            (extractStridedSlice S512x32 ![0, 64] G slices_S512x112_o0_64_S512x32) shapeCasts_S512x32_S512x32x1)
            shapeCasts_S512x32x1_S512x32x1) broadcasts_S512x32x1_S512x32x3) shapeCasts_S512x32x3_S512x96⟩,
          ⟨S512x80, shapeCast S512x80 (broadcastTo S512x16x5 (shapeCast S512x16x1 (shapeCast S512x16x1
            (extractStridedSlice S512x16 ![0, 96] G slices_S512x112_o0_96_S512x16) shapeCasts_S512x16_S512x16x1)
            shapeCasts_S512x16x1_S512x16x1) broadcasts_S512x16x1_S512x16x5) shapeCasts_S512x16x5_S512x80⟩]
        concatenates_S512x64_S512x96_S512x80_S512x240_d1 (ix2 r i)
      = G (ix2 r (Cert.EdgeSpec.blockOf i)) := by
  unfold Cert.EdgeSpec.blockOf
  by_cases h0 : i.val < 64
  · rw [dif_pos h0]
    refine (concatenate3_axis1_fst _ _ _ _ r i ⟨i.val, h0⟩ rfl).trans ?_
    rw [shapeCast_shapeCast]
    exact slice2_axis1_apply 0 G _ r ⟨i.val, h0⟩ _ (Nat.zero_add _).symm
  · rw [dif_neg h0]
    by_cases h1 : i.val < 160
    · rw [dif_pos h1]
      refine (concatenate3_axis1_snd _ _ _ _ r i ⟨i.val - 64, by omega⟩ (by show 64 + (i.val - 64) = i.val; omega)).trans ?_
      rw [shapeCast_merge_apply (n := 512) (m := 96) (a := 32) (b := 3) _ _ rfl r ⟨i.val - 64, by omega⟩
          ⟨(i.val - 64) / 3, by omega⟩ ⟨(i.val - 64) % 3, Nat.mod_lt _ (by decide)⟩
          (by show i.val - 64 = (i.val - 64) / 3 * 3 + (i.val - 64) % 3; omega),
        broadcastTo_last_apply, shapeCast_self, shapeCast_addLast_apply]
      exact slice2_axis1_apply 64 G _ r ⟨(i.val - 64) / 3, by omega⟩ _ rfl
    · rw [dif_neg h1]
      have hi := i.isLt
      refine (concatenate3_axis1_thd _ _ _ _ r i ⟨i.val - 160, by omega⟩ (by show 64 + 96 + (i.val - 160) = i.val; omega)).trans ?_
      rw [shapeCast_merge_apply (n := 512) (m := 80) (a := 16) (b := 5) _ _ rfl r ⟨i.val - 160, by omega⟩
          ⟨(i.val - 160) / 5, by omega⟩ ⟨(i.val - 160) % 5, Nat.mod_lt _ (by decide)⟩
          (by show i.val - 160 = (i.val - 160) / 5 * 5 + (i.val - 160) % 5; omega),
        broadcastTo_last_apply, shapeCast_self, shapeCast_addLast_apply]
      exact slice2_axis1_apply 96 G _ r ⟨(i.val - 160) / 5, by omega⟩ _ rfl

/-- The equivariant message the body stores, at (r, i), from the query, key and value rows, the filter weights, the
    spherical harmonics and the cutoff of row r. -/
theorem pay2_apply (v1 : FVec Ideal S512x1 .f32) (v2 : FVec Ideal S512x240 .f32) (v12 v14 : FVec Ideal S512x120 .f32)
    (v16 : FVec Ideal S512x112 .f32) (v68 : FVec Ideal S512x120 .f32) (r : Fin 512) (i : Fin 240) :
    k0_pay2 (F := Ideal) v1 v2 v12 v14 v16 v68 (ix2 r i)
      = Cert.EdgeSpec.msgE (Ideal.ofBits .f32 0x3DC1848F#32) (fun a => v2 (ix2 r a)) (fun a => v12 (ix2 r a))
          (fun a => v14 (ix2 r a)) (fun a => v68 (ix2 r a)) (fun k => v16 (ix2 r k)) (v1 (ix2 r (0 : Fin 1))) i := by
  unfold k0_pay2
  try dsimp only
  rw [mulf_apply, mulf_apply, broadcastTo_a1_ab_apply, blockSpread_apply, mulf_apply, degSpread_apply]
  unfold Cert.EdgeSpec.msgE Cert.EdgeSpec.gate
  refine congrArg (fun t => v2 (ix2 r i) * (t * v16 (ix2 r (Cert.EdgeSpec.blockOf i))) * v1 (ix2 r (0 : Fin 1))) ?_
  exact attnE_vec_apply v12 v14 v68 _ _ r _

end Cert.KernelIdeal.PayValue

end
-- ==== Proof.KIPayOut.lean ====
/-
  What the body leaves in its two output buffers, read at an index: the specification's two messages of the row.

  Each buffer holds the one whole store of its payload, and every block is loaded whole, so entry (r, j) of the scalar
  buffer is the scalar message of row r at channel j and entry (r, i) of the equivariant buffer is the equivariant
  message of row r at component i, both from row r of the eighteen input blocks.
-/
import proofs.«145672_j73899207295099_1_alg».proof.Proof.KIPayWij
import proofs.«145672_j73899207295099_1_alg».proof.Proof.KIPayHeads
import proofs.«145672_j73899207295099_1_alg».proof.Proof.KIPayGate

set_option maxRecDepth 16384

noncomputable section

namespace Cert.KernelIdeal.PayValue

open Cert.KernelIdeal Cert.KernelIdeal.Gen Cert.KernelIdeal.Hand Idealize.ShloMosaic Idealize.ShloMosaic.ValueIdx

/-- The scalar message's scale, as the program writes it. -/
abbrev cS : EReal := Ideal.ofBits .f32 0x3DBAF4BA#32
/-- The equivariant message's scale, as the program writes it. -/
abbrev cE : EReal := Ideal.ofBits .f32 0x3DC1848F#32

/-- THE SCALAR BUFFER at (r, j). -/
theorem out0_18_apply (x0 : Vec Ideal S512x20 .f32) (x1 : Vec Ideal S512x1 .f32) (x3 : Vec Ideal S512x240 .f32)
    (x4 x5 x6 : Vec Ideal S512x120 .f32)
    (x10 : Vec Ideal S112x120 .bf16) (x11 : Vec Ideal S120 .f32) (x12 : Vec Ideal S120x120 .bf16) (x13 : Vec Ideal S120 .f32)
    (x14 : Vec Ideal S20x120 .bf16) (x15 : Vec Ideal S120 .f32) (x16 : Vec Ideal S120x120 .bf16) (x17 : Vec Ideal S120 .f32) (r : Fin 512) (j : Fin 120) :
    out0_18 (F := Ideal) x0 x1 x3 x4 x5 x6 x10 x11 x12 x13 x14 x15 x16 x17 (ix2 r j)
      = Cert.EdgeSpec.msgS cS (fun a => x4 (ix2 r a)) (fun a => x5 (ix2 r a)) (fun a => x6 (ix2 r a))
          (Cert.EdgeSpec.filt (weightsOf x10 x11 x12 x13 x14 x15 x16 x17) (fun a => x3 (ix2 r a)) (fun a => x0 (ix2 r a)) (x1 (ix2 r 0))) j := by
  unfold out0_18
  rw [View.canon_unit_zero hz2]
  simp only [View.ld_unit_zero (S := S512x20) hz2, View.ld_unit_zero (S := S512x1) hz2, View.ld_unit_zero (S := S512x240) hz2, View.ld_unit_zero (S := S512x120) hz2, View.ld_unit_zero (S := S512x112) hz2, View.ld_unit_zero (S := S112x120) hz2, View.ld_unit_zero (S := S120x120) hz2, View.ld_unit_zero (S := S20x120) hz2, View.ld_unit_zero (S := S120) hz1]
  rw [pay1_apply, pay13_apply, pay12_apply _ r _ _ j (by show j.val = j.val / 30 * 30 + j.val % 30; omega),
    pay3_eq, pay4_eq, pay5_eq]
  simp only [pay11_filt]
  rfl

/-- THE EQUIVARIANT BUFFER at (r, i). -/
theorem out0_19_apply (x0 : Vec Ideal S512x20 .f32) (x1 : Vec Ideal S512x1 .f32) (x2 x3 : Vec Ideal S512x240 .f32)
    (x7 x8 : Vec Ideal S512x120 .f32) (x9 : Vec Ideal S512x112 .f32)
    (x10 : Vec Ideal S112x120 .bf16) (x11 : Vec Ideal S120 .f32) (x12 : Vec Ideal S120x120 .bf16) (x13 : Vec Ideal S120 .f32)
    (x14 : Vec Ideal S20x120 .bf16) (x15 : Vec Ideal S120 .f32) (x16 : Vec Ideal S120x120 .bf16) (x17 : Vec Ideal S120 .f32) (r : Fin 512) (i : Fin 240) :
    out0_19 (F := Ideal) x0 x1 x2 x3 x7 x8 x9 x10 x11 x12 x13 x14 x15 x16 x17 (ix2 r i)
      = Cert.EdgeSpec.msgE cE (fun a => x2 (ix2 r a)) (fun a => x7 (ix2 r a)) (fun a => x8 (ix2 r a))
          (Cert.EdgeSpec.filt (weightsOf x10 x11 x12 x13 x14 x15 x16 x17) (fun a => x3 (ix2 r a)) (fun a => x0 (ix2 r a)) (x1 (ix2 r 0))) (fun k => x9 (ix2 r k)) (x1 (ix2 r 0)) i := by
  unfold out0_19
  rw [View.canon_unit_zero hz2]
  simp only [View.ld_unit_zero (S := S512x20) hz2, View.ld_unit_zero (S := S512x1) hz2, View.ld_unit_zero (S := S512x240) hz2, View.ld_unit_zero (S := S512x120) hz2, View.ld_unit_zero (S := S512x112) hz2, View.ld_unit_zero (S := S112x120) hz2, View.ld_unit_zero (S := S120x120) hz2, View.ld_unit_zero (S := S20x120) hz2, View.ld_unit_zero (S := S120) hz1]
  rw [pay2_apply, pay6_eq, pay7_eq, pay8_eq]
  simp only [wij_apply]

end Cert.KernelIdeal.PayValue

end
-- ==== Proof.KIFinal.lean ====
/-
  The launch's two output arrays after the run, as whole functions of what the launch found.

  Point t's block of the scalar message is, entry by entry, the scalar message of edge 512·t + r computed from row
  512·t + r of each edge-indexed operand and the whole weights; likewise the equivariant message.  The 512 blocks cover
  the arrays, so after the last write-back the arrays ARE those functions.
-/
import proofs.«145672_j73899207295099_1_alg».proof.Proof.KIBlocks
import proofs.«145672_j73899207295099_1_alg».proof.Proof.KIBlocksW1
import proofs.«145672_j73899207295099_1_alg».proof.Proof.KIBlocksW2
import proofs.«145672_j73899207295099_1_alg».proof.Proof.KICover
import proofs.«145672_j73899207295099_1_alg».proof.Proof.KIPayOut

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat Cfg Window)
open Cert.KernelIdeal Cert.KernelIdeal.Gen

variable (m : (ℓ : Loc nD τ sig) → Buf (Elt Ideal) ℓ)

/-- The two filter networks' weights as the launch finds them. -/
def specW (c : Dev nD) : Cert.EdgeSpec.Weights :=
  PayValue.weightsOf (V m c main_v143) (V m c main_arg19) (V m c main_v144) (V m c main_arg21)
    (V m c main_v145) (V m c main_arg15) (V m c main_v146) (V m c main_arg17)

/-- Edge e's filter weights, from row e of the difference, the radial basis and the cutoff. -/
def filtAt (c : Dev nD) (e : Fin 262144) : Fin 120 → EReal :=
  Cert.EdgeSpec.filt (specW m c) (fun a => V m c main_v100 (ix2 e a)) (fun a => V m c main_arg2 (ix2 e a)) (V m c main_arg3 (ix2 e 0))

/-- The scalar message of every edge. -/
def G18 (c : Dev nD) : S262144x120.Idx → EReal := fun i =>
  Cert.EdgeSpec.msgS PayValue.cS (fun a => V m c main_v107 (ix2 (i 0) a)) (fun a => V m c main_v114 (ix2 (i 0) a))
    (fun a => V m c main_v121 (ix2 (i 0) a)) (filtAt m c (i 0)) (i 1)

/-- The equivariant message of every edge. -/
def G19 (c : Dev nD) : S262144x240.Idx → EReal := fun i =>
  Cert.EdgeSpec.msgE PayValue.cE (fun a => V m c main_arg4 (ix2 (i 0) a)) (fun a => V m c main_v128 (ix2 (i 0) a))
    (fun a => V m c main_v135 (ix2 (i 0) a)) (filtAt m c (i 0)) (fun k => V m c main_v142 (ix2 (i 0) k)) (V m c main_arg3 (ix2 (i 0) 0)) (i 1)

/-! The weights' blocks are the weights. -/
theorem blk10_eq (c : Dev nD) (t : Fin cfg0.N) : (iblk m c 10 t : Vec Ideal S112x120 .bf16) = (V m c main_v143 : Vec Ideal S112x120 .bf16) := by
  funext y
  obtain ⟨i, k, rfl⟩ : ∃ (i : Fin 112) (k : Fin 120), y = ix2 i k := ⟨y 0, y 1, eq_ix2 y⟩
  exact iblk10_apply m c t i k
theorem blk12_eq (c : Dev nD) (t : Fin cfg0.N) : (iblk m c 12 t : Vec Ideal S120x120 .bf16) = (V m c main_v144 : Vec Ideal S120x120 .bf16) := by
  funext y
  obtain ⟨i, k, rfl⟩ : ∃ (i : Fin 120) (k : Fin 120), y = ix2 i k := ⟨y 0, y 1, eq_ix2 y⟩
  exact iblk12_apply m c t i k
theorem blk14_eq (c : Dev nD) (t : Fin cfg0.N) : (iblk m c 14 t : Vec Ideal S20x120 .bf16) = (V m c main_v145 : Vec Ideal S20x120 .bf16) := by
  funext y
  obtain ⟨i, k, rfl⟩ : ∃ (i : Fin 20) (k : Fin 120), y = ix2 i k := ⟨y 0, y 1, eq_ix2 y⟩
  exact iblk14_apply m c t i k
theorem blk16_eq (c : Dev nD) (t : Fin cfg0.N) : (iblk m c 16 t : Vec Ideal S120x120 .bf16) = (V m c main_v146 : Vec Ideal S120x120 .bf16) := by
  funext y
  obtain ⟨i, k, rfl⟩ : ∃ (i : Fin 120) (k : Fin 120), y = ix2 i k := ⟨y 0, y 1, eq_ix2 y⟩
  exact iblk16_apply m c t i k
theorem blk11_eq (c : Dev nD) (t : Fin cfg0.N) : (iblk m c 11 t : Vec Ideal S120 .f32) = (V m c main_arg19 : Vec Ideal S120 .f32) := by
  funext y
  obtain ⟨k, rfl⟩ : ∃ (k : Fin 120), y = ix1 k := ⟨y 0, eq_ix1 y⟩
  exact iblk11_apply m c t k
theorem blk13_eq (c : Dev nD) (t : Fin cfg0.N) : (iblk m c 13 t : Vec Ideal S120 .f32) = (V m c main_arg21 : Vec Ideal S120 .f32) := by
  funext y
  obtain ⟨k, rfl⟩ : ∃ (k : Fin 120), y = ix1 k := ⟨y 0, eq_ix1 y⟩
  exact iblk13_apply m c t k
theorem blk15_eq (c : Dev nD) (t : Fin cfg0.N) : (iblk m c 15 t : Vec Ideal S120 .f32) = (V m c main_arg15 : Vec Ideal S120 .f32) := by
  funext y
  obtain ⟨k, rfl⟩ : ∃ (k : Fin 120), y = ix1 k := ⟨y 0, eq_ix1 y⟩
  exact iblk15_apply m c t k
theorem blk17_eq (c : Dev nD) (t : Fin cfg0.N) : (iblk m c 17 t : Vec Ideal S120 .f32) = (V m c main_arg17 : Vec Ideal S120 .f32) := by
  funext y
  obtain ⟨k, rfl⟩ : ∃ (k : Fin 120), y = ix1 k := ⟨y 0, eq_ix1 y⟩
  exact iblk17_apply m c t k

theorem weights_blk (c : Dev nD) (t : Fin cfg0.N) : PayValue.weightsOf (iblk m c 10 t) (iblk m c 11 t) (iblk m c 12 t) (iblk m c 13 t) (iblk m c 14 t) (iblk m c 15 t) (iblk m c 16 t) (iblk m c 17 t) = specW m c := by
  unfold specW
  rw [blk10_eq, blk11_eq, blk12_eq, blk13_eq, blk14_eq, blk15_eq, blk16_eq, blk17_eq]

/-- Edge 512·t + r's filter weights from the blocks at point t. -/
theorem filt_blk (c : Dev nD) (t : Fin cfg0.N) (r : Fin 512) (e : Fin 262144) (he : e.val = t.val * 512 + r.val) :
    Cert.EdgeSpec.filt (PayValue.weightsOf (iblk m c 10 t) (iblk m c 11 t) (iblk m c 12 t) (iblk m c 13 t) (iblk m c 14 t) (iblk m c 15 t) (iblk m c 16 t) (iblk m c 17 t)) (fun a => iblk m c 3 t (ix2 r a)) (fun a => iblk m c 0 t (ix2 r a)) (iblk m c 1 t (ix2 r 0))
      = filtAt m c e := by
  unfold filtAt
  rw [weights_blk,
    show (fun a : Fin 240 => iblk m c 3 t (ix2 r a)) = fun a => V m c main_v100 (ix2 e a) from funext fun a => iblk3_apply m c t r a e he,
    show (fun a : Fin 20 => iblk m c 0 t (ix2 r a)) = fun a => V m c main_arg2 (ix2 e a) from funext fun a => iblk0_apply m c t r a e he,
    iblk1_apply m c t r 0 e he]

/-- What point t writes back of the scalar message is block t of `G18`. -/
theorem flushed18_eq (c : Dev nD) (t : Fin cfg0.N) :
    (dats m 0 c).flushed 18 t = ((cfg0.win 18).blk t).view.read (Elt Ideal) (G18 m c) := by
  show (cfg0.win 18).cut (grid0.coords t) ((dats m 0 c).after 18 t) = _
  rw [after0_18]
  funext y
  obtain ⟨r, j, rfl⟩ : ∃ (r : Fin 512) (j : Fin 120), y = ix2 r j := ⟨y 0, y 1, eq_ix2 y⟩
  have hlt : t.val * 512 + r.val < 262144 := by have ht : t.val < 512 := t.isLt; have := r.isLt; omega
  show out0_18 (F := Ideal) (iblk m c 0 t) (iblk m c 1 t) (iblk m c 3 t) (iblk m c 4 t) (iblk m c 5 t) (iblk m c 6 t) (iblk m c 10 t) (iblk m c 11 t) (iblk m c 12 t) (iblk m c 13 t) (iblk m c 14 t) (iblk m c 15 t) (iblk m c 16 t) (iblk m c 17 t) (ix2 r j) = G18 m c (((cfg0.win 18).blk t).view.emb (ix2 r j))
  rw [emb18_apply t r j ⟨t.val * 512 + r.val, hlt⟩ rfl, PayValue.out0_18_apply, filt_blk m c t r ⟨t.val * 512 + r.val, hlt⟩ rfl,
    show (fun a : Fin 120 => iblk m c 4 t (ix2 r a)) = fun a => V m c main_v107 (ix2 (⟨t.val * 512 + r.val, hlt⟩ : Fin 262144) a) from funext fun a => iblk4_apply m c t r a _ rfl,
    show (fun a : Fin 120 => iblk m c 5 t (ix2 r a)) = fun a => V m c main_v114 (ix2 (⟨t.val * 512 + r.val, hlt⟩ : Fin 262144) a) from funext fun a => iblk5_apply m c t r a _ rfl,
    show (fun a : Fin 120 => iblk m c 6 t (ix2 r a)) = fun a => V m c main_v121 (ix2 (⟨t.val * 512 + r.val, hlt⟩ : Fin 262144) a) from funext fun a => iblk6_apply m c t r a _ rfl]
  rfl

/-- What point t writes back of the equivariant message is block t of `G19`. -/
theorem flushed19_eq (c : Dev nD) (t : Fin cfg0.N) :
    (dats m 0 c).flushed 19 t = ((cfg0.win 19).blk t).view.read (Elt Ideal) (G19 m c) := by
  show (cfg0.win 19).cut (grid0.coords t) ((dats m 0 c).after 19 t) = _
  rw [after0_19]
  funext y
  obtain ⟨r, i, rfl⟩ : ∃ (r : Fin 512) (i : Fin 240), y = ix2 r i := ⟨y 0, y 1, eq_ix2 y⟩
  have hlt : t.val * 512 + r.val < 262144 := by have ht : t.val < 512 := t.isLt; have := r.isLt; omega
  show out0_19 (F := Ideal) (iblk m c 0 t) (iblk m c 1 t) (iblk m c 2 t) (iblk m c 3 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (ix2 r i) = G19 m c (((cfg0.win 19).blk t).view.emb (ix2 r i))
  rw [emb19_apply t r i ⟨t.val * 512 + r.val, hlt⟩ rfl, PayValue.out0_19_apply, filt_blk m c t r ⟨t.val * 512 + r.val, hlt⟩ rfl,
    show (fun a : Fin 240 => iblk m c 2 t (ix2 r a)) = fun a => V m c main_arg4 (ix2 (⟨t.val * 512 + r.val, hlt⟩ : Fin 262144) a) from funext fun a => iblk2_apply m c t r a _ rfl,
    show (fun a : Fin 120 => iblk m c 7 t (ix2 r a)) = fun a => V m c main_v128 (ix2 (⟨t.val * 512 + r.val, hlt⟩ : Fin 262144) a) from funext fun a => iblk7_apply m c t r a _ rfl,
    show (fun a : Fin 120 => iblk m c 8 t (ix2 r a)) = fun a => V m c main_v135 (ix2 (⟨t.val * 512 + r.val, hlt⟩ : Fin 262144) a) from funext fun a => iblk8_apply m c t r a _ rfl,
    show (fun k : Fin 112 => iblk m c 9 t (ix2 r k)) = fun k => V m c main_v142 (ix2 (⟨t.val * 512 + r.val, hlt⟩ : Fin 262144) k) from funext fun k => iblk9_apply m c t r k _ rfl,
    iblk1_apply m c t r 0 ⟨t.val * 512 + r.val, hlt⟩ rfl]
  rfl

/-- The scalar-message array after the run. -/
theorem final18 (c : Dev nD) : (dats m 0 c).arrAt 18 cfg0.N = G18 m c :=
  (dats m 0 c).arrAt_eq_of_cover 18 (G18 m c) (fun t _ => flushed18_eq m c t) (fun i => cover18 i)

/-- The equivariant-message array after the run. -/
theorem final19 (c : Dev nD) : (dats m 0 c).arrAt 19 cfg0.N = G19 m c :=
  (dats m 0 c).arrAt_eq_of_cover 19 (G19 m c) (fun t _ => flushed19_eq m c t) (fun i => cover19 i)

end Cert.KernelIdeal.Hand

end
-- ==== Proof.KSplit.lean ====
/-
  The kernel program's host lines before the launch, cut where they stop being the reference's: the first 125
  operations (the two index rows, both layer norms, the six projections, and the zero the index wrap compares with) are,
  one for one, the reference's first 125; the remaining 75 wrap the indices, gather the rows of each edge's centre and
  neighbour, subtract the two equivariant rows, and round the filter weights' format.
-/
import proofs.«145672_j73899207295099_1_alg».proof.Proof.Gen.KernelIdeal.Launch

set_option maxRecDepth 16384

noncomputable section

namespace Cert.Prefix

open Idealize.ShloMosaic Idealize.ShloMosaic.TcCoe Idealize.SL.Sem
open Cert.KernelIdeal Cert.KernelIdeal.Gen

variable {F : FTy → Type} [FloatOps F]

set_option maxHeartbeats 40000000 in
/-- The first 91 of the last stretch's 166 operations: through the projections and the zero. -/
abbrev kPrefix2 : List (HloOp τ sig (Elt F)) :=
  ( StableHlo.unary main_v7 main_v9 (broadcastInDim S16384x120 ![0, 1] bcast_S16384x1_S16384x120_0_1 : (⟨S16384x1, .f32⟩ : BufTy).Contents (Elt F) → (⟨S16384x120, .f32⟩ : BufTy).Contents (Elt F))
  :: StableHlo.binary main_arg0 main_v9 main_v10 (subf : (⟨S16384x120, .f32⟩ : BufTy).Contents (Elt F) → (⟨S16384x120, .f32⟩ : BufTy).Contents (Elt F) → (⟨S16384x120, .f32⟩ : BufTy).Contents (Elt F))
  :: StableHlo.nullary main_cst_1 (constant S_ .f32 0x3727C5AC#32)
  :: StableHlo.unary main_cst_1 main_v11 (broadcastInDim S16384x1 ![] bcast_S_S16384x1 : (⟨S_, .f32⟩ : BufTy).Contents (Elt F) → (⟨S16384x1, .f32⟩ : BufTy).Contents (Elt F))
  :: StableHlo.binary main_v8 main_v11 main_v12 (addf : (⟨S16384x1, .f32⟩ : BufTy).Contents (Elt F) → (⟨S16384x1, .f32⟩ : BufTy).Contents (Elt F) → (⟨S16384x1, .f32⟩ : BufTy).Contents (Elt F))
  :: StableHlo.unary main_v12 main_v13 (Host.rsqrt : (⟨S16384x1, .f32⟩ : BufTy).Contents (Elt F) → (⟨S16384x1, .f32⟩ : BufTy).Contents (Elt F))
  :: StableHlo.unary main_v13 main_v14 (broadcastInDim S16384x120 ![0, 1] bcast_S16384x1_S16384x120_0_1 : (⟨S16384x1, .f32⟩ : BufTy).Contents (Elt F) → (⟨S16384x120, .f32⟩ : BufTy).Contents (Elt F))
  :: StableHlo.binary main_v10 main_v14 main_v15 (mulf : (⟨S16384x120, .f32⟩ : BufTy).Contents (Elt F) → (⟨S16384x120, .f32⟩ : BufTy).Contents (Elt F) → (⟨S16384x120, .f32⟩ : BufTy).Contents (Elt F))
  :: StableHlo.unary main_arg5 main_v16 (broadcastInDim S1x120 ![1] bcast_S120_S1x120_1 : (⟨S120, .f32⟩ : BufTy).Contents (Elt F) → (⟨S1x120, .f32⟩ : BufTy).Contents (Elt F))
  :: StableHlo.unary main_v16 main_v17 (broadcastInDim S16384x120 ![0, 1] bcast_S1x120_S16384x120_0_1 : (⟨S1x120, .f32⟩ : BufTy).Contents (Elt F) → (⟨S16384x120, .f32⟩ : BufTy).Contents (Elt F))
  :: StableHlo.binary main_v15 main_v17 main_v18 (mulf : (⟨S16384x120, .f32⟩ : BufTy).Contents (Elt F) → (⟨S16384x120, .f32⟩ : BufTy).Contents (Elt F) → (⟨S16384x120, .f32⟩ : BufTy).Contents (Elt F))
  :: StableHlo.unary main_arg6 main_v19 (broadcastInDim S1x120 ![1] bcast_S120_S1x120_1 : (⟨S120, .f32⟩ : BufTy).Contents (Elt F) → (⟨S1x120, .f32⟩ : BufTy).Contents (Elt F))
  :: StableHlo.unary main_v19 main_v20 (broadcastInDim S16384x120 ![0, 1] bcast_S1x120_S16384x120_0_1 : (⟨S1x120, .f32⟩ : BufTy).Contents (Elt F) → (⟨S16384x120, .f32⟩ : BufTy).Contents (Elt F))
  :: StableHlo.binary main_v18 main_v20 main_v21 (addf : (⟨S16384x120, .f32⟩ : BufTy).Contents (Elt F) → (⟨S16384x120, .f32⟩ : BufTy).Contents (Elt F) → (⟨S16384x120, .f32⟩ : BufTy).Contents (Elt F))
  :: StableHlo.unary main_arg1 main_v22 ((extractStridedSlice S16384x64 ![0, 0] · slices_S16384x240_S16384x64_0_0) : (⟨S16384x240, .f32⟩ : BufTy).Contents (Elt F) → (⟨S16384x64, .f32⟩ : BufTy).Contents (Elt F))
  :: StableHlo.reshape main_v22 main_v23 rfl shapeCasts_S16384x64_S16384x64x1
  :: StableHlo.nullary main_cst_2 (constant S_ .f32 0x00000000#32)
  :: StableHlo.binary main_v23 main_cst_2 main_v24 ((fun x v => Host.reduceAdd x v reducesTo_S16384x64x1_S16384x1_d1 h_S_) : (⟨S16384x64x1, .f32⟩ : BufTy).Contents (Elt F) → (⟨S_, .f32⟩ : BufTy).Contents (Elt F) → (⟨S16384x1, .f32⟩ : BufTy).Contents (Elt F))
  :: StableHlo.unary main_v24 main_v25 (broadcastInDim S16384x1x1 ![0, 2] bcast_S16384x1_S16384x1x1_0_2 : (⟨S16384x1, .f32⟩ : BufTy).Contents (Elt F) → (⟨S16384x1x1, .f32⟩ : BufTy).Contents (Elt F))
  :: StableHlo.nullary main_cst_3 (constant S_ .f32 0x42800000#32)
  :: StableHlo.unary main_cst_3 main_v26 (broadcastInDim S16384x1x1 ![] bcast_S_S16384x1x1 : (⟨S_, .f32⟩ : BufTy).Contents (Elt F) → (⟨S16384x1x1, .f32⟩ : BufTy).Contents (Elt F))
  :: StableHlo.binary main_v25 main_v26 main_v27 (Host.divf : (⟨S16384x1x1, .f32⟩ : BufTy).Contents (Elt F) → (⟨S16384x1x1, .f32⟩ : BufTy).Contents (Elt F) → (⟨S16384x1x1, .f32⟩ : BufTy).Contents (Elt F))
  :: StableHlo.unary main_v27 main_v28 (broadcastInDim S16384x64x1 ![0, 1, 2] bcast_S16384x1x1_S16384x64x1_0_1_2 : (⟨S16384x1x1, .f32⟩ : BufTy).Contents (Elt F) → (⟨S16384x64x1, .f32⟩ : BufTy).Contents (Elt F))
  :: StableHlo.binary main_v23 main_v28 main_v29 (subf : (⟨S16384x64x1, .f32⟩ : BufTy).Contents (Elt F) → (⟨S16384x64x1, .f32⟩ : BufTy).Contents (Elt F) → (⟨S16384x64x1, .f32⟩ : BufTy).Contents (Elt F))
  :: StableHlo.binary main_v29 main_v29 main_v30 (mulf : (⟨S16384x64x1, .f32⟩ : BufTy).Contents (Elt F) → (⟨S16384x64x1, .f32⟩ : BufTy).Contents (Elt F) → (⟨S16384x64x1, .f32⟩ : BufTy).Contents (Elt F))
  :: StableHlo.nullary main_cst_4 (constant S_ .f32 0x00000000#32)
  :: StableHlo.binary main_v30 main_cst_4 main_v31 ((fun x v => Host.reduceAdd x v reducesTo_S16384x64x1_S16384_d1_2 h_S_) : (⟨S16384x64x1, .f32⟩ : BufTy).Contents (Elt F) → (⟨S_, .f32⟩ : BufTy).Contents (Elt F) → (⟨S16384, .f32⟩ : BufTy).Contents (Elt F))
  :: StableHlo.unary main_v31 main_v32 (broadcastInDim S16384x1x1 ![0] bcast_S16384_S16384x1x1_0 : (⟨S16384, .f32⟩ : BufTy).Contents (Elt F) → (⟨S16384x1x1, .f32⟩ : BufTy).Contents (Elt F))
  :: StableHlo.nullary main_cst_5 (constant S_ .f32 0x42800000#32)
  :: StableHlo.unary main_cst_5 main_v33 (broadcastInDim S16384x1x1 ![] bcast_S_S16384x1x1 : (⟨S_, .f32⟩ : BufTy).Contents (Elt F) → (⟨S16384x1x1, .f32⟩ : BufTy).Contents (Elt F))
  :: StableHlo.binary main_v32 main_v33 main_v34 (Host.divf : (⟨S16384x1x1, .f32⟩ : BufTy).Contents (Elt F) → (⟨S16384x1x1, .f32⟩ : BufTy).Contents (Elt F) → (⟨S16384x1x1, .f32⟩ : BufTy).Contents (Elt F))
  :: StableHlo.nullary main_cst_6 (constant S_ .f32 0x3727C5AC#32)
  :: StableHlo.unary main_cst_6 main_v35 (broadcastInDim S16384x1x1 ![] bcast_S_S16384x1x1 : (⟨S_, .f32⟩ : BufTy).Contents (Elt F) → (⟨S16384x1x1, .f32⟩ : BufTy).Contents (Elt F))
  :: StableHlo.binary main_v34 main_v35 main_v36 (addf : (⟨S16384x1x1, .f32⟩ : BufTy).Contents (Elt F) → (⟨S16384x1x1, .f32⟩ : BufTy).Contents (Elt F) → (⟨S16384x1x1, .f32⟩ : BufTy).Contents (Elt F))
  :: StableHlo.unary main_v36 main_v37 (Host.rsqrt : (⟨S16384x1x1, .f32⟩ : BufTy).Contents (Elt F) → (⟨S16384x1x1, .f32⟩ : BufTy).Contents (Elt F))
  :: StableHlo.unary main_v37 main_v38 (broadcastInDim S16384x64x1 ![0, 1, 2] bcast_S16384x1x1_S16384x64x1_0_1_2 : (⟨S16384x1x1, .f32⟩ : BufTy).Contents (Elt F) → (⟨S16384x64x1, .f32⟩ : BufTy).Contents (Elt F))
  :: StableHlo.binary main_v29 main_v38 main_v39 (mulf : (⟨S16384x64x1, .f32⟩ : BufTy).Contents (Elt F) → (⟨S16384x64x1, .f32⟩ : BufTy).Contents (Elt F) → (⟨S16384x64x1, .f32⟩ : BufTy).Contents (Elt F))
  :: StableHlo.unary main_arg7 main_v40 ((extractStridedSlice S64 ![0] · slices_S112_S64_0) : (⟨S112, .f32⟩ : BufTy).Contents (Elt F) → (⟨S64, .f32⟩ : BufTy).Contents (Elt F))
  :: StableHlo.unary main_v40 main_v41 (broadcastInDim S1x64x1 ![1] bcast_S64_S1x64x1_1 : (⟨S64, .f32⟩ : BufTy).Contents (Elt F) → (⟨S1x64x1, .f32⟩ : BufTy).Contents (Elt F))
  :: StableHlo.unary main_v41 main_v42 (broadcastInDim S16384x64x1 ![0, 1, 2] bcast_S1x64x1_S16384x64x1_0_1_2 : (⟨S1x64x1, .f32⟩ : BufTy).Contents (Elt F) → (⟨S16384x64x1, .f32⟩ : BufTy).Contents (Elt F))
  :: StableHlo.binary main_v39 main_v42 main_v43 (mulf : (⟨S16384x64x1, .f32⟩ : BufTy).Contents (Elt F) → (⟨S16384x64x1, .f32⟩ : BufTy).Contents (Elt F) → (⟨S16384x64x1, .f32⟩ : BufTy).Contents (Elt F))
  :: StableHlo.reshape main_v43 main_v44 rfl shapeCasts_S16384x64x1_S16384x64
  :: StableHlo.unary main_arg1 main_v45 ((extractStridedSlice S16384x96 ![0, 64] · slices_S16384x240_S16384x96_0_64) : (⟨S16384x240, .f32⟩ : BufTy).Contents (Elt F) → (⟨S16384x96, .f32⟩ : BufTy).Contents (Elt F))
  :: StableHlo.reshape main_v45 main_v46 rfl shapeCasts_S16384x96_S16384x32x3
  :: StableHlo.binary main_v46 main_v46 main_v47 (mulf : (⟨S16384x32x3, .f32⟩ : BufTy).Contents (Elt F) → (⟨S16384x32x3, .f32⟩ : BufTy).Contents (Elt F) → (⟨S16384x32x3, .f32⟩ : BufTy).Contents (Elt F))
  :: StableHlo.nullary main_cst_7 (constant S_ .f32 0x00000000#32)
  :: StableHlo.binary main_v47 main_cst_7 main_v48 ((fun x v => Host.reduceAdd x v reducesTo_S16384x32x3_S16384_d1_2 h_S_) : (⟨S16384x32x3, .f32⟩ : BufTy).Contents (Elt F) → (⟨S_, .f32⟩ : BufTy).Contents (Elt F) → (⟨S16384, .f32⟩ : BufTy).Contents (Elt F))
  :: StableHlo.unary main_v48 main_v49 (broadcastInDim S16384x1x1 ![0] bcast_S16384_S16384x1x1_0 : (⟨S16384, .f32⟩ : BufTy).Contents (Elt F) → (⟨S16384x1x1, .f32⟩ : BufTy).Contents (Elt F))
  :: StableHlo.nullary main_cst_8 (constant S_ .f32 0x42C00000#32)
  :: StableHlo.unary main_cst_8 main_v50 (broadcastInDim S16384x1x1 ![] bcast_S_S16384x1x1 : (⟨S_, .f32⟩ : BufTy).Contents (Elt F) → (⟨S16384x1x1, .f32⟩ : BufTy).Contents (Elt F))
  :: StableHlo.binary main_v49 main_v50 main_v51 (Host.divf : (⟨S16384x1x1, .f32⟩ : BufTy).Contents (Elt F) → (⟨S16384x1x1, .f32⟩ : BufTy).Contents (Elt F) → (⟨S16384x1x1, .f32⟩ : BufTy).Contents (Elt F))
  :: StableHlo.nullary main_cst_9 (constant S_ .f32 0x3727C5AC#32)
  :: StableHlo.unary main_cst_9 main_v52 (broadcastInDim S16384x1x1 ![] bcast_S_S16384x1x1 : (⟨S_, .f32⟩ : BufTy).Contents (Elt F) → (⟨S16384x1x1, .f32⟩ : BufTy).Contents (Elt F))
  :: StableHlo.binary main_v51 main_v52 main_v53 (addf : (⟨S16384x1x1, .f32⟩ : BufTy).Contents (Elt F) → (⟨S16384x1x1, .f32⟩ : BufTy).Contents (Elt F) → (⟨S16384x1x1, .f32⟩ : BufTy).Contents (Elt F))
  :: StableHlo.unary main_v53 main_v54 (Host.rsqrt : (⟨S16384x1x1, .f32⟩ : BufTy).Contents (Elt F) → (⟨S16384x1x1, .f32⟩ : BufTy).Contents (Elt F))
  :: StableHlo.unary main_v54 main_v55 (broadcastInDim S16384x32x3 ![0, 1, 2] bcast_S16384x1x1_S16384x32x3_0_1_2 : (⟨S16384x1x1, .f32⟩ : BufTy).Contents (Elt F) → (⟨S16384x32x3, .f32⟩ : BufTy).Contents (Elt F))
  :: StableHlo.binary main_v46 main_v55 main_v56 (mulf : (⟨S16384x32x3, .f32⟩ : BufTy).Contents (Elt F) → (⟨S16384x32x3, .f32⟩ : BufTy).Contents (Elt F) → (⟨S16384x32x3, .f32⟩ : BufTy).Contents (Elt F))
  :: StableHlo.unary main_arg7 main_v57 ((extractStridedSlice S32 ![64] · slices_S112_S32_64) : (⟨S112, .f32⟩ : BufTy).Contents (Elt F) → (⟨S32, .f32⟩ : BufTy).Contents (Elt F))
  :: StableHlo.unary main_v57 main_v58 (broadcastInDim S1x32x1 ![1] bcast_S32_S1x32x1_1 : (⟨S32, .f32⟩ : BufTy).Contents (Elt F) → (⟨S1x32x1, .f32⟩ : BufTy).Contents (Elt F))
  :: StableHlo.unary main_v58 main_v59 (broadcastInDim S16384x32x3 ![0, 1, 2] bcast_S1x32x1_S16384x32x3_0_1_2 : (⟨S1x32x1, .f32⟩ : BufTy).Contents (Elt F) → (⟨S16384x32x3, .f32⟩ : BufTy).Contents (Elt F))
  :: StableHlo.binary main_v56 main_v59 main_v60 (mulf : (⟨S16384x32x3, .f32⟩ : BufTy).Contents (Elt F) → (⟨S16384x32x3, .f32⟩ : BufTy).Contents (Elt F) → (⟨S16384x32x3, .f32⟩ : BufTy).Contents (Elt F))
  :: StableHlo.reshape main_v60 main_v61 rfl shapeCasts_S16384x32x3_S16384x96
  :: StableHlo.unary main_arg1 main_v62 ((extractStridedSlice S16384x80 ![0, 160] · slices_S16384x240_S16384x80_0_160) : (⟨S16384x240, .f32⟩ : BufTy).Contents (Elt F) → (⟨S16384x80, .f32⟩ : BufTy).Contents (Elt F))
  :: StableHlo.reshape main_v62 main_v63 rfl shapeCasts_S16384x80_S16384x16x5
  :: StableHlo.binary main_v63 main_v63 main_v64 (mulf : (⟨S16384x16x5, .f32⟩ : BufTy).Contents (Elt F) → (⟨S16384x16x5, .f32⟩ : BufTy).Contents (Elt F) → (⟨S16384x16x5, .f32⟩ : BufTy).Contents (Elt F))
  :: StableHlo.nullary main_cst_10 (constant S_ .f32 0x00000000#32)
  :: StableHlo.binary main_v64 main_cst_10 main_v65 ((fun x v => Host.reduceAdd x v reducesTo_S16384x16x5_S16384_d1_2 h_S_) : (⟨S16384x16x5, .f32⟩ : BufTy).Contents (Elt F) → (⟨S_, .f32⟩ : BufTy).Contents (Elt F) → (⟨S16384, .f32⟩ : BufTy).Contents (Elt F))
  :: StableHlo.unary main_v65 main_v66 (broadcastInDim S16384x1x1 ![0] bcast_S16384_S16384x1x1_0 : (⟨S16384, .f32⟩ : BufTy).Contents (Elt F) → (⟨S16384x1x1, .f32⟩ : BufTy).Contents (Elt F))
  :: StableHlo.nullary main_cst_11 (constant S_ .f32 0x42A00000#32)
  :: StableHlo.unary main_cst_11 main_v67 (broadcastInDim S16384x1x1 ![] bcast_S_S16384x1x1 : (⟨S_, .f32⟩ : BufTy).Contents (Elt F) → (⟨S16384x1x1, .f32⟩ : BufTy).Contents (Elt F))
  :: StableHlo.binary main_v66 main_v67 main_v68 (Host.divf : (⟨S16384x1x1, .f32⟩ : BufTy).Contents (Elt F) → (⟨S16384x1x1, .f32⟩ : BufTy).Contents (Elt F) → (⟨S16384x1x1, .f32⟩ : BufTy).Contents (Elt F))
  :: StableHlo.nullary main_cst_12 (constant S_ .f32 0x3727C5AC#32)
  :: StableHlo.unary main_cst_12 main_v69 (broadcastInDim S16384x1x1 ![] bcast_S_S16384x1x1 : (⟨S_, .f32⟩ : BufTy).Contents (Elt F) → (⟨S16384x1x1, .f32⟩ : BufTy).Contents (Elt F))
  :: StableHlo.binary main_v68 main_v69 main_v70 (addf : (⟨S16384x1x1, .f32⟩ : BufTy).Contents (Elt F) → (⟨S16384x1x1, .f32⟩ : BufTy).Contents (Elt F) → (⟨S16384x1x1, .f32⟩ : BufTy).Contents (Elt F))
  :: StableHlo.unary main_v70 main_v71 (Host.rsqrt : (⟨S16384x1x1, .f32⟩ : BufTy).Contents (Elt F) → (⟨S16384x1x1, .f32⟩ : BufTy).Contents (Elt F))
  :: StableHlo.unary main_v71 main_v72 (broadcastInDim S16384x16x5 ![0, 1, 2] bcast_S16384x1x1_S16384x16x5_0_1_2 : (⟨S16384x1x1, .f32⟩ : BufTy).Contents (Elt F) → (⟨S16384x16x5, .f32⟩ : BufTy).Contents (Elt F))
  :: StableHlo.binary main_v63 main_v72 main_v73 (mulf : (⟨S16384x16x5, .f32⟩ : BufTy).Contents (Elt F) → (⟨S16384x16x5, .f32⟩ : BufTy).Contents (Elt F) → (⟨S16384x16x5, .f32⟩ : BufTy).Contents (Elt F))
  :: StableHlo.unary main_arg7 main_v74 ((extractStridedSlice S16 ![96] · slices_S112_S16_96) : (⟨S112, .f32⟩ : BufTy).Contents (Elt F) → (⟨S16, .f32⟩ : BufTy).Contents (Elt F))
  :: StableHlo.unary main_v74 main_v75 (broadcastInDim S1x16x1 ![1] bcast_S16_S1x16x1_1 : (⟨S16, .f32⟩ : BufTy).Contents (Elt F) → (⟨S1x16x1, .f32⟩ : BufTy).Contents (Elt F))
  :: StableHlo.unary main_v75 main_v76 (broadcastInDim S16384x16x5 ![0, 1, 2] bcast_S1x16x1_S16384x16x5_0_1_2 : (⟨S1x16x1, .f32⟩ : BufTy).Contents (Elt F) → (⟨S16384x16x5, .f32⟩ : BufTy).Contents (Elt F))
  :: StableHlo.binary main_v73 main_v76 main_v77 (mulf : (⟨S16384x16x5, .f32⟩ : BufTy).Contents (Elt F) → (⟨S16384x16x5, .f32⟩ : BufTy).Contents (Elt F) → (⟨S16384x16x5, .f32⟩ : BufTy).Contents (Elt F))
  :: StableHlo.reshape main_v77 main_v78 rfl shapeCasts_S16384x16x5_S16384x80
  :: StableHlo.nary ![main_v44, main_v61, main_v78] main_v79 (fun u => concatenate S16384x240 1 [⟨S16384x64, u 0⟩, ⟨S16384x96, u 1⟩, ⟨S16384x80, u 2⟩] concatenates_S16384x64_S16384x96_S16384x80_S16384x240_d1)
  :: StableHlo.binary main_v21 main_arg8 main_v80 ((fun l r => Host.dotGeneral dot_S16384x120_S120x120_S16384x120_1_0_0_1_n_n none l r) : (⟨S16384x120, .f32⟩ : BufTy).Contents (Elt F) → (⟨S120x120, .f32⟩ : BufTy).Contents (Elt F) → (⟨S16384x120, .f32⟩ : BufTy).Contents (Elt F))
  :: StableHlo.binary main_v21 main_arg9 main_v81 ((fun l r => Host.dotGeneral dot_S16384x120_S120x120_S16384x120_1_0_0_1_n_n none l r) : (⟨S16384x120, .f32⟩ : BufTy).Contents (Elt F) → (⟨S120x120, .f32⟩ : BufTy).Contents (Elt F) → (⟨S16384x120, .f32⟩ : BufTy).Contents (Elt F))
  :: StableHlo.binary main_v21 main_arg10 main_v82 ((fun l r => Host.dotGeneral dot_S16384x120_S120x120_S16384x120_1_0_0_1_n_n none l r) : (⟨S16384x120, .f32⟩ : BufTy).Contents (Elt F) → (⟨S120x120, .f32⟩ : BufTy).Contents (Elt F) → (⟨S16384x120, .f32⟩ : BufTy).Contents (Elt F))
  :: StableHlo.binary main_v21 main_arg11 main_v83 ((fun l r => Host.dotGeneral dot_S16384x120_S120x120_S16384x120_1_0_0_1_n_n none l r) : (⟨S16384x120, .f32⟩ : BufTy).Contents (Elt F) → (⟨S120x120, .f32⟩ : BufTy).Contents (Elt F) → (⟨S16384x120, .f32⟩ : BufTy).Contents (Elt F))
  :: StableHlo.binary main_v21 main_arg12 main_v84 ((fun l r => Host.dotGeneral dot_S16384x120_S120x120_S16384x120_1_0_0_1_n_n none l r) : (⟨S16384x120, .f32⟩ : BufTy).Contents (Elt F) → (⟨S120x120, .f32⟩ : BufTy).Contents (Elt F) → (⟨S16384x120, .f32⟩ : BufTy).Contents (Elt F))
  :: StableHlo.binary main_v21 main_arg13 main_v85 ((fun l r => Host.dotGeneral dot_S16384x120_S120x112_S16384x112_1_0_0_1_n_n none l r) : (⟨S16384x120, .f32⟩ : BufTy).Contents (Elt F) → (⟨S120x112, .f32⟩ : BufTy).Contents (Elt F) → (⟨S16384x112, .f32⟩ : BufTy).Contents (Elt F))
  :: StableHlo.nullary main_c_13 (constantI S_ 32 0#32)
  :: StableHlo.unary main_c_13 main_v86 (broadcastInDim S262144 ![] bcast_S_S262144 : (⟨S_, .i32⟩ : BufTy).Contents (Elt F) → (⟨S262144, .i32⟩ : BufTy).Contents (Elt F))
  :: [] )

set_option maxHeartbeats 40000000 in
/-- The last 75: index wraps, gathers, the difference, the weights' format. -/
abbrev kRest : List (HloOp τ sig (Elt F)) :=
  ( StableHlo.binary main_v1 main_v86 main_v87 (cmpi .slt : (⟨S262144, .i32⟩ : BufTy).Contents (Elt F) → (⟨S262144, .i32⟩ : BufTy).Contents (Elt F) → (⟨S262144, .i1⟩ : BufTy).Contents (Elt F))
  :: StableHlo.nullary main_c_14 (constantI S_ 32 16384#32)
  :: StableHlo.unary main_c_14 main_v88 (broadcastInDim S262144 ![] bcast_S_S262144 : (⟨S_, .i32⟩ : BufTy).Contents (Elt F) → (⟨S262144, .i32⟩ : BufTy).Contents (Elt F))
  :: StableHlo.binary main_v1 main_v88 main_v89 (addi : (⟨S262144, .i32⟩ : BufTy).Contents (Elt F) → (⟨S262144, .i32⟩ : BufTy).Contents (Elt F) → (⟨S262144, .i32⟩ : BufTy).Contents (Elt F))
  :: StableHlo.ternary main_v87 main_v89 main_v1 main_v90 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F))
  :: StableHlo.unary main_v90 main_v91 (broadcastInDim S262144x1 ![0] bcast_S262144_S262144x1_0 : (⟨S262144, .i32⟩ : BufTy).Contents (Elt F) → (⟨S262144x1, .i32⟩ : BufTy).Contents (Elt F))
  :: StableHlo.binary main_v79 main_v91 main_v92 ((fun x i => Host.gather gather_S16384x240_S262144x1_S262144x240_1_0_n_n_0_1_1240 x i) : (⟨S16384x240, .f32⟩ : BufTy).Contents (Elt F) → (⟨S262144x1, .i32⟩ : BufTy).Contents (Elt F) → (⟨S262144x240, .f32⟩ : BufTy).Contents (Elt F))
  :: StableHlo.nullary main_c_15 (constantI S_ 32 0#32)
  :: StableHlo.unary main_c_15 main_v93 (broadcastInDim S262144 ![] bcast_S_S262144 : (⟨S_, .i32⟩ : BufTy).Contents (Elt F) → (⟨S262144, .i32⟩ : BufTy).Contents (Elt F))
  :: StableHlo.binary main_v3 main_v93 main_v94 (cmpi .slt : (⟨S262144, .i32⟩ : BufTy).Contents (Elt F) → (⟨S262144, .i32⟩ : BufTy).Contents (Elt F) → (⟨S262144, .i1⟩ : BufTy).Contents (Elt F))
  :: StableHlo.nullary main_c_16 (constantI S_ 32 16384#32)
  :: StableHlo.unary main_c_16 main_v95 (broadcastInDim S262144 ![] bcast_S_S262144 : (⟨S_, .i32⟩ : BufTy).Contents (Elt F) → (⟨S262144, .i32⟩ : BufTy).Contents (Elt F))
  :: StableHlo.binary main_v3 main_v95 main_v96 (addi : (⟨S262144, .i32⟩ : BufTy).Contents (Elt F) → (⟨S262144, .i32⟩ : BufTy).Contents (Elt F) → (⟨S262144, .i32⟩ : BufTy).Contents (Elt F))
  :: StableHlo.ternary main_v94 main_v96 main_v3 main_v97 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F))
  :: StableHlo.unary main_v97 main_v98 (broadcastInDim S262144x1 ![0] bcast_S262144_S262144x1_0 : (⟨S262144, .i32⟩ : BufTy).Contents (Elt F) → (⟨S262144x1, .i32⟩ : BufTy).Contents (Elt F))
  :: StableHlo.binary main_v79 main_v98 main_v99 ((fun x i => Host.gather gather_S16384x240_S262144x1_S262144x240_1_0_n_n_0_1_1240 x i) : (⟨S16384x240, .f32⟩ : BufTy).Contents (Elt F) → (⟨S262144x1, .i32⟩ : BufTy).Contents (Elt F) → (⟨S262144x240, .f32⟩ : BufTy).Contents (Elt F))
  :: StableHlo.binary main_v99 main_v92 main_v100 (subf : (⟨S262144x240, .f32⟩ : BufTy).Contents (Elt F) → (⟨S262144x240, .f32⟩ : BufTy).Contents (Elt F) → (⟨S262144x240, .f32⟩ : BufTy).Contents (Elt F))
  :: StableHlo.nullary main_c_17 (constantI S_ 32 0#32)
  :: StableHlo.unary main_c_17 main_v101 (broadcastInDim S262144 ![] bcast_S_S262144 : (⟨S_, .i32⟩ : BufTy).Contents (Elt F) → (⟨S262144, .i32⟩ : BufTy).Contents (Elt F))
  :: StableHlo.binary main_v1 main_v101 main_v102 (cmpi .slt : (⟨S262144, .i32⟩ : BufTy).Contents (Elt F) → (⟨S262144, .i32⟩ : BufTy).Contents (Elt F) → (⟨S262144, .i1⟩ : BufTy).Contents (Elt F))
  :: StableHlo.nullary main_c_18 (constantI S_ 32 16384#32)
  :: StableHlo.unary main_c_18 main_v103 (broadcastInDim S262144 ![] bcast_S_S262144 : (⟨S_, .i32⟩ : BufTy).Contents (Elt F) → (⟨S262144, .i32⟩ : BufTy).Contents (Elt F))
  :: StableHlo.binary main_v1 main_v103 main_v104 (addi : (⟨S262144, .i32⟩ : BufTy).Contents (Elt F) → (⟨S262144, .i32⟩ : BufTy).Contents (Elt F) → (⟨S262144, .i32⟩ : BufTy).Contents (Elt F))
  :: StableHlo.ternary main_v102 main_v104 main_v1 main_v105 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F))
  :: StableHlo.unary main_v105 main_v106 (broadcastInDim S262144x1 ![0] bcast_S262144_S262144x1_0 : (⟨S262144, .i32⟩ : BufTy).Contents (Elt F) → (⟨S262144x1, .i32⟩ : BufTy).Contents (Elt F))
  :: StableHlo.binary main_v80 main_v106 main_v107 ((fun x i => Host.gather gather_S16384x120_S262144x1_S262144x120_1_0_n_n_0_1_1120 x i) : (⟨S16384x120, .f32⟩ : BufTy).Contents (Elt F) → (⟨S262144x1, .i32⟩ : BufTy).Contents (Elt F) → (⟨S262144x120, .f32⟩ : BufTy).Contents (Elt F))
  :: StableHlo.nullary main_c_19 (constantI S_ 32 0#32)
  :: StableHlo.unary main_c_19 main_v108 (broadcastInDim S262144 ![] bcast_S_S262144 : (⟨S_, .i32⟩ : BufTy).Contents (Elt F) → (⟨S262144, .i32⟩ : BufTy).Contents (Elt F))
  :: StableHlo.binary main_v3 main_v108 main_v109 (cmpi .slt : (⟨S262144, .i32⟩ : BufTy).Contents (Elt F) → (⟨S262144, .i32⟩ : BufTy).Contents (Elt F) → (⟨S262144, .i1⟩ : BufTy).Contents (Elt F))
  :: StableHlo.nullary main_c_20 (constantI S_ 32 16384#32)
  :: StableHlo.unary main_c_20 main_v110 (broadcastInDim S262144 ![] bcast_S_S262144 : (⟨S_, .i32⟩ : BufTy).Contents (Elt F) → (⟨S262144, .i32⟩ : BufTy).Contents (Elt F))
  :: StableHlo.binary main_v3 main_v110 main_v111 (addi : (⟨S262144, .i32⟩ : BufTy).Contents (Elt F) → (⟨S262144, .i32⟩ : BufTy).Contents (Elt F) → (⟨S262144, .i32⟩ : BufTy).Contents (Elt F))
  :: StableHlo.ternary main_v109 main_v111 main_v3 main_v112 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F))
  :: StableHlo.unary main_v112 main_v113 (broadcastInDim S262144x1 ![0] bcast_S262144_S262144x1_0 : (⟨S262144, .i32⟩ : BufTy).Contents (Elt F) → (⟨S262144x1, .i32⟩ : BufTy).Contents (Elt F))
  :: StableHlo.binary main_v81 main_v113 main_v114 ((fun x i => Host.gather gather_S16384x120_S262144x1_S262144x120_1_0_n_n_0_1_1120 x i) : (⟨S16384x120, .f32⟩ : BufTy).Contents (Elt F) → (⟨S262144x1, .i32⟩ : BufTy).Contents (Elt F) → (⟨S262144x120, .f32⟩ : BufTy).Contents (Elt F))
  :: StableHlo.nullary main_c_21 (constantI S_ 32 0#32)
  :: StableHlo.unary main_c_21 main_v115 (broadcastInDim S262144 ![] bcast_S_S262144 : (⟨S_, .i32⟩ : BufTy).Contents (Elt F) → (⟨S262144, .i32⟩ : BufTy).Contents (Elt F))
  :: StableHlo.binary main_v3 main_v115 main_v116 (cmpi .slt : (⟨S262144, .i32⟩ : BufTy).Contents (Elt F) → (⟨S262144, .i32⟩ : BufTy).Contents (Elt F) → (⟨S262144, .i1⟩ : BufTy).Contents (Elt F))
  :: StableHlo.nullary main_c_22 (constantI S_ 32 16384#32)
  :: StableHlo.unary main_c_22 main_v117 (broadcastInDim S262144 ![] bcast_S_S262144 : (⟨S_, .i32⟩ : BufTy).Contents (Elt F) → (⟨S262144, .i32⟩ : BufTy).Contents (Elt F))
  :: StableHlo.binary main_v3 main_v117 main_v118 (addi : (⟨S262144, .i32⟩ : BufTy).Contents (Elt F) → (⟨S262144, .i32⟩ : BufTy).Contents (Elt F) → (⟨S262144, .i32⟩ : BufTy).Contents (Elt F))
  :: StableHlo.ternary main_v116 main_v118 main_v3 main_v119 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F))
  :: StableHlo.unary main_v119 main_v120 (broadcastInDim S262144x1 ![0] bcast_S262144_S262144x1_0 : (⟨S262144, .i32⟩ : BufTy).Contents (Elt F) → (⟨S262144x1, .i32⟩ : BufTy).Contents (Elt F))
  :: StableHlo.binary main_v82 main_v120 main_v121 ((fun x i => Host.gather gather_S16384x120_S262144x1_S262144x120_1_0_n_n_0_1_1120 x i) : (⟨S16384x120, .f32⟩ : BufTy).Contents (Elt F) → (⟨S262144x1, .i32⟩ : BufTy).Contents (Elt F) → (⟨S262144x120, .f32⟩ : BufTy).Contents (Elt F))
  :: StableHlo.nullary main_c_23 (constantI S_ 32 0#32)
  :: StableHlo.unary main_c_23 main_v122 (broadcastInDim S262144 ![] bcast_S_S262144 : (⟨S_, .i32⟩ : BufTy).Contents (Elt F) → (⟨S262144, .i32⟩ : BufTy).Contents (Elt F))
  :: StableHlo.binary main_v1 main_v122 main_v123 (cmpi .slt : (⟨S262144, .i32⟩ : BufTy).Contents (Elt F) → (⟨S262144, .i32⟩ : BufTy).Contents (Elt F) → (⟨S262144, .i1⟩ : BufTy).Contents (Elt F))
  :: StableHlo.nullary main_c_24 (constantI S_ 32 16384#32)
  :: StableHlo.unary main_c_24 main_v124 (broadcastInDim S262144 ![] bcast_S_S262144 : (⟨S_, .i32⟩ : BufTy).Contents (Elt F) → (⟨S262144, .i32⟩ : BufTy).Contents (Elt F))
  :: StableHlo.binary main_v1 main_v124 main_v125 (addi : (⟨S262144, .i32⟩ : BufTy).Contents (Elt F) → (⟨S262144, .i32⟩ : BufTy).Contents (Elt F) → (⟨S262144, .i32⟩ : BufTy).Contents (Elt F))
  :: StableHlo.ternary main_v123 main_v125 main_v1 main_v126 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F))
  :: StableHlo.unary main_v126 main_v127 (broadcastInDim S262144x1 ![0] bcast_S262144_S262144x1_0 : (⟨S262144, .i32⟩ : BufTy).Contents (Elt F) → (⟨S262144x1, .i32⟩ : BufTy).Contents (Elt F))
  :: StableHlo.binary main_v83 main_v127 main_v128 ((fun x i => Host.gather gather_S16384x120_S262144x1_S262144x120_1_0_n_n_0_1_1120 x i) : (⟨S16384x120, .f32⟩ : BufTy).Contents (Elt F) → (⟨S262144x1, .i32⟩ : BufTy).Contents (Elt F) → (⟨S262144x120, .f32⟩ : BufTy).Contents (Elt F))
  :: StableHlo.nullary main_c_25 (constantI S_ 32 0#32)
  :: StableHlo.unary main_c_25 main_v129 (broadcastInDim S262144 ![] bcast_S_S262144 : (⟨S_, .i32⟩ : BufTy).Contents (Elt F) → (⟨S262144, .i32⟩ : BufTy).Contents (Elt F))
  :: StableHlo.binary main_v3 main_v129 main_v130 (cmpi .slt : (⟨S262144, .i32⟩ : BufTy).Contents (Elt F) → (⟨S262144, .i32⟩ : BufTy).Contents (Elt F) → (⟨S262144, .i1⟩ : BufTy).Contents (Elt F))
  :: StableHlo.nullary main_c_26 (constantI S_ 32 16384#32)
  :: StableHlo.unary main_c_26 main_v131 (broadcastInDim S262144 ![] bcast_S_S262144 : (⟨S_, .i32⟩ : BufTy).Contents (Elt F) → (⟨S262144, .i32⟩ : BufTy).Contents (Elt F))
  :: StableHlo.binary main_v3 main_v131 main_v132 (addi : (⟨S262144, .i32⟩ : BufTy).Contents (Elt F) → (⟨S262144, .i32⟩ : BufTy).Contents (Elt F) → (⟨S262144, .i32⟩ : BufTy).Contents (Elt F))
  :: StableHlo.ternary main_v130 main_v132 main_v3 main_v133 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F))
  :: StableHlo.unary main_v133 main_v134 (broadcastInDim S262144x1 ![0] bcast_S262144_S262144x1_0 : (⟨S262144, .i32⟩ : BufTy).Contents (Elt F) → (⟨S262144x1, .i32⟩ : BufTy).Contents (Elt F))
  :: StableHlo.binary main_v84 main_v134 main_v135 ((fun x i => Host.gather gather_S16384x120_S262144x1_S262144x120_1_0_n_n_0_1_1120 x i) : (⟨S16384x120, .f32⟩ : BufTy).Contents (Elt F) → (⟨S262144x1, .i32⟩ : BufTy).Contents (Elt F) → (⟨S262144x120, .f32⟩ : BufTy).Contents (Elt F))
  :: StableHlo.nullary main_c_27 (constantI S_ 32 0#32)
  :: StableHlo.unary main_c_27 main_v136 (broadcastInDim S262144 ![] bcast_S_S262144 : (⟨S_, .i32⟩ : BufTy).Contents (Elt F) → (⟨S262144, .i32⟩ : BufTy).Contents (Elt F))
  :: StableHlo.binary main_v3 main_v136 main_v137 (cmpi .slt : (⟨S262144, .i32⟩ : BufTy).Contents (Elt F) → (⟨S262144, .i32⟩ : BufTy).Contents (Elt F) → (⟨S262144, .i1⟩ : BufTy).Contents (Elt F))
  :: StableHlo.nullary main_c_28 (constantI S_ 32 16384#32)
  :: StableHlo.unary main_c_28 main_v138 (broadcastInDim S262144 ![] bcast_S_S262144 : (⟨S_, .i32⟩ : BufTy).Contents (Elt F) → (⟨S262144, .i32⟩ : BufTy).Contents (Elt F))
  :: StableHlo.binary main_v3 main_v138 main_v139 (addi : (⟨S262144, .i32⟩ : BufTy).Contents (Elt F) → (⟨S262144, .i32⟩ : BufTy).Contents (Elt F) → (⟨S262144, .i32⟩ : BufTy).Contents (Elt F))
  :: StableHlo.ternary main_v137 main_v139 main_v3 main_v140 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F))
  :: StableHlo.unary main_v140 main_v141 (broadcastInDim S262144x1 ![0] bcast_S262144_S262144x1_0 : (⟨S262144, .i32⟩ : BufTy).Contents (Elt F) → (⟨S262144x1, .i32⟩ : BufTy).Contents (Elt F))
  :: StableHlo.binary main_v85 main_v141 main_v142 ((fun x i => Host.gather gather_S16384x112_S262144x1_S262144x112_1_0_n_n_0_1_1112 x i) : (⟨S16384x112, .f32⟩ : BufTy).Contents (Elt F) → (⟨S262144x1, .i32⟩ : BufTy).Contents (Elt F) → (⟨S262144x112, .f32⟩ : BufTy).Contents (Elt F))
  :: StableHlo.unary main_arg18 main_v143 ((truncf .bf16 · bitsLt_bf16_f32) : (⟨S112x120, .f32⟩ : BufTy).Contents (Elt F) → (⟨S112x120, .bf16⟩ : BufTy).Contents (Elt F))
  :: StableHlo.unary main_arg20 main_v144 ((truncf .bf16 · bitsLt_bf16_f32) : (⟨S120x120, .f32⟩ : BufTy).Contents (Elt F) → (⟨S120x120, .bf16⟩ : BufTy).Contents (Elt F))
  :: StableHlo.unary main_arg14 main_v145 ((truncf .bf16 · bitsLt_bf16_f32) : (⟨S20x120, .f32⟩ : BufTy).Contents (Elt F) → (⟨S20x120, .bf16⟩ : BufTy).Contents (Elt F))
  :: StableHlo.unary main_arg16 main_v146 ((truncf .bf16 · bitsLt_bf16_f32) : (⟨S120x120, .f32⟩ : BufTy).Contents (Elt F) → (⟨S120x120, .bf16⟩ : BufTy).Contents (Elt F))
  :: [] )

/-- The 125 operations the two programs share, in the kernel program's spelling. -/
abbrev kPrefix : List (HloOp τ sig (Elt F)) := hostOps0 ++ (hostOps0_1 ++ kPrefix2)

set_option maxHeartbeats 40000000 in
theorem k_split2 : (hostOps0_2 : List (HloOp τ sig (Elt F))) = kPrefix2 ++ kRest := rfl

theorem k_split : (List.flatten [hostOps0, hostOps0_1, hostOps0_2] : List (HloOp τ sig (Elt F))) = kPrefix ++ kRest := by
  rw [k_split2]
  simp only [List.flatten_cons, List.flatten_nil, List.append_nil, List.append_assoc]

end Cert.Prefix

end
-- ==== Proof.RefGather.lean ====
/-
  The index and row functions of the reference program, named.

  Before every gather and scatter along the 16384 rows the program wraps a negative index: compare with zero, add
  16384, select, and broadcast the vector to a column. `idxOf` is that composition of the printed operations;
  `rows240` / `rows120` / `rows112` are the gathers of rows at a column of indices, `scat120` / `scat240` the
  scatter-adds of rows at one, each the printed operation at its printed dimension numbers.
-/
import proofs.«145672_j73899207295099_1_alg».proof.Proof.Gen.ReferenceIdeal

noncomputable section

namespace Cert.ReferenceIdeal.RefValue

open Cert.ReferenceIdeal Cert.ReferenceIdeal.Gen Idealize.ShloMosaic Idealize.SL.Sem

variable {F : FTy → Type} [FloatOps F]

/-- The column of row indices from a vector of them, a negative index wrapped by the row count:
    `v ↦ broadcast (select (v < 0) (v + 16384) v)`. -/
def idxOf (v : (⟨S262144, .i32⟩ : BufTy).Contents (Elt F)) : (⟨S262144x1, .i32⟩ : BufTy).Contents (Elt F) :=
  broadcastInDim S262144x1 ![0] bcast_S262144_S262144x1_0
    (select (cmpi .slt v (broadcastInDim S262144 ![] bcast_S_S262144 (constantI S_ 32 0#32)))
      (addi v (broadcastInDim S262144 ![] bcast_S_S262144 (constantI S_ 32 16384#32))) v)

/-- The rows of a 16384 × 240 table at a column of indices. -/
def rows240 (x : (⟨S16384x240, .f32⟩ : BufTy).Contents (Elt F)) (i : (⟨S262144x1, .i32⟩ : BufTy).Contents (Elt F)) : (⟨S262144x240, .f32⟩ : BufTy).Contents (Elt F) :=
  Host.gather gather_S16384x240_S262144x1_S262144x240_1_0_n_n_0_1_1240 x i

/-- The rows of a 16384 × 120 table at a column of indices. -/
def rows120 (x : (⟨S16384x120, .f32⟩ : BufTy).Contents (Elt F)) (i : (⟨S262144x1, .i32⟩ : BufTy).Contents (Elt F)) : (⟨S262144x120, .f32⟩ : BufTy).Contents (Elt F) :=
  Host.gather gather_S16384x120_S262144x1_S262144x120_1_0_n_n_0_1_1120 x i

/-- The rows of a 16384 × 112 table at a column of indices. -/
def rows112 (x : (⟨S16384x112, .f32⟩ : BufTy).Contents (Elt F)) (i : (⟨S262144x1, .i32⟩ : BufTy).Contents (Elt F)) : (⟨S262144x112, .f32⟩ : BufTy).Contents (Elt F) :=
  Host.gather gather_S16384x112_S262144x1_S262144x112_1_0_n_n_0_1_1112 x i

/-- A 16384 × 120 table with 262144 rows added into it at a column of indices. -/
def scat120 (x : (⟨S16384x120, .f32⟩ : BufTy).Contents (Elt F)) (i : (⟨S262144x1, .i32⟩ : BufTy).Contents (Elt F)) (u : (⟨S262144x120, .f32⟩ : BufTy).Contents (Elt F)) :
    (⟨S16384x120, .f32⟩ : BufTy).Contents (Elt F) :=
  Host.scatterAdd scatter_S16384x120_S262144x1_S262144x120_1_0_0_1 x i u

/-- A 16384 × 240 table with 262144 rows added into it at a column of indices. -/
def scat240 (x : (⟨S16384x240, .f32⟩ : BufTy).Contents (Elt F)) (i : (⟨S262144x1, .i32⟩ : BufTy).Contents (Elt F)) (u : (⟨S262144x240, .f32⟩ : BufTy).Contents (Elt F)) :
    (⟨S16384x240, .f32⟩ : BufTy).Contents (Elt F) :=
  Host.scatterAdd scatter_S16384x240_S262144x1_S262144x240_1_0_0_1 x i u

end Cert.ReferenceIdeal.RefValue

end
-- ==== Proof.KIRest.lean ====
/-
  The kernel program's host lines after the common prefix, read as functions of what the prefix left.

  With W the buffers' contents after the first 125 host operations, the remaining 75 compute each edge-indexed operand of
  the launch: the rows of the six projections at the edge's centre or neighbour, the difference of the two equivariant
  rows, and the filter weights with their format rounded (the identity on the extended reals).
-/
import proofs.«145672_j73899207295099_1_alg».proof.Proof.KSplit
import proofs.«145672_j73899207295099_1_alg».proof.Proof.KIMain
import Idealize.ShloMosaic.Lib.StableHlo.Run
import proofs.«145672_j73899207295099_1_alg».proof.Proof.RefGather

set_option maxRecDepth 16384

noncomputable section

namespace Cert.KernelIdeal.Hand

open Idealize.ShloMosaic Idealize.ShloMosaic.TcCoe Idealize.SL.Sem Idealize.ShloMosaic.StableHlo
open Cert.KernelIdeal Cert.KernelIdeal.Gen Cert.Prefix

variable {F : FTy → Type} [FloatOps F]
variable (m : (ℓ : Loc nD τ sig) → Buf (Elt F) ℓ)

/-- Two lines run one after the other: the second folds over what the first left. -/
theorem after_append' {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- Core c's buffers after the 125 host operations the two programs share. -/
def Wk (c : Dev nD) : Valuation τ sig (Elt F) := StableHlo.after kPrefix (fun b => m (c, b))

/-- The launch-entry contents are the remaining 75 operations over what the shared prefix left. -/
theorem V0_eq (c : Dev nD) : V0 m c = StableHlo.after kRest (Wk m c) := by
  unfold Wk
  rw [← after_append', ← k_split]

/-! ## Each operand of the launch that the remaining lines compute -/

section Operands
open Cert.ReferenceIdeal.RefValue (idxOf rows240 rows120 rows112)

set_option maxHeartbeats 4000000 in
/-- The rows of a projection at each edge's centre. -/
theorem V_main_v107 (c : Dev nD) : V m c main_v107 = rows120 (Wk m c (Proc.devRef .tc main_v80)) (idxOf (Wk m c (Proc.devRef .tc main_v1))) := by
  show V0 m c (Proc.devRef .tc main_v107) = _
  rw [V0_eq]
  after_results_simp
  rfl

set_option maxHeartbeats 4000000 in
/-- The rows of a projection at each edge's neighbour. -/
theorem V_main_v114 (c : Dev nD) : V m c main_v114 = rows120 (Wk m c (Proc.devRef .tc main_v81)) (idxOf (Wk m c (Proc.devRef .tc main_v3))) := by
  show V0 m c (Proc.devRef .tc main_v114) = _
  rw [V0_eq]
  after_results_simp
  rfl

set_option maxHeartbeats 4000000 in
/-- The rows of a projection at each edge's neighbour. -/
theorem V_main_v121 (c : Dev nD) : V m c main_v121 = rows120 (Wk m c (Proc.devRef .tc main_v82)) (idxOf (Wk m c (Proc.devRef .tc main_v3))) := by
  show V0 m c (Proc.devRef .tc main_v121) = _
  rw [V0_eq]
  after_results_simp
  rfl

set_option maxHeartbeats 4000000 in
/-- The rows of a projection at each edge's centre. -/
theorem V_main_v128 (c : Dev nD) : V m c main_v128 = rows120 (Wk m c (Proc.devRef .tc main_v83)) (idxOf (Wk m c (Proc.devRef .tc main_v1))) := by
  show V0 m c (Proc.devRef .tc main_v128) = _
  rw [V0_eq]
  after_results_simp
  rfl

set_option maxHeartbeats 4000000 in
/-- The rows of a projection at each edge's neighbour. -/
theorem V_main_v135 (c : Dev nD) : V m c main_v135 = rows120 (Wk m c (Proc.devRef .tc main_v84)) (idxOf (Wk m c (Proc.devRef .tc main_v3))) := by
  show V0 m c (Proc.devRef .tc main_v135) = _
  rw [V0_eq]
  after_results_simp
  rfl

set_option maxHeartbeats 4000000 in
/-- The rows of a projection at each edge's neighbour. -/
theorem V_main_v142 (c : Dev nD) : V m c main_v142 = rows112 (Wk m c (Proc.devRef .tc main_v85)) (idxOf (Wk m c (Proc.devRef .tc main_v3))) := by
  show V0 m c (Proc.devRef .tc main_v142) = _
  rw [V0_eq]
  after_results_simp
  rfl

set_option maxHeartbeats 4000000 in
/-- The difference of the normalised equivariant rows, neighbour minus centre.  (The centre's index wrap compares with the
    zero vector the shared prefix already holds.) -/
theorem V_main_v100 (c : Dev nD)
    (hz : Wk m c (Proc.devRef .tc main_v86) = broadcastInDim S262144 ![] bcast_S_S262144 (constantI S_ 32 0#32)) :
    V m c main_v100 = subf (rows240 (Wk m c (Proc.devRef .tc main_v79)) (idxOf (Wk m c (Proc.devRef .tc main_v3)))) (rows240 (Wk m c (Proc.devRef .tc main_v79)) (idxOf (Wk m c (Proc.devRef .tc main_v1)))) := by
  show V0 m c (Proc.devRef .tc main_v100) = _
  rw [V0_eq]
  after_results_simp
  rw [hz]
  rfl

set_option maxHeartbeats 4000000 in
/-- A filter weight matrix with its format rounded. -/
theorem V_main_v143 (c : Dev nD) : V m c main_v143 = truncf FTy.bf16 (Wk m c (Proc.devRef .tc main_arg18)) bitsLt_bf16_f32 := by
  show V0 m c (Proc.devRef .tc main_v143) = _
  rw [V0_eq]
  after_results_simp

set_option maxHeartbeats 4000000 in
/-- A filter weight matrix with its format rounded. -/
theorem V_main_v144 (c : Dev nD) : V m c main_v144 = truncf FTy.bf16 (Wk m c (Proc.devRef .tc main_arg20)) bitsLt_bf16_f32 := by
  show V0 m c (Proc.devRef .tc main_v144) = _
  rw [V0_eq]
  after_results_simp

set_option maxHeartbeats 4000000 in
/-- A filter weight matrix with its format rounded. -/
theorem V_main_v145 (c : Dev nD) : V m c main_v145 = truncf FTy.bf16 (Wk m c (Proc.devRef .tc main_arg14)) bitsLt_bf16_f32 := by
  show V0 m c (Proc.devRef .tc main_v145) = _
  rw [V0_eq]
  after_results_simp

set_option maxHeartbeats 4000000 in
/-- A filter weight matrix with its format rounded. -/
theorem V_main_v146 (c : Dev nD) : V m c main_v146 = truncf FTy.bf16 (Wk m c (Proc.devRef .tc main_arg16)) bitsLt_bf16_f32 := by
  show V0 m c (Proc.devRef .tc main_v146) = _
  rw [V0_eq]
  after_results_simp

/-- The remaining lines write nothing the shared prefix wrote, nor an argument: such a buffer is, at the launch, what the
    prefix left. -/
theorem V_of_low (c : Dev nD) (b : Ref sig .tc) (hb : ∀ op ∈ (kRest : List (HloOp τ sig (Elt F))), Proc.devRef .tc b ∉ op.writes) :
    V m c b = Wk m c (Proc.devRef .tc b) := by
  show V0 m c (Proc.devRef .tc b) = _
  rw [V0_eq]
  exact StableHlo.after_of_forall_not_mem _ _ hb

end Operands

end Cert.KernelIdeal.Hand

end
-- ==== Proof.KIRestLow.lean ====
/-
  The kernel program's 75 host operations after the shared prefix write only their own result buffers (HBM 148 …): a buffer
  numbered below 148 — an argument, or anything the shared prefix wrote — is, when the launch is entered, what the prefix
  left there.
-/
import proofs.«145672_j73899207295099_1_alg».proof.Proof.KIRest

set_option maxRecDepth 16384

noncomputable section

namespace Cert.KernelIdeal.Hand

open Idealize.ShloMosaic Idealize.ShloMosaic.TcCoe Idealize.SL.Sem Idealize.ShloMosaic.StableHlo
open Cert.KernelIdeal Cert.KernelIdeal.Gen Cert.Prefix

variable {F : FTy → Type} [FloatOps F]
variable (m : (ℓ : Loc nD τ sig) → Buf (Elt F) ℓ)

/-- An HBM buffer numbered below 148. -/
def isLow (b : Ref sig .tc) : Bool := decide (b.space = .hbm) && decide (b.idx.val < 148)

theorem ne_of_isLow {y b : Ref sig .tc} (hy : isLow y = false) (hb : isLow b = true) :
    Proc.devRef (τ := τ) .tc b ≠ Proc.devRef .tc y :=
  StableHlo.devRef_ne_of_ne (fun e => by rw [e, hy] at hb; exact Bool.false_ne_true hb)

set_option maxHeartbeats 4000000 in
theorem rest_keeps : (kRest : List (HloOp τ sig (Elt F))).Forall
    fun op => ∀ b : Ref sig .tc, isLow b = true → Proc.devRef .tc b ∉ op.writes := by
  simp only [kRest, List.Forall, StableHlo.nullary_writes, StableHlo.unary_writes, StableHlo.binary_writes, StableHlo.ternary_writes,
    StableHlo.quaternary_writes, StableHlo.reshape_writes, StableHlo.binaryIndexed_writes, StableHlo.unaryIndexed_writes,
    StableHlo.nary_writes, Finset.mem_singleton]
  repeat' apply And.intro
  all_goals exact fun b hb => ne_of_isLow (by decide) hb

/-- A buffer numbered below 148 is, at the launch, what the shared prefix left. -/
theorem V_low (c : Dev nD) (b : Ref sig .tc) (hb : isLow b = true) : V m c b = Wk m c (Proc.devRef .tc b) :=
  V_of_low m c b (fun op hop => (List.forall_iff_forall_mem.mp rest_keeps) op hop b hb)

end Cert.KernelIdeal.Hand

end
-- ==== Proof.KIPrefixZero.lean ====
/-
  What the shared prefix leaves in the buffer its last operation writes: the zero vector that the first index wrap compares
  with (a constant 0 broadcast over the 262144 edges).
-/
import proofs.«145672_j73899207295099_1_alg».proof.Proof.KIRest

set_option maxRecDepth 16384

noncomputable section

namespace Cert.KernelIdeal.Hand

open Idealize.ShloMosaic Idealize.ShloMosaic.TcCoe Idealize.SL.Sem Idealize.ShloMosaic.StableHlo
open Cert.KernelIdeal Cert.KernelIdeal.Gen Cert.Prefix

variable {F : FTy → Type} [FloatOps F]
variable (m : (ℓ : Loc nD τ sig) → Buf (Elt F) ℓ)

set_option maxHeartbeats 4000000 in
theorem Wk_v86 (c : Dev nD) :
    Wk m c (Proc.devRef .tc main_v86) = broadcastInDim S262144 ![] bcast_S_S262144 (constantI S_ 32 0#32) := by
  unfold Wk
  show StableHlo.after (hostOps0 ++ (hostOps0_1 ++ kPrefix2)) _ (Proc.devRef .tc main_v86) = _
  rw [after_append', after_append']
  generalize StableHlo.after hostOps0_1 (StableHlo.after hostOps0 fun b => m (c, b)) = W0
  after_results_simp

end Cert.KernelIdeal.Hand

end
-- ==== Proof.KITail.lean ====
/-
  The kernel program's last host lines: the two scatter-adds.

  After the launch the per-edge messages are added into the node arrays at each edge's centre row: the final scalar
  result is the scatter-add of the launch's first output array into argument 0, the equivariant result that of the second
  into argument 1, both at the (wrapped) centre indices.
-/
import proofs.«145672_j73899207295099_1_alg».proof.Proof.KIFrame
import proofs.«145672_j73899207295099_1_alg».proof.Proof.KIRest

set_option maxRecDepth 16384

noncomputable section

namespace Cert.KernelIdeal.Hand

open Idealize.ShloMosaic Idealize.ShloMosaic.TcCoe Idealize.SL.Sem Idealize.ShloMosaic.StableHlo
open Idealize.ShloMosaic.Pipeline (Dat Cfg Window)
open Cert.KernelIdeal Cert.KernelIdeal.Gen Cert.Prefix
open Cert.ReferenceIdeal.RefValue (idxOf scat120 scat240)

variable {F : FTy → Type} [FloatOps F]
variable (m : (ℓ : Loc nD τ sig) → Buf (Elt F) ℓ)

set_option maxHeartbeats 4000000 in
/-- The scalar result: argument 0 plus, at each edge's centre row, the launch's first output. -/
theorem tail154 (c : Dev nD) : Pipeline.afterTail₀ cfgs (dats m) 0 (V0 m) [hostOps1] c main_v154
    = scat120 (V m c main_arg0) (idxOf (V m c main_v1)) ((dats m 0 c).arrAt 18 cfg0.N) := by
  unfold Pipeline.afterTail₀
  show StableHlo.after hostOps1 _ (Proc.devRef .tc main_v154) = _
  after_results_simp
  have e18 := Pipeline.withArrays_arr (τ := τ) (Val := Elt F) spec0 launch0.win.arr_inj c (V0 m c) (fun w => (dats m 0 c).arrAt w cfg0.N) 18
  rw [Pipeline.withArrays_of_ne spec0 c (V0 m c) _ main_arg0 (by decide), Pipeline.withArrays_of_ne spec0 c (V0 m c) _ main_v1 (by decide)]
  exact congrArg (fun u => scat120 (V m c main_arg0) (idxOf (V m c main_v1)) u) e18

set_option maxHeartbeats 4000000 in
/-- The equivariant result: argument 1 plus, at each edge's centre row, the launch's second output. -/
theorem tail161 (c : Dev nD) : Pipeline.afterTail₀ cfgs (dats m) 0 (V0 m) [hostOps1] c main_v161
    = scat240 (V m c main_arg1) (idxOf (V m c main_v1)) ((dats m 0 c).arrAt 19 cfg0.N) := by
  unfold Pipeline.afterTail₀
  show StableHlo.after hostOps1 _ (Proc.devRef .tc main_v161) = _
  after_results_simp
  have e19 := Pipeline.withArrays_arr (τ := τ) (Val := Elt F) spec0 launch0.win.arr_inj c (V0 m c) (fun w => (dats m 0 c).arrAt w cfg0.N) 19
  rw [Pipeline.withArrays_of_ne spec0 c (V0 m c) _ main_arg1 (by decide), Pipeline.withArrays_of_ne spec0 c (V0 m c) _ main_v1 (by decide)]
  exact congrArg (fun u => scat240 (V m c main_arg1) (idxOf (V m c main_v1)) u) e19

end Cert.KernelIdeal.Hand

end
-- ==== Proof.KIValueRun.lean ====
/-
  The kernel program's run with its two results named: in every final state the scalar and the equivariant result
  buffers hold what the last host lines compute from the launch's two output arrays, and the arguments are unchanged.
-/
import proofs.«145672_j73899207295099_1_alg».proof.Proof.KIFrame

set_option maxRecDepth 16384

noncomputable section

namespace Cert.KernelIdeal.Hand

open Idealize.ShloMosaic Idealize.ShloMosaic.TcCoe Idealize.SL.Sem
open Idealize.ShloMosaic.Pipeline (Dat Cfg Window)
open Cert.KernelIdeal Cert.KernelIdeal.Gen

variable {F : FTy → Type} [FloatOps F]
variable (m : (ℓ : Loc nD τ sig) → Buf (Elt F) ℓ) (ρ : Dev nD → PrngReg)

/-- What the scalar result buffer ends holding, on core c. -/
abbrev res154 (c : Dev nD) : Buf (Elt F) ((c.tc : Thread nD τ).loc main_v154) :=
  Pipeline.afterTail₀ cfgs (dats m) 0 (V0 m) [hostOps1] c main_v154
/-- What the equivariant result buffer ends holding, on core c. -/
abbrev res161 (c : Dev nD) : Buf (Elt F) ((c.tc : Thread nD τ).loc main_v161) :=
  Pipeline.afterTail₀ cfgs (dats m) 0 (V0 m) [hostOps1] c main_v161

theorem run_values : θ_run defs (onTc (τ := τ) (main (F := F))) ⟨m, fun _ => 0, ρ⟩ (fun r => ∀ c : Dev nD,
      r.2.mem ((c.tc : Thread nD τ).loc main_v154) = res154 m c
      ∧ r.2.mem ((c.tc : Thread nD τ).loc main_v161) = res161 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run defs _ _).mono (fun _ h c => ⟨
    (h c).2 main_v154 (Pipeline.mem_restRefs_of main_v154 (by decide) (by decide)),
    (h c).2 main_v161 (Pipeline.mem_restRefs_of main_v161 (by decide) (by decide)),
    (kept_rest m (dats m) h c main_arg0 (by decide) (by decide) (by decide)),
    (kept_rest m (dats m) h c main_arg1 (by decide) (by decide) (by decide)),
    (kept_staged m (dats m) (A_eq m) h c 0 rfl main_arg2 rfl (by decide)),
    (kept_staged m (dats m) (A_eq m) h c 1 rfl main_arg3 rfl (by decide)),
    (kept_staged m (dats m) (A_eq m) h c 2 rfl main_arg4 rfl (by decide)),
    (kept_rest m (dats m) h c main_arg5 (by decide) (by decide) (by decide)),
    (kept_rest m (dats m) h c main_arg6 (by decide) (by decide) (by decide)),
    (kept_rest m (dats m) h c main_arg7 (by decide) (by decide) (by decide)),
    (kept_rest m (dats m) h c main_arg8 (by decide) (by decide) (by decide)),
    (kept_rest m (dats m) h c main_arg9 (by decide) (by decide) (by decide)),
    (kept_rest m (dats m) h c main_arg10 (by decide) (by decide) (by decide)),
    (kept_rest m (dats m) h c main_arg11 (by decide) (by decide) (by decide)),
    (kept_rest m (dats m) h c main_arg12 (by decide) (by decide) (by decide)),
    (kept_rest m (dats m) h c main_arg13 (by decide) (by decide) (by decide)),
    (kept_rest m (dats m) h c main_arg14 (by decide) (by decide) (by decide)),
    (kept_staged m (dats m) (A_eq m) h c 15 rfl main_arg15 rfl (by decide)),
    (kept_rest m (dats m) h c main_arg16 (by decide) (by decide) (by decide)),
    (kept_staged m (dats m) (A_eq m) h c 17 rfl main_arg17 rfl (by decide)),
    (kept_rest m (dats m) h c main_arg18 (by decide) (by decide) (by decide)),
    (kept_staged m (dats m) (A_eq m) h c 11 rfl main_arg19 rfl (by decide)),
    (kept_rest m (dats m) h c main_arg20 (by decide) (by decide) (by decide)),
    (kept_staged m (dats m) (A_eq m) h c 13 rfl main_arg21 rfl (by decide)),
    (kept_rest m (dats m) h c main_arg22 (by decide) (by decide) (by decide))⟩) (run_main m ρ)

end Cert.KernelIdeal.Hand

end
-- ==== Proof.RefMidDefs.lean ====
/-
  The reference program's arithmetic on the gathered per-edge arrays, as functions of arrays.

  Each definition below is one StableHLO operation of the reference's @main (its number and text are in the
  docstring), applied to the definitions of its operands: the function is the one the printed program gives that
  operation, with the same shape facts. Three chains: the filter weights of every edge (operations %101 … %134,
  the two calls of @silu opened at their call sites), the scalar message (%142 … %167) and the equivariant message
  (%175 … %225), each over the arrays it starts from. Unfolding the definitions gives the operations composed by
  dataflow.
-/
import proofs.«145672_j73899207295099_1_alg».proof.Proof.Gen.ReferenceIdeal
import Idealize.ShloMosaic.PureOps.Ideal

noncomputable section

namespace Cert.ReferenceIdeal.RefMid

open Cert.ReferenceIdeal Cert.ReferenceIdeal.Gen Idealize.ShloMosaic

/-- @silu's body on its argument: x · (1 / (1 + exp (-x))), operation by operation (negate, exponential, the constant
    1 broadcast, add, the constant 1 broadcast, divide, multiply). -/
def siluAll (t : FVec Ideal S262144x120 .f32) : FVec Ideal S262144x120 .f32 :=
  mulf t (Host.divf (broadcastInDim S262144x120 ![] bcast_S_S262144x120 (constant (F := Ideal) S_ .f32 0x3F800000#32))
    (addf (broadcastInDim S262144x120 ![] bcast_S_S262144x120 (constant (F := Ideal) S_ .f32 0x3F800000#32)) (Host.exp (Host.negf t))))

/-! ## The filter weights: operations %101 … %134 -/

/-- %101 = stablehlo.slice %100 [0:262144, 0:64] : (tensor<262144x240xf32>) -> tensor<262144x64xf32> -/
def v101 (x100 : FVec Ideal S262144x240 .f32) : FVec Ideal S262144x64 .f32 :=
  extractStridedSlice S262144x64 ![0, 0] x100 slices_S262144x240_S262144x64_0_0
/-- %102 = stablehlo.reshape %101 : (tensor<262144x64xf32>) -> tensor<262144x64x1xf32> -/
def v102 (x100 : FVec Ideal S262144x240 .f32) : FVec Ideal S262144x64x1 .f32 :=
  shapeCast S262144x64x1 (v101 x100) shapeCasts_S262144x64_S262144x64x1
/-- %103 = stablehlo.multiply %102, %102 : tensor<262144x64x1xf32> -/
def v103 (x100 : FVec Ideal S262144x240 .f32) : FVec Ideal S262144x64x1 .f32 :=
  mulf (v102 x100) (v102 x100)
/-- %104 = stablehlo.reduce(%103 init: %cst_17) applies stablehlo.add across dimensions = [2] : (tensor<262144x64x1xf32>, tensor<f32>) -> tensor<262144x64xf32> -/
def v104 (x100 : FVec Ideal S262144x240 .f32) : FVec Ideal S262144x64 .f32 :=
  Host.reduceAdd (v103 x100) (constant (F := Ideal) S_ .f32 0x00000000#32) reducesTo_S262144x64x1_S262144x64_d2 h_S_
/-- %105 = stablehlo.slice %100 [0:262144, 64:160] : (tensor<262144x240xf32>) -> tensor<262144x96xf32> -/
def v105 (x100 : FVec Ideal S262144x240 .f32) : FVec Ideal S262144x96 .f32 :=
  extractStridedSlice S262144x96 ![0, 64] x100 slices_S262144x240_S262144x96_0_64
/-- %106 = stablehlo.reshape %105 : (tensor<262144x96xf32>) -> tensor<262144x32x3xf32> -/
def v106 (x100 : FVec Ideal S262144x240 .f32) : FVec Ideal S262144x32x3 .f32 :=
  shapeCast S262144x32x3 (v105 x100) shapeCasts_S262144x96_S262144x32x3
/-- %107 = stablehlo.multiply %106, %106 : tensor<262144x32x3xf32> -/
def v107 (x100 : FVec Ideal S262144x240 .f32) : FVec Ideal S262144x32x3 .f32 :=
  mulf (v106 x100) (v106 x100)
/-- %108 = stablehlo.reduce(%107 init: %cst_18) applies stablehlo.add across dimensions = [2] : (tensor<262144x32x3xf32>, tensor<f32>) -> tensor<262144x32xf32> -/
def v108 (x100 : FVec Ideal S262144x240 .f32) : FVec Ideal S262144x32 .f32 :=
  Host.reduceAdd (v107 x100) (constant (F := Ideal) S_ .f32 0x00000000#32) reducesTo_S262144x32x3_S262144x32_d2 h_S_
/-- %109 = stablehlo.slice %100 [0:262144, 160:240] : (tensor<262144x240xf32>) -> tensor<262144x80xf32> -/
def v109 (x100 : FVec Ideal S262144x240 .f32) : FVec Ideal S262144x80 .f32 :=
  extractStridedSlice S262144x80 ![0, 160] x100 slices_S262144x240_S262144x80_0_160
/-- %110 = stablehlo.reshape %109 : (tensor<262144x80xf32>) -> tensor<262144x16x5xf32> -/
def v110 (x100 : FVec Ideal S262144x240 .f32) : FVec Ideal S262144x16x5 .f32 :=
  shapeCast S262144x16x5 (v109 x100) shapeCasts_S262144x80_S262144x16x5
/-- %111 = stablehlo.multiply %110, %110 : tensor<262144x16x5xf32> -/
def v111 (x100 : FVec Ideal S262144x240 .f32) : FVec Ideal S262144x16x5 .f32 :=
  mulf (v110 x100) (v110 x100)
/-- %112 = stablehlo.reduce(%111 init: %cst_19) applies stablehlo.add across dimensions = [2] : (tensor<262144x16x5xf32>, tensor<f32>) -> tensor<262144x16xf32> -/
def v112 (x100 : FVec Ideal S262144x240 .f32) : FVec Ideal S262144x16 .f32 :=
  Host.reduceAdd (v111 x100) (constant (F := Ideal) S_ .f32 0x00000000#32) reducesTo_S262144x16x5_S262144x16_d2 h_S_
/-- %113 = stablehlo.concatenate %104, %108, %112, dim = 1 : (tensor<262144x64xf32>, tensor<262144x32xf32>, tensor<262144x16xf32>) -> tensor<262144x112xf32> -/
def v113 (x100 : FVec Ideal S262144x240 .f32) : FVec Ideal S262144x112 .f32 :=
  concatenate S262144x112 1 [⟨S262144x64, (v104 x100)⟩, ⟨S262144x32, (v108 x100)⟩, ⟨S262144x16, (v112 x100)⟩] concatenates_S262144x64_S262144x32_S262144x16_S262144x112_d1
/-- %114 = stablehlo.dot_general %113, %arg18, contracting_dims = [1] x [0], precision = [DEFAULT, DEFAULT] : (tensor<262144x112xf32>, tensor<112x120xf32>) -> tensor<262144x120xf32> -/
def v114 (x100 : FVec Ideal S262144x240 .f32) (arg18 : FVec Ideal S112x120 .f32) : FVec Ideal S262144x120 .f32 :=
  Host.dotGeneral dot_S262144x112_S112x120_S262144x120_1_0_0_1_n_n none (v113 x100) arg18
/-- %115 = stablehlo.broadcast_in_dim %arg19, dims = [1] : (tensor<120xf32>) -> tensor<1x120xf32> -/
def v115 (arg19 : FVec Ideal S120 .f32) : FVec Ideal S1x120 .f32 :=
  broadcastInDim S1x120 ![1] bcast_S120_S1x120_1 arg19
/-- %116 = stablehlo.broadcast_in_dim %115, dims = [0, 1] : (tensor<1x120xf32>) -> tensor<262144x120xf32> -/
def v116 (arg19 : FVec Ideal S120 .f32) : FVec Ideal S262144x120 .f32 :=
  broadcastInDim S262144x120 ![0, 1] bcast_S1x120_S262144x120_0_1 (v115 arg19)
/-- %117 = stablehlo.add %114, %116 : tensor<262144x120xf32> -/
def v117 (x100 : FVec Ideal S262144x240 .f32) (arg18 : FVec Ideal S112x120 .f32) (arg19 : FVec Ideal S120 .f32) : FVec Ideal S262144x120 .f32 :=
  addf (v114 x100 arg18) (v116 arg19)
/-- %118 = func.call @silu(%117) : (tensor<262144x120xf32>) -> tensor<262144x120xf32> -/
def v118 (x100 : FVec Ideal S262144x240 .f32) (arg18 : FVec Ideal S112x120 .f32) (arg19 : FVec Ideal S120 .f32) : FVec Ideal S262144x120 .f32 :=
  siluAll (v117 x100 arg18 arg19)
/-- %119 = stablehlo.dot_general %118, %arg20, contracting_dims = [1] x [0], precision = [DEFAULT, DEFAULT] : (tensor<262144x120xf32>, tensor<120x120xf32>) -> tensor<262144x120xf32> -/
def v119 (x100 : FVec Ideal S262144x240 .f32) (arg18 : FVec Ideal S112x120 .f32) (arg19 : FVec Ideal S120 .f32) (arg20 : FVec Ideal S120x120 .f32) : FVec Ideal S262144x120 .f32 :=
  Host.dotGeneral dot_S262144x120_S120x120_S262144x120_1_0_0_1_n_n none (v118 x100 arg18 arg19) arg20
/-- %120 = stablehlo.broadcast_in_dim %arg21, dims = [1] : (tensor<120xf32>) -> tensor<1x120xf32> -/
def v120 (arg21 : FVec Ideal S120 .f32) : FVec Ideal S1x120 .f32 :=
  broadcastInDim S1x120 ![1] bcast_S120_S1x120_1 arg21
/-- %121 = stablehlo.broadcast_in_dim %120, dims = [0, 1] : (tensor<1x120xf32>) -> tensor<262144x120xf32> -/
def v121 (arg21 : FVec Ideal S120 .f32) : FVec Ideal S262144x120 .f32 :=
  broadcastInDim S262144x120 ![0, 1] bcast_S1x120_S262144x120_0_1 (v120 arg21)
/-- %122 = stablehlo.add %119, %121 : tensor<262144x120xf32> -/
def v122 (x100 : FVec Ideal S262144x240 .f32) (arg18 : FVec Ideal S112x120 .f32) (arg19 : FVec Ideal S120 .f32) (arg20 : FVec Ideal S120x120 .f32) (arg21 : FVec Ideal S120 .f32) : FVec Ideal S262144x120 .f32 :=
  addf (v119 x100 arg18 arg19 arg20) (v121 arg21)
/-- %123 = stablehlo.dot_general %arg2, %arg14, contracting_dims = [1] x [0], precision = [DEFAULT, DEFAULT] : (tensor<262144x20xf32>, tensor<20x120xf32>) -> tensor<262144x120xf32> -/
def v123 (arg2 : FVec Ideal S262144x20 .f32) (arg14 : FVec Ideal S20x120 .f32) : FVec Ideal S262144x120 .f32 :=
  Host.dotGeneral dot_S262144x20_S20x120_S262144x120_1_0_0_1_n_n none arg2 arg14
/-- %124 = stablehlo.broadcast_in_dim %arg15, dims = [1] : (tensor<120xf32>) -> tensor<1x120xf32> -/
def v124 (arg15 : FVec Ideal S120 .f32) : FVec Ideal S1x120 .f32 :=
  broadcastInDim S1x120 ![1] bcast_S120_S1x120_1 arg15
/-- %125 = stablehlo.broadcast_in_dim %124, dims = [0, 1] : (tensor<1x120xf32>) -> tensor<262144x120xf32> -/
def v125 (arg15 : FVec Ideal S120 .f32) : FVec Ideal S262144x120 .f32 :=
  broadcastInDim S262144x120 ![0, 1] bcast_S1x120_S262144x120_0_1 (v124 arg15)
/-- %126 = stablehlo.add %123, %125 : tensor<262144x120xf32> -/
def v126 (arg2 : FVec Ideal S262144x20 .f32) (arg14 : FVec Ideal S20x120 .f32) (arg15 : FVec Ideal S120 .f32) : FVec Ideal S262144x120 .f32 :=
  addf (v123 arg2 arg14) (v125 arg15)
/-- %127 = func.call @silu(%126) : (tensor<262144x120xf32>) -> tensor<262144x120xf32> -/
def v127 (arg2 : FVec Ideal S262144x20 .f32) (arg14 : FVec Ideal S20x120 .f32) (arg15 : FVec Ideal S120 .f32) : FVec Ideal S262144x120 .f32 :=
  siluAll (v126 arg2 arg14 arg15)
/-- %128 = stablehlo.dot_general %127, %arg16, contracting_dims = [1] x [0], precision = [DEFAULT, DEFAULT] : (tensor<262144x120xf32>, tensor<120x120xf32>) -> tensor<262144x120xf32> -/
def v128 (arg2 : FVec Ideal S262144x20 .f32) (arg14 : FVec Ideal S20x120 .f32) (arg15 : FVec Ideal S120 .f32) (arg16 : FVec Ideal S120x120 .f32) : FVec Ideal S262144x120 .f32 :=
  Host.dotGeneral dot_S262144x120_S120x120_S262144x120_1_0_0_1_n_n none (v127 arg2 arg14 arg15) arg16
/-- %129 = stablehlo.broadcast_in_dim %arg17, dims = [1] : (tensor<120xf32>) -> tensor<1x120xf32> -/
def v129 (arg17 : FVec Ideal S120 .f32) : FVec Ideal S1x120 .f32 :=
  broadcastInDim S1x120 ![1] bcast_S120_S1x120_1 arg17
/-- %130 = stablehlo.broadcast_in_dim %129, dims = [0, 1] : (tensor<1x120xf32>) -> tensor<262144x120xf32> -/
def v130 (arg17 : FVec Ideal S120 .f32) : FVec Ideal S262144x120 .f32 :=
  broadcastInDim S262144x120 ![0, 1] bcast_S1x120_S262144x120_0_1 (v129 arg17)
/-- %131 = stablehlo.add %128, %130 : tensor<262144x120xf32> -/
def v131 (arg2 : FVec Ideal S262144x20 .f32) (arg14 : FVec Ideal S20x120 .f32) (arg15 : FVec Ideal S120 .f32) (arg16 : FVec Ideal S120x120 .f32) (arg17 : FVec Ideal S120 .f32) : FVec Ideal S262144x120 .f32 :=
  addf (v128 arg2 arg14 arg15 arg16) (v130 arg17)
/-- %132 = stablehlo.add %122, %131 : tensor<262144x120xf32> -/
def v132 (x100 : FVec Ideal S262144x240 .f32) (arg2 : FVec Ideal S262144x20 .f32) (arg18 : FVec Ideal S112x120 .f32) (arg19 : FVec Ideal S120 .f32) (arg20 : FVec Ideal S120x120 .f32) (arg21 : FVec Ideal S120 .f32) (arg14 : FVec Ideal S20x120 .f32) (arg15 : FVec Ideal S120 .f32) (arg16 : FVec Ideal S120x120 .f32) (arg17 : FVec Ideal S120 .f32) : FVec Ideal S262144x120 .f32 :=
  addf (v122 x100 arg18 arg19 arg20 arg21) (v131 arg2 arg14 arg15 arg16 arg17)
/-- %133 = stablehlo.broadcast_in_dim %arg3, dims = [0, 1] : (tensor<262144x1xf32>) -> tensor<262144x120xf32> -/
def v133 (arg3 : FVec Ideal S262144x1 .f32) : FVec Ideal S262144x120 .f32 :=
  broadcastInDim S262144x120 ![0, 1] bcast_S262144x1_S262144x120_0_1 arg3
/-- %134 = stablehlo.multiply %132, %133 : tensor<262144x120xf32> -/
def v134 (x100 : FVec Ideal S262144x240 .f32) (arg2 : FVec Ideal S262144x20 .f32) (arg3 : FVec Ideal S262144x1 .f32) (arg18 : FVec Ideal S112x120 .f32) (arg19 : FVec Ideal S120 .f32) (arg20 : FVec Ideal S120x120 .f32) (arg21 : FVec Ideal S120 .f32) (arg14 : FVec Ideal S20x120 .f32) (arg15 : FVec Ideal S120 .f32) (arg16 : FVec Ideal S120x120 .f32) (arg17 : FVec Ideal S120 .f32) : FVec Ideal S262144x120 .f32 :=
  mulf (v132 x100 arg2 arg18 arg19 arg20 arg21 arg14 arg15 arg16 arg17) (v133 arg3)

/-- operations %101 … %134: the filter weights of every edge. -/
def filtAll (x100 : FVec Ideal S262144x240 .f32) (arg2 : FVec Ideal S262144x20 .f32) (arg3 : FVec Ideal S262144x1 .f32)
    (arg18 : FVec Ideal S112x120 .f32) (arg19 : FVec Ideal S120 .f32) (arg20 : FVec Ideal S120x120 .f32) (arg21 : FVec Ideal S120 .f32)
    (arg14 : FVec Ideal S20x120 .f32) (arg15 : FVec Ideal S120 .f32) (arg16 : FVec Ideal S120x120 .f32) (arg17 : FVec Ideal S120 .f32) :
    FVec Ideal S262144x120 .f32 :=
  v134 x100 arg2 arg3 arg18 arg19 arg20 arg21 arg14 arg15 arg16 arg17

/-! ## The scalar message: operations %142, %143, %151, %159 … %167 -/

/-- %142 = stablehlo.multiply %141, %134 : tensor<262144x120xf32> -/
def v142 (g141 : FVec Ideal S262144x120 .f32) (w134 : FVec Ideal S262144x120 .f32) : FVec Ideal S262144x120 .f32 :=
  mulf g141 w134
/-- %143 = stablehlo.reshape %142 : (tensor<262144x120xf32>) -> tensor<262144x4x30xf32> -/
def v143 (g141 : FVec Ideal S262144x120 .f32) (w134 : FVec Ideal S262144x120 .f32) : FVec Ideal S262144x4x30 .f32 :=
  shapeCast S262144x4x30 (v142 g141 w134) shapeCasts_S262144x120_S262144x4x30
/-- %151 = stablehlo.reshape %150 : (tensor<262144x120xf32>) -> tensor<262144x4x30xf32> -/
def v151 (g150 : FVec Ideal S262144x120 .f32) : FVec Ideal S262144x4x30 .f32 :=
  shapeCast S262144x4x30 g150 shapeCasts_S262144x120_S262144x4x30
/-- %159 = stablehlo.reshape %158 : (tensor<262144x120xf32>) -> tensor<262144x4x30xf32> -/
def v159 (g158 : FVec Ideal S262144x120 .f32) : FVec Ideal S262144x4x30 .f32 :=
  shapeCast S262144x4x30 g158 shapeCasts_S262144x120_S262144x4x30
/-- %160 = stablehlo.multiply %143, %151 : tensor<262144x4x30xf32> -/
def v160 (g141 : FVec Ideal S262144x120 .f32) (g150 : FVec Ideal S262144x120 .f32) (w134 : FVec Ideal S262144x120 .f32) : FVec Ideal S262144x4x30 .f32 :=
  mulf (v143 g141 w134) (v151 g150)
/-- %161 = stablehlo.reduce(%160 init: %cst_26) applies stablehlo.add across dimensions = [2] : (tensor<262144x4x30xf32>, tensor<f32>) -> tensor<262144x4xf32> -/
def v161 (g141 : FVec Ideal S262144x120 .f32) (g150 : FVec Ideal S262144x120 .f32) (w134 : FVec Ideal S262144x120 .f32) : FVec Ideal S262144x4 .f32 :=
  Host.reduceAdd (v160 g141 g150 w134) (constant (F := Ideal) S_ .f32 0x00000000#32) reducesTo_S262144x4x30_S262144x4_d2 h_S_
/-- %162 = stablehlo.broadcast_in_dim %161, dims = [0, 1] : (tensor<262144x4xf32>) -> tensor<262144x4x1xf32> -/
def v162 (g141 : FVec Ideal S262144x120 .f32) (g150 : FVec Ideal S262144x120 .f32) (w134 : FVec Ideal S262144x120 .f32) : FVec Ideal S262144x4x1 .f32 :=
  broadcastInDim S262144x4x1 ![0, 1] bcast_S262144x4_S262144x4x1_0_1 (v161 g141 g150 w134)
/-- %163 = stablehlo.broadcast_in_dim %cst_27, dims = [] : (tensor<f32>) -> tensor<262144x4x1xf32> -/
def v163  : FVec Ideal S262144x4x1 .f32 :=
  broadcastInDim S262144x4x1 ![] bcast_S_S262144x4x1 (constant (F := Ideal) S_ .f32 0x3DBAF4BA#32)
/-- %164 = stablehlo.multiply %162, %163 : tensor<262144x4x1xf32> -/
def v164 (g141 : FVec Ideal S262144x120 .f32) (g150 : FVec Ideal S262144x120 .f32) (w134 : FVec Ideal S262144x120 .f32) : FVec Ideal S262144x4x1 .f32 :=
  mulf (v162 g141 g150 w134) v163
/-- %165 = stablehlo.broadcast_in_dim %164, dims = [0, 1, 2] : (tensor<262144x4x1xf32>) -> tensor<262144x4x30xf32> -/
def v165 (g141 : FVec Ideal S262144x120 .f32) (g150 : FVec Ideal S262144x120 .f32) (w134 : FVec Ideal S262144x120 .f32) : FVec Ideal S262144x4x30 .f32 :=
  broadcastInDim S262144x4x30 ![0, 1, 2] bcast_S262144x4x1_S262144x4x30_0_1_2 (v164 g141 g150 w134)
/-- %166 = stablehlo.multiply %165, %159 : tensor<262144x4x30xf32> -/
def v166 (g141 : FVec Ideal S262144x120 .f32) (g150 : FVec Ideal S262144x120 .f32) (g158 : FVec Ideal S262144x120 .f32) (w134 : FVec Ideal S262144x120 .f32) : FVec Ideal S262144x4x30 .f32 :=
  mulf (v165 g141 g150 w134) (v159 g158)
/-- %167 = stablehlo.reshape %166 : (tensor<262144x4x30xf32>) -> tensor<262144x120xf32> -/
def v167 (g141 : FVec Ideal S262144x120 .f32) (g150 : FVec Ideal S262144x120 .f32) (g158 : FVec Ideal S262144x120 .f32) (w134 : FVec Ideal S262144x120 .f32) : FVec Ideal S262144x120 .f32 :=
  shapeCast S262144x120 (v166 g141 g150 g158 w134) shapeCasts_S262144x4x30_S262144x120

/-- operations %142, %143, %151, %159 … %167: the scalar message of every edge. -/
def msgSAll (g141 g150 g158 w134 : FVec Ideal S262144x120 .f32) : FVec Ideal S262144x120 .f32 :=
  v167 g141 g150 g158 w134

/-! ## The equivariant message: operations %175, %176, %184, %192 … %225 -/

/-- %175 = stablehlo.multiply %174, %134 : tensor<262144x120xf32> -/
def v175 (g174 : FVec Ideal S262144x120 .f32) (w134 : FVec Ideal S262144x120 .f32) : FVec Ideal S262144x120 .f32 :=
  mulf g174 w134
/-- %176 = stablehlo.reshape %175 : (tensor<262144x120xf32>) -> tensor<262144x3x40xf32> -/
def v176 (g174 : FVec Ideal S262144x120 .f32) (w134 : FVec Ideal S262144x120 .f32) : FVec Ideal S262144x3x40 .f32 :=
  shapeCast S262144x3x40 (v175 g174 w134) shapeCasts_S262144x120_S262144x3x40
/-- %184 = stablehlo.reshape %183 : (tensor<262144x120xf32>) -> tensor<262144x3x40xf32> -/
def v184 (g183 : FVec Ideal S262144x120 .f32) : FVec Ideal S262144x3x40 .f32 :=
  shapeCast S262144x3x40 g183 shapeCasts_S262144x120_S262144x3x40
/-- %192 = stablehlo.multiply %176, %184 : tensor<262144x3x40xf32> -/
def v192 (g174 : FVec Ideal S262144x120 .f32) (g183 : FVec Ideal S262144x120 .f32) (w134 : FVec Ideal S262144x120 .f32) : FVec Ideal S262144x3x40 .f32 :=
  mulf (v176 g174 w134) (v184 g183)
/-- %193 = stablehlo.reduce(%192 init: %cst_34) applies stablehlo.add across dimensions = [2] : (tensor<262144x3x40xf32>, tensor<f32>) -> tensor<262144x3xf32> -/
def v193 (g174 : FVec Ideal S262144x120 .f32) (g183 : FVec Ideal S262144x120 .f32) (w134 : FVec Ideal S262144x120 .f32) : FVec Ideal S262144x3 .f32 :=
  Host.reduceAdd (v192 g174 g183 w134) (constant (F := Ideal) S_ .f32 0x00000000#32) reducesTo_S262144x3x40_S262144x3_d2 h_S_
/-- %194 = stablehlo.broadcast_in_dim %cst_35, dims = [] : (tensor<f32>) -> tensor<262144x3xf32> -/
def v194  : FVec Ideal S262144x3 .f32 :=
  broadcastInDim S262144x3 ![] bcast_S_S262144x3 (constant (F := Ideal) S_ .f32 0x3DC1848F#32)
/-- %195 = stablehlo.multiply %193, %194 : tensor<262144x3xf32> -/
def v195 (g174 : FVec Ideal S262144x120 .f32) (g183 : FVec Ideal S262144x120 .f32) (w134 : FVec Ideal S262144x120 .f32) : FVec Ideal S262144x3 .f32 :=
  mulf (v193 g174 g183 w134) v194
/-- %196 = stablehlo.slice %195 [0:262144, 0:1] : (tensor<262144x3xf32>) -> tensor<262144x1xf32> -/
def v196 (g174 : FVec Ideal S262144x120 .f32) (g183 : FVec Ideal S262144x120 .f32) (w134 : FVec Ideal S262144x120 .f32) : FVec Ideal S262144x1 .f32 :=
  extractStridedSlice S262144x1 ![0, 0] (v195 g174 g183 w134) slices_S262144x3_S262144x1_0_0
/-- %197 = stablehlo.broadcast_in_dim %196, dims = [0, 1] : (tensor<262144x1xf32>) -> tensor<262144x1x64xf32> -/
def v197 (g174 : FVec Ideal S262144x120 .f32) (g183 : FVec Ideal S262144x120 .f32) (w134 : FVec Ideal S262144x120 .f32) : FVec Ideal S262144x1x64 .f32 :=
  broadcastInDim S262144x1x64 ![0, 1] bcast_S262144x1_S262144x1x64_0_1 (v196 g174 g183 w134)
/-- %198 = stablehlo.reshape %197 : (tensor<262144x1x64xf32>) -> tensor<262144x64xf32> -/
def v198 (g174 : FVec Ideal S262144x120 .f32) (g183 : FVec Ideal S262144x120 .f32) (w134 : FVec Ideal S262144x120 .f32) : FVec Ideal S262144x64 .f32 :=
  shapeCast S262144x64 (v197 g174 g183 w134) shapeCasts_S262144x1x64_S262144x64
/-- %199 = stablehlo.slice %195 [0:262144, 1:2] : (tensor<262144x3xf32>) -> tensor<262144x1xf32> -/
def v199 (g174 : FVec Ideal S262144x120 .f32) (g183 : FVec Ideal S262144x120 .f32) (w134 : FVec Ideal S262144x120 .f32) : FVec Ideal S262144x1 .f32 :=
  extractStridedSlice S262144x1 ![0, 1] (v195 g174 g183 w134) slices_S262144x3_S262144x1_0_1
/-- %200 = stablehlo.broadcast_in_dim %199, dims = [0, 1] : (tensor<262144x1xf32>) -> tensor<262144x1x32xf32> -/
def v200 (g174 : FVec Ideal S262144x120 .f32) (g183 : FVec Ideal S262144x120 .f32) (w134 : FVec Ideal S262144x120 .f32) : FVec Ideal S262144x1x32 .f32 :=
  broadcastInDim S262144x1x32 ![0, 1] bcast_S262144x1_S262144x1x32_0_1 (v199 g174 g183 w134)
/-- %201 = stablehlo.reshape %200 : (tensor<262144x1x32xf32>) -> tensor<262144x32xf32> -/
def v201 (g174 : FVec Ideal S262144x120 .f32) (g183 : FVec Ideal S262144x120 .f32) (w134 : FVec Ideal S262144x120 .f32) : FVec Ideal S262144x32 .f32 :=
  shapeCast S262144x32 (v200 g174 g183 w134) shapeCasts_S262144x1x32_S262144x32
/-- %202 = stablehlo.slice %195 [0:262144, 2:3] : (tensor<262144x3xf32>) -> tensor<262144x1xf32> -/
def v202 (g174 : FVec Ideal S262144x120 .f32) (g183 : FVec Ideal S262144x120 .f32) (w134 : FVec Ideal S262144x120 .f32) : FVec Ideal S262144x1 .f32 :=
  extractStridedSlice S262144x1 ![0, 2] (v195 g174 g183 w134) slices_S262144x3_S262144x1_0_2
/-- %203 = stablehlo.broadcast_in_dim %202, dims = [0, 1] : (tensor<262144x1xf32>) -> tensor<262144x1x16xf32> -/
def v203 (g174 : FVec Ideal S262144x120 .f32) (g183 : FVec Ideal S262144x120 .f32) (w134 : FVec Ideal S262144x120 .f32) : FVec Ideal S262144x1x16 .f32 :=
  broadcastInDim S262144x1x16 ![0, 1] bcast_S262144x1_S262144x1x16_0_1 (v202 g174 g183 w134)
/-- %204 = stablehlo.reshape %203 : (tensor<262144x1x16xf32>) -> tensor<262144x16xf32> -/
def v204 (g174 : FVec Ideal S262144x120 .f32) (g183 : FVec Ideal S262144x120 .f32) (w134 : FVec Ideal S262144x120 .f32) : FVec Ideal S262144x16 .f32 :=
  shapeCast S262144x16 (v203 g174 g183 w134) shapeCasts_S262144x1x16_S262144x16
/-- %205 = stablehlo.concatenate %198, %201, %204, dim = 1 : (tensor<262144x64xf32>, tensor<262144x32xf32>, tensor<262144x16xf32>) -> tensor<262144x112xf32> -/
def v205 (g174 : FVec Ideal S262144x120 .f32) (g183 : FVec Ideal S262144x120 .f32) (w134 : FVec Ideal S262144x120 .f32) : FVec Ideal S262144x112 .f32 :=
  concatenate S262144x112 1 [⟨S262144x64, (v198 g174 g183 w134)⟩, ⟨S262144x32, (v201 g174 g183 w134)⟩, ⟨S262144x16, (v204 g174 g183 w134)⟩] concatenates_S262144x64_S262144x32_S262144x16_S262144x112_d1
/-- %206 = stablehlo.multiply %205, %191 : tensor<262144x112xf32> -/
def v206 (g174 : FVec Ideal S262144x120 .f32) (g183 : FVec Ideal S262144x120 .f32) (w134 : FVec Ideal S262144x120 .f32) (g191 : FVec Ideal S262144x112 .f32) : FVec Ideal S262144x112 .f32 :=
  mulf (v205 g174 g183 w134) g191
/-- %207 = stablehlo.slice %206 [0:262144, 0:64] : (tensor<262144x112xf32>) -> tensor<262144x64xf32> -/
def v207 (g174 : FVec Ideal S262144x120 .f32) (g183 : FVec Ideal S262144x120 .f32) (w134 : FVec Ideal S262144x120 .f32) (g191 : FVec Ideal S262144x112 .f32) : FVec Ideal S262144x64 .f32 :=
  extractStridedSlice S262144x64 ![0, 0] (v206 g174 g183 w134 g191) slices_S262144x112_S262144x64_0_0
/-- %208 = stablehlo.broadcast_in_dim %207, dims = [0, 1] : (tensor<262144x64xf32>) -> tensor<262144x64x1xf32> -/
def v208 (g174 : FVec Ideal S262144x120 .f32) (g183 : FVec Ideal S262144x120 .f32) (w134 : FVec Ideal S262144x120 .f32) (g191 : FVec Ideal S262144x112 .f32) : FVec Ideal S262144x64x1 .f32 :=
  broadcastInDim S262144x64x1 ![0, 1] bcast_S262144x64_S262144x64x1_0_1 (v207 g174 g183 w134 g191)
/-- %209 = stablehlo.broadcast_in_dim %208, dims = [0, 1, 2] : (tensor<262144x64x1xf32>) -> tensor<262144x64x1x1xf32> -/
def v209 (g174 : FVec Ideal S262144x120 .f32) (g183 : FVec Ideal S262144x120 .f32) (w134 : FVec Ideal S262144x120 .f32) (g191 : FVec Ideal S262144x112 .f32) : FVec Ideal S262144x64x1x1 .f32 :=
  broadcastInDim S262144x64x1x1 ![0, 1, 2] bcast_S262144x64x1_S262144x64x1x1_0_1_2 (v208 g174 g183 w134 g191)
/-- %210 = stablehlo.reshape %209 : (tensor<262144x64x1x1xf32>) -> tensor<262144x64x1xf32> -/
def v210 (g174 : FVec Ideal S262144x120 .f32) (g183 : FVec Ideal S262144x120 .f32) (w134 : FVec Ideal S262144x120 .f32) (g191 : FVec Ideal S262144x112 .f32) : FVec Ideal S262144x64x1 .f32 :=
  shapeCast S262144x64x1 (v209 g174 g183 w134 g191) shapeCasts_S262144x64x1x1_S262144x64x1
/-- %211 = stablehlo.reshape %210 : (tensor<262144x64x1xf32>) -> tensor<262144x64xf32> -/
def v211 (g174 : FVec Ideal S262144x120 .f32) (g183 : FVec Ideal S262144x120 .f32) (w134 : FVec Ideal S262144x120 .f32) (g191 : FVec Ideal S262144x112 .f32) : FVec Ideal S262144x64 .f32 :=
  shapeCast S262144x64 (v210 g174 g183 w134 g191) shapeCasts_S262144x64x1_S262144x64
/-- %212 = stablehlo.slice %206 [0:262144, 64:96] : (tensor<262144x112xf32>) -> tensor<262144x32xf32> -/
def v212 (g174 : FVec Ideal S262144x120 .f32) (g183 : FVec Ideal S262144x120 .f32) (w134 : FVec Ideal S262144x120 .f32) (g191 : FVec Ideal S262144x112 .f32) : FVec Ideal S262144x32 .f32 :=
  extractStridedSlice S262144x32 ![0, 64] (v206 g174 g183 w134 g191) slices_S262144x112_S262144x32_0_64
/-- %213 = stablehlo.broadcast_in_dim %212, dims = [0, 1] : (tensor<262144x32xf32>) -> tensor<262144x32x1xf32> -/
def v213 (g174 : FVec Ideal S262144x120 .f32) (g183 : FVec Ideal S262144x120 .f32) (w134 : FVec Ideal S262144x120 .f32) (g191 : FVec Ideal S262144x112 .f32) : FVec Ideal S262144x32x1 .f32 :=
  broadcastInDim S262144x32x1 ![0, 1] bcast_S262144x32_S262144x32x1_0_1 (v212 g174 g183 w134 g191)
/-- %214 = stablehlo.broadcast_in_dim %213, dims = [0, 1, 2] : (tensor<262144x32x1xf32>) -> tensor<262144x32x1x3xf32> -/
def v214 (g174 : FVec Ideal S262144x120 .f32) (g183 : FVec Ideal S262144x120 .f32) (w134 : FVec Ideal S262144x120 .f32) (g191 : FVec Ideal S262144x112 .f32) : FVec Ideal S262144x32x1x3 .f32 :=
  broadcastInDim S262144x32x1x3 ![0, 1, 2] bcast_S262144x32x1_S262144x32x1x3_0_1_2 (v213 g174 g183 w134 g191)
/-- %215 = stablehlo.reshape %214 : (tensor<262144x32x1x3xf32>) -> tensor<262144x32x3xf32> -/
def v215 (g174 : FVec Ideal S262144x120 .f32) (g183 : FVec Ideal S262144x120 .f32) (w134 : FVec Ideal S262144x120 .f32) (g191 : FVec Ideal S262144x112 .f32) : FVec Ideal S262144x32x3 .f32 :=
  shapeCast S262144x32x3 (v214 g174 g183 w134 g191) shapeCasts_S262144x32x1x3_S262144x32x3
/-- %216 = stablehlo.reshape %215 : (tensor<262144x32x3xf32>) -> tensor<262144x96xf32> -/
def v216 (g174 : FVec Ideal S262144x120 .f32) (g183 : FVec Ideal S262144x120 .f32) (w134 : FVec Ideal S262144x120 .f32) (g191 : FVec Ideal S262144x112 .f32) : FVec Ideal S262144x96 .f32 :=
  shapeCast S262144x96 (v215 g174 g183 w134 g191) shapeCasts_S262144x32x3_S262144x96
/-- %217 = stablehlo.slice %206 [0:262144, 96:112] : (tensor<262144x112xf32>) -> tensor<262144x16xf32> -/
def v217 (g174 : FVec Ideal S262144x120 .f32) (g183 : FVec Ideal S262144x120 .f32) (w134 : FVec Ideal S262144x120 .f32) (g191 : FVec Ideal S262144x112 .f32) : FVec Ideal S262144x16 .f32 :=
  extractStridedSlice S262144x16 ![0, 96] (v206 g174 g183 w134 g191) slices_S262144x112_S262144x16_0_96
/-- %218 = stablehlo.broadcast_in_dim %217, dims = [0, 1] : (tensor<262144x16xf32>) -> tensor<262144x16x1xf32> -/
def v218 (g174 : FVec Ideal S262144x120 .f32) (g183 : FVec Ideal S262144x120 .f32) (w134 : FVec Ideal S262144x120 .f32) (g191 : FVec Ideal S262144x112 .f32) : FVec Ideal S262144x16x1 .f32 :=
  broadcastInDim S262144x16x1 ![0, 1] bcast_S262144x16_S262144x16x1_0_1 (v217 g174 g183 w134 g191)
/-- %219 = stablehlo.broadcast_in_dim %218, dims = [0, 1, 2] : (tensor<262144x16x1xf32>) -> tensor<262144x16x1x5xf32> -/
def v219 (g174 : FVec Ideal S262144x120 .f32) (g183 : FVec Ideal S262144x120 .f32) (w134 : FVec Ideal S262144x120 .f32) (g191 : FVec Ideal S262144x112 .f32) : FVec Ideal S262144x16x1x5 .f32 :=
  broadcastInDim S262144x16x1x5 ![0, 1, 2] bcast_S262144x16x1_S262144x16x1x5_0_1_2 (v218 g174 g183 w134 g191)
/-- %220 = stablehlo.reshape %219 : (tensor<262144x16x1x5xf32>) -> tensor<262144x16x5xf32> -/
def v220 (g174 : FVec Ideal S262144x120 .f32) (g183 : FVec Ideal S262144x120 .f32) (w134 : FVec Ideal S262144x120 .f32) (g191 : FVec Ideal S262144x112 .f32) : FVec Ideal S262144x16x5 .f32 :=
  shapeCast S262144x16x5 (v219 g174 g183 w134 g191) shapeCasts_S262144x16x1x5_S262144x16x5
/-- %221 = stablehlo.reshape %220 : (tensor<262144x16x5xf32>) -> tensor<262144x80xf32> -/
def v221 (g174 : FVec Ideal S262144x120 .f32) (g183 : FVec Ideal S262144x120 .f32) (w134 : FVec Ideal S262144x120 .f32) (g191 : FVec Ideal S262144x112 .f32) : FVec Ideal S262144x80 .f32 :=
  shapeCast S262144x80 (v220 g174 g183 w134 g191) shapeCasts_S262144x16x5_S262144x80
/-- %222 = stablehlo.concatenate %211, %216, %221, dim = 1 : (tensor<262144x64xf32>, tensor<262144x96xf32>, tensor<262144x80xf32>) -> tensor<262144x240xf32> -/
def v222 (g174 : FVec Ideal S262144x120 .f32) (g183 : FVec Ideal S262144x120 .f32) (w134 : FVec Ideal S262144x120 .f32) (g191 : FVec Ideal S262144x112 .f32) : FVec Ideal S262144x240 .f32 :=
  concatenate S262144x240 1 [⟨S262144x64, (v211 g174 g183 w134 g191)⟩, ⟨S262144x96, (v216 g174 g183 w134 g191)⟩, ⟨S262144x80, (v221 g174 g183 w134 g191)⟩] concatenates_S262144x64_S262144x96_S262144x80_S262144x240_d1
/-- %223 = stablehlo.multiply %arg4, %222 : tensor<262144x240xf32> -/
def v223 (arg4 : FVec Ideal S262144x240 .f32) (g174 : FVec Ideal S262144x120 .f32) (g183 : FVec Ideal S262144x120 .f32) (w134 : FVec Ideal S262144x120 .f32) (g191 : FVec Ideal S262144x112 .f32) : FVec Ideal S262144x240 .f32 :=
  mulf arg4 (v222 g174 g183 w134 g191)
/-- %224 = stablehlo.broadcast_in_dim %arg3, dims = [0, 1] : (tensor<262144x1xf32>) -> tensor<262144x240xf32> -/
def v224 (arg3 : FVec Ideal S262144x1 .f32) : FVec Ideal S262144x240 .f32 :=
  broadcastInDim S262144x240 ![0, 1] bcast_S262144x1_S262144x240_0_1 arg3
/-- %225 = stablehlo.multiply %223, %224 : tensor<262144x240xf32> -/
def v225 (arg4 : FVec Ideal S262144x240 .f32) (arg3 : FVec Ideal S262144x1 .f32) (g174 : FVec Ideal S262144x120 .f32) (g183 : FVec Ideal S262144x120 .f32) (w134 : FVec Ideal S262144x120 .f32) (g191 : FVec Ideal S262144x112 .f32) : FVec Ideal S262144x240 .f32 :=
  mulf (v223 arg4 g174 g183 w134 g191) (v224 arg3)

/-- operations %175, %176, %184, %192 … %225: the equivariant message of every edge. -/
def msgEAll (arg4 : FVec Ideal S262144x240 .f32) (arg3 : FVec Ideal S262144x1 .f32) (g174 g183 w134 : FVec Ideal S262144x120 .f32)
    (g191 : FVec Ideal S262144x112 .f32) : FVec Ideal S262144x240 .f32 :=
  v225 arg4 arg3 g174 g183 w134 g191

end Cert.ReferenceIdeal.RefMid

end
-- ==== Proof.LibHostLastAxis.lean ====
/-
  Arrays of rows whose last axis is cut into blocks, read at an index given by coordinates.
  An [n, c] array of rows is handled block by block along its columns: a run of columns is sliced out, the run is
  regrouped as [n, a, b] (a blocks of b columns), a quantity is summed over each block's b columns, a per-block
  quantity [n, a] is spread back over the block's columns ([n, a] → [n, a, b], written with unit axes in between),
  and the blocks are flattened again ([n, a, b] → [n, a·b]). Each step is a
  reindexing (or a finite sum); at an index written by its coordinates it reads the operand at the evident index:
  column k of the run at offset off is column off + k; entry (p, i, j) of the regrouped run is column i·b + j.
-/
import Idealize.ShloMosaic.Lib.Pipeline.Value
import Idealize.ShloMosaic.Lib.ValueIdx
import Idealize.ShloMosaic.PureOps.Ideal.Laws

namespace Cert.Lib.HostLastAxis

open Idealize.ShloMosaic Idealize.ShloMosaic.ValueIdx

variable {α : Type}

/-! ## A run of columns -/

/-- Columns off … off + w - 1 of an [n, c] array: at (p, k) the array at (p, off + k). -/
theorem slice_cols_apply {n c w : ℕ} (off : ℕ) (x : (⟨2, ![n, c]⟩ : Shape).Idx → α)
    (h : (⟨2, ![n, c]⟩ : Shape).Slices ![0, off] ⟨2, ![n, w]⟩) (p : Fin n) (k : Fin w) (r : Fin c)
    (hr : r.val = off + k.val) :
    extractStridedSlice (⟨2, ![n, w]⟩ : Shape) ![0, off] x h (ix2 p k) = x (ix2 p r) :=
  extractStridedSlice_apply _ x h (ix2 p k) (ix2 p r) fun a => by
    match a with
    | ⟨0, _⟩ => exact (Nat.zero_add _).symm
    | ⟨1, _⟩ => exact hr

/-! ## Regrouping the last axis -/

/-- An [n, m] array regrouped as [n, a, b]: at (p, i, j) the array at (p, r), r = i·b + j. -/
theorem shapeCast_split_apply {n m a b : ℕ} (x : (⟨2, ![n, m]⟩ : Shape).Idx → α)
    (h : (⟨2, ![n, m]⟩ : Shape).ShapeCasts ⟨3, ![n, a, b]⟩) (hm : m = a * b) (p : Fin n) (i : Fin a) (j : Fin b) (r : Fin m)
    (hr : r.val = i.val * b + j.val) :
    shapeCast (⟨3, ![n, a, b]⟩ : Shape) x h (ix3 p i j) = x (ix2 p r) :=
  shapeCast_apply x h _ _ (by
    rw [Shape.rowMajor_val_two, Shape.rowMajor_val_three]
    show p.val * m + r.val = (p.val * a + i.val) * b + j.val
    rw [hr, hm, Nat.add_mul, Nat.mul_assoc, Nat.add_assoc])

/-- An [n, a, b] array flattened to [n, m]: at (p, r), r = i·b + j, the array at (p, i, j). -/
theorem shapeCast_merge_apply {n m a b : ℕ} (x : (⟨3, ![n, a, b]⟩ : Shape).Idx → α)
    (h : (⟨3, ![n, a, b]⟩ : Shape).ShapeCasts ⟨2, ![n, m]⟩) (hm : m = a * b) (p : Fin n) (r : Fin m) (i : Fin a) (j : Fin b)
    (hr : r.val = i.val * b + j.val) :
    shapeCast (⟨2, ![n, m]⟩ : Shape) x h (ix2 p r) = x (ix3 p i j) :=
  shapeCast_apply x h _ _ (by
    rw [Shape.rowMajor_val_two, Shape.rowMajor_val_three]
    show (p.val * a + i.val) * b + j.val = p.val * m + r.val
    rw [hr, hm, Nat.add_mul, Nat.mul_assoc, Nat.add_assoc])

/-- An [n, a, 1, b] array with its unit axis dropped: at (p, i, j) the array at (p, i, 0, j). -/
theorem shapeCast_dropMid_apply {n a b : ℕ} (x : (⟨4, ![n, a, 1, b]⟩ : Shape).Idx → α)
    (h : (⟨4, ![n, a, 1, b]⟩ : Shape).ShapeCasts ⟨3, ![n, a, b]⟩) (p : Fin n) (i : Fin a) (j : Fin b) :
    shapeCast (⟨3, ![n, a, b]⟩ : Shape) x h (ix3 p i j) = x (ix4 p i (0 : Fin 1) j) :=
  shapeCast_apply x h _ _ (by
    rw [Shape.rowMajor_val_three, Shape.rowMajor_val_four]
    show ((p.val * a + i.val) * 1 + 0) * b + j.val = (p.val * a + i.val) * b + j.val
    rw [Nat.mul_one, Nat.add_zero])

/-! ## Sums over the last axis -/

/-- The index of entry k of block (p, i), as the reduction's own bookkeeping spells it, is (p, i, k). -/
theorem lift_last {n a b : ℕ} (h : Shape.Reduces ⟨3, ![n, a, b]⟩ [2] ⟨2, ![n, a]⟩) (p : Fin n) (i : Fin a) (k : Fin b) :
    h.lift (ix2 p i) k = ix3 p i k :=
  funext fun c => Fin.ext (by match c with | ⟨0, _⟩ => rfl | ⟨1, _⟩ => rfl | ⟨2, _⟩ => rfl)

/-- A host sum over the last axis of an [n, a, b] array, started from the zero word, read at (p, i): the sum of the
    block's entries. -/
theorem hostReduceAdd_last_apply {n a b : ℕ} (x : FVec Ideal ⟨3, ![n, a, b]⟩ .f32)
    (h' : Shape.ReducesTo ⟨3, ![n, a, b]⟩ [2] ⟨2, ![n, a]⟩) (h : Shape.Reduces ⟨3, ![n, a, b]⟩ [2] ⟨2, ![n, a]⟩)
    (hu : 0 < (⟨0, ![]⟩ : Shape).numel) (p : Fin n) (i : Fin a) :
    Host.reduceAdd x (constant (F := Ideal) ⟨0, ![]⟩ .f32 0x00000000#32) h' hu (ix2 p i) = ∑ k : Fin b, x (ix3 p i k) := by
  show Ideal.hostReduceAdd h' x (Ideal.ofBits .f32 0x00000000#32) (ix2 p i) = _
  rw [Ideal.hostReduceAdd_single h' h x _ (ix2 p i), Ideal.ofBits_zero_f32, zero_add]
  exact Finset.sum_congr rfl fun k _ => congrArg x (lift_last h p i k)

/-! ## Spreading over trailing axes -/

/-- A host broadcast of an [n, a] array along a new last axis ([n, a, b], axes 0 and 1 kept): at (p, i, k) the array at (p, i). -/
theorem broadcastInDim_na_nab_apply {n a b : ℕ} (x : (⟨2, ![n, a]⟩ : Shape).Idx → α)
    (h : (⟨2, ![n, a]⟩ : Shape).BroadcastsInDim ⟨3, ![n, a, b]⟩ ![0, 1]) (p : Fin n) (i : Fin a) (k : Fin b) :
    broadcastInDim (⟨3, ![n, a, b]⟩ : Shape) ![0, 1] h x (ix3 p i k) = x (ix2 p i) := by
  refine broadcastInDim_apply _ h x (ix3 p i k) (ix2 p i) fun ax => ?_
  match ax with
  | ⟨0, _⟩ =>
    show p.val = if n = 1 then 0 else p.val
    split
    · have := p.isLt; omega
    · rfl
  | ⟨1, _⟩ =>
    show i.val = if a = 1 then 0 else i.val
    split
    · have := i.isLt; omega
    · rfl

/-- A host broadcast of an [n, a, 1] array over its unit axis ([n, a, b], axes kept in place): at (p, i, k) the array at (p, i, 0). -/
theorem broadcastInDim_na1_nab_apply {n a b : ℕ} (x : (⟨3, ![n, a, 1]⟩ : Shape).Idx → α)
    (h : (⟨3, ![n, a, 1]⟩ : Shape).BroadcastsInDim ⟨3, ![n, a, b]⟩ ![0, 1, 2]) (p : Fin n) (i : Fin a) (k : Fin b) :
    broadcastInDim (⟨3, ![n, a, b]⟩ : Shape) ![0, 1, 2] h x (ix3 p i k) = x (ix3 p i (0 : Fin 1)) := by
  refine broadcastInDim_apply _ h x (ix3 p i k) (ix3 p i (0 : Fin 1)) fun ax => ?_
  match ax with
  | ⟨0, _⟩ =>
    show p.val = if n = 1 then 0 else p.val
    split
    · have := p.isLt; omega
    · rfl
  | ⟨1, _⟩ =>
    show i.val = if a = 1 then 0 else i.val
    split
    · have := i.isLt; omega
    · rfl
  | ⟨2, _⟩ => exact (if_pos rfl).symm

/-- A host broadcast of an [n, a, 1] array along a new last axis ([n, a, 1, b], axes kept in place): at (p, i, u, k) the array at (p, i, 0). -/
theorem broadcastInDim_na1_na1b_apply {n a b : ℕ} (x : (⟨3, ![n, a, 1]⟩ : Shape).Idx → α)
    (h : (⟨3, ![n, a, 1]⟩ : Shape).BroadcastsInDim ⟨4, ![n, a, 1, b]⟩ ![0, 1, 2]) (p : Fin n) (i : Fin a) (u : Fin 1) (k : Fin b) :
    broadcastInDim (⟨4, ![n, a, 1, b]⟩ : Shape) ![0, 1, 2] h x (ix4 p i u k) = x (ix3 p i (0 : Fin 1)) := by
  refine broadcastInDim_apply _ h x (ix4 p i u k) (ix3 p i (0 : Fin 1)) fun ax => ?_
  match ax with
  | ⟨0, _⟩ =>
    show p.val = if n = 1 then 0 else p.val
    split
    · have := p.isLt; omega
    · rfl
  | ⟨1, _⟩ =>
    show i.val = if a = 1 then 0 else i.val
    split
    · have := i.isLt; omega
    · rfl
  | ⟨2, _⟩ => exact (if_pos rfl).symm

/-! ## A per-block quantity spread over the block's columns -/

/-- Columns off … off + a - 1 of an [n, c] array, one per block, spread over blocks of b columns: the run is given a
    unit axis ([n, a, 1]), repeated along a new last axis ([n, a, 1, b]), the unit axis dropped ([n, a, b]) and the
    blocks flattened ([n, m], m = a·b). At (p, r) with r = q·b + t it reads the array at (p, off + q). -/
theorem spread_apply {n c a b m : ℕ} (off : ℕ) (g : (⟨2, ![n, c]⟩ : Shape).Idx → α)
    (hs : (⟨2, ![n, c]⟩ : Shape).Slices ![0, off] ⟨2, ![n, a]⟩)
    (h1 : (⟨2, ![n, a]⟩ : Shape).BroadcastsInDim ⟨3, ![n, a, 1]⟩ ![0, 1])
    (h2 : (⟨3, ![n, a, 1]⟩ : Shape).BroadcastsInDim ⟨4, ![n, a, 1, b]⟩ ![0, 1, 2])
    (h3 : (⟨4, ![n, a, 1, b]⟩ : Shape).ShapeCasts ⟨3, ![n, a, b]⟩)
    (h4 : (⟨3, ![n, a, b]⟩ : Shape).ShapeCasts ⟨2, ![n, m]⟩) (hm : m = a * b)
    (p : Fin n) (r : Fin m) (q : Fin a) (t : Fin b) (hr : r.val = q.val * b + t.val) (s : Fin c) (hsv : s.val = off + q.val) :
    shapeCast (⟨2, ![n, m]⟩ : Shape)
        (shapeCast (⟨3, ![n, a, b]⟩ : Shape)
          (broadcastInDim (⟨4, ![n, a, 1, b]⟩ : Shape) ![0, 1, 2] h2
            (broadcastInDim (⟨3, ![n, a, 1]⟩ : Shape) ![0, 1] h1 (extractStridedSlice (⟨2, ![n, a]⟩ : Shape) ![0, off] g hs))) h3) h4
        (ix2 p r)
      = g (ix2 p s) :=
  (shapeCast_merge_apply _ h4 hm p r q t hr).trans <|
    (shapeCast_dropMid_apply _ h3 p q t).trans <|
      (broadcastInDim_na1_na1b_apply _ h2 p q (0 : Fin 1) t).trans <|
        (broadcastInDim_na_nab_apply _ h1 p q (0 : Fin 1)).trans (slice_cols_apply off g hs p q s hsv)

end Cert.Lib.HostLastAxis
-- ==== Proof.RefMidFilt.lean ====
/-
  The filter weights of one edge, read off the reference's operations %101 … %134.

  For edge e and channel j the array the operations compute holds, at (e, j), the number the edge's mathematics names:
  the squared norms of the irreducible blocks of the edge's row of the difference array (a run of columns regrouped
  into blocks, squared, summed over each block), laid side by side into the 112 invariants; a two-layer network on
  them and another on the radial basis (each layer a matrix product plus a bias row, x · 1/(1 + exp (-x)) between the
  layers, which is x · logistic x); their sum times the edge's cutoff.
-/
import proofs.«145672_j73899207295099_1_alg».proof.Proof.RefMidDefs
import proofs.«145672_j73899207295099_1_alg».proof.Proof.EdgeSpec
import proofs.«145672_j73899207295099_1_alg».proof.Proof.LibHostLastAxis
import proofs.«145672_j73899207295099_1_alg».proof.Proof.LibConcat3
import proofs.«145672_j73899207295099_1_alg».proof.Proof.LibMatmulPlain
import proofs.«145672_j73899207295099_1_alg».proof.Proof.LibKeepdims
import Idealize.ShloMosaic.Lib.IdealHost

set_option pp.maxSteps 5000
set_option pp.deepTerms false

noncomputable section

namespace Cert.ReferenceIdeal.RefMid

open Cert.ReferenceIdeal Cert.ReferenceIdeal.Gen Idealize.ShloMosaic Idealize.ShloMosaic.ValueIdx
open Cert.Lib

/-! ## The squared norms of the blocks -/

theorem reduces_64x1 : Shape.Reduces S262144x64x1 [2] S262144x64 := by decide
theorem reduces_32x3 : Shape.Reduces S262144x32x3 [2] S262144x32 := by decide
theorem reduces_16x5 : Shape.Reduces S262144x16x5 [2] S262144x16 := by decide

/-- %101 … %104 at (e, k): the squared norm of the k-th one-component block. -/
theorem v104_apply (x100 : FVec Ideal S262144x240 .f32) (e : Fin 262144) (k : Fin 64) :
    v104 x100 (ix2 e k) = Cert.EdgeSpec.inv0 (fun a => x100 (ix2 e a)) k := by
  unfold v104
  refine (HostLastAxis.hostReduceAdd_last_apply (v103 x100) _ reduces_64x1 _ e k).trans ?_
  unfold Cert.EdgeSpec.inv0
  refine Finset.sum_congr rfl fun t _ => ?_
  have hlt : k.val * 1 + t.val < 64 := by have := k.isLt; have := t.isLt; omega
  have h2 : v102 x100 (ix3 e k t) = x100 (ix2 e ⟨k.val * 1 + t.val, by omega⟩) := by
    unfold v102
    refine (HostLastAxis.shapeCast_split_apply (v101 x100) _ rfl e k t ⟨k.val * 1 + t.val, hlt⟩ rfl).trans ?_
    unfold v101
    exact HostLastAxis.slice_cols_apply 0 x100 _ e _ _ (Nat.zero_add _).symm
  show v102 x100 (ix3 e k t) * v102 x100 (ix3 e k t) = _
  rw [h2]

/-- %105 … %108 at (e, k): the squared norm of the k-th three-component block. -/
theorem v108_apply (x100 : FVec Ideal S262144x240 .f32) (e : Fin 262144) (k : Fin 32) :
    v108 x100 (ix2 e k) = Cert.EdgeSpec.inv1 (fun a => x100 (ix2 e a)) k := by
  unfold v108
  refine (HostLastAxis.hostReduceAdd_last_apply (v107 x100) _ reduces_32x3 _ e k).trans ?_
  unfold Cert.EdgeSpec.inv1
  refine Finset.sum_congr rfl fun t _ => ?_
  have hlt : k.val * 3 + t.val < 96 := by have := k.isLt; have := t.isLt; omega
  have h2 : v106 x100 (ix3 e k t) = x100 (ix2 e ⟨64 + (k.val * 3 + t.val), by omega⟩) := by
    unfold v106
    refine (HostLastAxis.shapeCast_split_apply (v105 x100) _ rfl e k t ⟨k.val * 3 + t.val, hlt⟩ rfl).trans ?_
    unfold v105
    exact HostLastAxis.slice_cols_apply 64 x100 _ e _ _ rfl
  show v106 x100 (ix3 e k t) * v106 x100 (ix3 e k t) = _
  rw [h2]

/-- %109 … %112 at (e, k): the squared norm of the k-th five-component block. -/
theorem v112_apply (x100 : FVec Ideal S262144x240 .f32) (e : Fin 262144) (k : Fin 16) :
    v112 x100 (ix2 e k) = Cert.EdgeSpec.inv2 (fun a => x100 (ix2 e a)) k := by
  unfold v112
  refine (HostLastAxis.hostReduceAdd_last_apply (v111 x100) _ reduces_16x5 _ e k).trans ?_
  unfold Cert.EdgeSpec.inv2
  refine Finset.sum_congr rfl fun t _ => ?_
  have hlt : k.val * 5 + t.val < 80 := by have := k.isLt; have := t.isLt; omega
  have h2 : v110 x100 (ix3 e k t) = x100 (ix2 e ⟨160 + (k.val * 5 + t.val), by omega⟩) := by
    unfold v110
    refine (HostLastAxis.shapeCast_split_apply (v109 x100) _ rfl e k t ⟨k.val * 5 + t.val, hlt⟩ rfl).trans ?_
    unfold v109
    exact HostLastAxis.slice_cols_apply 160 x100 _ e _ _ rfl
  show v110 x100 (ix3 e k t) * v110 x100 (ix3 e k t) = _
  rw [h2]

/-- %113 at (e, i): the i-th invariant. -/
theorem v113_apply (x100 : FVec Ideal S262144x240 .f32) (e : Fin 262144) (i : Fin 112) :
    v113 x100 (ix2 e i) = Cert.EdgeSpec.inv (fun a => x100 (ix2 e a)) i := by
  unfold v113 Cert.EdgeSpec.inv
  by_cases h1 : i.val < 64
  · rw [dif_pos h1]
    exact (Concat3.concatenate3_axis1_fst (v104 x100) (v108 x100) (v112 x100) _ e i ⟨i.val, h1⟩ rfl).trans
      (v104_apply x100 e _)
  · rw [dif_neg h1]
    by_cases h2 : i.val < 96
    · rw [dif_pos h2]
      exact (Concat3.concatenate3_axis1_snd (v104 x100) (v108 x100) (v112 x100) _ e i ⟨i.val - 64, by omega⟩
        (by show 64 + (i.val - 64) = i.val; omega)).trans (v108_apply x100 e _)
    · rw [dif_neg h2]
      exact (Concat3.concatenate3_axis1_thd (v104 x100) (v108 x100) (v112 x100) _ e i
        ⟨i.val - 96, by have := i.isLt; omega⟩ (by show 64 + 32 + (i.val - 96) = i.val; omega)).trans (v112_apply x100 e _)

/-! ## A layer: a matrix product plus a bias row -/

theorem dot112_apply (l : FVec Ideal S262144x112 .f32) (r : FVec Ideal S112x120 .f32) (e : Fin 262144) (k : Fin 120) :
    Host.dotGeneral dot_S262144x112_S112x120_S262144x120_1_0_0_1_n_n none l r (ix2 e k)
      = ∑ i : Fin 112, l (ix2 e i) * r (ix2 i k) :=
  MatmulPlain.dotGeneral_apply dot_S262144x112_S112x120_S262144x120_1_0_0_1_n_n_wf none l r e k

theorem dot120_apply (l : FVec Ideal S262144x120 .f32) (r : FVec Ideal S120x120 .f32) (e : Fin 262144) (k : Fin 120) :
    Host.dotGeneral dot_S262144x120_S120x120_S262144x120_1_0_0_1_n_n none l r (ix2 e k)
      = ∑ i : Fin 120, l (ix2 e i) * r (ix2 i k) :=
  MatmulPlain.dotGeneral_apply dot_S262144x120_S120x120_S262144x120_1_0_0_1_n_n_wf none l r e k

theorem dot20_apply (l : FVec Ideal S262144x20 .f32) (r : FVec Ideal S20x120 .f32) (e : Fin 262144) (k : Fin 120) :
    Host.dotGeneral dot_S262144x20_S20x120_S262144x120_1_0_0_1_n_n none l r (ix2 e k)
      = ∑ i : Fin 20, l (ix2 e i) * r (ix2 i k) :=
  MatmulPlain.dotGeneral_apply dot_S262144x20_S20x120_S262144x120_1_0_0_1_n_n_wf none l r e k

/-- A bias vector laid as a row and repeated over the edges reads, at (e, k), the vector at k. -/
theorem bias_apply (b : FVec Ideal S120 .f32) (e : Fin 262144) (k : Fin 120) :
    broadcastInDim S262144x120 ![0, 1] bcast_S1x120_S262144x120_0_1 (broadcastInDim S1x120 ![1] bcast_S120_S1x120_1 b) (ix2 e k)
      = b (ix1 k) :=
  (Keepdims.broadcastInDim_1b_ab_apply _ _ e k).trans (Keepdims.broadcastInDim_b_1b_apply b _ 0 k)

/-- @silu at (e, k): x · logistic x of the argument there. -/
theorem siluAll_apply (t : FVec Ideal S262144x120 .f32) (e : Fin 262144) (k : Fin 120) :
    siluAll t (ix2 e k) = Cert.EdgeSpec.silu (t (ix2 e k)) := by
  have h1 : broadcastInDim S262144x120 ![] bcast_S_S262144x120 (constant (F := Ideal) S_ .f32 0x3F800000#32) (ix2 e k) = 1 :=
    (Keepdims.broadcastInDim_scalar_apply _ _ _).trans Ideal.ofBits_one_f32
  show t (ix2 e k) * Ideal.div
      (broadcastInDim S262144x120 ![] bcast_S_S262144x120 (constant (F := Ideal) S_ .f32 0x3F800000#32) (ix2 e k))
      (broadcastInDim S262144x120 ![] bcast_S_S262144x120 (constant (F := Ideal) S_ .f32 0x3F800000#32) (ix2 e k)
        + Ideal.exp (-(t (ix2 e k)))) = _
  rw [h1]
  rfl

/-! ## The two networks and the filter -/

/-- The weights of the two filter networks, as the arrays hold them. -/
def weightsOfRef (arg18 : FVec Ideal S112x120 .f32) (arg19 : FVec Ideal S120 .f32) (arg20 : FVec Ideal S120x120 .f32)
    (arg21 : FVec Ideal S120 .f32) (arg14 : FVec Ideal S20x120 .f32) (arg15 : FVec Ideal S120 .f32)
    (arg16 : FVec Ideal S120x120 .f32) (arg17 : FVec Ideal S120 .f32) : Cert.EdgeSpec.Weights :=
  ⟨fun i k => arg18 (ix2 i k), fun k => arg19 (ix1 k), fun i k => arg20 (ix2 i k), fun k => arg21 (ix1 k),
    fun i k => arg14 (ix2 i k), fun k => arg15 (ix1 k), fun i k => arg16 (ix2 i k), fun k => arg17 (ix1 k)⟩

/-- %114 … %117 at (e, k): the hidden unit k of the invariants' network. -/
theorem v117_apply (x100 : FVec Ideal S262144x240 .f32) (arg18 : FVec Ideal S112x120 .f32) (arg19 : FVec Ideal S120 .f32)
    (e : Fin 262144) (k : Fin 120) :
    v117 x100 arg18 arg19 (ix2 e k)
      = Cert.EdgeSpec.hidden (Cert.EdgeSpec.inv fun a => x100 (ix2 e a)) (fun i k => arg18 (ix2 i k)) (fun k => arg19 (ix1 k)) k := by
  unfold v117 v114 v116 v115 Cert.EdgeSpec.hidden
  show Host.dotGeneral _ none (v113 x100) arg18 (ix2 e k) + broadcastInDim _ _ _ (broadcastInDim _ _ _ arg19) (ix2 e k) = _
  rw [dot112_apply, bias_apply]
  exact congrArg (· + arg19 (ix1 k)) (Finset.sum_congr rfl fun i _ => by rw [v113_apply])

/-- %119 … %122 at (e, j): the invariants' network. -/
theorem v122_apply (x100 : FVec Ideal S262144x240 .f32) (arg18 : FVec Ideal S112x120 .f32) (arg19 : FVec Ideal S120 .f32)
    (arg20 : FVec Ideal S120x120 .f32) (arg21 : FVec Ideal S120 .f32) (e : Fin 262144) (j : Fin 120) :
    v122 x100 arg18 arg19 arg20 arg21 (ix2 e j)
      = Cert.EdgeSpec.mlp (Cert.EdgeSpec.inv fun a => x100 (ix2 e a)) (fun i k => arg18 (ix2 i k)) (fun k => arg19 (ix1 k))
          (fun i k => arg20 (ix2 i k)) (fun k => arg21 (ix1 k)) j := by
  unfold v122 v119 v121 v120 v118 Cert.EdgeSpec.mlp
  show Host.dotGeneral _ none (siluAll (v117 x100 arg18 arg19)) arg20 (ix2 e j)
    + broadcastInDim _ _ _ (broadcastInDim _ _ _ arg21) (ix2 e j) = _
  rw [dot120_apply, bias_apply]
  exact congrArg (· + arg21 (ix1 j)) (Finset.sum_congr rfl fun k _ => by rw [siluAll_apply, v117_apply])

/-- %123 … %126 at (e, k): the hidden unit k of the radial basis' network. -/
theorem v126_apply (arg2 : FVec Ideal S262144x20 .f32) (arg14 : FVec Ideal S20x120 .f32) (arg15 : FVec Ideal S120 .f32)
    (e : Fin 262144) (k : Fin 120) :
    v126 arg2 arg14 arg15 (ix2 e k)
      = Cert.EdgeSpec.hidden (fun a => arg2 (ix2 e a)) (fun i k => arg14 (ix2 i k)) (fun k => arg15 (ix1 k)) k := by
  unfold v126 v123 v125 v124 Cert.EdgeSpec.hidden
  show Host.dotGeneral _ none arg2 arg14 (ix2 e k) + broadcastInDim _ _ _ (broadcastInDim _ _ _ arg15) (ix2 e k) = _
  rw [dot20_apply, bias_apply]

/-- %128 … %131 at (e, j): the radial basis' network. -/
theorem v131_apply (arg2 : FVec Ideal S262144x20 .f32) (arg14 : FVec Ideal S20x120 .f32) (arg15 : FVec Ideal S120 .f32)
    (arg16 : FVec Ideal S120x120 .f32) (arg17 : FVec Ideal S120 .f32) (e : Fin 262144) (j : Fin 120) :
    v131 arg2 arg14 arg15 arg16 arg17 (ix2 e j)
      = Cert.EdgeSpec.mlp (fun a => arg2 (ix2 e a)) (fun i k => arg14 (ix2 i k)) (fun k => arg15 (ix1 k))
          (fun i k => arg16 (ix2 i k)) (fun k => arg17 (ix1 k)) j := by
  unfold v131 v128 v130 v129 v127 Cert.EdgeSpec.mlp
  show Host.dotGeneral _ none (siluAll (v126 arg2 arg14 arg15)) arg16 (ix2 e j)
    + broadcastInDim _ _ _ (broadcastInDim _ _ _ arg17) (ix2 e j) = _
  rw [dot120_apply, bias_apply]
  exact congrArg (· + arg17 (ix1 j)) (Finset.sum_congr rfl fun k _ => by rw [siluAll_apply, v126_apply])

/-- THE FILTER WEIGHTS: operations %101 … %134 at (e, j). -/
theorem filtAll_apply (x100 : FVec Ideal S262144x240 .f32) (arg2 : FVec Ideal S262144x20 .f32) (arg3 : FVec Ideal S262144x1 .f32)
    (arg18 : FVec Ideal S112x120 .f32) (arg19 : FVec Ideal S120 .f32) (arg20 : FVec Ideal S120x120 .f32) (arg21 : FVec Ideal S120 .f32)
    (arg14 : FVec Ideal S20x120 .f32) (arg15 : FVec Ideal S120 .f32) (arg16 : FVec Ideal S120x120 .f32) (arg17 : FVec Ideal S120 .f32)
    (e : Fin 262144) (j : Fin 120) :
    filtAll x100 arg2 arg3 arg18 arg19 arg20 arg21 arg14 arg15 arg16 arg17 (ix2 e j)
      = Cert.EdgeSpec.filt (weightsOfRef arg18 arg19 arg20 arg21 arg14 arg15 arg16 arg17) (fun a => x100 (ix2 e a))
          (fun a => arg2 (ix2 e a)) (arg3 (ix2 e 0)) j := by
  unfold filtAll v134 v132 v133 Cert.EdgeSpec.filt weightsOfRef
  show (v122 x100 arg18 arg19 arg20 arg21 (ix2 e j) + v131 arg2 arg14 arg15 arg16 arg17 (ix2 e j))
    * broadcastInDim S262144x120 ![0, 1] bcast_S262144x1_S262144x120_0_1 arg3 (ix2 e j) = _
  rw [v122_apply, v131_apply, Keepdims.broadcastInDim_a1_ab_apply]

end Cert.ReferenceIdeal.RefMid

end
-- ==== Proof.RefMidS.lean ====
/-
  The scalar message of one edge, read off the reference's operations %142 … %167.

  The 120 channels are four heads of thirty. For head h the products of the gathered query projection, the filter
  weights and the gathered key projection are summed over the head's thirty channels and scaled by a constant: the
  head's attention weight, kept as an [edges, 4, 1] column and spread back over the thirty channels, where it multiplies
  the gathered value projection. Channel j lies in head j / 30 at place j mod 30.
-/
import proofs.«145672_j73899207295099_1_alg».proof.Proof.RefMidDefs
import proofs.«145672_j73899207295099_1_alg».proof.Proof.EdgeSpec
import proofs.«145672_j73899207295099_1_alg».proof.Proof.LibHostLastAxis
import proofs.«145672_j73899207295099_1_alg».proof.Proof.LibKeepdims

set_option pp.maxSteps 5000
set_option pp.deepTerms false

noncomputable section

namespace Cert.ReferenceIdeal.RefMid

open Cert.ReferenceIdeal Cert.ReferenceIdeal.Gen Idealize.ShloMosaic Idealize.ShloMosaic.ValueIdx
open Cert.Lib

theorem reduces_4x30 : Shape.Reduces S262144x4x30 [2] S262144x4 := by decide

/-- The scale of the scalar attention weights: the value of the program's constant. -/
abbrev cS : EReal := Ideal.ofBits .f32 0x3DBAF4BA#32

/-- Channel h·30 + a of a 120-channel row, as entry (h, a) of the row regrouped in four heads. -/
theorem split30_apply (x : FVec Ideal S262144x120 .f32) (e : Fin 262144) (h : Fin 4) (a : Fin 30) :
    shapeCast S262144x4x30 x shapeCasts_S262144x120_S262144x4x30 (ix3 e h a)
      = x (ix2 e ⟨h.val * 30 + a.val, by have := h.isLt; have := a.isLt; omega⟩) :=
  HostLastAxis.shapeCast_split_apply x _ rfl e h a _ rfl

/-- %142 … %164 at (e, h, 0): the attention weight of head h. -/
theorem v164_apply (g141 g150 w134 : FVec Ideal S262144x120 .f32) (e : Fin 262144) (h : Fin 4) :
    v164 g141 g150 w134 (ix3 e h (0 : Fin 1))
      = Cert.EdgeSpec.attnS cS (fun a => g141 (ix2 e a)) (fun a => g150 (ix2 e a)) (fun a => w134 (ix2 e a)) h := by
  unfold v164 v162 v163 Cert.EdgeSpec.attnS
  show broadcastInDim S262144x4x1 ![0, 1] bcast_S262144x4_S262144x4x1_0_1 (v161 g141 g150 w134) (ix3 e h (0 : Fin 1))
      * broadcastInDim S262144x4x1 ![] bcast_S_S262144x4x1 (constant (F := Ideal) S_ .f32 0x3DBAF4BA#32) (ix3 e h (0 : Fin 1)) = _
  rw [HostLastAxis.broadcastInDim_na_nab_apply, Keepdims.broadcastInDim_scalar_apply]
  refine congrArg (· * cS) ?_
  unfold v161
  refine (HostLastAxis.hostReduceAdd_last_apply (v160 g141 g150 w134) _ reduces_4x30 _ e h).trans ?_
  refine Finset.sum_congr rfl fun a _ => ?_
  unfold v160 v143 v151 v142
  show shapeCast S262144x4x30 (mulf g141 w134) shapeCasts_S262144x120_S262144x4x30 (ix3 e h a)
      * shapeCast S262144x4x30 g150 shapeCasts_S262144x120_S262144x4x30 (ix3 e h a) = _
  rw [split30_apply, split30_apply]
  rfl

/-- THE SCALAR MESSAGE: operations %142, %143, %151, %159 … %167 at (e, j). -/
theorem msgSAll_apply (g141 g150 g158 w134 : FVec Ideal S262144x120 .f32) (e : Fin 262144) (j : Fin 120) :
    msgSAll g141 g150 g158 w134 (ix2 e j)
      = Cert.EdgeSpec.msgS cS (fun a => g141 (ix2 e a)) (fun a => g150 (ix2 e a)) (fun a => g158 (ix2 e a))
          (fun a => w134 (ix2 e a)) j := by
  have hq : j.val / 30 < 4 := by have := j.isLt; omega
  have hr : j.val % 30 < 30 := Nat.mod_lt _ (by decide)
  unfold msgSAll v167 Cert.EdgeSpec.msgS
  refine (HostLastAxis.shapeCast_merge_apply (v166 g141 g150 g158 w134) _ rfl e j ⟨j.val / 30, hq⟩ ⟨j.val % 30, hr⟩
    (by show j.val = j.val / 30 * 30 + j.val % 30; omega)).trans ?_
  unfold v166 v165 v159
  show broadcastInDim S262144x4x30 ![0, 1, 2] bcast_S262144x4x1_S262144x4x30_0_1_2 (v164 g141 g150 w134)
        (ix3 e ⟨j.val / 30, hq⟩ ⟨j.val % 30, hr⟩)
      * shapeCast S262144x4x30 g158 shapeCasts_S262144x120_S262144x4x30 (ix3 e ⟨j.val / 30, hq⟩ ⟨j.val % 30, hr⟩) = _
  rw [HostLastAxis.broadcastInDim_na1_nab_apply, v164_apply, split30_apply]
  exact congrArg (fun r => _ * g158 (ix2 e r)) (Fin.ext (by show j.val / 30 * 30 + j.val % 30 = j.val; omega))

end Cert.ReferenceIdeal.RefMid

end
-- ==== Proof.RefMidE.lean ====
/-
  The equivariant message of one edge, read off the reference's operations %175 … %225.

  The 120 channels are three degrees of forty. For degree l the products of the gathered query projection, the filter
  weights and the gathered key projection are summed over the degree's forty channels and scaled by a constant: the
  degree's attention weight. Each of the 112 irreducible blocks takes the weight of its degree (64 blocks of degree 0,
  32 of degree 1, 16 of degree 2, laid side by side) times its gathered value projection: the block's gate. Each gate
  is spread over its block's components (1, 3 or 5 of them), the three runs laid side by side into 240 components,
  which multiply the spherical harmonics and the cutoff.
-/
import proofs.«145672_j73899207295099_1_alg».proof.Proof.RefMidDefs
import proofs.«145672_j73899207295099_1_alg».proof.Proof.EdgeSpec
import proofs.«145672_j73899207295099_1_alg».proof.Proof.LibHostLastAxis
import proofs.«145672_j73899207295099_1_alg».proof.Proof.LibConcat3
import proofs.«145672_j73899207295099_1_alg».proof.Proof.LibKeepdims

set_option pp.maxSteps 5000
set_option pp.deepTerms false

noncomputable section

namespace Cert.ReferenceIdeal.RefMid

open Cert.ReferenceIdeal Cert.ReferenceIdeal.Gen Idealize.ShloMosaic Idealize.ShloMosaic.ValueIdx
open Cert.Lib

theorem reduces_3x40 : Shape.Reduces S262144x3x40 [2] S262144x3 := by decide

/-- The scale of the equivariant attention weights: the value of the program's constant. -/
abbrev cE : EReal := Ideal.ofBits .f32 0x3DC1848F#32

/-- Channel l·40 + a of a 120-channel row, as entry (l, a) of the row regrouped in three degrees. -/
theorem split40_apply (x : FVec Ideal S262144x120 .f32) (e : Fin 262144) (l : Fin 3) (a : Fin 40) :
    shapeCast S262144x3x40 x shapeCasts_S262144x120_S262144x3x40 (ix3 e l a)
      = x (ix2 e ⟨l.val * 40 + a.val, by have := l.isLt; have := a.isLt; omega⟩) :=
  HostLastAxis.shapeCast_split_apply x _ rfl e l a _ rfl

/-- %175 … %195 at (e, l): the attention weight of degree l. -/
theorem v195_apply (g174 g183 w134 : FVec Ideal S262144x120 .f32) (e : Fin 262144) (l : Fin 3) :
    v195 g174 g183 w134 (ix2 e l)
      = Cert.EdgeSpec.attnE cE (fun a => g174 (ix2 e a)) (fun a => g183 (ix2 e a)) (fun a => w134 (ix2 e a)) l := by
  unfold v195 v194 Cert.EdgeSpec.attnE
  show v193 g174 g183 w134 (ix2 e l)
      * broadcastInDim S262144x3 ![] bcast_S_S262144x3 (constant (F := Ideal) S_ .f32 0x3DC1848F#32) (ix2 e l) = _
  rw [Keepdims.broadcastInDim_scalar_apply]
  refine congrArg (· * cE) ?_
  unfold v193
  refine (HostLastAxis.hostReduceAdd_last_apply (v192 g174 g183 w134) _ reduces_3x40 _ e l).trans ?_
  refine Finset.sum_congr rfl fun a _ => ?_
  unfold v192 v176 v184 v175
  show shapeCast S262144x3x40 (mulf g174 w134) shapeCasts_S262144x120_S262144x3x40 (ix3 e l a)
      * shapeCast S262144x3x40 g183 shapeCasts_S262144x120_S262144x3x40 (ix3 e l a) = _
  rw [split40_apply, split40_apply]
  rfl

/-- One degree's weight repeated over that degree's blocks: column l of an [edges, 3] array, given a new last axis of
    b entries and flattened, reads at (e, k) the array at (e, l). -/
theorem repeat_apply {b : ℕ} (l : ℕ) (x : FVec Ideal S262144x3 .f32)
    (hs : S262144x3.Slices ![0, l] S262144x1) (hb : S262144x1.BroadcastsInDim ⟨3, ![262144, 1, b]⟩ ![0, 1])
    (hc : (⟨3, ![262144, 1, b]⟩ : Shape).ShapeCasts ⟨2, ![262144, b]⟩) (e : Fin 262144) (k : Fin b) (l' : Fin 3) (hl : l'.val = l) :
    shapeCast (⟨2, ![262144, b]⟩ : Shape) (broadcastInDim (⟨3, ![262144, 1, b]⟩ : Shape) ![0, 1] hb
      (extractStridedSlice S262144x1 ![0, l] x hs)) hc (ix2 e k) = x (ix2 e l') :=
  (HostLastAxis.shapeCast_merge_apply _ hc (Nat.one_mul b).symm e k (0 : Fin 1) k
      (by show k.val = 0 * b + k.val; omega)).trans <|
    (HostLastAxis.broadcastInDim_na_nab_apply _ hb e (0 : Fin 1) k).trans
      (HostLastAxis.slice_cols_apply l x hs e (0 : Fin 1) l' (by show l'.val = l + 0; omega))

/-- %196 … %206 at (e, k): the gate of irreducible block k. -/
theorem v206_apply (g174 g183 w134 : FVec Ideal S262144x120 .f32) (g191 : FVec Ideal S262144x112 .f32) (e : Fin 262144) (k : Fin 112) :
    v206 g174 g183 w134 g191 (ix2 e k)
      = Cert.EdgeSpec.gate cE (fun a => g174 (ix2 e a)) (fun a => g183 (ix2 e a)) (fun a => w134 (ix2 e a))
          (fun k => g191 (ix2 e k)) k := by
  unfold v206 Cert.EdgeSpec.gate
  show v205 g174 g183 w134 (ix2 e k) * g191 (ix2 e k) = _
  refine congrArg (· * g191 (ix2 e k)) ?_
  unfold v205 Cert.EdgeSpec.degOf
  by_cases h1 : k.val < 64
  · rw [if_pos h1]
    refine (Concat3.concatenate3_axis1_fst (v198 g174 g183 w134) (v201 g174 g183 w134) (v204 g174 g183 w134) _ e k
      ⟨k.val, h1⟩ rfl).trans ?_
    unfold v198 v197 v196
    exact (repeat_apply 0 (v195 g174 g183 w134) _ _ _ e _ (0 : Fin 3) rfl).trans (v195_apply g174 g183 w134 e 0)
  · rw [if_neg h1]
    by_cases h2 : k.val < 96
    · rw [if_pos h2]
      refine (Concat3.concatenate3_axis1_snd (v198 g174 g183 w134) (v201 g174 g183 w134) (v204 g174 g183 w134) _ e k
        ⟨k.val - 64, by omega⟩ (by show 64 + (k.val - 64) = k.val; omega)).trans ?_
      unfold v201 v200 v199
      exact (repeat_apply 1 (v195 g174 g183 w134) _ _ _ e _ (1 : Fin 3) rfl).trans (v195_apply g174 g183 w134 e 1)
    · rw [if_neg h2]
      refine (Concat3.concatenate3_axis1_thd (v198 g174 g183 w134) (v201 g174 g183 w134) (v204 g174 g183 w134) _ e k
        ⟨k.val - 96, by have := k.isLt; omega⟩ (by show 64 + 32 + (k.val - 96) = k.val; omega)).trans ?_
      unfold v204 v203 v202
      exact (repeat_apply 2 (v195 g174 g183 w134) _ _ _ e _ (2 : Fin 3) rfl).trans (v195_apply g174 g183 w134 e 2)

/-- %207 … %222 at (e, i): the gate of the block component i lies in. -/
theorem v222_apply (g174 g183 w134 : FVec Ideal S262144x120 .f32) (g191 : FVec Ideal S262144x112 .f32) (e : Fin 262144) (i : Fin 240) :
    v222 g174 g183 w134 g191 (ix2 e i)
      = Cert.EdgeSpec.gate cE (fun a => g174 (ix2 e a)) (fun a => g183 (ix2 e a)) (fun a => w134 (ix2 e a))
          (fun k => g191 (ix2 e k)) (Cert.EdgeSpec.blockOf i) := by
  unfold v222 Cert.EdgeSpec.blockOf
  by_cases h1 : i.val < 64
  · rw [dif_pos h1]
    refine (Concat3.concatenate3_axis1_fst (v211 g174 g183 w134 g191) (v216 g174 g183 w134 g191) (v221 g174 g183 w134 g191) _ e i
      ⟨i.val, h1⟩ rfl).trans ?_
    unfold v211 v210 v209 v208 v207
    exact (HostLastAxis.spread_apply 0 (v206 g174 g183 w134 g191) _ _ _ _ _ rfl e ⟨i.val, h1⟩ ⟨i.val, h1⟩ (0 : Fin 1)
      (by show i.val = i.val * 1 + 0; omega) ⟨i.val, by omega⟩ (by show i.val = 0 + i.val; omega)).trans
      (v206_apply g174 g183 w134 g191 e _)
  · rw [dif_neg h1]
    by_cases h2 : i.val < 160
    · rw [dif_pos h2]
      refine (Concat3.concatenate3_axis1_snd (v211 g174 g183 w134 g191) (v216 g174 g183 w134 g191) (v221 g174 g183 w134 g191) _ e i
        ⟨i.val - 64, by omega⟩ (by show 64 + (i.val - 64) = i.val; omega)).trans ?_
      unfold v216 v215 v214 v213 v212
      exact (HostLastAxis.spread_apply 64 (v206 g174 g183 w134 g191) _ _ _ _ _ rfl e ⟨i.val - 64, by omega⟩
        ⟨(i.val - 64) / 3, by omega⟩ ⟨(i.val - 64) % 3, Nat.mod_lt _ (by decide)⟩
        (by show i.val - 64 = (i.val - 64) / 3 * 3 + (i.val - 64) % 3; omega) ⟨64 + (i.val - 64) / 3, by omega⟩ rfl).trans
        (v206_apply g174 g183 w134 g191 e _)
    · rw [dif_neg h2]
      have hi := i.isLt
      refine (Concat3.concatenate3_axis1_thd (v211 g174 g183 w134 g191) (v216 g174 g183 w134 g191) (v221 g174 g183 w134 g191) _ e i
        ⟨i.val - 160, by omega⟩ (by show 64 + 96 + (i.val - 160) = i.val; omega)).trans ?_
      unfold v221 v220 v219 v218 v217
      exact (HostLastAxis.spread_apply 96 (v206 g174 g183 w134 g191) _ _ _ _ _ rfl e ⟨i.val - 160, by omega⟩
        ⟨(i.val - 160) / 5, by omega⟩ ⟨(i.val - 160) % 5, Nat.mod_lt _ (by decide)⟩
        (by show i.val - 160 = (i.val - 160) / 5 * 5 + (i.val - 160) % 5; omega) ⟨96 + (i.val - 160) / 5, by omega⟩ rfl).trans
        (v206_apply g174 g183 w134 g191 e _)

/-- THE EQUIVARIANT MESSAGE: operations %175, %176, %184, %192 … %225 at (e, i). -/
theorem msgEAll_apply (arg4 : FVec Ideal S262144x240 .f32) (arg3 : FVec Ideal S262144x1 .f32)
    (g174 g183 w134 : FVec Ideal S262144x120 .f32) (g191 : FVec Ideal S262144x112 .f32) (e : Fin 262144) (i : Fin 240) :
    msgEAll arg4 arg3 g174 g183 w134 g191 (ix2 e i)
      = Cert.EdgeSpec.msgE cE (fun a => arg4 (ix2 e a)) (fun a => g174 (ix2 e a)) (fun a => g183 (ix2 e a))
          (fun a => w134 (ix2 e a)) (fun k => g191 (ix2 e k)) (arg3 (ix2 e 0)) i := by
  unfold msgEAll v225 v223 v224 Cert.EdgeSpec.msgE
  show (arg4 (ix2 e i) * v222 g174 g183 w134 g191 (ix2 e i))
      * broadcastInDim S262144x240 ![0, 1] bcast_S262144x1_S262144x240_0_1 arg3 (ix2 e i) = _
  rw [v222_apply, Keepdims.broadcastInDim_a1_ab_apply]

end Cert.ReferenceIdeal.RefMid

end
-- ==== Proof.Bridge.lean ====
/-
  The kernel program's two results in the reference's own terms.

  With W the contents the shared 125-operation prefix left: every edge-indexed operand of the launch is a gather of W's
  projections at the (wrapped) centre or neighbour index, so the launch's scalar-message array is the reference's scalar
  message function of those gathers, entry by entry — both are the per-edge message of the same rows —, likewise the
  equivariant one; and the kernel program's results are the reference's scatter-adds of them.
-/
import proofs.«145672_j73899207295099_1_alg».proof.Proof.KIFinal
import proofs.«145672_j73899207295099_1_alg».proof.Proof.KIRestLow
import proofs.«145672_j73899207295099_1_alg».proof.Proof.KIPrefixZero
import proofs.«145672_j73899207295099_1_alg».proof.Proof.KITail
import proofs.«145672_j73899207295099_1_alg».proof.Proof.KIValueRun
import proofs.«145672_j73899207295099_1_alg».proof.Proof.RefMidFilt
import proofs.«145672_j73899207295099_1_alg».proof.Proof.RefMidS
import proofs.«145672_j73899207295099_1_alg».proof.Proof.RefMidE

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.Prefix
open Cert.ReferenceIdeal.RefValue (idxOf rows240 rows120 rows112 scat120 scat240)

variable (m : (ℓ : Loc nD τ sig) → Buf (Elt Ideal) ℓ)

/-- Neighbour row minus centre row of the normalised equivariant features, for every edge. -/
def X100 (c : Dev nD) :=
  subf (rows240 (Wk m c (Proc.devRef .tc main_v79)) (idxOf (Wk m c (Proc.devRef .tc main_v3)))) (rows240 (Wk m c (Proc.devRef .tc main_v79)) (idxOf (Wk m c (Proc.devRef .tc main_v1))))

/-- The filter weights of every edge, as the reference computes them, from what the prefix left. -/
def FiltK (c : Dev nD) := Cert.ReferenceIdeal.RefMid.filtAll (X100 m c) (Wk m c (Proc.devRef .tc main_arg2)) (Wk m c (Proc.devRef .tc main_arg3)) (Wk m c (Proc.devRef .tc main_arg18)) (Wk m c (Proc.devRef .tc main_arg19)) (Wk m c (Proc.devRef .tc main_arg20)) (Wk m c (Proc.devRef .tc main_arg21)) (Wk m c (Proc.devRef .tc main_arg14)) (Wk m c (Proc.devRef .tc main_arg15)) (Wk m c (Proc.devRef .tc main_arg16)) (Wk m c (Proc.devRef .tc main_arg17))

/-- The scalar message of every edge, as the reference computes it, from what the prefix left. -/
def MsgSK (c : Dev nD) := Cert.ReferenceIdeal.RefMid.msgSAll (rows120 (Wk m c (Proc.devRef .tc main_v80)) (idxOf (Wk m c (Proc.devRef .tc main_v1))))
  (rows120 (Wk m c (Proc.devRef .tc main_v81)) (idxOf (Wk m c (Proc.devRef .tc main_v3)))) (rows120 (Wk m c (Proc.devRef .tc main_v82)) (idxOf (Wk m c (Proc.devRef .tc main_v3)))) (FiltK m c)

/-- The equivariant message of every edge, as the reference computes it, from what the prefix left. -/
def MsgEK (c : Dev nD) := Cert.ReferenceIdeal.RefMid.msgEAll (Wk m c (Proc.devRef .tc main_arg4)) (Wk m c (Proc.devRef .tc main_arg3))
  (rows120 (Wk m c (Proc.devRef .tc main_v83)) (idxOf (Wk m c (Proc.devRef .tc main_v1)))) (rows120 (Wk m c (Proc.devRef .tc main_v84)) (idxOf (Wk m c (Proc.devRef .tc main_v3)))) (FiltK m c)
  (rows112 (Wk m c (Proc.devRef .tc main_v85)) (idxOf (Wk m c (Proc.devRef .tc main_v3))))

/-- The weights the launch finds are the weight arguments (their format change is the identity on the extended reals). -/
theorem specW_eq (c : Dev nD) : specW m c = Cert.ReferenceIdeal.RefMid.weightsOfRef (Wk m c (Proc.devRef .tc main_arg18)) (Wk m c (Proc.devRef .tc main_arg19)) (Wk m c (Proc.devRef .tc main_arg20)) (Wk m c (Proc.devRef .tc main_arg21)) (Wk m c (Proc.devRef .tc main_arg14)) (Wk m c (Proc.devRef .tc main_arg15)) (Wk m c (Proc.devRef .tc main_arg16)) (Wk m c (Proc.devRef .tc main_arg17)) := by
  unfold specW
  rw [V_main_v143, V_main_v144, V_main_v145, V_main_v146, V_low m c main_arg19 rfl, V_low m c main_arg21 rfl,
    V_low m c main_arg15 rfl, V_low m c main_arg17 rfl]
  rfl

/-- Edge e's filter weights are row e of the reference's. -/
theorem filtAt_eq (c : Dev nD) (e : Fin 262144) : filtAt m c e = fun j => FiltK m c (ix2 e j) := by
  funext j
  unfold FiltK
  rw [Cert.ReferenceIdeal.RefMid.filtAll_apply]
  unfold filtAt
  rw [specW_eq, V_main_v100 m c (Wk_v86 m c), V_low m c main_arg2 rfl, V_low m c main_arg3 rfl]
  rfl

/-- The launch's scalar-message array is the reference's scalar message of the same operands. -/
theorem G18_eq (c : Dev nD) : G18 m c = MsgSK m c := by
  funext i
  obtain ⟨e, j, rfl⟩ : ∃ (e : Fin 262144) (j : Fin 120), i = ix2 e j := ⟨i 0, i 1, eq_ix2 i⟩
  unfold MsgSK
  rw [Cert.ReferenceIdeal.RefMid.msgSAll_apply]
  show Cert.EdgeSpec.msgS PayValue.cS (fun a => V m c main_v107 (ix2 e a)) (fun a => V m c main_v114 (ix2 e a))
    (fun a => V m c main_v121 (ix2 e a)) (filtAt m c e) j = _
  rw [V_main_v107, V_main_v114, V_main_v121, filtAt_eq]

/-- The launch's equivariant-message array is the reference's equivariant message of the same operands. -/
theorem G19_eq (c : Dev nD) : G19 m c = MsgEK m c := by
  funext i
  obtain ⟨e, j, rfl⟩ : ∃ (e : Fin 262144) (j : Fin 240), i = ix2 e j := ⟨i 0, i 1, eq_ix2 i⟩
  unfold MsgEK
  rw [Cert.ReferenceIdeal.RefMid.msgEAll_apply]
  show Cert.EdgeSpec.msgE PayValue.cE (fun a => V m c main_arg4 (ix2 e a)) (fun a => V m c main_v128 (ix2 e a))
    (fun a => V m c main_v135 (ix2 e a)) (filtAt m c e) (fun k => V m c main_v142 (ix2 e k)) (V m c main_arg3 (ix2 e 0)) j = _
  rw [V_main_v128, V_main_v135, V_main_v142, filtAt_eq, V_low m c main_arg4 rfl, V_low m c main_arg3 rfl]

/-- The kernel program's scalar result, in the reference's terms. -/
theorem res154_eq (c : Dev nD) : res154 m c = scat120 (Wk m c (Proc.devRef .tc main_arg0)) (idxOf (Wk m c (Proc.devRef .tc main_v1))) (MsgSK m c) := by
  unfold res154
  rw [tail154, final18, G18_eq, V_low m c main_arg0 rfl, V_low m c main_v1 rfl]

/-- The kernel program's equivariant result, in the reference's terms. -/
theorem res161_eq (c : Dev nD) : res161 m c = scat240 (Wk m c (Proc.devRef .tc main_arg1)) (idxOf (Wk m c (Proc.devRef .tc main_v1))) (MsgEK m c) := by
  unfold res161
  rw [tail161, final19, G19_eq, V_low m c main_arg1 rfl, V_low m c main_v1 rfl]

end Cert.KernelIdeal.Hand

end
-- ==== Proof.LibTwoLines.lean ====
/-
  Two straight lines of host operations, over two DIFFERENT buffer signatures, that perform the same computation.

  Number the buffers of one memory space by their index. Suppose the k-th operation of the first line and the k-th operation
  of the second both write the buffer numbered n + k of that space, read only buffers numbered below n + k, and apply the
  same function to operands of the same numbers. Then, run from contents that agree on the buffers numbered below n, the
  two lines leave contents that agree on every buffer numbered below n + (their length): by induction along the lines, each
  step extending the agreement by the one buffer it writes. A buffer numbered below n is written by neither line.

  The two signatures type their buffers independently, so "agree" is heterogeneous equality; at a concrete pair of buffers
  whose types unfold to the same literal it is an ordinary equation (`eq_of_heq`).
-/
import Idealize.ShloMosaic.Lib.StableHlo.Run

namespace Cert.Lib.TwoLines

open Idealize.ShloMosaic Idealize.ShloMosaic.StableHlo

variable {τ : Topo} {sig₁ sig₂ : RefSig} {Val : EltTy → Type}

/-- A reference is its memory space and its number there. -/
theorem ref_eq {sig : RefSig} {x y : Ref sig .tc} (hs : x.space = y.space) (hi : x.idx.val = y.idx.val) : x = y := by
  obtain ⟨xs, xi, xn⟩ := x
  obtain ⟨ys, yi, yn⟩ := y
  dsimp only at hs hi
  subst hs
  have h : xi = yi := Fin.ext hi
  subst h
  rfl

/-- Equal functions between equal types, at equal arguments. -/
theorem heq_app {α α' β β' : Type} (hα : α = α') (hβ : β = β') {f : α → β} {f' : α' → β'} (hf : HEq f f')
    {a : α} {a' : α'} (ha : HEq a a') : HEq (f a) (f' a') := by
  subst hα; subst hβ; cases hf; cases ha; exact HEq.rfl

theorem heq_app₂ {α α' β β' γ γ' : Type} (hα : α = α') (hβ : β = β') (hγ : γ = γ') {f : α → β → γ} {f' : α' → β' → γ'}
    (hf : HEq f f') {a : α} {a' : α'} (ha : HEq a a') {b : β} {b' : β'} (hb : HEq b b') : HEq (f a b) (f' a' b') := by
  subst hα; subst hβ; subst hγ; cases hf; cases ha; cases hb; exact HEq.rfl

theorem heq_app₃ {α α' β β' γ γ' δ δ' : Type} (hα : α = α') (hβ : β = β') (hγ : γ = γ') (hδ : δ = δ')
    {f : α → β → γ → δ} {f' : α' → β' → γ' → δ'} (hf : HEq f f') {a : α} {a' : α'} (ha : HEq a a') {b : β} {b' : β'}
    (hb : HEq b b') {c : γ} {c' : γ'} (hc : HEq c c') : HEq (f a b c) (f' a' b' c') := by
  subst hα; subst hβ; subst hγ; subst hδ; cases hf; cases ha; cases hb; cases hc; exact HEq.rfl

variable (τ) in
/-- The two contents agree on the buffers of space `sp` numbered below `n`. -/
def Agree (sp : Space) (n : Nat) (V₁ : Valuation τ sig₁ Val) (V₂ : Valuation τ sig₂ Val) : Prop :=
  ∀ (z : Ref sig₁ .tc) (z' : Ref sig₂ .tc), z.space = sp → z'.space = sp → z.idx.val = z'.idx.val → z.idx.val < n →
    HEq (V₁ (Proc.devRef (τ := τ) .tc z)) (V₂ (Proc.devRef (τ := τ) .tc z'))

/-- One step of the two lines: both operations write exactly the buffer numbered `n` of space `sp`, and carry contents
    that agree below `n` to contents that agree below `n + 1`. -/
structure Step (sp : Space) (n : Nat) (op₁ : HloOp τ sig₁ Val) (op₂ : HloOp τ sig₂ Val) : Prop where
  writes₁ : ∃ y : Ref sig₁ .tc, y.space = sp ∧ y.idx.val = n ∧ op₁.writes = {Proc.devRef (τ := τ) .tc y}
  writes₂ : ∃ y : Ref sig₂ .tc, y.space = sp ∧ y.idx.val = n ∧ op₂.writes = {Proc.devRef (τ := τ) .tc y}
  agree : ∀ V₁ V₂, Agree τ sp n V₁ V₂ → Agree τ sp (n + 1) (op₁.result V₁) (op₂.result V₂)

/-- A step from its two result buffers and the agreement of the two results there. -/
theorem Step.of {sp : Space} {n : Nat} {op₁ : HloOp τ sig₁ Val} {op₂ : HloOp τ sig₂ Val} {y : Ref sig₁ .tc} {y' : Ref sig₂ .tc}
    (sy : y.space = sp) (sy' : y'.space = sp) (iy : y.idx.val = n) (iy' : y'.idx.val = n)
    (w₁ : op₁.writes = {Proc.devRef (τ := τ) .tc y}) (w₂ : op₂.writes = {Proc.devRef (τ := τ) .tc y'})
    (hres : ∀ V₁ V₂, Agree τ sp n V₁ V₂ →
      HEq (op₁.result V₁ (Proc.devRef (τ := τ) .tc y)) (op₂.result V₂ (Proc.devRef (τ := τ) .tc y'))) :
    Step sp n op₁ op₂ where
  writes₁ := ⟨y, sy, iy, w₁⟩
  writes₂ := ⟨y', sy', iy', w₂⟩
  agree := by
    intro V₁ V₂ hA z z' hz hz' hi hlt
    by_cases hzn : z.idx.val = n
    · have e : z = y := ref_eq (hz.trans sy.symm) (hzn.trans iy.symm)
      have e' : z' = y' := ref_eq (hz'.trans sy'.symm) ((hi.symm.trans hzn).trans iy'.symm)
      subst e; subst e'
      exact hres V₁ V₂ hA
    · have h₁ : Proc.devRef (τ := τ) .tc z ∉ op₁.writes := by
        rw [w₁, Finset.mem_singleton]
        intro e
        exact hzn ((congrArg (fun r : Ref sig₁ .tc => r.idx.val) (Proc.devRef_injective _ e)).trans iy)
      have h₂ : Proc.devRef (τ := τ) .tc z' ∉ op₂.writes := by
        rw [w₂, Finset.mem_singleton]
        intro e
        exact hzn (hi.trans ((congrArg (fun r : Ref sig₂ .tc => r.idx.val) (Proc.devRef_injective _ e)).trans iy'))
      rw [op₁.result_of_not_mem V₁ h₁, op₂.result_of_not_mem V₂ h₂]
      exact hA z z' hz hz' hi (by omega)

section Builders

variable {sp : Space} {n : Nat}

/-- Two constants with the same value. -/
theorem step_nullary {y : Ref sig₁ .tc} {y' : Ref sig₂ .tc} {v : y.ty.Contents Val} {v' : y'.ty.Contents Val} {hy hy'}
    (hv : HEq v v') (sy : y.space = sp) (sy' : y'.space = sp) (iy : y.idx.val = n) (iy' : y'.idx.val = n) :
    Step sp n (nullary (τ := τ) y v hy) (nullary (τ := τ) y' v' hy') :=
  Step.of sy sy' iy iy' rfl rfl fun V₁ V₂ _ =>
    (heq_of_eq (nullary_result y v hy V₁)).trans (hv.trans (heq_of_eq (nullary_result y' v' hy' V₂)).symm)

/-- Two applications of one function to operands of one number. -/
theorem step_unary {x y : Ref sig₁ .tc} {x' y' : Ref sig₂ .tc} {f : x.ty.Contents Val → y.ty.Contents Val}
    {f' : x'.ty.Contents Val → y'.ty.Contents Val} {hx hy hx' hy'}
    (ex : x.ty = x'.ty) (ey : y.ty = y'.ty) (hf : HEq f f')
    (sx : x.space = sp) (sx' : x'.space = sp) (ix : x.idx.val = x'.idx.val) (lx : x.idx.val < n)
    (sy : y.space = sp) (sy' : y'.space = sp) (iy : y.idx.val = n) (iy' : y'.idx.val = n) :
    Step sp n (unary (τ := τ) x y f hx hy) (unary (τ := τ) x' y' f' hx' hy') :=
  Step.of sy sy' iy iy' rfl rfl fun V₁ V₂ hA =>
    (heq_of_eq (unary_result x y f hx hy V₁)).trans
      ((heq_app (congrArg (fun T : BufTy => T.Contents Val) ex) (congrArg (fun T : BufTy => T.Contents Val) ey) hf
          (hA x x' sx sx' ix lx)).trans (heq_of_eq (unary_result x' y' f' hx' hy' V₂)).symm)

/-- The same with two operands. -/
theorem step_binary {a b y : Ref sig₁ .tc} {a' b' y' : Ref sig₂ .tc}
    {f : a.ty.Contents Val → b.ty.Contents Val → y.ty.Contents Val}
    {f' : a'.ty.Contents Val → b'.ty.Contents Val → y'.ty.Contents Val} {ha hb hy ha' hb' hy'}
    (ea : a.ty = a'.ty) (eb : b.ty = b'.ty) (ey : y.ty = y'.ty) (hf : HEq f f')
    (sa : a.space = sp) (sa' : a'.space = sp) (ia : a.idx.val = a'.idx.val) (la : a.idx.val < n)
    (sb : b.space = sp) (sb' : b'.space = sp) (ib : b.idx.val = b'.idx.val) (lb : b.idx.val < n)
    (sy : y.space = sp) (sy' : y'.space = sp) (iy : y.idx.val = n) (iy' : y'.idx.val = n) :
    Step sp n (binary (τ := τ) a b y f ha hb hy) (binary (τ := τ) a' b' y' f' ha' hb' hy') :=
  Step.of sy sy' iy iy' rfl rfl fun V₁ V₂ hA =>
    (heq_of_eq (binary_result a b y f ha hb hy V₁)).trans
      ((heq_app₂ (congrArg (fun T : BufTy => T.Contents Val) ea) (congrArg (fun T : BufTy => T.Contents Val) eb)
          (congrArg (fun T : BufTy => T.Contents Val) ey) hf (hA a a' sa sa' ia la) (hA b b' sb sb' ib lb)).trans
        (heq_of_eq (binary_result a' b' y' f' ha' hb' hy' V₂)).symm)

/-- The same with three operands. -/
theorem step_ternary {c a b y : Ref sig₁ .tc} {c' a' b' y' : Ref sig₂ .tc}
    {f : c.ty.Contents Val → a.ty.Contents Val → b.ty.Contents Val → y.ty.Contents Val}
    {f' : c'.ty.Contents Val → a'.ty.Contents Val → b'.ty.Contents Val → y'.ty.Contents Val} {hc ha hb hy hc' ha' hb' hy'}
    (ec : c.ty = c'.ty) (ea : a.ty = a'.ty) (eb : b.ty = b'.ty) (ey : y.ty = y'.ty) (hf : HEq f f')
    (sc : c.space = sp) (sc' : c'.space = sp) (ic : c.idx.val = c'.idx.val) (lc : c.idx.val < n)
    (sa : a.space = sp) (sa' : a'.space = sp) (ia : a.idx.val = a'.idx.val) (la : a.idx.val < n)
    (sb : b.space = sp) (sb' : b'.space = sp) (ib : b.idx.val = b'.idx.val) (lb : b.idx.val < n)
    (sy : y.space = sp) (sy' : y'.space = sp) (iy : y.idx.val = n) (iy' : y'.idx.val = n) :
    Step sp n (ternary (τ := τ) c a b y f hc ha hb hy) (ternary (τ := τ) c' a' b' y' f' hc' ha' hb' hy') :=
  Step.of sy sy' iy iy' rfl rfl fun V₁ V₂ hA =>
    (heq_of_eq (ternary_result c a b y f hc ha hb hy V₁)).trans
      ((heq_app₃ (congrArg (fun T : BufTy => T.Contents Val) ec) (congrArg (fun T : BufTy => T.Contents Val) ea)
          (congrArg (fun T : BufTy => T.Contents Val) eb) (congrArg (fun T : BufTy => T.Contents Val) ey) hf
          (hA c c' sc sc' ic lc) (hA a a' sa sa' ia la) (hA b b' sb sb' ib lb)).trans
        (heq_of_eq (ternary_result c' a' b' y' f' hc' ha' hb' hy' V₂)).symm)

end Builders

/-- Two lines that go step by step together, the first step writing the buffer numbered `n`. -/
inductive SimLine (sp : Space) : Nat → List (HloOp τ sig₁ Val) → List (HloOp τ sig₂ Val) → Prop
  | nil (n : Nat) : SimLine sp n [] []
  | cons {n : Nat} {op₁ : HloOp τ sig₁ Val} {op₂ : HloOp τ sig₂ Val} {l₁ : List (HloOp τ sig₁ Val)}
      {l₂ : List (HloOp τ sig₂ Val)} (h : Step sp n op₁ op₂) (t : SimLine sp (n + 1) l₁ l₂) : SimLine sp n (op₁ :: l₁) (op₂ :: l₂)

namespace SimLine

variable {sp : Space}

/-- Two pairs of lines one after the other, the second starting where the first ends. -/
theorem append {n k : Nat} {l₁ m₁ : List (HloOp τ sig₁ Val)} {l₂ m₂ : List (HloOp τ sig₂ Val)} (h : SimLine sp n l₁ l₂)
    (hk : n + l₁.length = k) (h' : SimLine sp k m₁ m₂) : SimLine sp n (l₁ ++ m₁) (l₂ ++ m₂) := by
  induction h generalizing k with
  | nil n => simp only [List.length_nil, Nat.add_zero] at hk; subst hk; exact h'
  | cons hs _ ih =>
    simp only [List.length_cons] at hk
    exact .cons hs (ih (by omega) h')

/-- After the two lines the contents agree below `n +` their length. -/
theorem agree {n : Nat} {l₁ : List (HloOp τ sig₁ Val)} {l₂ : List (HloOp τ sig₂ Val)} (h : SimLine sp n l₁ l₂) :
    ∀ (V₁ : Valuation τ sig₁ Val) (V₂ : Valuation τ sig₂ Val), Agree τ sp n V₁ V₂ →
      Agree τ sp (n + l₁.length) (after l₁ V₁) (after l₂ V₂) := by
  induction h with
  | nil n => intro V₁ V₂ hA; exact hA
  | @cons n op₁ op₂ l₁ l₂ hs _ ih =>
    intro V₁ V₂ hA
    have := ih (op₁.result V₁) (op₂.result V₂) (hs.agree V₁ V₂ hA)
    rw [after_cons, after_cons, List.length_cons, show n + (l₁.length + 1) = n + 1 + l₁.length by omega]
    exact this

/-- The first line writes no buffer of the space numbered below `n`. -/
theorem low₁ {n : Nat} {l₁ : List (HloOp τ sig₁ Val)} {l₂ : List (HloOp τ sig₂ Val)} (h : SimLine sp n l₁ l₂)
    (z : Ref sig₁ .tc) (hz : z.idx.val < n) (V₁ : Valuation τ sig₁ Val) :
    after l₁ V₁ (Proc.devRef (τ := τ) .tc z) = V₁ (Proc.devRef (τ := τ) .tc z) := by
  induction h generalizing V₁ with
  | nil n => rfl
  | @cons n op₁ op₂ l₁ l₂ hs _ ih =>
    obtain ⟨y, _, iy, w⟩ := hs.writes₁
    rw [after_cons, ih (by omega), op₁.result_of_not_mem V₁]
    rw [w, Finset.mem_singleton]
    intro e
    have := congrArg (fun r : Ref sig₁ .tc => r.idx.val) (Proc.devRef_injective _ e)
    omega

/-- The second line writes no buffer of the space numbered below `n`. -/
theorem low₂ {n : Nat} {l₁ : List (HloOp τ sig₁ Val)} {l₂ : List (HloOp τ sig₂ Val)} (h : SimLine sp n l₁ l₂)
    (z : Ref sig₂ .tc) (hz : z.idx.val < n) (V₂ : Valuation τ sig₂ Val) :
    after l₂ V₂ (Proc.devRef (τ := τ) .tc z) = V₂ (Proc.devRef (τ := τ) .tc z) := by
  induction h generalizing V₂ with
  | nil n => rfl
  | @cons n op₁ op₂ l₁ l₂ hs _ ih =>
    obtain ⟨y, _, iy, w⟩ := hs.writes₂
    rw [after_cons, ih (by omega), op₂.result_of_not_mem V₂]
    rw [w, Finset.mem_singleton]
    intro e
    have := congrArg (fun r : Ref sig₂ .tc => r.idx.val) (Proc.devRef_injective _ e)
    omega

end SimLine

end Cert.Lib.TwoLines
-- ==== Proof.RefSplit.lean ====
/-
  The reference program's line of operations cut after its first 125.

  The first 125 operations — window 0 with the call of @_var inline, and the first forty-three operations of
  window 1, through `%86 = broadcast_in_dim %c_13` — are `rPrefix`; the remaining 195, from
  `%87 = compare LT, %3, %86` to the two scatters, are `rRest`, the pieces of the line that follow joined by
  `++`. `r_split`: the line is the one followed by the other — window 1's list is its two parts appended, by
  computation, and the rest is associativity of `++`.
-/
import proofs.«145672_j73899207295099_1_alg».proof.Proof.RefRun

noncomputable section

namespace Cert.Prefix

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F]

set_option maxHeartbeats 40000000 in
/-- statements 61 … 103 of the reference's @main: the first forty-three operations of its window 1, through `%86`. -/
abbrev rOps1a : List (HloOp τ sig (Elt F)) :=
  [ StableHlo.nullary main_cst_8 (constant S_ .f32 0x42C00000#32),
    StableHlo.unary main_cst_8 main_v50 (broadcastInDim S16384x1x1 ![] bcast_S_S16384x1x1 : (⟨S_, .f32⟩ : BufTy).Contents (Elt F) → (⟨S16384x1x1, .f32⟩ : BufTy).Contents (Elt F)),
    StableHlo.binary main_v49 main_v50 main_v51 (Host.divf : (⟨S16384x1x1, .f32⟩ : BufTy).Contents (Elt F) → (⟨S16384x1x1, .f32⟩ : BufTy).Contents (Elt F) → (⟨S16384x1x1, .f32⟩ : BufTy).Contents (Elt F)),
    StableHlo.nullary main_cst_9 (constant S_ .f32 0x3727C5AC#32),
    StableHlo.unary main_cst_9 main_v52 (broadcastInDim S16384x1x1 ![] bcast_S_S16384x1x1 : (⟨S_, .f32⟩ : BufTy).Contents (Elt F) → (⟨S16384x1x1, .f32⟩ : BufTy).Contents (Elt F)),
    StableHlo.binary main_v51 main_v52 main_v53 (addf : (⟨S16384x1x1, .f32⟩ : BufTy).Contents (Elt F) → (⟨S16384x1x1, .f32⟩ : BufTy).Contents (Elt F) → (⟨S16384x1x1, .f32⟩ : BufTy).Contents (Elt F)),
    StableHlo.unary main_v53 main_v54 (Host.rsqrt : (⟨S16384x1x1, .f32⟩ : BufTy).Contents (Elt F) → (⟨S16384x1x1, .f32⟩ : BufTy).Contents (Elt F)),
    StableHlo.unary main_v54 main_v55 (broadcastInDim S16384x32x3 ![0, 1, 2] bcast_S16384x1x1_S16384x32x3_0_1_2 : (⟨S16384x1x1, .f32⟩ : BufTy).Contents (Elt F) → (⟨S16384x32x3, .f32⟩ : BufTy).Contents (Elt F)),
    StableHlo.binary main_v46 main_v55 main_v56 (mulf : (⟨S16384x32x3, .f32⟩ : BufTy).Contents (Elt F) → (⟨S16384x32x3, .f32⟩ : BufTy).Contents (Elt F) → (⟨S16384x32x3, .f32⟩ : BufTy).Contents (Elt F)),
    StableHlo.unary main_arg7 main_v57 ((extractStridedSlice S32 ![64] · slices_S112_S32_64) : (⟨S112, .f32⟩ : BufTy).Contents (Elt F) → (⟨S32, .f32⟩ : BufTy).Contents (Elt F)),
    StableHlo.unary main_v57 main_v58 (broadcastInDim S1x32x1 ![1] bcast_S32_S1x32x1_1 : (⟨S32, .f32⟩ : BufTy).Contents (Elt F) → (⟨S1x32x1, .f32⟩ : BufTy).Contents (Elt F)),
    StableHlo.unary main_v58 main_v59 (broadcastInDim S16384x32x3 ![0, 1, 2] bcast_S1x32x1_S16384x32x3_0_1_2 : (⟨S1x32x1, .f32⟩ : BufTy).Contents (Elt F) → (⟨S16384x32x3, .f32⟩ : BufTy).Contents (Elt F)),
    StableHlo.binary main_v56 main_v59 main_v60 (mulf : (⟨S16384x32x3, .f32⟩ : BufTy).Contents (Elt F) → (⟨S16384x32x3, .f32⟩ : BufTy).Contents (Elt F) → (⟨S16384x32x3, .f32⟩ : BufTy).Contents (Elt F)),
    StableHlo.reshape main_v60 main_v61 rfl shapeCasts_S16384x32x3_S16384x96,
    StableHlo.unary main_arg1 main_v62 ((extractStridedSlice S16384x80 ![0, 160] · slices_S16384x240_S16384x80_0_160) : (⟨S16384x240, .f32⟩ : BufTy).Contents (Elt F) → (⟨S16384x80, .f32⟩ : BufTy).Contents (Elt F)),
    StableHlo.reshape main_v62 main_v63 rfl shapeCasts_S16384x80_S16384x16x5,
    StableHlo.binary main_v63 main_v63 main_v64 (mulf : (⟨S16384x16x5, .f32⟩ : BufTy).Contents (Elt F) → (⟨S16384x16x5, .f32⟩ : BufTy).Contents (Elt F) → (⟨S16384x16x5, .f32⟩ : BufTy).Contents (Elt F)),
    StableHlo.nullary main_cst_10 (constant S_ .f32 0x00000000#32),
    StableHlo.binary main_v64 main_cst_10 main_v65 ((fun x v => Host.reduceAdd x v reducesTo_S16384x16x5_S16384_d1_2 h_S_) : (⟨S16384x16x5, .f32⟩ : BufTy).Contents (Elt F) → (⟨S_, .f32⟩ : BufTy).Contents (Elt F) → (⟨S16384, .f32⟩ : BufTy).Contents (Elt F)),
    StableHlo.unary main_v65 main_v66 (broadcastInDim S16384x1x1 ![0] bcast_S16384_S16384x1x1_0 : (⟨S16384, .f32⟩ : BufTy).Contents (Elt F) → (⟨S16384x1x1, .f32⟩ : BufTy).Contents (Elt F)),
    StableHlo.nullary main_cst_11 (constant S_ .f32 0x42A00000#32),
    StableHlo.unary main_cst_11 main_v67 (broadcastInDim S16384x1x1 ![] bcast_S_S16384x1x1 : (⟨S_, .f32⟩ : BufTy).Contents (Elt F) → (⟨S16384x1x1, .f32⟩ : BufTy).Contents (Elt F)),
    StableHlo.binary main_v66 main_v67 main_v68 (Host.divf : (⟨S16384x1x1, .f32⟩ : BufTy).Contents (Elt F) → (⟨S16384x1x1, .f32⟩ : BufTy).Contents (Elt F) → (⟨S16384x1x1, .f32⟩ : BufTy).Contents (Elt F)),
    StableHlo.nullary main_cst_12 (constant S_ .f32 0x3727C5AC#32),
    StableHlo.unary main_cst_12 main_v69 (broadcastInDim S16384x1x1 ![] bcast_S_S16384x1x1 : (⟨S_, .f32⟩ : BufTy).Contents (Elt F) → (⟨S16384x1x1, .f32⟩ : BufTy).Contents (Elt F)),
    StableHlo.binary main_v68 main_v69 main_v70 (addf : (⟨S16384x1x1, .f32⟩ : BufTy).Contents (Elt F) → (⟨S16384x1x1, .f32⟩ : BufTy).Contents (Elt F) → (⟨S16384x1x1, .f32⟩ : BufTy).Contents (Elt F)),
    StableHlo.unary main_v70 main_v71 (Host.rsqrt : (⟨S16384x1x1, .f32⟩ : BufTy).Contents (Elt F) → (⟨S16384x1x1, .f32⟩ : BufTy).Contents (Elt F)),
    StableHlo.unary main_v71 main_v72 (broadcastInDim S16384x16x5 ![0, 1, 2] bcast_S16384x1x1_S16384x16x5_0_1_2 : (⟨S16384x1x1, .f32⟩ : BufTy).Contents (Elt F) → (⟨S16384x16x5, .f32⟩ : BufTy).Contents (Elt F)),
    StableHlo.binary main_v63 main_v72 main_v73 (mulf : (⟨S16384x16x5, .f32⟩ : BufTy).Contents (Elt F) → (⟨S16384x16x5, .f32⟩ : BufTy).Contents (Elt F) → (⟨S16384x16x5, .f32⟩ : BufTy).Contents (Elt F)),
    StableHlo.unary main_arg7 main_v74 ((extractStridedSlice S16 ![96] · slices_S112_S16_96) : (⟨S112, .f32⟩ : BufTy).Contents (Elt F) → (⟨S16, .f32⟩ : BufTy).Contents (Elt F)),
    StableHlo.unary main_v74 main_v75 (broadcastInDim S1x16x1 ![1] bcast_S16_S1x16x1_1 : (⟨S16, .f32⟩ : BufTy).Contents (Elt F) → (⟨S1x16x1, .f32⟩ : BufTy).Contents (Elt F)),
    StableHlo.unary main_v75 main_v76 (broadcastInDim S16384x16x5 ![0, 1, 2] bcast_S1x16x1_S16384x16x5_0_1_2 : (⟨S1x16x1, .f32⟩ : BufTy).Contents (Elt F) → (⟨S16384x16x5, .f32⟩ : BufTy).Contents (Elt F)),
    StableHlo.binary main_v73 main_v76 main_v77 (mulf : (⟨S16384x16x5, .f32⟩ : BufTy).Contents (Elt F) → (⟨S16384x16x5, .f32⟩ : BufTy).Contents (Elt F) → (⟨S16384x16x5, .f32⟩ : BufTy).Contents (Elt F)),
    StableHlo.reshape main_v77 main_v78 rfl shapeCasts_S16384x16x5_S16384x80,
    StableHlo.nary ![main_v44, main_v61, main_v78] main_v79 (fun u => concatenate S16384x240 1 [⟨S16384x64, u 0⟩, ⟨S16384x96, u 1⟩, ⟨S16384x80, u 2⟩] concatenates_S16384x64_S16384x96_S16384x80_S16384x240_d1),
    StableHlo.binary main_v21 main_arg8 main_v80 ((fun l r => Host.dotGeneral dot_S16384x120_S120x120_S16384x120_1_0_0_1_n_n none l r) : (⟨S16384x120, .f32⟩ : BufTy).Contents (Elt F) → (⟨S120x120, .f32⟩ : BufTy).Contents (Elt F) → (⟨S16384x120, .f32⟩ : BufTy).Contents (Elt F)),
    StableHlo.binary main_v21 main_arg9 main_v81 ((fun l r => Host.dotGeneral dot_S16384x120_S120x120_S16384x120_1_0_0_1_n_n none l r) : (⟨S16384x120, .f32⟩ : BufTy).Contents (Elt F) → (⟨S120x120, .f32⟩ : BufTy).Contents (Elt F) → (⟨S16384x120, .f32⟩ : BufTy).Contents (Elt F)),
    StableHlo.binary main_v21 main_arg10 main_v82 ((fun l r => Host.dotGeneral dot_S16384x120_S120x120_S16384x120_1_0_0_1_n_n none l r) : (⟨S16384x120, .f32⟩ : BufTy).Contents (Elt F) → (⟨S120x120, .f32⟩ : BufTy).Contents (Elt F) → (⟨S16384x120, .f32⟩ : BufTy).Contents (Elt F)),
    StableHlo.binary main_v21 main_arg11 main_v83 ((fun l r => Host.dotGeneral dot_S16384x120_S120x120_S16384x120_1_0_0_1_n_n none l r) : (⟨S16384x120, .f32⟩ : BufTy).Contents (Elt F) → (⟨S120x120, .f32⟩ : BufTy).Contents (Elt F) → (⟨S16384x120, .f32⟩ : BufTy).Contents (Elt F)),
    StableHlo.binary main_v21 main_arg12 main_v84 ((fun l r => Host.dotGeneral dot_S16384x120_S120x120_S16384x120_1_0_0_1_n_n none l r) : (⟨S16384x120, .f32⟩ : BufTy).Contents (Elt F) → (⟨S120x120, .f32⟩ : BufTy).Contents (Elt F) → (⟨S16384x120, .f32⟩ : BufTy).Contents (Elt F)),
    StableHlo.binary main_v21 main_arg13 main_v85 ((fun l r => Host.dotGeneral dot_S16384x120_S120x112_S16384x112_1_0_0_1_n_n none l r) : (⟨S16384x120, .f32⟩ : BufTy).Contents (Elt F) → (⟨S120x112, .f32⟩ : BufTy).Contents (Elt F) → (⟨S16384x112, .f32⟩ : BufTy).Contents (Elt F)),
    StableHlo.nullary main_c_13 (constantI S_ 32 0#32),
    StableHlo.unary main_c_13 main_v86 (broadcastInDim S262144 ![] bcast_S_S262144 : (⟨S_, .i32⟩ : BufTy).Contents (Elt F) → (⟨S262144, .i32⟩ : BufTy).Contents (Elt F)) ]

set_option maxHeartbeats 40000000 in
/-- statements 104 … 120 of the reference's @main: the last seventeen operations of its window 1, from `%87`. -/
abbrev rOps1b : List (HloOp τ sig (Elt F)) :=
  [ StableHlo.binary main_v3 main_v86 main_v87 (cmpi .slt : (⟨S262144, .i32⟩ : BufTy).Contents (Elt F) → (⟨S262144, .i32⟩ : BufTy).Contents (Elt F) → (⟨S262144, .i1⟩ : BufTy).Contents (Elt F)),
    StableHlo.nullary main_c_14 (constantI S_ 32 16384#32),
    StableHlo.unary main_c_14 main_v88 (broadcastInDim S262144 ![] bcast_S_S262144 : (⟨S_, .i32⟩ : BufTy).Contents (Elt F) → (⟨S262144, .i32⟩ : BufTy).Contents (Elt F)),
    StableHlo.binary main_v3 main_v88 main_v89 (addi : (⟨S262144, .i32⟩ : BufTy).Contents (Elt F) → (⟨S262144, .i32⟩ : BufTy).Contents (Elt F) → (⟨S262144, .i32⟩ : BufTy).Contents (Elt F)),
    StableHlo.ternary main_v87 main_v89 main_v3 main_v90 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    StableHlo.unary main_v90 main_v91 (broadcastInDim S262144x1 ![0] bcast_S262144_S262144x1_0 : (⟨S262144, .i32⟩ : BufTy).Contents (Elt F) → (⟨S262144x1, .i32⟩ : BufTy).Contents (Elt F)),
    StableHlo.binary main_v79 main_v91 main_v92 ((fun x i => Host.gather gather_S16384x240_S262144x1_S262144x240_1_0_n_n_0_1_1240 x i) : (⟨S16384x240, .f32⟩ : BufTy).Contents (Elt F) → (⟨S262144x1, .i32⟩ : BufTy).Contents (Elt F) → (⟨S262144x240, .f32⟩ : BufTy).Contents (Elt F)),
    StableHlo.nullary main_c_15 (constantI S_ 32 0#32),
    StableHlo.unary main_c_15 main_v93 (broadcastInDim S262144 ![] bcast_S_S262144 : (⟨S_, .i32⟩ : BufTy).Contents (Elt F) → (⟨S262144, .i32⟩ : BufTy).Contents (Elt F)),
    StableHlo.binary main_v1 main_v93 main_v94 (cmpi .slt : (⟨S262144, .i32⟩ : BufTy).Contents (Elt F) → (⟨S262144, .i32⟩ : BufTy).Contents (Elt F) → (⟨S262144, .i1⟩ : BufTy).Contents (Elt F)),
    StableHlo.nullary main_c_16 (constantI S_ 32 16384#32),
    StableHlo.unary main_c_16 main_v95 (broadcastInDim S262144 ![] bcast_S_S262144 : (⟨S_, .i32⟩ : BufTy).Contents (Elt F) → (⟨S262144, .i32⟩ : BufTy).Contents (Elt F)),
    StableHlo.binary main_v1 main_v95 main_v96 (addi : (⟨S262144, .i32⟩ : BufTy).Contents (Elt F) → (⟨S262144, .i32⟩ : BufTy).Contents (Elt F) → (⟨S262144, .i32⟩ : BufTy).Contents (Elt F)),
    StableHlo.ternary main_v94 main_v96 main_v1 main_v97 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    StableHlo.unary main_v97 main_v98 (broadcastInDim S262144x1 ![0] bcast_S262144_S262144x1_0 : (⟨S262144, .i32⟩ : BufTy).Contents (Elt F) → (⟨S262144x1, .i32⟩ : BufTy).Contents (Elt F)),
    StableHlo.binary main_v79 main_v98 main_v99 ((fun x i => Host.gather gather_S16384x240_S262144x1_S262144x240_1_0_n_n_0_1_1240 x i) : (⟨S16384x240, .f32⟩ : BufTy).Contents (Elt F) → (⟨S262144x1, .i32⟩ : BufTy).Contents (Elt F) → (⟨S262144x240, .f32⟩ : BufTy).Contents (Elt F)),
    StableHlo.binary main_v92 main_v99 main_v100 (subf : (⟨S262144x240, .f32⟩ : BufTy).Contents (Elt F) → (⟨S262144x240, .f32⟩ : BufTy).Contents (Elt F) → (⟨S262144x240, .f32⟩ : BufTy).Contents (Elt F)) ]

/-- Window 1's operations are its first forty-three followed by its last seventeen. -/
theorem ops1_split : (ops1 : List (HloOp τ sig (Elt F))) = rOps1a ++ rOps1b := by
  chain_rfl

/-- The reference's first 125 operations. -/
abbrev rPrefix : List (HloOp τ sig (Elt F)) := ops0 ++ rOps1a

/-- The reference's remaining 195 operations. -/
abbrev rRest : List (HloOp τ sig (Elt F)) := rOps1b ++ (ops2 ++ (ops3 ++ ops4))

/-- The reference's line is its first 125 operations followed by the rest. -/
theorem r_split : (ops : List (HloOp τ sig (Elt F))) = rPrefix ++ rRest := by
  show ops0 ++ (ops1 ++ (ops2 ++ (ops3 ++ ops4))) = (ops0 ++ rOps1a) ++ (rOps1b ++ (ops2 ++ (ops3 ++ ops4)))
  rw [ops1_split]
  simp only [List.append_assoc]

end Cert.Prefix

end
-- ==== Proof.KRAgree.lean ====
/-
  From "the two launch memories agree on the 23 argument arrays" to "after the 125 host operations the two programs
  share, the two memories agree on every buffer those operations wrote, and still on the arguments".
-/
import proofs.«145672_j73899207295099_1_alg».proof.Proof.LibTwoLines
import proofs.«145672_j73899207295099_1_alg».proof.Proof.KSplit
import proofs.«145672_j73899207295099_1_alg».proof.Proof.RefSplit

set_option maxRecDepth 16384

noncomputable section

namespace Cert.Prefix

open Idealize.ShloMosaic Idealize.ShloMosaic.TcCoe Idealize.SL.Sem Idealize.ShloMosaic.StableHlo
open Cert.Lib.TwoLines

variable {F : FTy → Type} [FloatOps F]

/-- The two launch memories agree on the argument arrays, on core c. -/
def ArgsAgree (m : (ℓ : Loc Cert.KernelIdeal.nD Cert.KernelIdeal.τ Cert.KernelIdeal.sig) → Buf (Elt F) ℓ)
    (m' : (ℓ : Loc Cert.ReferenceIdeal.nD Cert.ReferenceIdeal.τ Cert.ReferenceIdeal.sig) → Buf (Elt F) ℓ) (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
  ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
  ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
  ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
  ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
  ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
  ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
  ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
  ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
  ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
  ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
  ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
  ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
  ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
  ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)

/-- Argument arrays are the HBM buffers numbered below 23 in both programs: the launch contents agree there. -/
theorem args_agree (m : (ℓ : Loc Cert.KernelIdeal.nD Cert.KernelIdeal.τ Cert.KernelIdeal.sig) → Buf (Elt F) ℓ)
    (m' : (ℓ : Loc Cert.ReferenceIdeal.nD Cert.ReferenceIdeal.τ Cert.ReferenceIdeal.sig) → Buf (Elt F) ℓ) (c : Dev Cert.KernelIdeal.nD)
    (hag : ArgsAgree m m' c) :
    Agree Cert.KernelIdeal.τ Space.hbm 23 (fun b => m (c, b)) (fun b => m' (c, b)) := by
  intro z z' hs hs' hi hlt
  unfold ArgsAgree at hag
  rcases (by omega : z.idx.val = 0 ∨ z.idx.val = 1 ∨ z.idx.val = 2 ∨ z.idx.val = 3 ∨ z.idx.val = 4 ∨ z.idx.val = 5 ∨ z.idx.val = 6 ∨ z.idx.val = 7 ∨ z.idx.val = 8 ∨ z.idx.val = 9 ∨ z.idx.val = 10 ∨ z.idx.val = 11 ∨ z.idx.val = 12 ∨ z.idx.val = 13 ∨ z.idx.val = 14 ∨ z.idx.val = 15 ∨ z.idx.val = 16 ∨ z.idx.val = 17 ∨ z.idx.val = 18 ∨ z.idx.val = 19 ∨ z.idx.val = 20 ∨ z.idx.val = 21 ∨ z.idx.val = 22) with h | h | h | h | h | h | h | h | h | h | h | h | h | h | h | h | h | h | h | h | h | h | h
  · have e : z = Cert.KernelIdeal.main_arg0 := ref_eq hs h
    have e' : z' = Cert.ReferenceIdeal.main_arg0 := ref_eq hs' (hi ▸ h)
    subst e; subst e'
    exact heq_of_eq (hag.1).symm
  · have e : z = Cert.KernelIdeal.main_arg1 := ref_eq hs h
    have e' : z' = Cert.ReferenceIdeal.main_arg1 := ref_eq hs' (hi ▸ h)
    subst e; subst e'
    exact heq_of_eq (hag.2.1).symm
  · have e : z = Cert.KernelIdeal.main_arg2 := ref_eq hs h
    have e' : z' = Cert.ReferenceIdeal.main_arg2 := ref_eq hs' (hi ▸ h)
    subst e; subst e'
    exact heq_of_eq (hag.2.2.1).symm
  · have e : z = Cert.KernelIdeal.main_arg3 := ref_eq hs h
    have e' : z' = Cert.ReferenceIdeal.main_arg3 := ref_eq hs' (hi ▸ h)
    subst e; subst e'
    exact heq_of_eq (hag.2.2.2.1).symm
  · have e : z = Cert.KernelIdeal.main_arg4 := ref_eq hs h
    have e' : z' = Cert.ReferenceIdeal.main_arg4 := ref_eq hs' (hi ▸ h)
    subst e; subst e'
    exact heq_of_eq (hag.2.2.2.2.1).symm
  · have e : z = Cert.KernelIdeal.main_arg5 := ref_eq hs h
    have e' : z' = Cert.ReferenceIdeal.main_arg5 := ref_eq hs' (hi ▸ h)
    subst e; subst e'
    exact heq_of_eq (hag.2.2.2.2.2.1).symm
  · have e : z = Cert.KernelIdeal.main_arg6 := ref_eq hs h
    have e' : z' = Cert.ReferenceIdeal.main_arg6 := ref_eq hs' (hi ▸ h)
    subst e; subst e'
    exact heq_of_eq (hag.2.2.2.2.2.2.1).symm
  · have e : z = Cert.KernelIdeal.main_arg7 := ref_eq hs h
    have e' : z' = Cert.ReferenceIdeal.main_arg7 := ref_eq hs' (hi ▸ h)
    subst e; subst e'
    exact heq_of_eq (hag.2.2.2.2.2.2.2.1).symm
  · have e : z = Cert.KernelIdeal.main_arg8 := ref_eq hs h
    have e' : z' = Cert.ReferenceIdeal.main_arg8 := ref_eq hs' (hi ▸ h)
    subst e; subst e'
    exact heq_of_eq (hag.2.2.2.2.2.2.2.2.1).symm
  · have e : z = Cert.KernelIdeal.main_arg9 := ref_eq hs h
    have e' : z' = Cert.ReferenceIdeal.main_arg9 := ref_eq hs' (hi ▸ h)
    subst e; subst e'
    exact heq_of_eq (hag.2.2.2.2.2.2.2.2.2.1).symm
  · have e : z = Cert.KernelIdeal.main_arg10 := ref_eq hs h
    have e' : z' = Cert.ReferenceIdeal.main_arg10 := ref_eq hs' (hi ▸ h)
    subst e; subst e'
    exact heq_of_eq (hag.2.2.2.2.2.2.2.2.2.2.1).symm
  · have e : z = Cert.KernelIdeal.main_arg11 := ref_eq hs h
    have e' : z' = Cert.ReferenceIdeal.main_arg11 := ref_eq hs' (hi ▸ h)
    subst e; subst e'
    exact heq_of_eq (hag.2.2.2.2.2.2.2.2.2.2.2.1).symm
  · have e : z = Cert.KernelIdeal.main_arg12 := ref_eq hs h
    have e' : z' = Cert.ReferenceIdeal.main_arg12 := ref_eq hs' (hi ▸ h)
    subst e; subst e'
    exact heq_of_eq (hag.2.2.2.2.2.2.2.2.2.2.2.2.1).symm
  · have e : z = Cert.KernelIdeal.main_arg13 := ref_eq hs h
    have e' : z' = Cert.ReferenceIdeal.main_arg13 := ref_eq hs' (hi ▸ h)
    subst e; subst e'
    exact heq_of_eq (hag.2.2.2.2.2.2.2.2.2.2.2.2.2.1).symm
  · have e : z = Cert.KernelIdeal.main_arg14 := ref_eq hs h
    have e' : z' = Cert.ReferenceIdeal.main_arg14 := ref_eq hs' (hi ▸ h)
    subst e; subst e'
    exact heq_of_eq (hag.2.2.2.2.2.2.2.2.2.2.2.2.2.2.1).symm
  · have e : z = Cert.KernelIdeal.main_arg15 := ref_eq hs h
    have e' : z' = Cert.ReferenceIdeal.main_arg15 := ref_eq hs' (hi ▸ h)
    subst e; subst e'
    exact heq_of_eq (hag.2.2.2.2.2.2.2.2.2.2.2.2.2.2.2.1).symm
  · have e : z = Cert.KernelIdeal.main_arg16 := ref_eq hs h
    have e' : z' = Cert.ReferenceIdeal.main_arg16 := ref_eq hs' (hi ▸ h)
    subst e; subst e'
    exact heq_of_eq (hag.2.2.2.2.2.2.2.2.2.2.2.2.2.2.2.2.1).symm
  · have e : z = Cert.KernelIdeal.main_arg17 := ref_eq hs h
    have e' : z' = Cert.ReferenceIdeal.main_arg17 := ref_eq hs' (hi ▸ h)
    subst e; subst e'
    exact heq_of_eq (hag.2.2.2.2.2.2.2.2.2.2.2.2.2.2.2.2.2.1).symm
  · have e : z = Cert.KernelIdeal.main_arg18 := ref_eq hs h
    have e' : z' = Cert.ReferenceIdeal.main_arg18 := ref_eq hs' (hi ▸ h)
    subst e; subst e'
    exact heq_of_eq (hag.2.2.2.2.2.2.2.2.2.2.2.2.2.2.2.2.2.2.1).symm
  · have e : z = Cert.KernelIdeal.main_arg19 := ref_eq hs h
    have e' : z' = Cert.ReferenceIdeal.main_arg19 := ref_eq hs' (hi ▸ h)
    subst e; subst e'
    exact heq_of_eq (hag.2.2.2.2.2.2.2.2.2.2.2.2.2.2.2.2.2.2.2.1).symm
  · have e : z = Cert.KernelIdeal.main_arg20 := ref_eq hs h
    have e' : z' = Cert.ReferenceIdeal.main_arg20 := ref_eq hs' (hi ▸ h)
    subst e; subst e'
    exact heq_of_eq (hag.2.2.2.2.2.2.2.2.2.2.2.2.2.2.2.2.2.2.2.2.1).symm
  · have e : z = Cert.KernelIdeal.main_arg21 := ref_eq hs h
    have e' : z' = Cert.ReferenceIdeal.main_arg21 := ref_eq hs' (hi ▸ h)
    subst e; subst e'
    exact heq_of_eq (hag.2.2.2.2.2.2.2.2.2.2.2.2.2.2.2.2.2.2.2.2.2.1).symm
  · have e : z = Cert.KernelIdeal.main_arg22 := ref_eq hs h
    have e' : z' = Cert.ReferenceIdeal.main_arg22 := ref_eq hs' (hi ▸ h)
    subst e; subst e'
    exact heq_of_eq (hag.2.2.2.2.2.2.2.2.2.2.2.2.2.2.2.2.2.2.2.2.2.2).symm

end Cert.Prefix

end
-- ==== Proof.LibTwoLinesMore.lean ====
/-
  Two more kinds of step for two straight lines over different buffer signatures: a reshape, and an operation of
  any number of operands (each operand at its own type).

  A reshape leaves in its result the operand's elements in row-major order at the result's shape; it is a function
  of the operand's contents alone, the same function on both lines once the operand types and the result types are
  the same. An operation of a family of operands applies one function to the family of their contents; the two
  families of operands are typed by two different signatures, so the hypothesis on the two functions is stated
  pointwise: at families of contents that agree operand by operand, the two values agree.
-/
import proofs.«145672_j73899207295099_1_alg».proof.Proof.LibTwoLines

namespace Cert.Lib.TwoLines

open Idealize.ShloMosaic Idealize.ShloMosaic.StableHlo

variable {τ : Topo} {sig₁ sig₂ : RefSig} {Val : EltTy → Type}

/-- Row-major re-indexing of equal contents at equal types gives equal contents. -/
theorem heq_shapeCast {Tx Ty Tx' Ty' : BufTy} (ex : Tx = Tx') (ey : Ty = Ty')
    (he : Tx.elt = Ty.elt) (hn : Tx.shape.ShapeCasts Ty.shape) (he' : Tx'.elt = Ty'.elt) (hn' : Tx'.shape.ShapeCasts Ty'.shape)
    {v : Tx.Contents Val} {v' : Tx'.Contents Val} (hv : HEq v v') :
    HEq (fun i => he ▸ shapeCast Ty.shape v hn i : Ty.Contents Val) (fun i => he' ▸ shapeCast Ty'.shape v' hn' i : Ty'.Contents Val) := by
  subst ex; subst ey; cases hv; exact HEq.rfl

section Builders

variable {sp : Space} {n : Nat}

/-- Two reshapes of operands of one number, between the same two types. -/
theorem step_reshape {x y : Ref sig₁ .tc} {x' y' : Ref sig₂ .tc} {he hn hx hy he' hn' hx' hy'}
    (ex : x.ty = x'.ty) (ey : y.ty = y'.ty)
    (sx : x.space = sp) (sx' : x'.space = sp) (ix : x.idx.val = x'.idx.val) (lx : x.idx.val < n)
    (sy : y.space = sp) (sy' : y'.space = sp) (iy : y.idx.val = n) (iy' : y'.idx.val = n) :
    Step sp n (reshape (τ := τ) (Val := Val) x y he hn hx hy) (reshape (τ := τ) (Val := Val) x' y' he' hn' hx' hy') :=
  Step.of sy sy' iy iy' rfl rfl fun V₁ V₂ hA =>
    (heq_of_eq (reshape_result x y he hn hx hy V₁)).trans
      ((heq_shapeCast ex ey he hn he' hn' (hA x x' sx sx' ix lx)).trans
        (heq_of_eq (reshape_result x' y' he' hn' hx' hy' V₂)).symm)

/-- Two applications, to two families of operands of the same numbers, of functions that agree at families of
    contents agreeing operand by operand. -/
theorem step_nary {k : Nat} {xs : Fin k → Ref sig₁ .tc} {y : Ref sig₁ .tc} {xs' : Fin k → Ref sig₂ .tc} {y' : Ref sig₂ .tc}
    {f : ((j : Fin k) → (xs j).ty.Contents Val) → y.ty.Contents Val}
    {f' : ((j : Fin k) → (xs' j).ty.Contents Val) → y'.ty.Contents Val} {hxs hy hxs' hy'}
    (hf : ∀ (u : (j : Fin k) → (xs j).ty.Contents Val) (u' : (j : Fin k) → (xs' j).ty.Contents Val),
      (∀ j, HEq (u j) (u' j)) → HEq (f u) (f' u'))
    (sxs : ∀ j, (xs j).space = sp) (sxs' : ∀ j, (xs' j).space = sp) (ixs : ∀ j, (xs j).idx.val = (xs' j).idx.val)
    (lxs : ∀ j, (xs j).idx.val < n)
    (sy : y.space = sp) (sy' : y'.space = sp) (iy : y.idx.val = n) (iy' : y'.idx.val = n) :
    Step sp n (nary (τ := τ) xs y f hxs hy) (nary (τ := τ) xs' y' f' hxs' hy') :=
  Step.of sy sy' iy iy' rfl rfl fun V₁ V₂ hA =>
    (heq_of_eq (nary_result xs y f hxs hy V₁)).trans
      ((hf _ _ fun j => hA (xs j) (xs' j) (sxs j) (sxs' j) (ixs j) (lxs j)).trans
        (heq_of_eq (nary_result xs' y' f' hxs' hy' V₂)).symm)

end Builders

end Cert.Lib.TwoLines
-- ==== Proof.PrefixAgree.lean ====
/-
  The kernel program and the reference program begin with the same 125 host operations: the two index rows sliced
  off the last argument, the layer norm of the first argument (the variance function's body standing at its call),
  the per-degree layer norm of the second argument ending in the concatenation of its three pieces, the six
  projections, and a zero constant with its broadcast. In both programs the k-th of these operations writes the
  HBM buffer numbered 23 + k (the 23 arguments are the buffers 0 … 22) and reads only buffers numbered below that,
  and the two k-th operations apply the same function to operands of the same numbers. The two programs type their
  buffers by two different signatures, so the statement is that the two lists go step by step together
  (`SimLine`): run from contents that agree on the arguments, the two prefixes leave contents that agree on the
  buffers 0 … 147, and neither touches an argument.

  Each step is one of the step builders at the two printed operations: the buffer types of the two signatures at
  a literal number, the shapes of the two programs and the functions over them unfold to the same terms, and the
  side conditions are propositions. The line is cut into pieces, each proved on its own, and appended.
-/
import proofs.«145672_j73899207295099_1_alg».proof.Proof.RefSplit
import proofs.«145672_j73899207295099_1_alg».proof.Proof.KSplit
import proofs.«145672_j73899207295099_1_alg».proof.Proof.LibTwoLinesMore

set_option maxRecDepth 5500

namespace Cert.Prefix

open Idealize.ShloMosaic Idealize.ShloMosaic.StableHlo Cert.Lib.TwoLines

variable {F : FTy → Type} [FloatOps F]

/-- One step: the builder of the operation's kind, the type equalities and the function equality by unfolding,
    the buffer numbers by computation. The three-operand concatenation takes its operands' contents as a family:
    at families that agree operand by operand the two concatenations are the same term. -/
macro "sim_step" : tactic => `(tactic| first
  | exact step_nullary HEq.rfl rfl rfl rfl rfl
  | exact step_unary rfl rfl HEq.rfl rfl rfl rfl (by decide) rfl rfl rfl rfl
  | exact step_reshape rfl rfl rfl rfl rfl (by decide) rfl rfl rfl rfl
  | exact step_binary rfl rfl rfl HEq.rfl rfl rfl rfl (by decide) rfl rfl rfl (by decide) rfl rfl rfl rfl
  | exact step_ternary rfl rfl rfl rfl HEq.rfl rfl rfl rfl (by decide) rfl rfl rfl (by decide) rfl rfl rfl (by decide) rfl rfl rfl rfl
  | exact step_nary (fun u u' h => by rw [eq_of_heq (h 0), eq_of_heq (h 1), eq_of_heq (h 2)])
      (by decide) (by decide) (by decide) (by decide) rfl rfl rfl rfl)

/-- A whole piece: step after step to the end of the two lists. -/
macro "sim_line" : tactic => `(tactic| repeat (first | exact SimLine.nil _ | refine SimLine.cons (by sim_step) ?_))

/-- The reference's operations 35 … 125: the rest of its first list and the first 43 of its second. -/
abbrev rC : List (HloOp Cert.ReferenceIdeal.τ Cert.ReferenceIdeal.sig (Elt F)) := Cert.ReferenceIdeal.RefRun.ops0c ++ rOps1a

/-- Operations 1 … 11: the two index rows and the mean of the first argument's rows. -/
theorem simA : SimLine (τ := Cert.KernelIdeal.τ) Space.hbm 23
    (Cert.KernelIdeal.Gen.hostOps0 (F := F)) (Cert.ReferenceIdeal.RefRun.ops0a (F := F)) := by
  sim_line

/-- Operations 12 … 34: the variance function's body at its call. -/
theorem simB : SimLine (τ := Cert.KernelIdeal.τ) Space.hbm 34
    (Cert.KernelIdeal.Gen.hostOps0_1 (F := F)) (Cert.ReferenceIdeal.RefRun.ops0b (F := F)) := by
  sim_line

/-! Operations 35 … 125, thirteen at a time. -/

theorem simC0 : SimLine (τ := Cert.KernelIdeal.τ) Space.hbm 57
    (((kPrefix2 (F := F)).drop 0).take 13) (((rC (F := F)).drop 0).take 13) := by
  sim_line

theorem simC1 : SimLine (τ := Cert.KernelIdeal.τ) Space.hbm 70
    (((kPrefix2 (F := F)).drop 13).take 13) (((rC (F := F)).drop 13).take 13) := by
  sim_line

theorem simC2 : SimLine (τ := Cert.KernelIdeal.τ) Space.hbm 83
    (((kPrefix2 (F := F)).drop 26).take 13) (((rC (F := F)).drop 26).take 13) := by
  sim_line

theorem simC3 : SimLine (τ := Cert.KernelIdeal.τ) Space.hbm 96
    (((kPrefix2 (F := F)).drop 39).take 13) (((rC (F := F)).drop 39).take 13) := by
  sim_line

theorem simC4 : SimLine (τ := Cert.KernelIdeal.τ) Space.hbm 109
    (((kPrefix2 (F := F)).drop 52).take 13) (((rC (F := F)).drop 52).take 13) := by
  sim_line

theorem simC5 : SimLine (τ := Cert.KernelIdeal.τ) Space.hbm 122
    (((kPrefix2 (F := F)).drop 65).take 13) (((rC (F := F)).drop 65).take 13) := by
  sim_line

theorem simC6 : SimLine (τ := Cert.KernelIdeal.τ) Space.hbm 135
    (((kPrefix2 (F := F)).drop 78).take 13) (((rC (F := F)).drop 78).take 13) := by
  sim_line

/-- Operations 35 … 125. -/
theorem simC : SimLine (τ := Cert.KernelIdeal.τ) Space.hbm 57 (kPrefix2 (F := F)) (rC (F := F)) :=
  simC0.append rfl (simC1.append rfl (simC2.append rfl (simC3.append rfl (simC4.append rfl (simC5.append rfl simC6)))))

/-- The two prefixes go step by step together, the first step writing the HBM buffer numbered 23. -/
theorem sim : SimLine (τ := Cert.KernelIdeal.τ) Space.hbm 23 (kPrefix (F := F)) (rPrefix (F := F)) := by
  have h := (simA (F := F)).append rfl ((simB (F := F)).append rfl (simC (F := F)))
  show SimLine Space.hbm 23 _
    ((Cert.ReferenceIdeal.RefRun.ops0a ++ (Cert.ReferenceIdeal.RefRun.ops0b ++ Cert.ReferenceIdeal.RefRun.ops0c)) ++ rOps1a)
  rw [List.append_assoc, List.append_assoc]
  exact h

end Cert.Prefix
-- ==== Proof.PrefixAfter.lean ====
/-
  What the step-by-step agreement of the two prefixes gives about the contents they leave: run from contents that
  agree on the arguments (the HBM buffers 0 … 22), the two prefixes of 125 operations leave contents that agree on
  the HBM buffers 0 … 147, and each leaves every argument as it was.
-/
import proofs.«145672_j73899207295099_1_alg».proof.Proof.PrefixAgree

set_option maxRecDepth 5500

namespace Cert.Prefix

open Idealize.ShloMosaic Idealize.ShloMosaic.StableHlo Cert.Lib.TwoLines

variable {F : FTy → Type} [FloatOps F]

/-- The kernel's prefix has 125 operations. -/
theorem kPrefix_length : (kPrefix (F := F)).length = 125 := rfl

/-- The reference's prefix has 125 operations. -/
theorem rPrefix_length : (rPrefix (F := F)).length = 125 := rfl

/-- After the two prefixes the contents agree on the HBM buffers numbered below 148 = 23 + 125. -/
theorem agree_after (V₁ : Valuation Cert.KernelIdeal.τ Cert.KernelIdeal.sig (Elt F))
    (V₂ : Valuation Cert.KernelIdeal.τ Cert.ReferenceIdeal.sig (Elt F)) (hA : Agree Cert.KernelIdeal.τ Space.hbm 23 V₁ V₂) :
    Agree Cert.KernelIdeal.τ Space.hbm 148 (after (kPrefix (F := F)) V₁) (after (rPrefix (F := F)) V₂) := by
  have h := (sim (F := F)).agree V₁ V₂ hA
  rw [kPrefix_length] at h
  exact h

/-- The kernel's prefix leaves the HBM buffers numbered below 23 as they were. -/
theorem kPrefix_keeps (z : Ref Cert.KernelIdeal.sig .tc) (hz : z.idx.val < 23)
    (V₁ : Valuation Cert.KernelIdeal.τ Cert.KernelIdeal.sig (Elt F)) :
    after (kPrefix (F := F)) V₁ (Proc.devRef (τ := Cert.KernelIdeal.τ) .tc z) = V₁ (Proc.devRef (τ := Cert.KernelIdeal.τ) .tc z) :=
  (sim (F := F)).low₁ z hz V₁

/-- The reference's prefix leaves the HBM buffers numbered below 23 as they were. -/
theorem rPrefix_keeps (z : Ref Cert.ReferenceIdeal.sig .tc) (hz : z.idx.val < 23)
    (V₂ : Valuation Cert.KernelIdeal.τ Cert.ReferenceIdeal.sig (Elt F)) :
    after (rPrefix (F := F)) V₂ (Proc.devRef (τ := Cert.KernelIdeal.τ) .tc z) = V₂ (Proc.devRef (τ := Cert.KernelIdeal.τ) .tc z) :=
  (sim (F := F)).low₂ z hz V₂

/-- For instance the broadcast zero vector, the last buffer the prefixes write: the two programs' copies hold the
    same contents. -/
example (V₁ : Valuation Cert.KernelIdeal.τ Cert.KernelIdeal.sig (Elt F))
    (V₂ : Valuation Cert.KernelIdeal.τ Cert.ReferenceIdeal.sig (Elt F)) (hA : Agree Cert.KernelIdeal.τ Space.hbm 23 V₁ V₂) :
    after (kPrefix (F := F)) V₁ (Proc.devRef (τ := Cert.KernelIdeal.τ) .tc Cert.KernelIdeal.main_v86)
      = after (rPrefix (F := F)) V₂ (Proc.devRef (τ := Cert.KernelIdeal.τ) .tc Cert.ReferenceIdeal.main_v86) :=
  eq_of_heq (agree_after V₁ V₂ hA Cert.KernelIdeal.main_v86 Cert.ReferenceIdeal.main_v86 rfl rfl rfl (by decide))

end Cert.Prefix
-- ==== Proof.RefV86.lean ====
/-
  Two general facts about a line of operations, and what the reference's first 125 operations leave at `%86`.

  `after_append`: lines run one after the other leave what the second leaves from what the first left.
  `nary3_result`: a three-operand operation's result with each operand's contents at its own reference (the
  library states the four-operand case).
  `v86_after_prefix`: the prefix's last two operations are `%c_13 = constant 0` and `%86 = broadcast %c_13`, so
  after the prefix `%86`'s buffer holds the zero vector, whatever the launch contents.
-/
import proofs.«145672_j73899207295099_1_alg».proof.Proof.RefSplit

noncomputable section

namespace Cert.Prefix

open Cert.ReferenceIdeal Cert.ReferenceIdeal.Gen Cert.ReferenceIdeal.RefRun Idealize.ShloMosaic Idealize.ShloMosaic.TcCoe Idealize.SL.Sem Idealize.ShloMosaic.StableHlo

/-- Lines run one after the other leave what the second leaves from what the first left. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

section Nary3

variable {τ : Topo} {sig : RefSig} {Val : EltTy → Type} {x a b y : Ref sig .tc}

/-- `nary` over a literal family of three references (a `stablehlo.concatenate` of three operands): the result with
    each operand's contents at its own reference, so that the operands' contents go on being rewritten. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Nary3

variable {F : FTy → Type} [FloatOps F]

/-- After the reference's first 125 operations `%86` holds the zero vector. -/
theorem v86_after_prefix (V : Valuation τ sig (Elt F)) :
    after (rPrefix (F := F)) V (Proc.devRef .tc main_v86)
      = broadcastInDim S262144 ![] bcast_S_S262144 (constantI S_ 32 0#32) := by
  simp only [rPrefix, after_append]
  simp (disch := decide) only [rOps1a, after_cons, after_nil,
      nullary_result', unary_result', binary_result', ternary_result', reshape_result', nary3_result',
      nullary_result_ne', unary_result_ne', binary_result_ne', ternary_result_ne', reshape_result_ne', nary_result_ne']

end Cert.Prefix

end
-- ==== Proof.RefNary3.lean ====
/-
  A three-operand operation's result with the operands' contents as ordinary arguments.

  The library states an `nary` operation's result as its function applied to the family of the operands' contents.
  For a `stablehlo.concatenate` that function places each operand's contents inside the list the concatenation's
  side condition speaks of, a position no rewriting reaches; `nary3Apply f A B C` keeps the three contents outside
  the function, as arguments of their own, until they have been computed. It unfolds to `f` of the family
  `A, B, C` by definition.
-/
import proofs.«145672_j73899207295099_1_alg».proof.Proof.RefV86

noncomputable section

namespace Cert.Prefix

open Idealize.ShloMosaic Idealize.ShloMosaic.TcCoe Idealize.SL.Sem Idealize.ShloMosaic.StableHlo

section Nary3Apply

variable {τ : Topo} {sig : RefSig} {Val : EltTy → Type} {x a b y : Ref sig .tc}

/-- A function of a family of three operands' contents, applied to the three contents. Kept folded while the contents
    are being computed: inside the function they would stand in positions another argument's type depends on. -/
def nary3Apply (f : ((k : Fin 3) → ((![x, a, b] : Fin 3 → Ref sig .tc) k).ty.Contents Val) → y.ty.Contents Val)
    (A : x.ty.Contents Val) (B : a.ty.Contents Val) (C : b.ty.Contents Val) : y.ty.Contents Val :=
  f (Fin.cons A (Fin.cons B (Fin.cons C fun i => i.elim0)))

/-- A three-operand operation's result as its function applied to the three operands' contents. -/
theorem nary3_apply_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = nary3Apply f (F (Proc.devRef .tc x)) (F (Proc.devRef .tc a)) (F (Proc.devRef .tc b)) :=
  nary3_result f hxs hy F

end Nary3Apply

end Cert.Prefix

end
-- ==== Proof.RefRes0.lean ====
/-
  The reference's first result from what its first 125 operations left.

  For contents `W` (with `%86` the zero vector, as after the first 125 operations), the remaining 195 operations leave
  `%232` at: the rows of `%arg0` with the node messages added at the wrapped `%1` indices, the messages the named
  composition `msgSAll` of three gathers and the edge filter `filtAll`. The fold is computed operation by operation
  (each result at its own buffer, any other buffer unchanged); what is left is the named functions unfolded.
-/
import proofs.«145672_j73899207295099_1_alg».proof.Proof.RefNary3
import proofs.«145672_j73899207295099_1_alg».proof.Proof.RefGather
import proofs.«145672_j73899207295099_1_alg».proof.Proof.RefMidDefs

set_option Elab.async false

noncomputable section

namespace Cert.ReferenceIdeal.RefValue

open Cert.ReferenceIdeal Cert.ReferenceIdeal.Gen Cert.ReferenceIdeal.RefRun Cert.ReferenceIdeal.RefMid Cert.Prefix Idealize.ShloMosaic Idealize.ShloMosaic.TcCoe Idealize.SL.Sem Idealize.ShloMosaic.StableHlo

-- the pure operations stay folded during the closing comparison: the two sides differ only by the named
-- functions' definitions, η at the reshapes and the typed references' casts, never inside an operation
attribute [local irreducible] extractStridedSlice shapeCast mulf addf subf constant constantI Host.reduceAdd concatenate broadcastInDim Host.negf Host.exp Host.divf cmpi addi select Host.gather Host.scatterAdd in
set_option maxHeartbeats 16000000 in
set_option maxRecDepth 20000 in
theorem res0 (W : Valuation τ sig (Elt Ideal))
    (hz : W (Proc.devRef .tc main_v86) = broadcastInDim S262144 ![] bcast_S_S262144 (constantI S_ 32 0#32)) :
    StableHlo.after (Cert.Prefix.rRest (F := Ideal)) W (Proc.devRef .tc main_v232)
      = scat120 (W (Proc.devRef .tc main_arg0)) (idxOf (W (Proc.devRef .tc main_v1)))
          (RefMid.msgSAll (rows120 (W (Proc.devRef .tc main_v80)) (idxOf (W (Proc.devRef .tc main_v1)))) (rows120 (W (Proc.devRef .tc main_v81)) (idxOf (W (Proc.devRef .tc main_v3))))
            (rows120 (W (Proc.devRef .tc main_v82)) (idxOf (W (Proc.devRef .tc main_v3))))
            (RefMid.filtAll (subf (rows240 (W (Proc.devRef .tc main_v79)) (idxOf (W (Proc.devRef .tc main_v3)))) (rows240 (W (Proc.devRef .tc main_v79)) (idxOf (W (Proc.devRef .tc main_v1)))))
              (W (Proc.devRef .tc main_arg2)) (W (Proc.devRef .tc main_arg3)) (W (Proc.devRef .tc main_arg18)) (W (Proc.devRef .tc main_arg19)) (W (Proc.devRef .tc main_arg20)) (W (Proc.devRef .tc main_arg21)) (W (Proc.devRef .tc main_arg14)) (W (Proc.devRef .tc main_arg15)) (W (Proc.devRef .tc main_arg16)) (W (Proc.devRef .tc main_arg17)))) := by
  simp only [rRest, rOps1b, ops2, ops2a, ops2b, ops2c, ops2d, ops2e, ops3, ops4, after_append]
  simp (disch := decide) only [after_cons, after_nil,
      nullary_result', unary_result', binary_result', ternary_result', reshape_result', nary3_apply_result',
      nullary_result_ne', unary_result_ne', binary_result_ne', ternary_result_ne', reshape_result_ne', nary_result_ne', hz]
  rfl

end Cert.ReferenceIdeal.RefValue

end
-- ==== Proof.RefRes1.lean ====
/-
  The reference's second result from what its first 125 operations left.

  For contents `W` (with `%86` the zero vector, as after the first 125 operations), the remaining 195 operations leave
  `%239` at: the rows of `%arg1` with the edge messages added at the wrapped `%1` indices, the messages the named
  composition `msgEAll` of `%arg4`, `%arg3`, three gathers and the edge filter `filtAll`. Computed as the first result is.
-/
import proofs.«145672_j73899207295099_1_alg».proof.Proof.RefNary3
import proofs.«145672_j73899207295099_1_alg».proof.Proof.RefGather
import proofs.«145672_j73899207295099_1_alg».proof.Proof.RefMidDefs

set_option Elab.async false

noncomputable section

namespace Cert.ReferenceIdeal.RefValue

open Cert.ReferenceIdeal Cert.ReferenceIdeal.Gen Cert.ReferenceIdeal.RefRun Cert.ReferenceIdeal.RefMid Cert.Prefix Idealize.ShloMosaic Idealize.ShloMosaic.TcCoe Idealize.SL.Sem Idealize.ShloMosaic.StableHlo

-- the pure operations stay folded during the closing comparison: the two sides differ only by the named
-- functions' definitions, η at the reshapes and the typed references' casts, never inside an operation
attribute [local irreducible] extractStridedSlice shapeCast mulf addf subf constant constantI Host.reduceAdd concatenate broadcastInDim Host.negf Host.exp Host.divf cmpi addi select Host.gather Host.scatterAdd in
set_option maxHeartbeats 16000000 in
set_option maxRecDepth 20000 in
theorem res1 (W : Valuation τ sig (Elt Ideal))
    (hz : W (Proc.devRef .tc main_v86) = broadcastInDim S262144 ![] bcast_S_S262144 (constantI S_ 32 0#32)) :
    StableHlo.after (Cert.Prefix.rRest (F := Ideal)) W (Proc.devRef .tc main_v239)
      = scat240 (W (Proc.devRef .tc main_arg1)) (idxOf (W (Proc.devRef .tc main_v1)))
          (RefMid.msgEAll (W (Proc.devRef .tc main_arg4)) (W (Proc.devRef .tc main_arg3)) (rows120 (W (Proc.devRef .tc main_v83)) (idxOf (W (Proc.devRef .tc main_v1))))
            (rows120 (W (Proc.devRef .tc main_v84)) (idxOf (W (Proc.devRef .tc main_v3))))
            (RefMid.filtAll (subf (rows240 (W (Proc.devRef .tc main_v79)) (idxOf (W (Proc.devRef .tc main_v3)))) (rows240 (W (Proc.devRef .tc main_v79)) (idxOf (W (Proc.devRef .tc main_v1)))))
              (W (Proc.devRef .tc main_arg2)) (W (Proc.devRef .tc main_arg3)) (W (Proc.devRef .tc main_arg18)) (W (Proc.devRef .tc main_arg19)) (W (Proc.devRef .tc main_arg20)) (W (Proc.devRef .tc main_arg21)) (W (Proc.devRef .tc main_arg14)) (W (Proc.devRef .tc main_arg15)) (W (Proc.devRef .tc main_arg16)) (W (Proc.devRef .tc main_arg17)))
            (rows112 (W (Proc.devRef .tc main_v85)) (idxOf (W (Proc.devRef .tc main_v3))))) := by
  simp only [rRest, rOps1b, ops2, ops2a, ops2b, ops2c, ops2d, ops2e, ops3, ops4, after_append]
  simp (disch := decide) only [after_cons, after_nil,
      nullary_result', unary_result', binary_result', ternary_result', reshape_result', nary3_apply_result',
      nullary_result_ne', unary_result_ne', binary_result_ne', ternary_result_ne', reshape_result_ne', nary_result_ne', hz]
  rfl

end Cert.ReferenceIdeal.RefValue

end
-- ==== Proof.RefRes.lean ====
/-
  The reference's two results from what its first 125 operations left: `res0` and `res1`.
-/
import proofs.«145672_j73899207295099_1_alg».proof.Proof.RefRes0
import proofs.«145672_j73899207295099_1_alg».proof.Proof.RefRes1
-- ==== Proof.Algebraic.lean ====
/-
  The fifth conjunct: over the extended reals the kernel program and the reference end with equal results.

  Both programs begin with the same 125 host operations, so from memories agreeing on the arguments they reach contents W
  agreeing on everything those operations wrote.  From W the reference computes, for every edge, the filter weights, the
  scalar and the equivariant message, and scatter-adds them at the centre rows; the kernel program gathers the same rows,
  computes the same two messages block by block in its launch — the per-edge message is one function of the edge's rows,
  whichever program evaluates it — and scatter-adds them the same way.  No law beyond re-indexing and the commutativity of
  finite sums is used, so the precondition is never opened.
-/
import proofs.«145672_j73899207295099_1_alg».proof.Defs
import proofs.«145672_j73899207295099_1_alg».proof.Proof.Gen.Pre_finite_inputs
import proofs.«145672_j73899207295099_1_alg».proof.Proof.Bridge
import proofs.«145672_j73899207295099_1_alg».proof.Proof.KRAgree
import proofs.«145672_j73899207295099_1_alg».proof.Proof.PrefixAfter
import proofs.«145672_j73899207295099_1_alg».proof.Proof.RefV86
import proofs.«145672_j73899207295099_1_alg».proof.Proof.RefRes

set_option maxRecDepth 16384

noncomputable section

namespace Cert.Proof.Algebraic

open Idealize.ShloMosaic Idealize.ShloMosaic.TcCoe Idealize.SL.Sem Idealize.ShloMosaic.StableHlo
open Cert.Prefix Cert.Lib.TwoLines
open Cert.ReferenceIdeal.RefValue (idxOf rows240 rows120 rows112 scat120 scat240)

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

set_option maxHeartbeats 4000000 in
/-- The reference's scalar result is the kernel program's. -/
theorem ref_res0 (c : Dev Cert.KernelIdeal.nD) (hag : ArgsAgree (F := Ideal) m m' c) :
    StableHlo.after (Cert.ReferenceIdeal.RefRun.ops (F := Ideal)) (StableHlo.launchContents m' c) (Proc.devRef .tc Cert.ReferenceIdeal.main_v232)
      = Cert.KernelIdeal.Hand.res154 m c := by
  rw [Cert.KernelIdeal.Hand.res154_eq, r_split, Cert.Prefix.after_append]
  generalize hWr : StableHlo.after (rPrefix (F := Ideal)) (StableHlo.launchContents m' c) = Wr
  have hz : Wr (Proc.devRef .tc Cert.ReferenceIdeal.main_v86) = broadcastInDim Cert.ReferenceIdeal.S262144 ![] Cert.ReferenceIdeal.Gen.bcast_S_S262144 (constantI Cert.ReferenceIdeal.S_ 32 0#32) := by rw [← hWr]; exact v86_after_prefix _
  have hA : Agree Cert.KernelIdeal.τ Space.hbm 148 (Cert.KernelIdeal.Hand.Wk m c) Wr := by
    rw [← hWr]; exact agree_after _ _ (args_agree m m' c hag)
  rw [Cert.ReferenceIdeal.RefValue.res0 Wr hz]
  have e_main_v1 : Cert.KernelIdeal.Hand.Wk m c (Proc.devRef .tc Cert.KernelIdeal.main_v1) = Wr (Proc.devRef .tc Cert.ReferenceIdeal.main_v1) :=
    eq_of_heq (hA Cert.KernelIdeal.main_v1 Cert.ReferenceIdeal.main_v1 rfl rfl rfl (by decide))
  have e_main_v3 : Cert.KernelIdeal.Hand.Wk m c (Proc.devRef .tc Cert.KernelIdeal.main_v3) = Wr (Proc.devRef .tc Cert.ReferenceIdeal.main_v3) :=
    eq_of_heq (hA Cert.KernelIdeal.main_v3 Cert.ReferenceIdeal.main_v3 rfl rfl rfl (by decide))
  have e_main_v79 : Cert.KernelIdeal.Hand.Wk m c (Proc.devRef .tc Cert.KernelIdeal.main_v79) = Wr (Proc.devRef .tc Cert.ReferenceIdeal.main_v79) :=
    eq_of_heq (hA Cert.KernelIdeal.main_v79 Cert.ReferenceIdeal.main_v79 rfl rfl rfl (by decide))
  have e_main_v80 : Cert.KernelIdeal.Hand.Wk m c (Proc.devRef .tc Cert.KernelIdeal.main_v80) = Wr (Proc.devRef .tc Cert.ReferenceIdeal.main_v80) :=
    eq_of_heq (hA Cert.KernelIdeal.main_v80 Cert.ReferenceIdeal.main_v80 rfl rfl rfl (by decide))
  have e_main_v81 : Cert.KernelIdeal.Hand.Wk m c (Proc.devRef .tc Cert.KernelIdeal.main_v81) = Wr (Proc.devRef .tc Cert.ReferenceIdeal.main_v81) :=
    eq_of_heq (hA Cert.KernelIdeal.main_v81 Cert.ReferenceIdeal.main_v81 rfl rfl rfl (by decide))
  have e_main_v82 : Cert.KernelIdeal.Hand.Wk m c (Proc.devRef .tc Cert.KernelIdeal.main_v82) = Wr (Proc.devRef .tc Cert.ReferenceIdeal.main_v82) :=
    eq_of_heq (hA Cert.KernelIdeal.main_v82 Cert.ReferenceIdeal.main_v82 rfl rfl rfl (by decide))
  have e_main_v83 : Cert.KernelIdeal.Hand.Wk m c (Proc.devRef .tc Cert.KernelIdeal.main_v83) = Wr (Proc.devRef .tc Cert.ReferenceIdeal.main_v83) :=
    eq_of_heq (hA Cert.KernelIdeal.main_v83 Cert.ReferenceIdeal.main_v83 rfl rfl rfl (by decide))
  have e_main_v84 : Cert.KernelIdeal.Hand.Wk m c (Proc.devRef .tc Cert.KernelIdeal.main_v84) = Wr (Proc.devRef .tc Cert.ReferenceIdeal.main_v84) :=
    eq_of_heq (hA Cert.KernelIdeal.main_v84 Cert.ReferenceIdeal.main_v84 rfl rfl rfl (by decide))
  have e_main_v85 : Cert.KernelIdeal.Hand.Wk m c (Proc.devRef .tc Cert.KernelIdeal.main_v85) = Wr (Proc.devRef .tc Cert.ReferenceIdeal.main_v85) :=
    eq_of_heq (hA Cert.KernelIdeal.main_v85 Cert.ReferenceIdeal.main_v85 rfl rfl rfl (by decide))
  have e_main_arg0 : Cert.KernelIdeal.Hand.Wk m c (Proc.devRef .tc Cert.KernelIdeal.main_arg0) = Wr (Proc.devRef .tc Cert.ReferenceIdeal.main_arg0) :=
    eq_of_heq (hA Cert.KernelIdeal.main_arg0 Cert.ReferenceIdeal.main_arg0 rfl rfl rfl (by decide))
  have e_main_arg1 : Cert.KernelIdeal.Hand.Wk m c (Proc.devRef .tc Cert.KernelIdeal.main_arg1) = Wr (Proc.devRef .tc Cert.ReferenceIdeal.main_arg1) :=
    eq_of_heq (hA Cert.KernelIdeal.main_arg1 Cert.ReferenceIdeal.main_arg1 rfl rfl rfl (by decide))
  have e_main_arg2 : Cert.KernelIdeal.Hand.Wk m c (Proc.devRef .tc Cert.KernelIdeal.main_arg2) = Wr (Proc.devRef .tc Cert.ReferenceIdeal.main_arg2) :=
    eq_of_heq (hA Cert.KernelIdeal.main_arg2 Cert.ReferenceIdeal.main_arg2 rfl rfl rfl (by decide))
  have e_main_arg3 : Cert.KernelIdeal.Hand.Wk m c (Proc.devRef .tc Cert.KernelIdeal.main_arg3) = Wr (Proc.devRef .tc Cert.ReferenceIdeal.main_arg3) :=
    eq_of_heq (hA Cert.KernelIdeal.main_arg3 Cert.ReferenceIdeal.main_arg3 rfl rfl rfl (by decide))
  have e_main_arg4 : Cert.KernelIdeal.Hand.Wk m c (Proc.devRef .tc Cert.KernelIdeal.main_arg4) = Wr (Proc.devRef .tc Cert.ReferenceIdeal.main_arg4) :=
    eq_of_heq (hA Cert.KernelIdeal.main_arg4 Cert.ReferenceIdeal.main_arg4 rfl rfl rfl (by decide))
  have e_main_arg14 : Cert.KernelIdeal.Hand.Wk m c (Proc.devRef .tc Cert.KernelIdeal.main_arg14) = Wr (Proc.devRef .tc Cert.ReferenceIdeal.main_arg14) :=
    eq_of_heq (hA Cert.KernelIdeal.main_arg14 Cert.ReferenceIdeal.main_arg14 rfl rfl rfl (by decide))
  have e_main_arg15 : Cert.KernelIdeal.Hand.Wk m c (Proc.devRef .tc Cert.KernelIdeal.main_arg15) = Wr (Proc.devRef .tc Cert.ReferenceIdeal.main_arg15) :=
    eq_of_heq (hA Cert.KernelIdeal.main_arg15 Cert.ReferenceIdeal.main_arg15 rfl rfl rfl (by decide))
  have e_main_arg16 : Cert.KernelIdeal.Hand.Wk m c (Proc.devRef .tc Cert.KernelIdeal.main_arg16) = Wr (Proc.devRef .tc Cert.ReferenceIdeal.main_arg16) :=
    eq_of_heq (hA Cert.KernelIdeal.main_arg16 Cert.ReferenceIdeal.main_arg16 rfl rfl rfl (by decide))
  have e_main_arg17 : Cert.KernelIdeal.Hand.Wk m c (Proc.devRef .tc Cert.KernelIdeal.main_arg17) = Wr (Proc.devRef .tc Cert.ReferenceIdeal.main_arg17) :=
    eq_of_heq (hA Cert.KernelIdeal.main_arg17 Cert.ReferenceIdeal.main_arg17 rfl rfl rfl (by decide))
  have e_main_arg18 : Cert.KernelIdeal.Hand.Wk m c (Proc.devRef .tc Cert.KernelIdeal.main_arg18) = Wr (Proc.devRef .tc Cert.ReferenceIdeal.main_arg18) :=
    eq_of_heq (hA Cert.KernelIdeal.main_arg18 Cert.ReferenceIdeal.main_arg18 rfl rfl rfl (by decide))
  have e_main_arg19 : Cert.KernelIdeal.Hand.Wk m c (Proc.devRef .tc Cert.KernelIdeal.main_arg19) = Wr (Proc.devRef .tc Cert.ReferenceIdeal.main_arg19) :=
    eq_of_heq (hA Cert.KernelIdeal.main_arg19 Cert.ReferenceIdeal.main_arg19 rfl rfl rfl (by decide))
  have e_main_arg20 : Cert.KernelIdeal.Hand.Wk m c (Proc.devRef .tc Cert.KernelIdeal.main_arg20) = Wr (Proc.devRef .tc Cert.ReferenceIdeal.main_arg20) :=
    eq_of_heq (hA Cert.KernelIdeal.main_arg20 Cert.ReferenceIdeal.main_arg20 rfl rfl rfl (by decide))
  have e_main_arg21 : Cert.KernelIdeal.Hand.Wk m c (Proc.devRef .tc Cert.KernelIdeal.main_arg21) = Wr (Proc.devRef .tc Cert.ReferenceIdeal.main_arg21) :=
    eq_of_heq (hA Cert.KernelIdeal.main_arg21 Cert.ReferenceIdeal.main_arg21 rfl rfl rfl (by decide))
  unfold Cert.KernelIdeal.Hand.MsgSK Cert.KernelIdeal.Hand.FiltK Cert.KernelIdeal.Hand.X100
  rw [e_main_v1, e_main_v3, e_main_v79, e_main_v80, e_main_v81, e_main_v82, e_main_arg0, e_main_arg2, e_main_arg3, e_main_arg14, e_main_arg15, e_main_arg16, e_main_arg17, e_main_arg18, e_main_arg19, e_main_arg20, e_main_arg21]

set_option maxHeartbeats 4000000 in
/-- The reference's equivariant result is the kernel program's. -/
theorem ref_res1 (c : Dev Cert.KernelIdeal.nD) (hag : ArgsAgree (F := Ideal) m m' c) :
    StableHlo.after (Cert.ReferenceIdeal.RefRun.ops (F := Ideal)) (StableHlo.launchContents m' c) (Proc.devRef .tc Cert.ReferenceIdeal.main_v239)
      = Cert.KernelIdeal.Hand.res161 m c := by
  rw [Cert.KernelIdeal.Hand.res161_eq, r_split, Cert.Prefix.after_append]
  generalize hWr : StableHlo.after (rPrefix (F := Ideal)) (StableHlo.launchContents m' c) = Wr
  have hz : Wr (Proc.devRef .tc Cert.ReferenceIdeal.main_v86) = broadcastInDim Cert.ReferenceIdeal.S262144 ![] Cert.ReferenceIdeal.Gen.bcast_S_S262144 (constantI Cert.ReferenceIdeal.S_ 32 0#32) := by rw [← hWr]; exact v86_after_prefix _
  have hA : Agree Cert.KernelIdeal.τ Space.hbm 148 (Cert.KernelIdeal.Hand.Wk m c) Wr := by
    rw [← hWr]; exact agree_after _ _ (args_agree m m' c hag)
  rw [Cert.ReferenceIdeal.RefValue.res1 Wr hz]
  have e_main_v1 : Cert.KernelIdeal.Hand.Wk m c (Proc.devRef .tc Cert.KernelIdeal.main_v1) = Wr (Proc.devRef .tc Cert.ReferenceIdeal.main_v1) :=
    eq_of_heq (hA Cert.KernelIdeal.main_v1 Cert.ReferenceIdeal.main_v1 rfl rfl rfl (by decide))
  have e_main_v3 : Cert.KernelIdeal.Hand.Wk m c (Proc.devRef .tc Cert.KernelIdeal.main_v3) = Wr (Proc.devRef .tc Cert.ReferenceIdeal.main_v3) :=
    eq_of_heq (hA Cert.KernelIdeal.main_v3 Cert.ReferenceIdeal.main_v3 rfl rfl rfl (by decide))
  have e_main_v79 : Cert.KernelIdeal.Hand.Wk m c (Proc.devRef .tc Cert.KernelIdeal.main_v79) = Wr (Proc.devRef .tc Cert.ReferenceIdeal.main_v79) :=
    eq_of_heq (hA Cert.KernelIdeal.main_v79 Cert.ReferenceIdeal.main_v79 rfl rfl rfl (by decide))
  have e_main_v80 : Cert.KernelIdeal.Hand.Wk m c (Proc.devRef .tc Cert.KernelIdeal.main_v80) = Wr (Proc.devRef .tc Cert.ReferenceIdeal.main_v80) :=
    eq_of_heq (hA Cert.KernelIdeal.main_v80 Cert.ReferenceIdeal.main_v80 rfl rfl rfl (by decide))
  have e_main_v81 : Cert.KernelIdeal.Hand.Wk m c (Proc.devRef .tc Cert.KernelIdeal.main_v81) = Wr (Proc.devRef .tc Cert.ReferenceIdeal.main_v81) :=
    eq_of_heq (hA Cert.KernelIdeal.main_v81 Cert.ReferenceIdeal.main_v81 rfl rfl rfl (by decide))
  have e_main_v82 : Cert.KernelIdeal.Hand.Wk m c (Proc.devRef .tc Cert.KernelIdeal.main_v82) = Wr (Proc.devRef .tc Cert.ReferenceIdeal.main_v82) :=
    eq_of_heq (hA Cert.KernelIdeal.main_v82 Cert.ReferenceIdeal.main_v82 rfl rfl rfl (by decide))
  have e_main_v83 : Cert.KernelIdeal.Hand.Wk m c (Proc.devRef .tc Cert.KernelIdeal.main_v83) = Wr (Proc.devRef .tc Cert.ReferenceIdeal.main_v83) :=
    eq_of_heq (hA Cert.KernelIdeal.main_v83 Cert.ReferenceIdeal.main_v83 rfl rfl rfl (by decide))
  have e_main_v84 : Cert.KernelIdeal.Hand.Wk m c (Proc.devRef .tc Cert.KernelIdeal.main_v84) = Wr (Proc.devRef .tc Cert.ReferenceIdeal.main_v84) :=
    eq_of_heq (hA Cert.KernelIdeal.main_v84 Cert.ReferenceIdeal.main_v84 rfl rfl rfl (by decide))
  have e_main_v85 : Cert.KernelIdeal.Hand.Wk m c (Proc.devRef .tc Cert.KernelIdeal.main_v85) = Wr (Proc.devRef .tc Cert.ReferenceIdeal.main_v85) :=
    eq_of_heq (hA Cert.KernelIdeal.main_v85 Cert.ReferenceIdeal.main_v85 rfl rfl rfl (by decide))
  have e_main_arg0 : Cert.KernelIdeal.Hand.Wk m c (Proc.devRef .tc Cert.KernelIdeal.main_arg0) = Wr (Proc.devRef .tc Cert.ReferenceIdeal.main_arg0) :=
    eq_of_heq (hA Cert.KernelIdeal.main_arg0 Cert.ReferenceIdeal.main_arg0 rfl rfl rfl (by decide))
  have e_main_arg1 : Cert.KernelIdeal.Hand.Wk m c (Proc.devRef .tc Cert.KernelIdeal.main_arg1) = Wr (Proc.devRef .tc Cert.ReferenceIdeal.main_arg1) :=
    eq_of_heq (hA Cert.KernelIdeal.main_arg1 Cert.ReferenceIdeal.main_arg1 rfl rfl rfl (by decide))
  have e_main_arg2 : Cert.KernelIdeal.Hand.Wk m c (Proc.devRef .tc Cert.KernelIdeal.main_arg2) = Wr (Proc.devRef .tc Cert.ReferenceIdeal.main_arg2) :=
    eq_of_heq (hA Cert.KernelIdeal.main_arg2 Cert.ReferenceIdeal.main_arg2 rfl rfl rfl (by decide))
  have e_main_arg3 : Cert.KernelIdeal.Hand.Wk m c (Proc.devRef .tc Cert.KernelIdeal.main_arg3) = Wr (Proc.devRef .tc Cert.ReferenceIdeal.main_arg3) :=
    eq_of_heq (hA Cert.KernelIdeal.main_arg3 Cert.ReferenceIdeal.main_arg3 rfl rfl rfl (by decide))
  have e_main_arg4 : Cert.KernelIdeal.Hand.Wk m c (Proc.devRef .tc Cert.KernelIdeal.main_arg4) = Wr (Proc.devRef .tc Cert.ReferenceIdeal.main_arg4) :=
    eq_of_heq (hA Cert.KernelIdeal.main_arg4 Cert.ReferenceIdeal.main_arg4 rfl rfl rfl (by decide))
  have e_main_arg14 : Cert.KernelIdeal.Hand.Wk m c (Proc.devRef .tc Cert.KernelIdeal.main_arg14) = Wr (Proc.devRef .tc Cert.ReferenceIdeal.main_arg14) :=
    eq_of_heq (hA Cert.KernelIdeal.main_arg14 Cert.ReferenceIdeal.main_arg14 rfl rfl rfl (by decide))
  have e_main_arg15 : Cert.KernelIdeal.Hand.Wk m c (Proc.devRef .tc Cert.KernelIdeal.main_arg15) = Wr (Proc.devRef .tc Cert.ReferenceIdeal.main_arg15) :=
    eq_of_heq (hA Cert.KernelIdeal.main_arg15 Cert.ReferenceIdeal.main_arg15 rfl rfl rfl (by decide))
  have e_main_arg16 : Cert.KernelIdeal.Hand.Wk m c (Proc.devRef .tc Cert.KernelIdeal.main_arg16) = Wr (Proc.devRef .tc Cert.ReferenceIdeal.main_arg16) :=
    eq_of_heq (hA Cert.KernelIdeal.main_arg16 Cert.ReferenceIdeal.main_arg16 rfl rfl rfl (by decide))
  have e_main_arg17 : Cert.KernelIdeal.Hand.Wk m c (Proc.devRef .tc Cert.KernelIdeal.main_arg17) = Wr (Proc.devRef .tc Cert.ReferenceIdeal.main_arg17) :=
    eq_of_heq (hA Cert.KernelIdeal.main_arg17 Cert.ReferenceIdeal.main_arg17 rfl rfl rfl (by decide))
  have e_main_arg18 : Cert.KernelIdeal.Hand.Wk m c (Proc.devRef .tc Cert.KernelIdeal.main_arg18) = Wr (Proc.devRef .tc Cert.ReferenceIdeal.main_arg18) :=
    eq_of_heq (hA Cert.KernelIdeal.main_arg18 Cert.ReferenceIdeal.main_arg18 rfl rfl rfl (by decide))
  have e_main_arg19 : Cert.KernelIdeal.Hand.Wk m c (Proc.devRef .tc Cert.KernelIdeal.main_arg19) = Wr (Proc.devRef .tc Cert.ReferenceIdeal.main_arg19) :=
    eq_of_heq (hA Cert.KernelIdeal.main_arg19 Cert.ReferenceIdeal.main_arg19 rfl rfl rfl (by decide))
  have e_main_arg20 : Cert.KernelIdeal.Hand.Wk m c (Proc.devRef .tc Cert.KernelIdeal.main_arg20) = Wr (Proc.devRef .tc Cert.ReferenceIdeal.main_arg20) :=
    eq_of_heq (hA Cert.KernelIdeal.main_arg20 Cert.ReferenceIdeal.main_arg20 rfl rfl rfl (by decide))
  have e_main_arg21 : Cert.KernelIdeal.Hand.Wk m c (Proc.devRef .tc Cert.KernelIdeal.main_arg21) = Wr (Proc.devRef .tc Cert.ReferenceIdeal.main_arg21) :=
    eq_of_heq (hA Cert.KernelIdeal.main_arg21 Cert.ReferenceIdeal.main_arg21 rfl rfl rfl (by decide))
  unfold Cert.KernelIdeal.Hand.MsgEK Cert.KernelIdeal.Hand.FiltK Cert.KernelIdeal.Hand.X100
  rw [e_main_v1, e_main_v3, e_main_v79, e_main_v83, e_main_v84, e_main_v85, e_main_arg1, e_main_arg2, e_main_arg3, e_main_arg4, e_main_arg14, e_main_arg15, e_main_arg16, e_main_arg17, e_main_arg18, e_main_arg19, e_main_arg20, e_main_arg21]

/-- THE CLAIM's fifth conjunct. -/
theorem algebraic : Cert.algebraic_KernelIdeal_ReferenceIdeal := by
  intro m ρ m' ρ' _ hagree
  refine ⟨fun c => Cert.KernelIdeal.Hand.res154 m c, fun c => Cert.KernelIdeal.Hand.res161 m c,
    Cert.KernelIdeal.Hand.run_values m ρ, ?_⟩
  refine (θ_run Cert.ReferenceIdeal.defs _ _).mono (fun r h c => ⟨(h c _).trans (ref_res0 m m' c (hagree c)),
    (h c _).trans (ref_res1 m m' c (hagree c)),
    (h c _).trans (Cert.ReferenceIdeal.RefRun.kept _ Cert.ReferenceIdeal.main_arg0 (by decide)),
    (h c _).trans (Cert.ReferenceIdeal.RefRun.kept _ Cert.ReferenceIdeal.main_arg1 (by decide)),
    (h c _).trans (Cert.ReferenceIdeal.RefRun.kept _ Cert.ReferenceIdeal.main_arg2 (by decide)),
    (h c _).trans (Cert.ReferenceIdeal.RefRun.kept _ Cert.ReferenceIdeal.main_arg3 (by decide)),
    (h c _).trans (Cert.ReferenceIdeal.RefRun.kept _ Cert.ReferenceIdeal.main_arg4 (by decide)),
    (h c _).trans (Cert.ReferenceIdeal.RefRun.kept _ Cert.ReferenceIdeal.main_arg5 (by decide)),
    (h c _).trans (Cert.ReferenceIdeal.RefRun.kept _ Cert.ReferenceIdeal.main_arg6 (by decide)),
    (h c _).trans (Cert.ReferenceIdeal.RefRun.kept _ Cert.ReferenceIdeal.main_arg7 (by decide)),
    (h c _).trans (Cert.ReferenceIdeal.RefRun.kept _ Cert.ReferenceIdeal.main_arg8 (by decide)),
    (h c _).trans (Cert.ReferenceIdeal.RefRun.kept _ Cert.ReferenceIdeal.main_arg9 (by decide)),
    (h c _).trans (Cert.ReferenceIdeal.RefRun.kept _ Cert.ReferenceIdeal.main_arg10 (by decide)),
    (h c _).trans (Cert.ReferenceIdeal.RefRun.kept _ Cert.ReferenceIdeal.main_arg11 (by decide)),
    (h c _).trans (Cert.ReferenceIdeal.RefRun.kept _ Cert.ReferenceIdeal.main_arg12 (by decide)),
    (h c _).trans (Cert.ReferenceIdeal.RefRun.kept _ Cert.ReferenceIdeal.main_arg13 (by decide)),
    (h c _).trans (Cert.ReferenceIdeal.RefRun.kept _ Cert.ReferenceIdeal.main_arg14 (by decide)),
    (h c _).trans (Cert.ReferenceIdeal.RefRun.kept _ Cert.ReferenceIdeal.main_arg15 (by decide)),
    (h c _).trans (Cert.ReferenceIdeal.RefRun.kept _ Cert.ReferenceIdeal.main_arg16 (by decide)),
    (h c _).trans (Cert.ReferenceIdeal.RefRun.kept _ Cert.ReferenceIdeal.main_arg17 (by decide)),
    (h c _).trans (Cert.ReferenceIdeal.RefRun.kept _ Cert.ReferenceIdeal.main_arg18 (by decide)),
    (h c _).trans (Cert.ReferenceIdeal.RefRun.kept _ Cert.ReferenceIdeal.main_arg19 (by decide)),
    (h c _).trans (Cert.ReferenceIdeal.RefRun.kept _ Cert.ReferenceIdeal.main_arg20 (by decide)),
    (h c _).trans (Cert.ReferenceIdeal.RefRun.kept _ Cert.ReferenceIdeal.main_arg21 (by decide)),
    (h c _).trans (Cert.ReferenceIdeal.RefRun.kept _ Cert.ReferenceIdeal.main_arg22 (by decide))⟩)
    (Cert.ReferenceIdeal.RefRun.run_after m' ρ')

end Cert.Proof.Algebraic

end
-- ==== Proof.lean ====
/-
  The certificate of the edge-message kernel against its reference.

  Five statements, under the facts the printed programs state.  Three frames: the kernel, the kernel read over the
  extended reals, and the reference read over the extended reals each run to the end from any memory with finite inputs,
  fault nowhere, and leave their argument arrays unchanged.  The idealization is trivial: reading the kernel over the
  extended reals rewrites nothing of its text.  And the value claim: over the extended reals — every float an extended
  real, every operation exact, a change of float format the identity — the kernel and the reference end with equal
  results, element by element: for every edge the scalar message ((Σ over a head's thirty channels of query · filter ·
  key) · scale · value) and the equivariant message (spherical harmonic · (degree weight · block value) · cutoff), with the
  filter the sum of two two-layer networks (of the 112 squared block norms of the difference and of the radial basis)
  times the cutoff, then summed over the edges of each receiving node.
-/
import proofs.«145672_j73899207295099_1_alg».proof.Defs
import proofs.«145672_j73899207295099_1_alg».proof.Proof.Gen.Kernel
import proofs.«145672_j73899207295099_1_alg».proof.Proof.Gen.Kernel.Skeleton
import proofs.«145672_j73899207295099_1_alg».proof.Proof.Gen.Kernel.Launch
import proofs.«145672_j73899207295099_1_alg».proof.Proof.Gen.Kernel.Points
import proofs.«145672_j73899207295099_1_alg».proof.Proof.Gen.KernelIdeal
import proofs.«145672_j73899207295099_1_alg».proof.Proof.Gen.KernelIdeal.Skeleton
import proofs.«145672_j73899207295099_1_alg».proof.Proof.Gen.KernelIdeal.Launch
import proofs.«145672_j73899207295099_1_alg».proof.Proof.Gen.KernelIdeal.Points
import proofs.«145672_j73899207295099_1_alg».proof.Proof.Gen.ReferenceIdeal
import proofs.«145672_j73899207295099_1_alg».proof.Proof.Gen.Pre_finite_inputs
import Idealize.ShloMosaic.Adequacy
import Idealize.ShloMosaic.Init

import proofs.«145672_j73899207295099_1_alg».proof.Proof.Frames
import proofs.«145672_j73899207295099_1_alg».proof.Proof.Algebraic

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts, Cert.Proof.Frames.frame_p, Cert.Proof.Frames.frame_pi, Cert.Proof.Frames.frame_ri, Cert.Proof.Frames.preserves, Cert.Proof.Algebraic.algebraic⟩

end Cert.Proof

end
